-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S4 : Shape := ⟨1, ![4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩
abbrev S1x128 : Shape := ⟨2, ![1, 128]⟩
abbrev S1x1600000 : Shape := ⟨2, ![1, 1600000]⟩
abbrev S1600000 : Shape := ⟨1, ![1600000]⟩

class Facts : Prop where
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S_d0_1 : S100000x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v80 : IVec S_ 1) (main_v84 : IVec S128 1) (main_c_32 : IVec S_ 1) : IVec S_ 1 :=
  let main_v85 : IVec S_ 1 := (fun x v => Host.reduce IntOp.andi x v reducesTo_S128_S_d0 h_S_) main_v84 main_c_32
  let main_v86 : IVec S_ 1 := andi main_v80 main_v85
  main_v86

def fn_part4 {F : FTy → Type} [FloatOps F] (main_arg1 : IVec S2x1600000 32) (main_arg15 : FVec F S10 .f32) (main_v5 : FVec F S100000x128 .f32) (main_v64 : IVec S_ 1) (main_v67 : IVec S64x10 1) (main_c_25 : IVec S_ 1) : IVec S_ 1 :=
  let main_v68 : IVec S_ 1 := (fun x v => Host.reduce IntOp.andi x v reducesTo_S64x10_S_d0_1 h_S_) main_v67 main_c_25
  let main_v69 : IVec S_ 1 := andi main_v64 main_v68
  let main_v70 : FVec F S10 .f32 := Host.absf main_arg15
  let main_cst_26 : FVec F S_ .f32 := constant S_ .f32 0x7F800000#32
  let main_v71 : FVec F S10 .f32 := broadcastInDim S10 ![] bcast_S_S10 main_cst_26
  let main_v72 : IVec S10 1 := cmpf .olt main_v70 main_v71
  let main_c_27 : IVec S_ 1 := constantI S_ 1 1#1
  let main_v73 : IVec S_ 1 := (fun x v => Host.reduce IntOp.andi x v reducesTo_S10_S_d0 h_S_) main_v72 main_c_27
  let main_v74 : IVec S_ 1 := andi main_v69 main_v73
  let main_v75 : IVec S1x1600000 32 := (extractStridedSlice S1x1600000 ![1, 0] · slices_S2x1600000_S1x1600000_1_0) main_arg1
  let main_v76 : IVec S1600000 32 := shapeCast S1600000 main_v75 shapeCasts_S1x1600000_S1600000
  let main_c_28 : IVec S_ 32 := constantI S_ 32 0#32
  let main_v77 : IVec S1600000 32 := broadcastInDim S1600000 ![] bcast_S_S1600000 main_c_28
  let main_v78 : IVec S1600000 1 := cmpi .sge main_v76 main_v77
  let main_c_29 : IVec S_ 1 := constantI S_ 1 1#1
  let main_v79 : IVec S_ 1 := (fun x v => Host.reduce IntOp.andi x v reducesTo_S1600000_S_d0 h_S_) main_v78 main_c_29
  let main_v80 : IVec S_ 1 := andi main_v74 main_v79
  let main_v81 : FVec F S100000x128 .f32 := mulf main_v5 main_v5
  let main_cst_30 : FVec F S_ .f32 := constant S_ .f32 0x00000000#32
  let main_v82 : FVec F S128 .f32 := (fun x v => Host.reduceAdd x v reducesTo_S100000x128_S128_d0 h_S_) main_v81 main_cst_30
  let main_cst_31 : FVec F S_ .f32 := constant S_ .f32 0x00000000#32
  let main_v83 : FVec F S128 .f32 := broadcastInDim S128 ![] bcast_S_S128 main_cst_31
  let main_v84 : IVec S128 1 := cmpf .ogt main_v82 main_v83
  let main_c_32 : IVec S_ 1 := constantI S_ 1 1#1
  fn_part5 (F := F) main_v80 main_v84 main_c_32

def fn_part3 {F : FTy → Type} [FloatOps F] (main_arg1 : IVec S2x1600000 32) (main_arg12 : FVec F S128x64 .f32) (main_arg13 : FVec F S64 .f32) (main_arg14 : FVec F S64x10 .f32) (main_arg15 : FVec F S10 .f32) (main_v5 : FVec F S100000x128 .f32) (main_v49 : IVec S_ 1) (main_v50 : FVec F S128 .f32) (main_cst_18 : FVec F S_ .f32) : IVec S_ 1 :=
  let main_v51 : FVec F S128 .f32 := broadcastInDim S128 ![] bcast_S_S128 main_cst_18
  let main_v52 : IVec S128 1 := cmpf .olt main_v50 main_v51
  let main_c_19 : IVec S_ 1 := constantI S_ 1 1#1
  let main_v53 : IVec S_ 1 := (fun x v => Host.reduce IntOp.andi x v reducesTo_S128_S_d0 h_S_) main_v52 main_c_19
  let main_v54 : IVec S_ 1 := andi main_v49 main_v53
  let main_v55 : FVec F S128x64 .f32 := Host.absf main_arg12
  let main_cst_20 : FVec F S_ .f32 := constant S_ .f32 0x7F800000#32
  let main_v56 : FVec F S128x64 .f32 := broadcastInDim S128x64 ![] bcast_S_S128x64 main_cst_20
  let main_v57 : IVec S128x64 1 := cmpf .olt main_v55 main_v56
  let main_c_21 : IVec S_ 1 := constantI S_ 1 1#1
  let main_v58 : IVec S_ 1 := (fun x v => Host.reduce IntOp.andi x v reducesTo_S128x64_S_d0_1 h_S_) main_v57 main_c_21
  let main_v59 : IVec S_ 1 := andi main_v54 main_v58
  let main_v60 : FVec F S64 .f32 := Host.absf main_arg13
  let main_cst_22 : FVec F S_ .f32 := constant S_ .f32 0x7F800000#32
  let main_v61 : FVec F S64 .f32 := broadcastInDim S64 ![] bcast_S_S64 main_cst_22
  let main_v62 : IVec S64 1 := cmpf .olt main_v60 main_v61
  let main_c_23 : IVec S_ 1 := constantI S_ 1 1#1
  let main_v63 : IVec S_ 1 := (fun x v => Host.reduce IntOp.andi x v reducesTo_S64_S_d0 h_S_) main_v62 main_c_23
  let main_v64 : IVec S_ 1 := andi main_v59 main_v63
  let main_v65 : FVec F S64x10 .f32 := Host.absf main_arg14
  let main_cst_24 : FVec F S_ .f32 := constant S_ .f32 0x7F800000#32
  let main_v66 : FVec F S64x10 .f32 := broadcastInDim S64x10 ![] bcast_S_S64x10 main_cst_24
  let main_v67 : IVec S64x10 1 := cmpf .olt main_v65 main_v66
  let main_c_25 : IVec S_ 1 := constantI S_ 1 1#1
  fn_part4 (F := F) main_arg1 main_arg15 main_v5 main_v64 main_v67 main_c_25

def fn_part2 {F : FTy → Type} [FloatOps F] (main_arg1 : IVec S2x1600000 32) (main_arg8 : FVec F S4x128 .f32) (main_arg9 : FVec F S4 .f32) (main_arg10 : FVec F S128x128 .f32) (main_arg11 : FVec F S128 .f32) (main_arg12 : FVec F S128x64 .f32) (main_arg13 : FVec F S64 .f32) (main_arg14 : FVec F S64x10 .f32) (main_arg15 : FVec F S10 .f32) (main_v5 : FVec F S100000x128 .f32) (main_v29 : IVec S_ 1) (main_v33 : IVec S_ 1) : IVec S_ 1 :=
  let main_v34 : IVec S_ 1 := andi main_v29 main_v33
  let main_v35 : FVec F S4x128 .f32 := Host.absf main_arg8
  let main_cst_12 : FVec F S_ .f32 := constant S_ .f32 0x7F800000#32
  let main_v36 : FVec F S4x128 .f32 := broadcastInDim S4x128 ![] bcast_S_S4x128 main_cst_12
  let main_v37 : IVec S4x128 1 := cmpf .olt main_v35 main_v36
  let main_c_13 : IVec S_ 1 := constantI S_ 1 1#1
  let main_v38 : IVec S_ 1 := (fun x v => Host.reduce IntOp.andi x v reducesTo_S4x128_S_d0_1 h_S_) main_v37 main_c_13
  let main_v39 : IVec S_ 1 := andi main_v34 main_v38
  let main_v40 : FVec F S4 .f32 := Host.absf main_arg9
  let main_cst_14 : FVec F S_ .f32 := constant S_ .f32 0x7F800000#32
  let main_v41 : FVec F S4 .f32 := broadcastInDim S4 ![] bcast_S_S4 main_cst_14
  let main_v42 : IVec S4 1 := cmpf .olt main_v40 main_v41
  let main_c_15 : IVec S_ 1 := constantI S_ 1 1#1
  let main_v43 : IVec S_ 1 := (fun x v => Host.reduce IntOp.andi x v reducesTo_S4_S_d0 h_S_) main_v42 main_c_15
  let main_v44 : IVec S_ 1 := andi main_v39 main_v43
  let main_v45 : FVec F S128x128 .f32 := Host.absf main_arg10
  let main_cst_16 : FVec F S_ .f32 := constant S_ .f32 0x7F800000#32
  let main_v46 : FVec F S128x128 .f32 := broadcastInDim S128x128 ![] bcast_S_S128x128 main_cst_16
  let main_v47 : IVec S128x128 1 := cmpf .olt main_v45 main_v46
  let main_c_17 : IVec S_ 1 := constantI S_ 1 1#1
  let main_v48 : IVec S_ 1 := (fun x v => Host.reduce IntOp.andi x v reducesTo_S128x128_S_d0_1 h_S_) main_v47 main_c_17
  let main_v49 : IVec S_ 1 := andi main_v44 main_v48
  let main_v50 : FVec F S128 .f32 := Host.absf main_arg11
  let main_cst_18 : FVec F S_ .f32 := constant S_ .f32 0x7F800000#32
  fn_part3 (F := F) main_arg1 main_arg12 main_arg13 main_arg14 main_arg15 main_v5 main_v49 main_v50 main_cst_18

def fn_part1 {F : FTy → Type} [FloatOps F] (main_arg1 : IVec S2x1600000 32) (main_arg5 : FVec F S4x128x128 .f32) (main_arg6 : FVec F S4x128 .f32) (main_arg7 : FVec F S4x128 .f32) (main_arg8 : FVec F S4x128 .f32) (main_arg9 : FVec F S4 .f32) (main_arg10 : FVec F S128x128 .f32) (main_arg11 : FVec F S128 .f32) (main_arg12 : FVec F S128x64 .f32) (main_arg13 : FVec F S64 .f32) (main_arg14 : FVec F S64x10 .f32) (main_arg15 : FVec F S10 .f32) (main_v5 : FVec F S100000x128 .f32) (main_v14 : IVec S_ 1) (main_v15 : FVec F S4x128 .f32) (main_v16 : FVec F S4x128 .f32) : IVec S_ 1 :=
  let main_v17 : IVec S4x128 1 := cmpf .olt main_v15 main_v16
  let main_c_5 : IVec S_ 1 := constantI S_ 1 1#1
  let main_v18 : IVec S_ 1 := (fun x v => Host.reduce IntOp.andi x v reducesTo_S4x128_S_d0_1 h_S_) main_v17 main_c_5
  let main_v19 : IVec S_ 1 := andi main_v14 main_v18
  let main_v20 : FVec F S4x128x128 .f32 := Host.absf main_arg5
  let main_cst_6 : FVec F S_ .f32 := constant S_ .f32 0x7F800000#32
  let main_v21 : FVec F S4x128x128 .f32 := broadcastInDim S4x128x128 ![] bcast_S_S4x128x128 main_cst_6
  let main_v22 : IVec S4x128x128 1 := cmpf .olt main_v20 main_v21
  let main_c_7 : IVec S_ 1 := constantI S_ 1 1#1
  let main_v23 : IVec S_ 1 := (fun x v => Host.reduce IntOp.andi x v reducesTo_S4x128x128_S_d0_1_2 h_S_) main_v22 main_c_7
  let main_v24 : IVec S_ 1 := andi main_v19 main_v23
  let main_v25 : FVec F S4x128 .f32 := Host.absf main_arg6
  let main_cst_8 : FVec F S_ .f32 := constant S_ .f32 0x7F800000#32
  let main_v26 : FVec F S4x128 .f32 := broadcastInDim S4x128 ![] bcast_S_S4x128 main_cst_8
  let main_v27 : IVec S4x128 1 := cmpf .olt main_v25 main_v26
  let main_c_9 : IVec S_ 1 := constantI S_ 1 1#1
  let main_v28 : IVec S_ 1 := (fun x v => Host.reduce IntOp.andi x v reducesTo_S4x128_S_d0_1 h_S_) main_v27 main_c_9
  let main_v29 : IVec S_ 1 := andi main_v24 main_v28
  let main_v30 : FVec F S4x128 .f32 := Host.absf main_arg7
  let main_cst_10 : FVec F S_ .f32 := constant S_ .f32 0x7F800000#32
  let main_v31 : FVec F S4x128 .f32 := broadcastInDim S4x128 ![] bcast_S_S4x128 main_cst_10
  let main_v32 : IVec S4x128 1 := cmpf .olt main_v30 main_v31
  let main_c_11 : IVec S_ 1 := constantI S_ 1 1#1
  let main_v33 : IVec S_ 1 := (fun x v => Host.reduce IntOp.andi x v reducesTo_S4x128_S_d0_1 h_S_) main_v32 main_c_11
  fn_part2 (F := F) main_arg1 main_arg8 main_arg9 main_arg10 main_arg11 main_arg12 main_arg13 main_arg14 main_arg15 main_v5 main_v29 main_v33

def fn {F : FTy → Type} [FloatOps F] (main_arg0 : FVec F S100000x128 .f32) (main_arg1 : IVec S2x1600000 32) (main_arg2 : IVec S100000 32) (main_arg3 : FVec F S4x128x128 .f32) (main_arg4 : FVec F S4x128 .f32) (main_arg5 : FVec F S4x128x128 .f32) (main_arg6 : FVec F S4x128 .f32) (main_arg7 : FVec F S4x128 .f32) (main_arg8 : FVec F S4x128 .f32) (main_arg9 : FVec F S4 .f32) (main_arg10 : FVec F S128x128 .f32) (main_arg11 : FVec F S128 .f32) (main_arg12 : FVec F S128x64 .f32) (main_arg13 : FVec F S64 .f32) (main_arg14 : FVec F S64x10 .f32) (main_arg15 : FVec F S10 .f32) : IVec S_ 1 :=
  let main_cst : FVec F S_ .f32 := constant S_ .f32 0x00000000#32
  let main_v0 : FVec F S128 .f32 := (fun x v => Host.reduceAdd x v reducesTo_S100000x128_S128_d0 h_S_) main_arg0 main_cst
  let main_v1 : FVec F S1x128 .f32 := broadcastInDim S1x128 ![1] bcast_S128_S1x128_1 main_v0
  let main_cst_0 : FVec F S_ .f32 := constant S_ .f32 0x47C35000#32
  let main_v2 : FVec F S1x128 .f32 := broadcastInDim S1x128 ![] bcast_S_S1x128 main_cst_0
  let main_v3 : FVec F S1x128 .f32 := Host.divf main_v1 main_v2
  let main_v4 : FVec F S100000x128 .f32 := broadcastInDim S100000x128 ![0, 1] bcast_S1x128_S100000x128_0_1 main_v3
  let main_v5 : FVec F S100000x128 .f32 := subf main_arg0 main_v4
  let main_v6 : FVec F S100000x128 .f32 := Host.absf main_arg0
  let main_cst_1 : FVec F S_ .f32 := constant S_ .f32 0x7F800000#32
  let main_v7 : FVec F S100000x128 .f32 := broadcastInDim S100000x128 ![] bcast_S_S100000x128 main_cst_1
  let main_v8 : IVec S100000x128 1 := cmpf .olt main_v6 main_v7
  let main_c : IVec S_ 1 := constantI S_ 1 1#1
  let main_v9 : IVec S_ 1 := (fun x v => Host.reduce IntOp.andi x v reducesTo_S100000x128_S_d0_1 h_S_) main_v8 main_c
  let main_v10 : FVec F S4x128x128 .f32 := Host.absf main_arg3
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_c_3 : IVec S_ 1 := constantI S_ 1 1#1
  let main_v13 : IVec S_ 1 := (fun x v => Host.reduce IntOp.andi x v reducesTo_S4x128x128_S_d0_1_2 h_S_) main_v12 main_c_3
  let main_v14 : IVec S_ 1 := andi main_v9 main_v13
  let main_v15 : FVec F S4x128 .f32 := Host.absf main_arg4
  let main_cst_4 : FVec F S_ .f32 := constant S_ .f32 0x7F800000#32
  let main_v16 : FVec F S4x128 .f32 := broadcastInDim S4x128 ![] bcast_S_S4x128 main_cst_4
  fn_part1 (F := F) main_arg1 main_arg5 main_arg6 main_arg7 main_arg8 main_arg9 main_arg10 main_arg11 main_arg12 main_arg13 main_arg14 main_arg15 main_v5 main_v14 main_v15 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S4 : Shape := ⟨1, ![4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩
abbrev S1x128 : Shape := ⟨2, ![1, 128]⟩
abbrev S1x1600000 : Shape := ⟨2, ![1, 1600000]⟩
abbrev S1600000 : Shape := ⟨1, ![1600000]⟩
abbrev S1 : Shape := ⟨1, ![1]⟩
abbrev S1600000x1 : Shape := ⟨2, ![1600000, 1]⟩
abbrev S1600000x128 : Shape := ⟨2, ![1600000, 128]⟩
abbrev S1x128x128 : Shape := ⟨3, ![1, 128, 128]⟩
abbrev S20x8x128 : Shape := ⟨3, ![20, 8, 128]⟩
abbrev S5000x128 : Shape := ⟨2, ![5000, 128]⟩
abbrev S1x8x128 : Shape := ⟨3, ![1, 8, 128]⟩
abbrev S7x128 : Shape := ⟨2, ![7, 128]⟩
abbrev S8x128 : Shape := ⟨2, ![8, 128]⟩
abbrev S64x128 : Shape := ⟨2, ![64, 128]⟩
abbrev S100000x1 : Shape := ⟨2, ![100000, 1]⟩
abbrev S1x64 : Shape := ⟨2, ![1, 64]⟩
abbrev S1x10 : Shape := ⟨2, ![1, 10]⟩
abbrev S64x64 : Shape := ⟨2, ![64, 64]⟩

abbrev nBuf : Space → Nat
  | .hbm => 327
  | .vmem => 80
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S4, .f32⟩
  | 10 => ⟨S128x128, .f32⟩
  | 11 => ⟨S128, .f32⟩
  | 12 => ⟨S128x64, .f32⟩
  | 13 => ⟨S64, .f32⟩
  | 14 => ⟨S64x10, .f32⟩
  | 15 => ⟨S10, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S128, .f32⟩
  | 48 => ⟨S1x128, .f32⟩
  | 49 => ⟨S100000x128, .f32⟩
  | 50 => ⟨S100000x128, .f32⟩
  | 51 => ⟨S1x1600000, .i32⟩
  | 52 => ⟨S1600000, .i32⟩
  | 53 => ⟨S1x1600000, .i32⟩
  | 54 => ⟨S1600000, .i32⟩
  | 55 => ⟨S1, .f32⟩
  | 56 => ⟨S_, .f32⟩
  | 57 => ⟨S_, .f32⟩
  | 58 => ⟨S_, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S100000x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S100000x128, .f32⟩
  | 90 => ⟨S20x8x128, .f32⟩
  | 91 => ⟨S20x8x128, .f32⟩
  | 92 => ⟨S_, .f32⟩
  | 93 => ⟨S128, .f32⟩
  | 94 => ⟨S_, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S128, .f32⟩
  | 114 => ⟨S128, .f32⟩
  | 115 => ⟨S128, .f32⟩
  | 116 => ⟨S128, .f32⟩
  | 117 => ⟨S128, .f32⟩
  | 118 => ⟨S1x128, .f32⟩
  | 119 => ⟨S1x128, .f32⟩
  | 120 => ⟨S100000x128, .f32⟩
  | 121 => ⟨S1, .f32⟩
  | 122 => ⟨S_, .f32⟩
  | 123 => ⟨S_, .f32⟩
  | 124 => ⟨S_, .f32⟩
  | 125 => ⟨S100000x128, .f32⟩
  | 126 => ⟨S100000x128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S100000x128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S100000x128, .f32⟩
  | 28 => ⟨S20x8x128, .f32⟩
  | 29 => ⟨S20x8x128, .f32⟩
  | 30 => ⟨S_, .f32⟩
  | 31 => ⟨S128, .f32⟩
  | 32 => ⟨S_, .f32⟩
  | 33 => ⟨S128, .f32⟩
  | 34 => ⟨S_, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S128, .f32⟩
  | 42 => ⟨S_, .f32⟩
  | 43 => ⟨S128, .f32⟩
  | 44 => ⟨S128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S128, .f32⟩
  | 56 => ⟨S1x128, .f32⟩
  | 57 => ⟨S1x128, .f32⟩
  | 58 => ⟨S100000x128, .f32⟩
  | 59 => ⟨S1, .f32⟩
  | 60 => ⟨S_, .f32⟩
  | 61 => ⟨S_, .f32⟩
  | 62 => ⟨S_, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S100000x128, .f32⟩
  | 94 => ⟨S20x8x128, .f32⟩
  | 95 => ⟨S20x8x128, .f32⟩
  | 96 => ⟨S_, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S1x128, .f32⟩
  | 112 => ⟨S128, .f32⟩
  | 113 => ⟨S1x128, .f32⟩
  | 114 => ⟨S128, .f32⟩
  | 115 => ⟨S_, .f32⟩
  | 116 => ⟨S128, .f32⟩
  | 117 => ⟨S128, .f32⟩
  | 118 => ⟨S128, .f32⟩
  | 119 => ⟨S128, .f32⟩
  | 120 => ⟨S128, .f32⟩
  | 121 => ⟨S128, .f32⟩
  | 122 => ⟨S1x128, .f32⟩
  | 123 => ⟨S1x128, .f32⟩
  | 124 => ⟨S100000x128, .f32⟩
  | 125 => ⟨S1, .f32⟩
  | 126 => ⟨S_, .f32⟩
  | 127 => ⟨S_, .f32⟩
  | _ => ⟨S100000x128, .f32⟩

abbrev hbmTy0_2 (i : Nat) : BufTy := match i % 128 with
  | 0 => ⟨S_, .f32⟩
  | 1 => ⟨S100000x128, .f32⟩
  | 2 => ⟨S100000x128, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S100000x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S100000x128, .f32⟩
  | 32 => ⟨S20x8x128, .f32⟩
  | 33 => ⟨S20x8x128, .f32⟩
  | 34 => ⟨S_, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S1x128, .f32⟩
  | 50 => ⟨S128, .f32⟩
  | 51 => ⟨S1x128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S128, .f32⟩
  | 59 => ⟨S128, .f32⟩
  | 60 => ⟨S1x128, .f32⟩
  | 61 => ⟨S1x128, .f32⟩
  | 62 => ⟨S100000x128, .f32⟩
  | 63 => ⟨S_, .f32⟩
  | 64 => ⟨S64x128, .f32⟩
  | 65 => ⟨S100000x1, .i32⟩
  | 66 => ⟨S64x128, .f32⟩
  | 67 => ⟨S1x128, .f32⟩
  | 68 => ⟨S1x64, .f32⟩
  | 69 => ⟨S1x10, .f32⟩
  | 70 => ⟨S64x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x8x128, .f32⟩
  | .local _ .vmem, ⟨27, _⟩ => ⟨S1x8x128, .f32⟩
  | .local _ .vmem, ⟨28, _⟩ => ⟨S1x8x128, .f32⟩
  | .local _ .vmem, ⟨29, _⟩ => ⟨S1x8x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x8x128, .f32⟩
  | .local _ .vmem, ⟨45, _⟩ => ⟨S1x8x128, .f32⟩
  | .local _ .vmem, ⟨46, _⟩ => ⟨S1x8x128, .f32⟩
  | .local _ .vmem, ⟨47, _⟩ => ⟨S1x8x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S1x8x128, .f32⟩
  | .local _ .vmem, ⟨63, _⟩ => ⟨S1x8x128, .f32⟩
  | .local _ .vmem, ⟨64, _⟩ => ⟨S1x8x128, .f32⟩
  | .local _ .vmem, ⟨65, _⟩ => ⟨S1x8x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S64x128, .f32⟩
  | .local _ .vmem, ⟨73, _⟩ => ⟨S128x128, .f32⟩
  | .local _ .vmem, ⟨74, _⟩ => ⟨S1x128, .f32⟩
  | .local _ .vmem, ⟨75, _⟩ => ⟨S128x64, .f32⟩
  | .local _ .vmem, ⟨76, _⟩ => ⟨S1x64, .f32⟩
  | .local _ .vmem, ⟨77, _⟩ => ⟨S64x10, .f32⟩
  | .local _ .vmem, ⟨78, _⟩ => ⟨S1x10, .f32⟩
  | .local _ .vmem, ⟨79, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_c_2 : Ref sig .tc := ⟨.hbm, 61, rfl⟩
abbrev main_v20 : Ref sig .tc := ⟨.hbm, 62, rfl⟩
abbrev main_v21 : Ref sig .tc := ⟨.hbm, 63, rfl⟩
abbrev main_c_3 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_4 : Ref sig .tc := ⟨.hbm, 70, rfl⟩
abbrev main_v27 : Ref sig .tc := ⟨.hbm, 71, rfl⟩
abbrev main_v28 : Ref sig .tc := ⟨.hbm, 72, rfl⟩
abbrev main_c_5 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44_0 : Ref sig .tc := ⟨.hbm, 89, rfl⟩
abbrev main_v44_1 : Ref sig .tc := ⟨.hbm, 90, rfl⟩
abbrev main_v44_2 : Ref sig .tc := ⟨.hbm, 91, rfl⟩
abbrev main_cst_6 : Ref sig .tc := ⟨.hbm, 92, rfl⟩
abbrev main_v45 : Ref sig .tc := ⟨.hbm, 93, rfl⟩
abbrev main_cst_7 : Ref sig .tc := ⟨.hbm, 94, rfl⟩
abbrev main_v46 : Ref sig .tc := ⟨.hbm, 95, rfl⟩
abbrev main_cst_8 : Ref sig .tc := ⟨.hbm, 96, rfl⟩
abbrev main_v47 : Ref sig .tc := ⟨.hbm, 97, rfl⟩
abbrev main_v48 : Ref sig .tc := ⟨.hbm, 98, rfl⟩
abbrev main_cst_9 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_10 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_11 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_12 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_13 : Ref sig .tc := ⟨.hbm, 127, rfl⟩
abbrev main_v73 : Ref sig .tc := ⟨.hbm, 128, rfl⟩
abbrev main_v74 : Ref sig .tc := ⟨.hbm, 129, rfl⟩
abbrev main_c_14 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_15 : Ref sig .tc := ⟨.hbm, 136, rfl⟩
abbrev main_v80 : Ref sig .tc := ⟨.hbm, 137, rfl⟩
abbrev main_v81 : Ref sig .tc := ⟨.hbm, 138, rfl⟩
abbrev main_c_16 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97_0 : Ref sig .tc := ⟨.hbm, 155, rfl⟩
abbrev main_v97_1 : Ref sig .tc := ⟨.hbm, 156, rfl⟩
abbrev main_v97_2 : Ref sig .tc := ⟨.hbm, 157, rfl⟩
abbrev main_cst_17 : Ref sig .tc := ⟨.hbm, 158, rfl⟩
abbrev main_v98 : Ref sig .tc := ⟨.hbm, 159, rfl⟩
abbrev main_cst_18 : Ref sig .tc := ⟨.hbm, 160, rfl⟩
abbrev main_v99 : Ref sig .tc := ⟨.hbm, 161, rfl⟩
abbrev main_cst_19 : Ref sig .tc := ⟨.hbm, 162, rfl⟩
abbrev main_v100 : Ref sig .tc := ⟨.hbm, 163, rfl⟩
abbrev main_v101 : Ref sig .tc := ⟨.hbm, 164, rfl⟩
abbrev main_cst_20 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_21 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_22 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_23 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_c_24 : Ref sig .tc := ⟨.hbm, 193, rfl⟩
abbrev main_v126 : Ref sig .tc := ⟨.hbm, 194, rfl⟩
abbrev main_v127 : Ref sig .tc := ⟨.hbm, 195, rfl⟩
abbrev main_c_25 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_c_26 : Ref sig .tc := ⟨.hbm, 202, rfl⟩
abbrev main_v133 : Ref sig .tc := ⟨.hbm, 203, rfl⟩
abbrev main_v134 : Ref sig .tc := ⟨.hbm, 204, rfl⟩
abbrev main_c_27 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150_0 : Ref sig .tc := ⟨.hbm, 221, rfl⟩
abbrev main_v150_1 : Ref sig .tc := ⟨.hbm, 222, rfl⟩
abbrev main_v150_2 : Ref sig .tc := ⟨.hbm, 223, rfl⟩
abbrev main_cst_28 : Ref sig .tc := ⟨.hbm, 224, rfl⟩
abbrev main_v151 : Ref sig .tc := ⟨.hbm, 225, rfl⟩
abbrev main_cst_29 : Ref sig .tc := ⟨.hbm, 226, rfl⟩
abbrev main_v152 : Ref sig .tc := ⟨.hbm, 227, rfl⟩
abbrev main_cst_30 : Ref sig .tc := ⟨.hbm, 228, rfl⟩
abbrev main_v153 : Ref sig .tc := ⟨.hbm, 229, rfl⟩
abbrev main_v154 : Ref sig .tc := ⟨.hbm, 230, rfl⟩
abbrev main_cst_31 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_cst_32 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_33 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_cst_34 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_c_35 : Ref sig .tc := ⟨.hbm, 259, rfl⟩
abbrev main_v179 : Ref sig .tc := ⟨.hbm, 260, rfl⟩
abbrev main_v180 : Ref sig .tc := ⟨.hbm, 261, rfl⟩
abbrev main_c_36 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_c_37 : Ref sig .tc := ⟨.hbm, 268, rfl⟩
abbrev main_v186 : Ref sig .tc := ⟨.hbm, 269, rfl⟩
abbrev main_v187 : Ref sig .tc := ⟨.hbm, 270, rfl⟩
abbrev main_c_38 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203_0 : Ref sig .tc := ⟨.hbm, 287, rfl⟩
abbrev main_v203_1 : Ref sig .tc := ⟨.hbm, 288, rfl⟩
abbrev main_v203_2 : Ref sig .tc := ⟨.hbm, 289, rfl⟩
abbrev main_cst_39 : Ref sig .tc := ⟨.hbm, 290, rfl⟩
abbrev main_v204 : Ref sig .tc := ⟨.hbm, 291, rfl⟩
abbrev main_cst_40 : Ref sig .tc := ⟨.hbm, 292, rfl⟩
abbrev main_v205 : Ref sig .tc := ⟨.hbm, 293, rfl⟩
abbrev main_cst_41 : Ref sig .tc := ⟨.hbm, 294, rfl⟩
abbrev main_v206 : Ref sig .tc := ⟨.hbm, 295, rfl⟩
abbrev main_v207 : Ref sig .tc := ⟨.hbm, 296, rfl⟩
abbrev main_cst_42 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_cst_43 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_v217 : Ref sig .tc := ⟨.hbm, 308, rfl⟩
abbrev main_cst_44 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_cst_45 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg6_1 : Ref sig .tc := ⟨.vmem, 63, rfl⟩
abbrev cc6_stg7_0 : Ref sig .tc := ⟨.vmem, 64, rfl⟩
abbrev cc6_stg7_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg3_1 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc8_stg6_0 : Ref sig .tc := ⟨.vmem, 78, rfl⟩
abbrev cc8_stg7_0 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45
abbrev cc4_sem7_0 : DmaSem sig := 46
abbrev cc4_sem7_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem6_1 : DmaSem sig := 63
abbrev cc6_sem7_0 : DmaSem sig := 64
abbrev cc6_sem7_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc8_sem0_0 : DmaSem sig := 72
abbrev cc8_sem1_0 : DmaSem sig := 73
abbrev cc8_sem2_0 : DmaSem sig := 74
abbrev cc8_sem3_0 : DmaSem sig := 75
abbrev cc8_sem4_0 : DmaSem sig := 76
abbrev cc8_sem5_0 : DmaSem sig := 77
abbrev cc8_sem6_0 : DmaSem sig := 78
abbrev cc8_sem7_0 : DmaSem sig := 79

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x8x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x8x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x10 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S64x10 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4_S1_0 : S4.Slices ![0] S1
  shapeCasts_S1_S_ : S1.ShapeCasts S_
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S7x128_S8x128_d0 : Shape.Concatenates [S1x128, S7x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S20x8x128_S128_d0_1 : S20x8x128.ReducesTo [0, 1] S128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  shapeCasts_S64_S1x64 : S64.ShapeCasts S1x64
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S20x8x128.size a
  hwx0_6 : ∀ i : grid0.Coords, EltTy.bits .f32 = 32 ∨ (Rect.block (s := S20x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S20x8x128.size a
  hwx0_7 : ∀ i : grid0.Coords, EltTy.bits .f32 = 32 ∨ (Rect.block (s := S20x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8x128.size a ≤ S20x8x128.size a
  hwx2_6 : ∀ i : grid2.Coords, EltTy.bits .f32 = 32 ∨ (Rect.block (s := S20x8x128) S1x8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S20x8x128.size a
  hwx2_7 : ∀ i : grid2.Coords, EltTy.bits .f32 = 32 ∨ (Rect.block (s := S20x8x128) S1x8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x8x128.size a ≤ S20x8x128.size a
  hwx4_6 : ∀ i : grid4.Coords, EltTy.bits .f32 = 32 ∨ (Rect.block (s := S20x8x128) S1x8x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x128.size a ≤ S20x8x128.size a
  hwx4_7 : ∀ i : grid4.Coords, EltTy.bits .f32 = 32 ∨ (Rect.block (s := S20x8x128) S1x8x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1x8x128.size a ≤ S20x8x128.size a
  hwx6_6 : ∀ i : grid6.Coords, EltTy.bits .f32 = 32 ∨ (Rect.block (s := S20x8x128) S1x8x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x8x128.size a ≤ S20x8x128.size a
  hwx6_7 : ∀ i : grid6.Coords, EltTy.bits .f32 = 32 ∨ (Rect.block (s := S20x8x128) S1x8x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x128.size a ≤ S64x128.size a
  hwx8_0 : ∀ i : grid8.Coords, EltTy.bits .f32 = 32 ∨ (Rect.block (s := S64x128) S64x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x10.size a ≤ S64x10.size a
  hwx8_5 : ∀ i : grid8.Coords, EltTy.bits .f32 = 32 ∨ (Rect.block (s := S64x10) S64x10.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x10.size a ≤ S1x10.size a
  hwx8_6 : ∀ i : grid8.Coords, EltTy.bits .f32 = 32 ∨ (Rect.block (s := S1x10) S1x10.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S64x10.size a ≤ S64x10.size a
  hwx8_7 : ∀ i : grid8.Coords, EltTy.bits .f32 = 32 ∨ (Rect.block (s := S64x10) S64x10.size (cc8_transform_7 i) (hinb8_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v44_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v44_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v44_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v86) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v91) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v97_1) S1x8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v97_2) S1x8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v97_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v119) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v120) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v139) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v141) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v144) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v146) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v149) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v150_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v150_1) S1x8x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v150_2) S1x8x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v150_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v171) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v172) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v173) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v192) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v194) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v197) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v199) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v202) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v203_0) S5000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v203_1) S1x8x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v203_2) S1x8x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v203_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v224) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v225) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v226) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v229) S64x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v230) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg12) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v231) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg14) S64x10.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v232) S1x10.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v233) S64x10.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S4 : Shape := ⟨1, ![4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩
abbrev S1x128 : Shape := ⟨2, ![1, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩
abbrev S64x128 : Shape := ⟨2, ![64, 128]⟩
abbrev S100000x1 : Shape := ⟨2, ![100000, 1]⟩
abbrev S64x64 : Shape := ⟨2, ![64, 64]⟩
abbrev S1x64 : Shape := ⟨2, ![1, 64]⟩
abbrev S1x10 : Shape := ⟨2, ![1, 10]⟩

abbrev nBuf : Space → Nat
  | .hbm => 449
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S4, .f32⟩
  | 10 => ⟨S128x128, .f32⟩
  | 11 => ⟨S128, .f32⟩
  | 12 => ⟨S128x64, .f32⟩
  | 13 => ⟨S64, .f32⟩
  | 14 => ⟨S64x10, .f32⟩
  | 15 => ⟨S10, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x1600000, .i32⟩
  | 52 => ⟨S1600000, .i32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1, .f32⟩
  | 69 => ⟨S_, .f32⟩
  | 70 => ⟨S_, .f32⟩
  | 71 => ⟨S_, .f32⟩
  | 72 => ⟨S100000x128, .f32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S1, .f32⟩
  | 34 => ⟨S_, .f32⟩
  | 35 => ⟨S_, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S1, .f32⟩
  | 127 => ⟨S_, .f32⟩
  | _ => ⟨S100000x128, .f32⟩

abbrev hbmTy0_2 (i : Nat) : BufTy := match i % 128 with
  | 0 => ⟨S_, .f32⟩
  | 1 => ⟨S_, .f32⟩
  | 2 => ⟨S100000x128, .f32⟩
  | 3 => ⟨S100000x128, .f32⟩
  | 4 => ⟨S100000x128, .f32⟩
  | 5 => ⟨S1x128x128, .f32⟩
  | 6 => ⟨S128x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128, .f32⟩
  | 28 => ⟨S128, .f32⟩
  | 29 => ⟨S1x128, .f32⟩
  | 30 => ⟨S128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1, .f32⟩
  | 92 => ⟨S_, .f32⟩
  | 93 => ⟨S_, .f32⟩
  | 94 => ⟨S_, .f32⟩
  | 95 => ⟨S100000x128, .f32⟩
  | 96 => ⟨S100000x128, .f32⟩
  | 97 => ⟨S100000x128, .f32⟩
  | 98 => ⟨S1x128x128, .f32⟩
  | 99 => ⟨S128x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S1x128x128, .f32⟩
  | 110 => ⟨S128x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S128, .f32⟩
  | 124 => ⟨S_, .f32⟩
  | 125 => ⟨S128, .f32⟩
  | 126 => ⟨S_, .f32⟩
  | 127 => ⟨S128, .f32⟩
  | _ => ⟨S100000x128, .f32⟩

abbrev hbmTy0_3 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S64x128, .f32⟩
  | 45 => ⟨S100000x1, .i32⟩
  | 46 => ⟨S64x128, .f32⟩
  | 47 => ⟨S64x128, .f32⟩
  | 48 => ⟨S1x128, .f32⟩
  | 49 => ⟨S64x128, .f32⟩
  | 50 => ⟨S64x128, .f32⟩
  | 51 => ⟨S_, .f32⟩
  | 52 => ⟨S64x128, .f32⟩
  | 53 => ⟨S64x128, .f32⟩
  | 54 => ⟨S64x64, .f32⟩
  | 55 => ⟨S1x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x10, .f32⟩
  | 62 => ⟨S1x10, .f32⟩
  | 63 => ⟨S64x10, .f32⟩
  | 64 => ⟨S64x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_1 : Ref sig .tc := ⟨.hbm, 55, rfl⟩
abbrev main_v15 : Ref sig .tc := ⟨.hbm, 56, rfl⟩
abbrev main_v16 : Ref sig .tc := ⟨.hbm, 57, rfl⟩
abbrev main_c_2 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_3 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_4 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_call1_cst : Ref sig .tc := ⟨.hbm, 83, rfl⟩
abbrev main_call1_v0 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_call2_cst : Ref sig .tc := ⟨.hbm, 94, rfl⟩
abbrev main_call2_v0 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_5 : Ref sig .tc := ⟨.hbm, 101, rfl⟩
abbrev main_v53 : Ref sig .tc := ⟨.hbm, 102, rfl⟩
abbrev main_cst_6 : Ref sig .tc := ⟨.hbm, 103, rfl⟩
abbrev main_v54 : Ref sig .tc := ⟨.hbm, 104, rfl⟩
abbrev main_v55 : Ref sig .tc := ⟨.hbm, 105, rfl⟩
abbrev main_c_7 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_cst_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_cst_1 : Ref sig .tc := ⟨.hbm, 117, rfl⟩
abbrev main_call3_v8 : Ref sig .tc := ⟨.hbm, 118, rfl⟩
abbrev main_call3_cst_2 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_cst_3 : Ref sig .tc := ⟨.hbm, 123, rfl⟩
abbrev main_call3_v12 : Ref sig .tc := ⟨.hbm, 124, rfl⟩
abbrev main_call3_cst_4 : Ref sig .tc := ⟨.hbm, 125, rfl⟩
abbrev main_call3_call0_v0 : Ref sig .tc := ⟨.hbm, 126, rfl⟩
abbrev main_call3_call0_v1 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_8 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_call4_cst : Ref sig .tc := ⟨.hbm, 145, rfl⟩
abbrev main_call4_v0 : Ref sig .tc := ⟨.hbm, 146, rfl⟩
abbrev main_v72 : Ref sig .tc := ⟨.hbm, 147, rfl⟩
abbrev main_c_9 : Ref sig .tc := ⟨.hbm, 148, rfl⟩
abbrev main_v73 : Ref sig .tc := ⟨.hbm, 149, rfl⟩
abbrev main_v74 : Ref sig .tc := ⟨.hbm, 150, rfl⟩
abbrev main_c_10 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_11 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_12 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_call5_cst : Ref sig .tc := ⟨.hbm, 176, rfl⟩
abbrev main_call5_v0 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_call6_cst : Ref sig .tc := ⟨.hbm, 187, rfl⟩
abbrev main_call6_v0 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_cst_13 : Ref sig .tc := ⟨.hbm, 194, rfl⟩
abbrev main_v111 : Ref sig .tc := ⟨.hbm, 195, rfl⟩
abbrev main_cst_14 : Ref sig .tc := ⟨.hbm, 196, rfl⟩
abbrev main_v112 : Ref sig .tc := ⟨.hbm, 197, rfl⟩
abbrev main_v113 : Ref sig .tc := ⟨.hbm, 198, rfl⟩
abbrev main_c_15 : Ref sig .tc := ⟨.hbm, 199, rfl⟩
abbrev main_call7_cst : Ref sig .tc := ⟨.hbm, 200, rfl⟩
abbrev main_call7_v0 : Ref sig .tc := ⟨.hbm, 201, rfl⟩
abbrev main_call7_v1 : Ref sig .tc := ⟨.hbm, 202, rfl⟩
abbrev main_call7_cst_0 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_call7_v5 : Ref sig .tc := ⟨.hbm, 207, rfl⟩
abbrev main_call7_v6 : Ref sig .tc := ⟨.hbm, 208, rfl⟩
abbrev main_call7_v7 : Ref sig .tc := ⟨.hbm, 209, rfl⟩
abbrev main_call7_cst_1 : Ref sig .tc := ⟨.hbm, 210, rfl⟩
abbrev main_call7_v8 : Ref sig .tc := ⟨.hbm, 211, rfl⟩
abbrev main_call7_cst_2 : Ref sig .tc := ⟨.hbm, 212, rfl⟩
abbrev main_call7_v9 : Ref sig .tc := ⟨.hbm, 213, rfl⟩
abbrev main_call7_v10 : Ref sig .tc := ⟨.hbm, 214, rfl⟩
abbrev main_call7_v11 : Ref sig .tc := ⟨.hbm, 215, rfl⟩
abbrev main_call7_cst_3 : Ref sig .tc := ⟨.hbm, 216, rfl⟩
abbrev main_call7_v12 : Ref sig .tc := ⟨.hbm, 217, rfl⟩
abbrev main_call7_cst_4 : Ref sig .tc := ⟨.hbm, 218, rfl⟩
abbrev main_call7_call0_v0 : Ref sig .tc := ⟨.hbm, 219, rfl⟩
abbrev main_call7_call0_v1 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_cst_16 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩
abbrev main_call8_cst : Ref sig .tc := ⟨.hbm, 238, rfl⟩
abbrev main_call8_v0 : Ref sig .tc := ⟨.hbm, 239, rfl⟩
abbrev main_v130 : Ref sig .tc := ⟨.hbm, 240, rfl⟩
abbrev main_c_17 : Ref sig .tc := ⟨.hbm, 241, rfl⟩
abbrev main_v131 : Ref sig .tc := ⟨.hbm, 242, rfl⟩
abbrev main_v132 : Ref sig .tc := ⟨.hbm, 243, rfl⟩
abbrev main_c_18 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_cst_19 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_cst_20 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_call9_cst : Ref sig .tc := ⟨.hbm, 269, rfl⟩
abbrev main_call9_v0 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_call10_cst : Ref sig .tc := ⟨.hbm, 280, rfl⟩
abbrev main_call10_v0 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_cst_21 : Ref sig .tc := ⟨.hbm, 287, rfl⟩
abbrev main_v169 : Ref sig .tc := ⟨.hbm, 288, rfl⟩
abbrev main_cst_22 : Ref sig .tc := ⟨.hbm, 289, rfl⟩
abbrev main_v170 : Ref sig .tc := ⟨.hbm, 290, rfl⟩
abbrev main_v171 : Ref sig .tc := ⟨.hbm, 291, rfl⟩
abbrev main_c_23 : Ref sig .tc := ⟨.hbm, 292, rfl⟩
abbrev main_call11_cst : Ref sig .tc := ⟨.hbm, 293, rfl⟩
abbrev main_call11_v0 : Ref sig .tc := ⟨.hbm, 294, rfl⟩
abbrev main_call11_v1 : Ref sig .tc := ⟨.hbm, 295, rfl⟩
abbrev main_call11_cst_0 : Ref sig .tc := ⟨.hbm, 296, rfl⟩
abbrev main_call11_v2 : Ref sig .tc := ⟨.hbm, 297, rfl⟩
abbrev main_call11_v3 : Ref sig .tc := ⟨.hbm, 298, rfl⟩
abbrev main_call11_v4 : Ref sig .tc := ⟨.hbm, 299, rfl⟩
abbrev main_call11_v5 : Ref sig .tc := ⟨.hbm, 300, rfl⟩
abbrev main_call11_v6 : Ref sig .tc := ⟨.hbm, 301, rfl⟩
abbrev main_call11_v7 : Ref sig .tc := ⟨.hbm, 302, rfl⟩
abbrev main_call11_cst_1 : Ref sig .tc := ⟨.hbm, 303, rfl⟩
abbrev main_call11_v8 : Ref sig .tc := ⟨.hbm, 304, rfl⟩
abbrev main_call11_cst_2 : Ref sig .tc := ⟨.hbm, 305, rfl⟩
abbrev main_call11_v9 : Ref sig .tc := ⟨.hbm, 306, rfl⟩
abbrev main_call11_v10 : Ref sig .tc := ⟨.hbm, 307, rfl⟩
abbrev main_call11_v11 : Ref sig .tc := ⟨.hbm, 308, rfl⟩
abbrev main_call11_cst_3 : Ref sig .tc := ⟨.hbm, 309, rfl⟩
abbrev main_call11_v12 : Ref sig .tc := ⟨.hbm, 310, rfl⟩
abbrev main_call11_cst_4 : Ref sig .tc := ⟨.hbm, 311, rfl⟩
abbrev main_call11_call0_v0 : Ref sig .tc := ⟨.hbm, 312, rfl⟩
abbrev main_call11_call0_v1 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_cst_24 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_call12_cst : Ref sig .tc := ⟨.hbm, 331, rfl⟩
abbrev main_call12_v0 : Ref sig .tc := ⟨.hbm, 332, rfl⟩
abbrev main_v188 : Ref sig .tc := ⟨.hbm, 333, rfl⟩
abbrev main_c_25 : Ref sig .tc := ⟨.hbm, 334, rfl⟩
abbrev main_v189 : Ref sig .tc := ⟨.hbm, 335, rfl⟩
abbrev main_v190 : Ref sig .tc := ⟨.hbm, 336, rfl⟩
abbrev main_c_26 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_cst_27 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_cst_28 : Ref sig .tc := ⟨.hbm, 349, rfl⟩
abbrev main_v201 : Ref sig .tc := ⟨.hbm, 350, rfl⟩
abbrev main_v202 : Ref sig .tc := ⟨.hbm, 351, rfl⟩
abbrev main_v203 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_call13_cst : Ref sig .tc := ⟨.hbm, 362, rfl⟩
abbrev main_call13_v0 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_call14_cst : Ref sig .tc := ⟨.hbm, 373, rfl⟩
abbrev main_call14_v0 : Ref sig .tc := ⟨.hbm, 374, rfl⟩
abbrev main_v222 : Ref sig .tc := ⟨.hbm, 375, rfl⟩
abbrev main_v223 : Ref sig .tc := ⟨.hbm, 376, rfl⟩
abbrev main_v224 : Ref sig .tc := ⟨.hbm, 377, rfl⟩
abbrev main_v225 : Ref sig .tc := ⟨.hbm, 378, rfl⟩
abbrev main_v226 : Ref sig .tc := ⟨.hbm, 379, rfl⟩
abbrev main_cst_29 : Ref sig .tc := ⟨.hbm, 380, rfl⟩
abbrev main_v227 : Ref sig .tc := ⟨.hbm, 381, rfl⟩
abbrev main_cst_30 : Ref sig .tc := ⟨.hbm, 382, rfl⟩
abbrev main_v228 : Ref sig .tc := ⟨.hbm, 383, rfl⟩
abbrev main_v229 : Ref sig .tc := ⟨.hbm, 384, rfl⟩
abbrev main_c_31 : Ref sig .tc := ⟨.hbm, 385, rfl⟩
abbrev main_call15_cst : Ref sig .tc := ⟨.hbm, 386, rfl⟩
abbrev main_call15_v0 : Ref sig .tc := ⟨.hbm, 387, rfl⟩
abbrev main_call15_v1 : Ref sig .tc := ⟨.hbm, 388, rfl⟩
abbrev main_call15_cst_0 : Ref sig .tc := ⟨.hbm, 389, rfl⟩
abbrev main_call15_v2 : Ref sig .tc := ⟨.hbm, 390, rfl⟩
abbrev main_call15_v3 : Ref sig .tc := ⟨.hbm, 391, rfl⟩
abbrev main_call15_v4 : Ref sig .tc := ⟨.hbm, 392, rfl⟩
abbrev main_call15_v5 : Ref sig .tc := ⟨.hbm, 393, rfl⟩
abbrev main_call15_v6 : Ref sig .tc := ⟨.hbm, 394, rfl⟩
abbrev main_call15_v7 : Ref sig .tc := ⟨.hbm, 395, rfl⟩
abbrev main_call15_cst_1 : Ref sig .tc := ⟨.hbm, 396, rfl⟩
abbrev main_call15_v8 : Ref sig .tc := ⟨.hbm, 397, rfl⟩
abbrev main_call15_cst_2 : Ref sig .tc := ⟨.hbm, 398, rfl⟩
abbrev main_call15_v9 : Ref sig .tc := ⟨.hbm, 399, rfl⟩
abbrev main_call15_v10 : Ref sig .tc := ⟨.hbm, 400, rfl⟩
abbrev main_call15_v11 : Ref sig .tc := ⟨.hbm, 401, rfl⟩
abbrev main_call15_cst_3 : Ref sig .tc := ⟨.hbm, 402, rfl⟩
abbrev main_call15_v12 : Ref sig .tc := ⟨.hbm, 403, rfl⟩
abbrev main_call15_cst_4 : Ref sig .tc := ⟨.hbm, 404, rfl⟩
abbrev main_call15_call0_v0 : Ref sig .tc := ⟨.hbm, 405, rfl⟩
abbrev main_call15_call0_v1 : Ref sig .tc := ⟨.hbm, 406, rfl⟩
abbrev main_v230 : Ref sig .tc := ⟨.hbm, 407, rfl⟩
abbrev main_v231 : Ref sig .tc := ⟨.hbm, 408, rfl⟩
abbrev main_v232 : Ref sig .tc := ⟨.hbm, 409, rfl⟩
abbrev main_v233 : Ref sig .tc := ⟨.hbm, 410, rfl⟩
abbrev main_v234 : Ref sig .tc := ⟨.hbm, 411, rfl⟩
abbrev main_v235 : Ref sig .tc := ⟨.hbm, 412, rfl⟩
abbrev main_v236 : Ref sig .tc := ⟨.hbm, 413, rfl⟩
abbrev main_cst_32 : Ref sig .tc := ⟨.hbm, 414, rfl⟩
abbrev main_v237 : Ref sig .tc := ⟨.hbm, 415, rfl⟩
abbrev main_v238 : Ref sig .tc := ⟨.hbm, 416, rfl⟩
abbrev main_v239 : Ref sig .tc := ⟨.hbm, 417, rfl⟩
abbrev main_v240 : Ref sig .tc := ⟨.hbm, 418, rfl⟩
abbrev main_v241 : Ref sig .tc := ⟨.hbm, 419, rfl⟩
abbrev main_v242 : Ref sig .tc := ⟨.hbm, 420, rfl⟩
abbrev main_v243 : Ref sig .tc := ⟨.hbm, 421, rfl⟩
abbrev main_v244 : Ref sig .tc := ⟨.hbm, 422, rfl⟩
abbrev main_v245 : Ref sig .tc := ⟨.hbm, 423, rfl⟩
abbrev main_call16_cst : Ref sig .tc := ⟨.hbm, 424, rfl⟩
abbrev main_call16_v0 : Ref sig .tc := ⟨.hbm, 425, rfl⟩
abbrev main_v246 : Ref sig .tc := ⟨.hbm, 426, rfl⟩
abbrev main_cst_33 : Ref sig .tc := ⟨.hbm, 427, rfl⟩
abbrev main_v247 : Ref sig .tc := ⟨.hbm, 428, rfl⟩
abbrev main_v248 : Ref sig .tc := ⟨.hbm, 429, rfl⟩
abbrev main_v249 : Ref sig .tc := ⟨.hbm, 430, rfl⟩
abbrev main_v250 : Ref sig .tc := ⟨.hbm, 431, rfl⟩
abbrev main_v251 : Ref sig .tc := ⟨.hbm, 432, rfl⟩
abbrev main_v252 : Ref sig .tc := ⟨.hbm, 433, rfl⟩
abbrev main_v253 : Ref sig .tc := ⟨.hbm, 434, rfl⟩
abbrev main_call17_cst : Ref sig .tc := ⟨.hbm, 435, rfl⟩
abbrev main_call17_v0 : Ref sig .tc := ⟨.hbm, 436, rfl⟩
abbrev main_v254 : Ref sig .tc := ⟨.hbm, 437, rfl⟩
abbrev main_v255 : Ref sig .tc := ⟨.hbm, 438, rfl⟩
abbrev main_v256 : Ref sig .tc := ⟨.hbm, 439, rfl⟩
abbrev main_v257 : Ref sig .tc := ⟨.hbm, 440, rfl⟩
abbrev main_v258 : Ref sig .tc := ⟨.hbm, 441, rfl⟩
abbrev main_call18_cst : Ref sig .tc := ⟨.hbm, 442, rfl⟩
abbrev main_call18_v0 : Ref sig .tc := ⟨.hbm, 443, rfl⟩
abbrev main_v259 : Ref sig .tc := ⟨.hbm, 444, rfl⟩
abbrev main_v260 : Ref sig .tc := ⟨.hbm, 445, rfl⟩
abbrev main_v261 : Ref sig .tc := ⟨.hbm, 446, rfl⟩
abbrev main_v262 : Ref sig .tc := ⟨.hbm, 447, rfl⟩
abbrev main_v263 : Ref sig .tc := ⟨.hbm, 448, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x10_S64x10_1_0_0_1_n_n_wf : DotDims.WF S64x64 S64x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KerRun.lean ====
/-
  The idealized kernel's run with its result named.  Every weakly fair execution of the kernel program ends, without a
  fault, with the result buffer holding what the last boundary of the run's segments holds for it — the contents
  obtained from the launch memory by folding, in order, every stretch of host operations and every kernel region's
  written-back arrays — and with the sixteen argument arrays as launched.  The run is the one the frame is proved by
  (the launch theorem over the program's twenty segments); the only addition is that the result buffer, like the
  arguments, is read off the last thread state.
-/
import proofs.«125584_j43164421324859_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_value : θ_run defs (onTc (τ := τ) (main (F := F))) ⟨m, fun _ => 0, ρ⟩ (fun r => ∀ c : Dev nD,
      r.2.mem ((c.tc : Thread nD τ).loc main_v233) = Gen.W20 m ρ c (Proc.devRef .tc main_v233)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v233 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c)⟩)

end Cert.KernelIdeal.KerRun

end
-- ==== Proof.RefOps.lean ====
/-
  The reference program's @main as a list of host operations, and its run.

  @main is a straight line of 433 host operations once the outlined functions (the variance function, which itself
  calls the select function, and the rectifiers) are unfolded at their call sites over the call's own buffers. The
  list is cut at the mathematical stages: the prelude (column mean, column variance, standardisation, and the two
  rows of the edge table), four graph layers (gather and scatter-add aggregation, the (1+eps) combination, two dense
  layers with rectifiers, batch normalisation over the node axis and a rectifier), and the tail (pooling by graph id
  and three dense layers). Each layer is cut once more where the printed program's windows of sixty statements end,
  so that every printed window is the concatenation of two consecutive pieces.

  `main_eq`: @main is `seq ops`.  `run_fold`: every weakly fair execution terminates with every buffer at the
  fold of the operations' results over the launch contents.
-/
import proofs.«125584_j43164421324859_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 18: 39 operations. -/
abbrev opsPre : List (HloOp τ sig (Elt F)) :=
  [ StableHlo.nullary main_cst (constant S_ .f32 0x00000000#32),
    StableHlo.binary main_arg0 main_cst main_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v3 main_v4 (Host.sqrt : (⟨S128, .f32⟩ : BufTy).Contents (Elt F) → (⟨S128, .f32⟩ : BufTy).Contents (Elt F)),
    StableHlo.unary main_v2 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v6 main_v7 (subf : (⟨S100000x128, .f32⟩ : BufTy).Contents (Elt F) → (⟨S100000x128, .f32⟩ : BufTy).Contents (Elt F) → (⟨S100000x128, .f32⟩ : BufTy).Contents (Elt F)),
    StableHlo.unary main_v4 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S100000x128 ![0, 1] bcast_S1x128_S100000x128_0_1 : (⟨S1x128, .f32⟩ : BufTy).Contents (Elt F) → (⟨S100000x128, .f32⟩ : BufTy).Contents (Elt F)),
    StableHlo.binary main_v7 main_v9 main_v10 (Host.divf : (⟨S100000x128, .f32⟩ : BufTy).Contents (Elt F) → (⟨S100000x128, .f32⟩ : BufTy).Contents (Elt F) → (⟨S100000x128, .f32⟩ : BufTy).Contents (Elt F)),
    StableHlo.unary main_arg1 main_v11 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v11 main_v12 rfl shapeCasts_S1x1600000_S1600000,
    StableHlo.unary main_arg1 main_v13 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v13 main_v14 rfl shapeCasts_S1x1600000_S1600000 ]

theorem opsPre_sub : (opsPre : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub ..⟩
theorem opsPre_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 19 … 60: 46 operations. -/
abbrev opsL0a : List (HloOp τ sig (Elt F)) :=
  [ StableHlo.nullary main_c_1 (constantI S_ 32 0#32),
    StableHlo.unary main_c_1 main_v15 (broadcastInDim S1600000 ![] bcast_S_S1600000 : (⟨S_, .i32⟩ : BufTy).Contents (Elt F) → (⟨S1600000, .i32⟩ : BufTy).Contents (Elt F)),
    StableHlo.binary main_v12 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v17 (broadcastInDim S1600000 ![] bcast_S_S1600000 : (⟨S_, .i32⟩ : BufTy).Contents (Elt F) → (⟨S1600000, .i32⟩ : BufTy).Contents (Elt F)),
    StableHlo.binary main_v12 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v12 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v10 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v22 (broadcastInDim S100000x128 ![] bcast_S_S100000x128 : (⟨S_, .f32⟩ : BufTy).Contents (Elt F) → (⟨S100000x128, .f32⟩ : BufTy).Contents (Elt F)),
    StableHlo.unary main_v14 main_v23 (broadcastInDim S1600000x1 ![0] bcast_S1600000_S1600000x1_0 : (⟨S1600000, .i32⟩ : BufTy).Contents (Elt F) → (⟨S1600000x1, .i32⟩ : BufTy).Contents (Elt F)),
    StableHlo.ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg9 main_v25 ((extractStridedSlice S1 ![0] · slices_S4_S1_0) : (⟨S4, .f32⟩ : BufTy).Contents (Elt F) → (⟨S1, .f32⟩ : BufTy).Contents (Elt F)),
    StableHlo.reshape main_v25 main_v26 rfl shapeCasts_S1_S_,
    StableHlo.nullary main_cst_4 (constant S_ .f32 0x3F800000#32),
    StableHlo.binary main_cst_4 main_v26 main_v27 (addf : (⟨S_, .f32⟩ : BufTy).Contents (Elt F) → (⟨S_, .f32⟩ : BufTy).Contents (Elt F) → (⟨S_, .f32⟩ : BufTy).Contents (Elt F)),
    StableHlo.unary main_v27 main_v28 (broadcastInDim S100000x128 ![] bcast_S_S100000x128 : (⟨S_, .f32⟩ : BufTy).Contents (Elt F) → (⟨S100000x128, .f32⟩ : BufTy).Contents (Elt F)),
    StableHlo.binary main_v28 main_v10 main_v29 (mulf : (⟨S100000x128, .f32⟩ : BufTy).Contents (Elt F) → (⟨S100000x128, .f32⟩ : BufTy).Contents (Elt F) → (⟨S100000x128, .f32⟩ : BufTy).Contents (Elt F)),
    StableHlo.binary main_v29 main_v24 main_v30 (addf : (⟨S100000x128, .f32⟩ : BufTy).Contents (Elt F) → (⟨S100000x128, .f32⟩ : BufTy).Contents (Elt F) → (⟨S100000x128, .f32⟩ : BufTy).Contents (Elt F)),
    StableHlo.unary main_arg3 main_v31 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v31 main_v32 rfl shapeCasts_S1x128x128_S128x128,
    StableHlo.binary main_v30 main_v32 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v34 ((extractStridedSlice S1x128 ![0, 0] · slices_S4x128_S1x128_0_0) : (⟨S4x128, .f32⟩ : BufTy).Contents (Elt F) → (⟨S1x128, .f32⟩ : BufTy).Contents (Elt F)),
    StableHlo.reshape main_v34 main_v35 rfl shapeCasts_S1x128_S128,
    StableHlo.unary main_v35 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v38) main_call1.v0 main_call1.v1 maximumf,
    StableHlo.unary main_arg5 main_v40 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v40 main_v41 rfl shapeCasts_S1x128x128_S128x128,
    StableHlo.binary main_v39 main_v41 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v43 ((extractStridedSlice S1x128 ![0, 0] · slices_S4x128_S1x128_0_0) : (⟨S4x128, .f32⟩ : BufTy).Contents (Elt F) → (⟨S1x128, .f32⟩ : BufTy).Contents (Elt F)),
    StableHlo.reshape main_v43 main_v44 rfl shapeCasts_S1x128_S128,
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v47) main_call2.v0 main_call2.v1 maximumf,
    StableHlo.unary main_arg7 main_v49 ((extractStridedSlice S1x128 ![0, 0] · slices_S4x128_S1x128_0_0) : (⟨S4x128, .f32⟩ : BufTy).Contents (Elt F) → (⟨S1x128, .f32⟩ : BufTy).Contents (Elt F)),
    StableHlo.reshape main_v49 main_v50 rfl shapeCasts_S1x128_S128,
    StableHlo.unary main_arg8 main_v51 ((extractStridedSlice S1x128 ![0, 0] · slices_S4x128_S1x128_0_0) : (⟨S4x128, .f32⟩ : BufTy).Contents (Elt F) → (⟨S1x128, .f32⟩ : BufTy).Contents (Elt F)),
    StableHlo.reshape main_v51 main_v52 rfl shapeCasts_S1x128_S128 ]

theorem opsL0a_sub : (opsL0a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub ..⟩
theorem opsL0a_fresh : (opsL0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 61 … 84: 47 operations. -/
abbrev opsL0b : List (HloOp τ sig (Elt F)) :=
  [ StableHlo.nullary main_cst_5 (constant S_ .f32 0x00000000#32),
    StableHlo.binary main_v48 main_cst_5 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call3.cst (constant S_ .f32 0x00000000#32),
    StableHlo.TRef.binary (.of main_v48) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v48) main_call3.v4 main_call3.v5 subf,
    StableHlo.TRef.binary main_call3.v5 main_call3.v5 main_call3.v6 mulf,
    StableHlo.TRef.unary (.of main_c_7) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v55 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v58 main_v59 (subf : (⟨S100000x128, .f32⟩ : BufTy).Contents (Elt F) → (⟨S100000x128, .f32⟩ : BufTy).Contents (Elt F) → (⟨S100000x128, .f32⟩ : BufTy).Contents (Elt F)),
    StableHlo.unary main_v50 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v59 main_v62 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v63 (broadcastInDim S128 ![] bcast_S_S128 : (⟨S_, .f32⟩ : BufTy).Contents (Elt F) → (⟨S128, .f32⟩ : BufTy).Contents (Elt F)),
    StableHlo.binary main_v56 main_v63 main_v64 (addf : (⟨S128, .f32⟩ : BufTy).Contents (Elt F) → (⟨S128, .f32⟩ : BufTy).Contents (Elt F) → (⟨S128, .f32⟩ : BufTy).Contents (Elt F)),
    StableHlo.unary main_v64 main_v65 (Host.rsqrt : (⟨S128, .f32⟩ : BufTy).Contents (Elt F) → (⟨S128, .f32⟩ : BufTy).Contents (Elt F)),
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v67 main_v68 (mulf : (⟨S100000x128, .f32⟩ : BufTy).Contents (Elt F) → (⟨S100000x128, .f32⟩ : BufTy).Contents (Elt F) → (⟨S100000x128, .f32⟩ : BufTy).Contents (Elt F)),
    StableHlo.unary main_v52 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v71) main_call4.v0 main_call4.v1 maximumf ]

theorem opsL0b_sub : (opsL0b : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem opsL0b_fresh : (opsL0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 85 … 120: 38 operations. -/
abbrev opsL1a : List (HloOp τ sig (Elt F)) :=
  [ StableHlo.nullary main_c_9 (constantI S_ 32 0#32),
    StableHlo.unary main_c_9 main_v73 (broadcastInDim S1600000 ![] bcast_S_S1600000 : (⟨S_, .i32⟩ : BufTy).Contents (Elt F) → (⟨S1600000, .i32⟩ : BufTy).Contents (Elt F)),
    StableHlo.binary main_v12 main_v73 main_v74 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v75 (broadcastInDim S1600000 ![] bcast_S_S1600000 : (⟨S_, .i32⟩ : BufTy).Contents (Elt F) → (⟨S1600000, .i32⟩ : BufTy).Contents (Elt F)),
    StableHlo.binary main_v12 main_v75 main_v76 (addi : (⟨S1600000, .i32⟩ : BufTy).Contents (Elt F) → (⟨S1600000, .i32⟩ : BufTy).Contents (Elt F) → (⟨S1600000, .i32⟩ : BufTy).Contents (Elt F)),
    StableHlo.ternary main_v74 main_v76 main_v12 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v77 main_v78 (broadcastInDim S1600000x1 ![0] bcast_S1600000_S1600000x1_0 : (⟨S1600000, .i32⟩ : BufTy).Contents (Elt F) → (⟨S1600000x1, .i32⟩ : BufTy).Contents (Elt F)),
    StableHlo.binary main_v72 main_v78 main_v79 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v80 (broadcastInDim S100000x128 ![] bcast_S_S100000x128 : (⟨S_, .f32⟩ : BufTy).Contents (Elt F) → (⟨S100000x128, .f32⟩ : BufTy).Contents (Elt F)),
    StableHlo.unary main_v14 main_v81 (broadcastInDim S1600000x1 ![0] bcast_S1600000_S1600000x1_0 : (⟨S1600000, .i32⟩ : BufTy).Contents (Elt F) → (⟨S1600000x1, .i32⟩ : BufTy).Contents (Elt F)),
    StableHlo.ternary main_v80 main_v81 main_v79 main_v82 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg9 main_v83 ((extractStridedSlice S1 ![1] · slices_S4_S1_1) : (⟨S4, .f32⟩ : BufTy).Contents (Elt F) → (⟨S1, .f32⟩ : BufTy).Contents (Elt F)),
    StableHlo.reshape main_v83 main_v84 rfl shapeCasts_S1_S_,
    StableHlo.nullary main_cst_12 (constant S_ .f32 0x3F800000#32),
    StableHlo.binary main_cst_12 main_v84 main_v85 (addf : (⟨S_, .f32⟩ : BufTy).Contents (Elt F) → (⟨S_, .f32⟩ : BufTy).Contents (Elt F) → (⟨S_, .f32⟩ : BufTy).Contents (Elt F)),
    StableHlo.unary main_v85 main_v86 (broadcastInDim S100000x128 ![] bcast_S_S100000x128 : (⟨S_, .f32⟩ : BufTy).Contents (Elt F) → (⟨S100000x128, .f32⟩ : BufTy).Contents (Elt F)),
    StableHlo.binary main_v86 main_v72 main_v87 (mulf : (⟨S100000x128, .f32⟩ : BufTy).Contents (Elt F) → (⟨S100000x128, .f32⟩ : BufTy).Contents (Elt F) → (⟨S100000x128, .f32⟩ : BufTy).Contents (Elt F)),
    StableHlo.binary main_v87 main_v82 main_v88 (addf : (⟨S100000x128, .f32⟩ : BufTy).Contents (Elt F) → (⟨S100000x128, .f32⟩ : BufTy).Contents (Elt F) → (⟨S100000x128, .f32⟩ : BufTy).Contents (Elt F)),
    StableHlo.unary main_arg3 main_v89 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v89 main_v90 rfl shapeCasts_S1x128x128_S128x128,
    StableHlo.binary main_v88 main_v90 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v92 ((extractStridedSlice S1x128 ![1, 0] · slices_S4x128_S1x128_1_0) : (⟨S4x128, .f32⟩ : BufTy).Contents (Elt F) → (⟨S1x128, .f32⟩ : BufTy).Contents (Elt F)),
    StableHlo.reshape main_v92 main_v93 rfl shapeCasts_S1x128_S128,
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v95 main_v96 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v96) main_call5.v0 main_call5.v1 maximumf,
    StableHlo.unary main_arg5 main_v98 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v98 main_v99 rfl shapeCasts_S1x128x128_S128x128,
    StableHlo.binary main_v97 main_v99 main_v100 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v101 ((extractStridedSlice S1x128 ![1, 0] · slices_S4x128_S1x128_1_0) : (⟨S4x128, .f32⟩ : BufTy).Contents (Elt F) → (⟨S1x128, .f32⟩ : BufTy).Contents (Elt F)),
    StableHlo.reshape main_v101 main_v102 rfl shapeCasts_S1x128_S128,
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)) ]

theorem opsL1a_sub : (opsL1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩
theorem opsL1a_fresh : (opsL1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 121 … 150: 55 operations. -/
abbrev opsL1b : List (HloOp τ sig (Elt F)) :=
  [ StableHlo.binary main_v100 main_v104 main_v105 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v105) main_call6.v0 main_call6.v1 maximumf,
    StableHlo.unary main_arg7 main_v107 ((extractStridedSlice S1x128 ![1, 0] · slices_S4x128_S1x128_1_0) : (⟨S4x128, .f32⟩ : BufTy).Contents (Elt F) → (⟨S1x128, .f32⟩ : BufTy).Contents (Elt F)),
    StableHlo.reshape main_v107 main_v108 rfl shapeCasts_S1x128_S128,
    StableHlo.unary main_arg8 main_v109 ((extractStridedSlice S1x128 ![1, 0] · slices_S4x128_S1x128_1_0) : (⟨S4x128, .f32⟩ : BufTy).Contents (Elt F) → (⟨S1x128, .f32⟩ : BufTy).Contents (Elt F)),
    StableHlo.reshape main_v109 main_v110 rfl shapeCasts_S1x128_S128,
    StableHlo.nullary main_cst_13 (constant S_ .f32 0x00000000#32),
    StableHlo.binary main_v106 main_cst_13 main_v111 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_14 (constant S_ .f32 0x47C35000#32),
    StableHlo.unary main_cst_14 main_v112 (broadcastInDim S128 ![] bcast_S_S128 : (⟨S_, .f32⟩ : BufTy).Contents (Elt F) → (⟨S128, .f32⟩ : BufTy).Contents (Elt F)),
    StableHlo.binary main_v111 main_v112 main_v113 (Host.divf : (⟨S128, .f32⟩ : BufTy).Contents (Elt F) → (⟨S128, .f32⟩ : BufTy).Contents (Elt F) → (⟨S128, .f32⟩ : BufTy).Contents (Elt F)),
    StableHlo.nullary main_c_15 (constantI S_ 32 0#32),
    StableHlo.TRef.nullary main_call7.cst (constant S_ .f32 0x00000000#32),
    StableHlo.TRef.binary (.of main_v106) main_call7.cst main_call7.v0 (fun x v => Host.reduceAdd x v reducesTo_S100000x128_S128_d0 h_S_),
    StableHlo.TRef.unary main_call7.v0 main_call7.v1 (broadcastInDim S1x128 ![1] bcast_S128_S1x128_1),
    StableHlo.TRef.nullary main_call7.cst_0 (constant S_ .f32 0x47C35000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S100000x128 ![0, 1] bcast_S1x128_S100000x128_0_1),
    StableHlo.TRef.binary (.of main_v106) main_call7.v4 main_call7.v5 subf,
    StableHlo.TRef.binary main_call7.v5 main_call7.v5 main_call7.v6 mulf,
    StableHlo.TRef.unary (.of main_c_15) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v113 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v116 main_v117 (subf : (⟨S100000x128, .f32⟩ : BufTy).Contents (Elt F) → (⟨S100000x128, .f32⟩ : BufTy).Contents (Elt F) → (⟨S100000x128, .f32⟩ : BufTy).Contents (Elt F)),
    StableHlo.unary main_v108 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v117 main_v120 (mulf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3727C5AC#32),
    StableHlo.unary main_cst_16 main_v121 (broadcastInDim S128 ![] bcast_S_S128 : (⟨S_, .f32⟩ : BufTy).Contents (Elt F) → (⟨S128, .f32⟩ : BufTy).Contents (Elt F)),
    StableHlo.binary main_v114 main_v121 main_v122 (addf : (⟨S128, .f32⟩ : BufTy).Contents (Elt F) → (⟨S128, .f32⟩ : BufTy).Contents (Elt F) → (⟨S128, .f32⟩ : BufTy).Contents (Elt F)),
    StableHlo.unary main_v122 main_v123 (Host.rsqrt : (⟨S128, .f32⟩ : BufTy).Contents (Elt F) → (⟨S128, .f32⟩ : BufTy).Contents (Elt F)),
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v125 main_v126 (mulf : (⟨S100000x128, .f32⟩ : BufTy).Contents (Elt F) → (⟨S100000x128, .f32⟩ : BufTy).Contents (Elt F) → (⟨S100000x128, .f32⟩ : BufTy).Contents (Elt F)),
    StableHlo.unary main_v110 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v129) main_call8.v0 main_call8.v1 maximumf ]

theorem opsL1b_sub : (opsL1b : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem opsL1b_fresh : (opsL1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 151 … 180: 32 operations. -/
abbrev opsL2a : List (HloOp τ sig (Elt F)) :=
  [ StableHlo.nullary main_c_17 (constantI S_ 32 0#32),
    StableHlo.unary main_c_17 main_v131 (broadcastInDim S1600000 ![] bcast_S_S1600000 : (⟨S_, .i32⟩ : BufTy).Contents (Elt F) → (⟨S1600000, .i32⟩ : BufTy).Contents (Elt F)),
    StableHlo.binary main_v12 main_v131 main_v132 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v133 (broadcastInDim S1600000 ![] bcast_S_S1600000 : (⟨S_, .i32⟩ : BufTy).Contents (Elt F) → (⟨S1600000, .i32⟩ : BufTy).Contents (Elt F)),
    StableHlo.binary main_v12 main_v133 main_v134 (addi : (⟨S1600000, .i32⟩ : BufTy).Contents (Elt F) → (⟨S1600000, .i32⟩ : BufTy).Contents (Elt F) → (⟨S1600000, .i32⟩ : BufTy).Contents (Elt F)),
    StableHlo.ternary main_v132 main_v134 main_v12 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v135 main_v136 (broadcastInDim S1600000x1 ![0] bcast_S1600000_S1600000x1_0 : (⟨S1600000, .i32⟩ : BufTy).Contents (Elt F) → (⟨S1600000x1, .i32⟩ : BufTy).Contents (Elt F)),
    StableHlo.binary main_v130 main_v136 main_v137 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_19 (constant S_ .f32 0x00000000#32),
    StableHlo.unary main_cst_19 main_v138 (broadcastInDim S100000x128 ![] bcast_S_S100000x128 : (⟨S_, .f32⟩ : BufTy).Contents (Elt F) → (⟨S100000x128, .f32⟩ : BufTy).Contents (Elt F)),
    StableHlo.unary main_v14 main_v139 (broadcastInDim S1600000x1 ![0] bcast_S1600000_S1600000x1_0 : (⟨S1600000, .i32⟩ : BufTy).Contents (Elt F) → (⟨S1600000x1, .i32⟩ : BufTy).Contents (Elt F)),
    StableHlo.ternary main_v138 main_v139 main_v137 main_v140 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg9 main_v141 ((extractStridedSlice S1 ![2] · slices_S4_S1_2) : (⟨S4, .f32⟩ : BufTy).Contents (Elt F) → (⟨S1, .f32⟩ : BufTy).Contents (Elt F)),
    StableHlo.reshape main_v141 main_v142 rfl shapeCasts_S1_S_,
    StableHlo.nullary main_cst_20 (constant S_ .f32 0x3F800000#32),
    StableHlo.binary main_cst_20 main_v142 main_v143 (addf : (⟨S_, .f32⟩ : BufTy).Contents (Elt F) → (⟨S_, .f32⟩ : BufTy).Contents (Elt F) → (⟨S_, .f32⟩ : BufTy).Contents (Elt F)),
    StableHlo.unary main_v143 main_v144 (broadcastInDim S100000x128 ![] bcast_S_S100000x128 : (⟨S_, .f32⟩ : BufTy).Contents (Elt F) → (⟨S100000x128, .f32⟩ : BufTy).Contents (Elt F)),
    StableHlo.binary main_v144 main_v130 main_v145 (mulf : (⟨S100000x128, .f32⟩ : BufTy).Contents (Elt F) → (⟨S100000x128, .f32⟩ : BufTy).Contents (Elt F) → (⟨S100000x128, .f32⟩ : BufTy).Contents (Elt F)),
    StableHlo.binary main_v145 main_v140 main_v146 (addf : (⟨S100000x128, .f32⟩ : BufTy).Contents (Elt F) → (⟨S100000x128, .f32⟩ : BufTy).Contents (Elt F) → (⟨S100000x128, .f32⟩ : BufTy).Contents (Elt F)),
    StableHlo.unary main_arg3 main_v147 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v147 main_v148 rfl shapeCasts_S1x128x128_S128x128,
    StableHlo.binary main_v146 main_v148 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v150 ((extractStridedSlice S1x128 ![2, 0] · slices_S4x128_S1x128_2_0) : (⟨S4x128, .f32⟩ : BufTy).Contents (Elt F) → (⟨S1x128, .f32⟩ : BufTy).Contents (Elt F)),
    StableHlo.reshape main_v150 main_v151 rfl shapeCasts_S1x128_S128,
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v153 main_v154 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v154) main_call9.v0 main_call9.v1 maximumf,
    StableHlo.unary main_arg5 main_v156 ((extractStridedSlice S1x128x128 ![2, 0, 0] · slices_S4x128x128_S1x128x128_2_0_0) : (⟨S4x128x128, .f32⟩ : BufTy).Contents (Elt F) → (⟨S1x128x128, .f32⟩ : BufTy).Contents (Elt F)) ]

theorem opsL2a_sub : (opsL2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
theorem opsL2a_fresh : (opsL2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 181 … 216: 61 operations. -/
abbrev opsL2b : List (HloOp τ sig (Elt F)) :=
  [ StableHlo.reshape main_v156 main_v157 rfl shapeCasts_S1x128x128_S128x128,
    StableHlo.binary main_v155 main_v157 main_v158 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v159 ((extractStridedSlice S1x128 ![2, 0] · slices_S4x128_S1x128_2_0) : (⟨S4x128, .f32⟩ : BufTy).Contents (Elt F) → (⟨S1x128, .f32⟩ : BufTy).Contents (Elt F)),
    StableHlo.reshape main_v159 main_v160 rfl shapeCasts_S1x128_S128,
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v162 main_v163 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v163) main_call10.v0 main_call10.v1 maximumf,
    StableHlo.unary main_arg7 main_v165 ((extractStridedSlice S1x128 ![2, 0] · slices_S4x128_S1x128_2_0) : (⟨S4x128, .f32⟩ : BufTy).Contents (Elt F) → (⟨S1x128, .f32⟩ : BufTy).Contents (Elt F)),
    StableHlo.reshape main_v165 main_v166 rfl shapeCasts_S1x128_S128,
    StableHlo.unary main_arg8 main_v167 ((extractStridedSlice S1x128 ![2, 0] · slices_S4x128_S1x128_2_0) : (⟨S4x128, .f32⟩ : BufTy).Contents (Elt F) → (⟨S1x128, .f32⟩ : BufTy).Contents (Elt F)),
    StableHlo.reshape main_v167 main_v168 rfl shapeCasts_S1x128_S128,
    StableHlo.nullary main_cst_21 (constant S_ .f32 0x00000000#32),
    StableHlo.binary main_v164 main_cst_21 main_v169 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_22 (constant S_ .f32 0x47C35000#32),
    StableHlo.unary main_cst_22 main_v170 (broadcastInDim S128 ![] bcast_S_S128 : (⟨S_, .f32⟩ : BufTy).Contents (Elt F) → (⟨S128, .f32⟩ : BufTy).Contents (Elt F)),
    StableHlo.binary main_v169 main_v170 main_v171 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call11.cst (constant S_ .f32 0x00000000#32),
    StableHlo.TRef.binary (.of main_v164) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v164) main_call11.v4 main_call11.v5 subf,
    StableHlo.TRef.binary main_call11.v5 main_call11.v5 main_call11.v6 mulf,
    StableHlo.TRef.unary (.of main_c_23) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v171 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v174 main_v175 (subf : (⟨S100000x128, .f32⟩ : BufTy).Contents (Elt F) → (⟨S100000x128, .f32⟩ : BufTy).Contents (Elt F) → (⟨S100000x128, .f32⟩ : BufTy).Contents (Elt F)),
    StableHlo.unary main_v166 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v177 main_v175 main_v178 (mulf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v179 (broadcastInDim S128 ![] bcast_S_S128 : (⟨S_, .f32⟩ : BufTy).Contents (Elt F) → (⟨S128, .f32⟩ : BufTy).Contents (Elt F)),
    StableHlo.binary main_v172 main_v179 main_v180 (addf : (⟨S128, .f32⟩ : BufTy).Contents (Elt F) → (⟨S128, .f32⟩ : BufTy).Contents (Elt F) → (⟨S128, .f32⟩ : BufTy).Contents (Elt F)),
    StableHlo.unary main_v180 main_v181 (Host.rsqrt : (⟨S128, .f32⟩ : BufTy).Contents (Elt F) → (⟨S128, .f32⟩ : BufTy).Contents (Elt F)),
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v183 main_v184 (mulf : (⟨S100000x128, .f32⟩ : BufTy).Contents (Elt F) → (⟨S100000x128, .f32⟩ : BufTy).Contents (Elt F) → (⟨S100000x128, .f32⟩ : BufTy).Contents (Elt F)),
    StableHlo.unary main_v168 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v186 main_v187 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S100000x128 ![] bcast_S_S100000x128),
    StableHlo.TRef.binary (.of main_v187) main_call12.v0 main_call12.v1 maximumf ]

theorem opsL2b_sub : (opsL2b : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem opsL2b_fresh : (opsL2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 217 … 240: 24 operations. -/
abbrev opsL3a : List (HloOp τ sig (Elt F)) :=
  [ StableHlo.nullary main_c_25 (constantI S_ 32 0#32),
    StableHlo.unary main_c_25 main_v189 (broadcastInDim S1600000 ![] bcast_S_S1600000 : (⟨S_, .i32⟩ : BufTy).Contents (Elt F) → (⟨S1600000, .i32⟩ : BufTy).Contents (Elt F)),
    StableHlo.binary main_v12 main_v189 main_v190 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v191 (broadcastInDim S1600000 ![] bcast_S_S1600000 : (⟨S_, .i32⟩ : BufTy).Contents (Elt F) → (⟨S1600000, .i32⟩ : BufTy).Contents (Elt F)),
    StableHlo.binary main_v12 main_v191 main_v192 (addi : (⟨S1600000, .i32⟩ : BufTy).Contents (Elt F) → (⟨S1600000, .i32⟩ : BufTy).Contents (Elt F) → (⟨S1600000, .i32⟩ : BufTy).Contents (Elt F)),
    StableHlo.ternary main_v190 main_v192 main_v12 main_v193 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v193 main_v194 (broadcastInDim S1600000x1 ![0] bcast_S1600000_S1600000x1_0 : (⟨S1600000, .i32⟩ : BufTy).Contents (Elt F) → (⟨S1600000x1, .i32⟩ : BufTy).Contents (Elt F)),
    StableHlo.binary main_v188 main_v194 main_v195 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_27 (constant S_ .f32 0x00000000#32),
    StableHlo.unary main_cst_27 main_v196 (broadcastInDim S100000x128 ![] bcast_S_S100000x128 : (⟨S_, .f32⟩ : BufTy).Contents (Elt F) → (⟨S100000x128, .f32⟩ : BufTy).Contents (Elt F)),
    StableHlo.unary main_v14 main_v197 (broadcastInDim S1600000x1 ![0] bcast_S1600000_S1600000x1_0 : (⟨S1600000, .i32⟩ : BufTy).Contents (Elt F) → (⟨S1600000x1, .i32⟩ : BufTy).Contents (Elt F)),
    StableHlo.ternary main_v196 main_v197 main_v195 main_v198 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg9 main_v199 ((extractStridedSlice S1 ![3] · slices_S4_S1_3) : (⟨S4, .f32⟩ : BufTy).Contents (Elt F) → (⟨S1, .f32⟩ : BufTy).Contents (Elt F)),
    StableHlo.reshape main_v199 main_v200 rfl shapeCasts_S1_S_,
    StableHlo.nullary main_cst_28 (constant S_ .f32 0x3F800000#32),
    StableHlo.binary main_cst_28 main_v200 main_v201 (addf : (⟨S_, .f32⟩ : BufTy).Contents (Elt F) → (⟨S_, .f32⟩ : BufTy).Contents (Elt F) → (⟨S_, .f32⟩ : BufTy).Contents (Elt F)),
    StableHlo.unary main_v201 main_v202 (broadcastInDim S100000x128 ![] bcast_S_S100000x128 : (⟨S_, .f32⟩ : BufTy).Contents (Elt F) → (⟨S100000x128, .f32⟩ : BufTy).Contents (Elt F)),
    StableHlo.binary main_v202 main_v188 main_v203 (mulf : (⟨S100000x128, .f32⟩ : BufTy).Contents (Elt F) → (⟨S100000x128, .f32⟩ : BufTy).Contents (Elt F) → (⟨S100000x128, .f32⟩ : BufTy).Contents (Elt F)),
    StableHlo.binary main_v203 main_v198 main_v204 (addf : (⟨S100000x128, .f32⟩ : BufTy).Contents (Elt F) → (⟨S100000x128, .f32⟩ : BufTy).Contents (Elt F) → (⟨S100000x128, .f32⟩ : BufTy).Contents (Elt F)),
    StableHlo.unary main_arg3 main_v205 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v205 main_v206 rfl shapeCasts_S1x128x128_S128x128,
    StableHlo.binary main_v204 main_v206 main_v207 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v208 ((extractStridedSlice S1x128 ![3, 0] · slices_S4x128_S1x128_3_0) : (⟨S4x128, .f32⟩ : BufTy).Contents (Elt F) → (⟨S1x128, .f32⟩ : BufTy).Contents (Elt F)) ]

theorem opsL3a_sub : (opsL3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub ..⟩
theorem opsL3a_fresh : (opsL3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- @main's statements 241 … 282: 69 operations. -/
abbrev opsL3b : List (HloOp τ sig (Elt F)) :=
  [ StableHlo.reshape main_v208 main_v209 rfl shapeCasts_S1x128_S128,
    StableHlo.unary main_v209 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v211 main_v212 (addf : (⟨S100000x128, .f32⟩ : BufTy).Contents (Elt F) → (⟨S100000x128, .f32⟩ : BufTy).Contents (Elt F) → (⟨S100000x128, .f32⟩ : BufTy).Contents (Elt F)),
    StableHlo.TRef.nullary main_call13.cst (constant S_ .f32 0x00000000#32),
    StableHlo.TRef.unary main_call13.cst main_call13.v0 (broadcastInDim S100000x128 ![] bcast_S_S100000x128),
    StableHlo.TRef.binary (.of main_v212) main_call13.v0 main_call13.v1 maximumf,
    StableHlo.unary main_arg5 main_v214 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v217 ((extractStridedSlice S1x128 ![3, 0] · slices_S4x128_S1x128_3_0) : (⟨S4x128, .f32⟩ : BufTy).Contents (Elt F) → (⟨S1x128, .f32⟩ : BufTy).Contents (Elt F)),
    StableHlo.reshape main_v217 main_v218 rfl shapeCasts_S1x128_S128,
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S100000x128 ![0, 1] bcast_S1x128_S100000x128_0_1 : (⟨S1x128, .f32⟩ : BufTy).Contents (Elt F) → (⟨S100000x128, .f32⟩ : BufTy).Contents (Elt F)),
    StableHlo.binary main_v216 main_v220 main_v221 (addf : (⟨S100000x128, .f32⟩ : BufTy).Contents (Elt F) → (⟨S100000x128, .f32⟩ : BufTy).Contents (Elt F) → (⟨S100000x128, .f32⟩ : BufTy).Contents (Elt F)),
    StableHlo.TRef.nullary main_call14.cst (constant S_ .f32 0x00000000#32),
    StableHlo.TRef.unary main_call14.cst main_call14.v0 (broadcastInDim S100000x128 ![] bcast_S_S100000x128),
    StableHlo.TRef.binary (.of main_v221) main_call14.v0 main_call14.v1 maximumf,
    StableHlo.unary main_arg7 main_v223 ((extractStridedSlice S1x128 ![3, 0] · slices_S4x128_S1x128_3_0) : (⟨S4x128, .f32⟩ : BufTy).Contents (Elt F) → (⟨S1x128, .f32⟩ : BufTy).Contents (Elt F)),
    StableHlo.reshape main_v223 main_v224 rfl shapeCasts_S1x128_S128,
    StableHlo.unary main_arg8 main_v225 ((extractStridedSlice S1x128 ![3, 0] · slices_S4x128_S1x128_3_0) : (⟨S4x128, .f32⟩ : BufTy).Contents (Elt F) → (⟨S1x128, .f32⟩ : BufTy).Contents (Elt F)),
    StableHlo.reshape main_v225 main_v226 rfl shapeCasts_S1x128_S128,
    StableHlo.nullary main_cst_29 (constant S_ .f32 0x00000000#32),
    StableHlo.binary main_v222 main_cst_29 main_v227 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v228 (broadcastInDim S128 ![] bcast_S_S128 : (⟨S_, .f32⟩ : BufTy).Contents (Elt F) → (⟨S128, .f32⟩ : BufTy).Contents (Elt F)),
    StableHlo.binary main_v227 main_v228 main_v229 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call15.cst (constant S_ .f32 0x00000000#32),
    StableHlo.TRef.binary (.of main_v222) main_call15.cst main_call15.v0 (fun x v => Host.reduceAdd x v reducesTo_S100000x128_S128_d0 h_S_),
    StableHlo.TRef.unary main_call15.v0 main_call15.v1 (broadcastInDim S1x128 ![1] bcast_S128_S1x128_1),
    StableHlo.TRef.nullary main_call15.cst_0 (constant S_ .f32 0x47C35000#32),
    StableHlo.TRef.unary main_call15.cst_0 main_call15.v2 (broadcastInDim S1x128 ![] bcast_S_S1x128),
    StableHlo.TRef.binary main_call15.v1 main_call15.v2 main_call15.v3 Host.divf,
    StableHlo.TRef.unary main_call15.v3 main_call15.v4 (broadcastInDim S100000x128 ![0, 1] bcast_S1x128_S100000x128_0_1),
    StableHlo.TRef.binary (.of main_v222) main_call15.v4 main_call15.v5 subf,
    StableHlo.TRef.binary main_call15.v5 main_call15.v5 main_call15.v6 mulf,
    StableHlo.TRef.unary (.of main_c_31) main_call15.v7 (sitofp .f32),
    StableHlo.TRef.nullary main_call15.cst_1 (constant S_ .f32 0x47C35000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S100000x128_S128_d0 h_S_),
    StableHlo.TRef.unary main_call15.v8 main_call15.v10 (broadcastInDim S128 ![] bcast_S_S128),
    StableHlo.TRef.binary main_call15.v9 main_call15.v10 main_call15.v11 Host.divf,
    StableHlo.TRef.nullary main_call15.cst_3 (constant S_ .f32 0x00000000#32),
    StableHlo.TRef.binary main_call15.v8 main_call15.cst_3 main_call15.v12 (cmpf .ogt),
    StableHlo.TRef.nullary main_call15.cst_4 (constant S_ .f32 0x7FC00000#32),
    StableHlo.TRef.unary main_call15.cst_4 main_call15.call0.v0 id,
    StableHlo.TRef.unary main_call15.call0.v0 main_call15.call0.v1 (broadcastInDim S128 ![] bcast_S_S128),
    StableHlo.TRef.ternary main_call15.v12 main_call15.v11 main_call15.call0.v1 main_call15.call0.v2 (fun p a b => select (broadcastInDim S128 ![] bcast_S_S128 p) a b),
    StableHlo.unary main_v229 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),
    StableHlo.binary main_v222 main_v232 main_v233 (subf : (⟨S100000x128, .f32⟩ : BufTy).Contents (Elt F) → (⟨S100000x128, .f32⟩ : BufTy).Contents (Elt F) → (⟨S100000x128, .f32⟩ : BufTy).Contents (Elt F)),
    StableHlo.unary main_v224 main_v234 (broadcastInDim S1x128 ![1] bcast_S128_S1x128_1 : (⟨S128, .f32⟩ : BufTy).Contents (Elt F) → (⟨S1x128, .f32⟩ : BufTy).Contents (Elt F)),
    StableHlo.unary main_v234 main_v235 (broadcastInDim S100000x128 ![0, 1] bcast_S1x128_S100000x128_0_1 : (⟨S1x128, .f32⟩ : BufTy).Contents (Elt F) → (⟨S100000x128, .f32⟩ : BufTy).Contents (Elt F)),
    StableHlo.binary main_v235 main_v233 main_v236 (mulf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v237 (broadcastInDim S128 ![] bcast_S_S128 : (⟨S_, .f32⟩ : BufTy).Contents (Elt F) → (⟨S128, .f32⟩ : BufTy).Contents (Elt F)),
    StableHlo.binary main_v230 main_v237 main_v238 (addf : (⟨S128, .f32⟩ : BufTy).Contents (Elt F) → (⟨S128, .f32⟩ : BufTy).Contents (Elt F) → (⟨S128, .f32⟩ : BufTy).Contents (Elt F)),
    StableHlo.unary main_v238 main_v239 (Host.rsqrt : (⟨S128, .f32⟩ : BufTy).Contents (Elt F) → (⟨S128, .f32⟩ : BufTy).Contents (Elt F)),
    StableHlo.unary main_v239 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v241 main_v242 (mulf : (⟨S100000x128, .f32⟩ : BufTy).Contents (Elt F) → (⟨S100000x128, .f32⟩ : BufTy).Contents (Elt F) → (⟨S100000x128, .f32⟩ : BufTy).Contents (Elt F)),
    StableHlo.unary main_v226 main_v243 (broadcastInDim S1x128 ![1] bcast_S128_S1x128_1 : (⟨S128, .f32⟩ : BufTy).Contents (Elt F) → (⟨S1x128, .f32⟩ : BufTy).Contents (Elt F)),
    StableHlo.unary main_v243 main_v244 (broadcastInDim S100000x128 ![0, 1] bcast_S1x128_S100000x128_0_1 : (⟨S1x128, .f32⟩ : BufTy).Contents (Elt F) → (⟨S100000x128, .f32⟩ : BufTy).Contents (Elt F)),
    StableHlo.binary main_v242 main_v244 main_v245 (addf : (⟨S100000x128, .f32⟩ : BufTy).Contents (Elt F) → (⟨S100000x128, .f32⟩ : BufTy).Contents (Elt F) → (⟨S100000x128, .f32⟩ : BufTy).Contents (Elt F)),
    StableHlo.TRef.nullary main_call16.cst (constant S_ .f32 0x00000000#32),
    StableHlo.TRef.unary main_call16.cst main_call16.v0 (broadcastInDim S100000x128 ![] bcast_S_S100000x128),
    StableHlo.TRef.binary (.of main_v245) main_call16.v0 main_call16.v1 maximumf ]

theorem opsL3b_sub : (opsL3b : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem opsL3b_fresh : (opsL3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 283 … 300: 22 operations. -/
abbrev opsTail : List (HloOp τ sig (Elt F)) :=
  [ StableHlo.nullary main_cst_33 (constant S_ .f32 0x00000000#32),
    StableHlo.unary main_cst_33 main_v247 (broadcastInDim S64x128 ![] bcast_S_S64x128 : (⟨S_, .f32⟩ : BufTy).Contents (Elt F) → (⟨S64x128, .f32⟩ : BufTy).Contents (Elt F)),
    StableHlo.unary main_arg2 main_v248 (broadcastInDim S100000x1 ![0] bcast_S100000_S100000x1_0 : (⟨S100000, .i32⟩ : BufTy).Contents (Elt F) → (⟨S100000x1, .i32⟩ : BufTy).Contents (Elt F)),
    StableHlo.ternary main_v247 main_v248 main_v246 main_v249 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.binary main_v249 main_arg10 main_v250 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg11 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S64x128 ![0, 1] bcast_S1x128_S64x128_0_1 : (⟨S1x128, .f32⟩ : BufTy).Contents (Elt F) → (⟨S64x128, .f32⟩ : BufTy).Contents (Elt F)),
    StableHlo.binary main_v250 main_v252 main_v253 (addf : (⟨S64x128, .f32⟩ : BufTy).Contents (Elt F) → (⟨S64x128, .f32⟩ : BufTy).Contents (Elt F) → (⟨S64x128, .f32⟩ : BufTy).Contents (Elt F)),
    StableHlo.TRef.nullary main_call17.cst (constant S_ .f32 0x00000000#32),
    StableHlo.TRef.unary main_call17.cst main_call17.v0 (broadcastInDim S64x128 ![] bcast_S_S64x128),
    StableHlo.TRef.binary (.of main_v253) main_call17.v0 main_call17.v1 maximumf,
    StableHlo.binary main_v254 main_arg12 main_v255 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg13 main_v256 (broadcastInDim S1x64 ![1] bcast_S64_S1x64_1 : (⟨S64, .f32⟩ : BufTy).Contents (Elt F) → (⟨S1x64, .f32⟩ : BufTy).Contents (Elt F)),
    StableHlo.unary main_v256 main_v257 (broadcastInDim S64x64 ![0, 1] bcast_S1x64_S64x64_0_1 : (⟨S1x64, .f32⟩ : BufTy).Contents (Elt F) → (⟨S64x64, .f32⟩ : BufTy).Contents (Elt F)),
    StableHlo.binary main_v255 main_v257 main_v258 (addf : (⟨S64x64, .f32⟩ : BufTy).Contents (Elt F) → (⟨S64x64, .f32⟩ : BufTy).Contents (Elt F) → (⟨S64x64, .f32⟩ : BufTy).Contents (Elt F)),
    StableHlo.TRef.nullary main_call18.cst (constant S_ .f32 0x00000000#32),
    StableHlo.TRef.unary main_call18.cst main_call18.v0 (broadcastInDim S64x64 ![] bcast_S_S64x64),
    StableHlo.TRef.binary (.of main_v258) main_call18.v0 main_call18.v1 maximumf,
    StableHlo.binary main_v259 main_arg14 main_v260 ((fun l r => Host.dotGeneral dot_S64x64_S64x10_S64x10_1_0_0_1_n_n none l r) : (⟨S64x64, .f32⟩ : BufTy).Contents (Elt F) → (⟨S64x10, .f32⟩ : BufTy).Contents (Elt F) → (⟨S64x10, .f32⟩ : BufTy).Contents (Elt F)),
    StableHlo.unary main_arg15 main_v261 (broadcastInDim S1x10 ![1] bcast_S10_S1x10_1 : (⟨S10, .f32⟩ : BufTy).Contents (Elt F) → (⟨S1x10, .f32⟩ : BufTy).Contents (Elt F)),
    StableHlo.unary main_v261 main_v262 (broadcastInDim S64x10 ![0, 1] bcast_S1x10_S64x10_0_1 : (⟨S1x10, .f32⟩ : BufTy).Contents (Elt F) → (⟨S64x10, .f32⟩ : BufTy).Contents (Elt F)),
    StableHlo.binary main_v260 main_v262 main_v263 (addf : (⟨S64x10, .f32⟩ : BufTy).Contents (Elt F) → (⟨S64x10, .f32⟩ : BufTy).Contents (Elt F) → (⟨S64x10, .f32⟩ : BufTy).Contents (Elt F)) ]

theorem opsTail_sub : (opsTail : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsTail_fresh : (opsTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers that the piece's operations write. -/
abbrev opsPre_W : List (Ref sig .tc) := [main_cst, main_v0, main_cst_0, main_v1, main_v2, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v4, main_v5, main_v6, main_v7, main_v8, main_v9, main_v10, main_v11, main_v12, main_v13, main_v14]
set_option maxRecDepth 8192 in
theorem opsPre_writes : (opsPre : List (HloOp τ sig (Elt F))).Forall fun op => op.writes ⊆ (opsPre_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsPre_keep (V : Valuation τ sig (Elt F)) (r : Ref sig .tc) (h : r ∉ opsPre_W) :
    after opsPre V (Proc.devRef .tc r) = V (Proc.devRef .tc r) :=
  after_of_writes_sub opsPre _ opsPre_writes h

/-- The buffers that the piece's operations write. -/
abbrev opsL0a_W : List (Ref sig .tc) := [main_c_1, main_v15, main_v16, main_c_2, main_v17, main_v18, main_v19, main_v20, main_v21, main_cst_3, main_v22, main_v23, main_v24, main_v25, main_v26, main_cst_4, main_v27, main_v28, main_v29, main_v30, main_v31, main_v32, main_v33, main_v34, main_v35, main_v36, main_v37, main_v38, main_call1.cst.ref, main_call1.v0.ref, main_call1.v1.ref, main_v40, main_v41, main_v42, main_v43, main_v44, main_v45, main_v46, main_v47, main_call2.cst.ref, main_call2.v0.ref, main_call2.v1.ref, main_v49, main_v50, main_v51, main_v52]
set_option maxRecDepth 8192 in
theorem opsL0a_writes : (opsL0a : List (HloOp τ sig (Elt F))).Forall fun op => op.writes ⊆ (opsL0a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL0a_keep (V : Valuation τ sig (Elt F)) (r : Ref sig .tc) (h : r ∉ opsL0a_W) :
    after opsL0a V (Proc.devRef .tc r) = V (Proc.devRef .tc r) :=
  after_of_writes_sub opsL0a _ opsL0a_writes h

/-- The buffers that the piece's operations write. -/
abbrev opsL0b_W : List (Ref sig .tc) := [main_cst_5, main_v53, main_cst_6, main_v54, main_v55, main_c_7, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v57, main_v58, main_v59, main_v60, main_v61, main_v62, main_cst_8, main_v63, main_v64, main_v65, main_v66, main_v67, main_v68, main_v69, main_v70, main_v71, main_call4.cst.ref, main_call4.v0.ref, main_call4.v1.ref]
set_option maxRecDepth 8192 in
theorem opsL0b_writes : (opsL0b : List (HloOp τ sig (Elt F))).Forall fun op => op.writes ⊆ (opsL0b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL0b_keep (V : Valuation τ sig (Elt F)) (r : Ref sig .tc) (h : r ∉ opsL0b_W) :
    after opsL0b V (Proc.devRef .tc r) = V (Proc.devRef .tc r) :=
  after_of_writes_sub opsL0b _ opsL0b_writes h

/-- The buffers that the piece's operations write. -/
abbrev opsL1a_W : List (Ref sig .tc) := [main_c_9, main_v73, main_v74, main_c_10, main_v75, main_v76, main_v77, main_v78, main_v79, main_cst_11, main_v80, main_v81, main_v82, main_v83, main_v84, main_cst_12, main_v85, main_v86, main_v87, main_v88, main_v89, main_v90, main_v91, main_v92, main_v93, main_v94, main_v95, main_v96, main_call5.cst.ref, main_call5.v0.ref, main_call5.v1.ref, main_v98, main_v99, main_v100, main_v101, main_v102, main_v103, main_v104]
set_option maxRecDepth 8192 in
theorem opsL1a_writes : (opsL1a : List (HloOp τ sig (Elt F))).Forall fun op => op.writes ⊆ (opsL1a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL1a_keep (V : Valuation τ sig (Elt F)) (r : Ref sig .tc) (h : r ∉ opsL1a_W) :
    after opsL1a V (Proc.devRef .tc r) = V (Proc.devRef .tc r) :=
  after_of_writes_sub opsL1a _ opsL1a_writes h

/-- The buffers that the piece's operations write. -/
abbrev opsL1b_W : List (Ref sig .tc) := [main_v105, main_call6.cst.ref, main_call6.v0.ref, main_call6.v1.ref, main_v107, main_v108, main_v109, main_v110, main_cst_13, main_v111, main_cst_14, main_v112, main_v113, main_c_15, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v115, main_v116, main_v117, main_v118, main_v119, main_v120, main_cst_16, main_v121, main_v122, main_v123, main_v124, main_v125, main_v126, main_v127, main_v128, main_v129, main_call8.cst.ref, main_call8.v0.ref, main_call8.v1.ref]
set_option maxRecDepth 8192 in
theorem opsL1b_writes : (opsL1b : List (HloOp τ sig (Elt F))).Forall fun op => op.writes ⊆ (opsL1b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL1b_keep (V : Valuation τ sig (Elt F)) (r : Ref sig .tc) (h : r ∉ opsL1b_W) :
    after opsL1b V (Proc.devRef .tc r) = V (Proc.devRef .tc r) :=
  after_of_writes_sub opsL1b _ opsL1b_writes h

/-- The buffers that the piece's operations write. -/
abbrev opsL2a_W : List (Ref sig .tc) := [main_c_17, main_v131, main_v132, main_c_18, main_v133, main_v134, main_v135, main_v136, main_v137, main_cst_19, main_v138, main_v139, main_v140, main_v141, main_v142, main_cst_20, main_v143, main_v144, main_v145, main_v146, main_v147, main_v148, main_v149, main_v150, main_v151, main_v152, main_v153, main_v154, main_call9.cst.ref, main_call9.v0.ref, main_call9.v1.ref, main_v156]
set_option maxRecDepth 8192 in
theorem opsL2a_writes : (opsL2a : List (HloOp τ sig (Elt F))).Forall fun op => op.writes ⊆ (opsL2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL2a_keep (V : Valuation τ sig (Elt F)) (r : Ref sig .tc) (h : r ∉ opsL2a_W) :
    after opsL2a V (Proc.devRef .tc r) = V (Proc.devRef .tc r) :=
  after_of_writes_sub opsL2a _ opsL2a_writes h

/-- The buffers that the piece's operations write. -/
abbrev opsL2b_W : List (Ref sig .tc) := [main_v157, main_v158, main_v159, main_v160, main_v161, main_v162, main_v163, main_call10.cst.ref, main_call10.v0.ref, main_call10.v1.ref, main_v165, main_v166, main_v167, main_v168, main_cst_21, main_v169, main_cst_22, main_v170, main_v171, main_c_23, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref, main_v173, main_v174, main_v175, main_v176, main_v177, main_v178, main_cst_24, main_v179, main_v180, main_v181, main_v182, main_v183, main_v184, main_v185, main_v186, main_v187, main_call12.cst.ref, main_call12.v0.ref, main_call12.v1.ref]
set_option maxRecDepth 8192 in
theorem opsL2b_writes : (opsL2b : List (HloOp τ sig (Elt F))).Forall fun op => op.writes ⊆ (opsL2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL2b_keep (V : Valuation τ sig (Elt F)) (r : Ref sig .tc) (h : r ∉ opsL2b_W) :
    after opsL2b V (Proc.devRef .tc r) = V (Proc.devRef .tc r) :=
  after_of_writes_sub opsL2b _ opsL2b_writes h

/-- The buffers that the piece's operations write. -/
abbrev opsL3a_W : List (Ref sig .tc) := [main_c_25, main_v189, main_v190, main_c_26, main_v191, main_v192, main_v193, main_v194, main_v195, main_cst_27, main_v196, main_v197, main_v198, main_v199, main_v200, main_cst_28, main_v201, main_v202, main_v203, main_v204, main_v205, main_v206, main_v207, main_v208]
set_option maxRecDepth 8192 in
theorem opsL3a_writes : (opsL3a : List (HloOp τ sig (Elt F))).Forall fun op => op.writes ⊆ (opsL3a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL3a_keep (V : Valuation τ sig (Elt F)) (r : Ref sig .tc) (h : r ∉ opsL3a_W) :
    after opsL3a V (Proc.devRef .tc r) = V (Proc.devRef .tc r) :=
  after_of_writes_sub opsL3a _ opsL3a_writes h

/-- The buffers that the piece's operations write. -/
abbrev opsL3b_W : List (Ref sig .tc) := [main_v209, main_v210, main_v211, main_v212, main_call13.cst.ref, main_call13.v0.ref, main_call13.v1.ref, main_v214, main_v215, main_v216, main_v217, main_v218, main_v219, main_v220, main_v221, main_call14.cst.ref, main_call14.v0.ref, main_call14.v1.ref, main_v223, main_v224, main_v225, main_v226, main_cst_29, main_v227, main_cst_30, main_v228, main_v229, main_c_31, main_call15.cst.ref, main_call15.v0.ref, main_call15.v1.ref, main_call15.cst_0.ref, main_call15.v2.ref, main_call15.v3.ref, main_call15.v4.ref, main_call15.v5.ref, main_call15.v6.ref, main_call15.v7.ref, main_call15.cst_1.ref, main_call15.v8.ref, main_call15.cst_2.ref, main_call15.v9.ref, main_call15.v10.ref, main_call15.v11.ref, main_call15.cst_3.ref, main_call15.v12.ref, main_call15.cst_4.ref, main_call15.call0.v0.ref, main_call15.call0.v1.ref, main_call15.call0.v2.ref, main_v231, main_v232, main_v233, main_v234, main_v235, main_v236, main_cst_32, main_v237, main_v238, main_v239, main_v240, main_v241, main_v242, main_v243, main_v244, main_v245, main_call16.cst.ref, main_call16.v0.ref, main_call16.v1.ref]
set_option maxRecDepth 8192 in
theorem opsL3b_writes : (opsL3b : List (HloOp τ sig (Elt F))).Forall fun op => op.writes ⊆ (opsL3b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsL3b_keep (V : Valuation τ sig (Elt F)) (r : Ref sig .tc) (h : r ∉ opsL3b_W) :
    after opsL3b V (Proc.devRef .tc r) = V (Proc.devRef .tc r) :=
  after_of_writes_sub opsL3b _ opsL3b_writes h

/-- The buffers that the piece's operations write. -/
abbrev opsTail_W : List (Ref sig .tc) := [main_cst_33, main_v247, main_v248, main_v249, main_v250, main_v251, main_v252, main_v253, main_call17.cst.ref, main_call17.v0.ref, main_call17.v1.ref, main_v255, main_v256, main_v257, main_v258, main_call18.cst.ref, main_call18.v0.ref, main_call18.v1.ref, main_v260, main_v261, main_v262, main_v263]
set_option maxRecDepth 8192 in
theorem opsTail_writes : (opsTail : List (HloOp τ sig (Elt F))).Forall fun op => op.writes ⊆ (opsTail_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the piece does not write keeps its contents through it. -/
theorem opsTail_keep (V : Valuation τ sig (Elt F)) (r : Ref sig .tc) (h : r ∉ opsTail_W) :
    after opsTail V (Proc.devRef .tc r) = V (Proc.devRef .tc r) :=
  after_of_writes_sub opsTail _ opsTail_writes h

/-- A layer's operations: its two pieces in order. -/
abbrev opsL0 : List (HloOp τ sig (Elt F)) := opsL0a ++ opsL0b
@[inherit_doc opsL0] abbrev opsL1 : List (HloOp τ sig (Elt F)) := opsL1a ++ opsL1b
@[inherit_doc opsL0] abbrev opsL2 : List (HloOp τ sig (Elt F)) := opsL2a ++ opsL2b
@[inherit_doc opsL0] abbrev opsL3 : List (HloOp τ sig (Elt F)) := opsL3a ++ opsL3b

/-- @main's 433 operations, in order: prelude, four layers, tail. -/
abbrev ops : List (HloOp τ sig (Elt F)) := opsPre ++ opsL0 ++ opsL1 ++ opsL2 ++ opsL3 ++ opsTail

/-- The fold over a concatenation is the folds in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
theorem main_part0_eq (c : Dev nD) : main_part0 (F := F) c = seq (opsPre ++ opsL0a) := rfl
set_option maxRecDepth 8192 in
set_option maxHeartbeats 4000000 in
theorem main_part1_eq (c : Dev nD) : main_part1 (F := F) c = seq (opsL0b ++ opsL1a) := rfl
set_option maxRecDepth 8192 in
set_option maxHeartbeats 4000000 in
theorem main_part2_eq (c : Dev nD) : main_part2 (F := F) c = seq (opsL1b ++ opsL2a) := rfl
set_option maxRecDepth 8192 in
set_option maxHeartbeats 4000000 in
theorem main_part3_eq (c : Dev nD) : main_part3 (F := F) c = seq (opsL2b ++ opsL3a) := rfl
set_option maxRecDepth 8192 in
set_option maxHeartbeats 4000000 in
theorem main_part4_eq (c : Dev nD) : main_part4 (F := F) c = seq (opsL3b ++ opsTail) := rfl
theorem main_part5_eq (c : Dev nD) : main_part5 (F := F) c = seq [] := rfl

/-- The operation list regrouped by the printed windows. -/
theorem ops_windows : (ops : List (HloOp τ sig (Elt F)))
    = (opsPre ++ opsL0a) ++ ((opsL0b ++ opsL1a) ++ ((opsL1b ++ opsL2a) ++ ((opsL2b ++ opsL3a) ++ ((opsL3b ++ opsTail) ++ [])))) := by
  simp only [ops, opsL0, opsL1, opsL2, opsL3, List.append_assoc, List.append_nil]

/-- @main is the straight line of its operations: each printed window is the line of its two pieces, and lines run one
    after the other are their concatenation run as one. -/
theorem main_eq (c : Dev nD) : main (F := F) c = seq ops := by
  rw [ops_windows]
  simp only [seq_append, ← main_part0_eq c, ← main_part1_eq c, ← main_part2_eq c, ← main_part3_eq c, ← main_part4_eq c,
    ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsL0, opsL1, opsL2, opsL3, List.mem_append, or_assoc] at h
    rcases h with h | h | h | h | h | h | h | h | h | h
    exacts [List.forall_iff_forall_mem.mp opsPre_sub op h, List.forall_iff_forall_mem.mp opsL0a_sub op h,
      List.forall_iff_forall_mem.mp opsL0b_sub op h, List.forall_iff_forall_mem.mp opsL1a_sub op h,
      List.forall_iff_forall_mem.mp opsL1b_sub op h, List.forall_iff_forall_mem.mp opsL2a_sub op h,
      List.forall_iff_forall_mem.mp opsL2b_sub op h, List.forall_iff_forall_mem.mp opsL3a_sub op h,
      List.forall_iff_forall_mem.mp opsL3b_sub op h, List.forall_iff_forall_mem.mp opsTail_sub op h]

theorem ops_fresh : ∀ op ∈ (ops : List (HloOp τ sig (Elt F))), op.fresh = ∅ := fun op h => by
    simp only [ops, opsL0, opsL1, opsL2, opsL3, List.mem_append, or_assoc] at h
    rcases h with h | h | h | h | h | h | h | h | h | h
    exacts [List.forall_iff_forall_mem.mp opsPre_fresh op h, List.forall_iff_forall_mem.mp opsL0a_fresh op h,
      List.forall_iff_forall_mem.mp opsL0b_fresh op h, List.forall_iff_forall_mem.mp opsL1a_fresh op h,
      List.forall_iff_forall_mem.mp opsL1b_fresh op h, List.forall_iff_forall_mem.mp opsL2a_fresh op h,
      List.forall_iff_forall_mem.mp opsL2b_fresh op h, List.forall_iff_forall_mem.mp opsL3a_fresh op h,
      List.forall_iff_forall_mem.mp opsL3b_fresh op h, List.forall_iff_forall_mem.mp opsTail_fresh op h]

/-- On every device, for any float values, from any memory with zero counters: every weakly fair execution of @main
    terminates, and every final state has each buffer at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HandRun

end
-- ==== Proof.RefTerms.lean ====
/-
  The reference computation as pure terms.

  The reference standardises the node features (column mean and biased column variance over the 100000 nodes),
  runs four graph layers, sums the node rows per graph and applies three dense layers.  Each definition below is one
  stretch of that computation written as the composition of its array operations, in the order the program applies
  them, with the outlined functions (the variance, the select behind it, the rectifier) written out in place:

  * meanT   : the column sums divided by the node count, a vector of length 128;
  * devT    : every entry minus its column's mean (the mean here is formed on a 1 x 128 row before it is spread);
  * cntT    : the node count minus a correction given as an integer scalar (the correction is 0 in every use);
  * whereT  : a select between a vector and a spread scalar on a scalar test;
  * varT    : the sum of squared deviations over cntT, kept when cntT is positive, else the spread not-a-number word;
  * colsT   : a vector of length 128 spread down the 100000 rows; reluT: the maximum with the spread zero;
  * stdT    : deviations from the column means over the square roots of the column variances;
  * srcIdxT, dstIdxT : the two rows of the edge list as index columns, a negative source id raised by the node count
                       (the target ids are used as they are);
  * epsT, matT, vecT (w1T, b1T, w2T, b2T, gT, btT) : a layer's piece of a stacked parameter, sliced and reshaped;
  * zT      : (1 + eps) times the features plus the gathered source rows scatter-added at the target ids into zeros;
  * lin2T   : two dense layers (matrix product plus spread bias) with a rectifier after each;
  * bnT     : scale times deviation times the reciprocal root of variance plus 1e-5, plus shift, then the rectifier;
  * layerT  : bnT of lin2T of zT;
  * tailT   : the node rows scatter-added at the graph ids into a 64 x 128 zero array, then three dense layers with a
              rectifier after the first two.
-/
import proofs.«125584_j43164421324859_2_alg».proof.ReferenceIdeal
import Idealize.ShloMosaic.PureOps.Ideal

noncomputable section

namespace Cert.ReferenceIdeal.RefTerms

open Idealize.ShloMosaic
open Cert.ReferenceIdeal.Facts₀

variable [Cert.ReferenceIdeal.Facts₀]

/-- Column sums over the node count. -/
def meanT (z : FVec Ideal S100000x128 .f32) : FVec Ideal S128 .f32 :=
  Host.divf (F := Ideal)
    (Host.reduceAdd (F := Ideal) z (constant (F := Ideal) S_ .f32 0x00000000#32) reducesTo_S100000x128_S128_d0 h_S_)
    (broadcastInDim S128 ![] bcast_S_S128 (constant (F := Ideal) S_ .f32 0x47C35000#32))

/-- Every entry minus its column's mean, the mean formed on a 1 x 128 row. -/
def devT (x : FVec Ideal S100000x128 .f32) : FVec Ideal S100000x128 .f32 :=
  subf x
    (broadcastInDim S100000x128 ![0, 1] bcast_S1x128_S100000x128_0_1
      (Host.divf (F := Ideal)
        (broadcastInDim S1x128 ![1] bcast_S128_S1x128_1
          (Host.reduceAdd (F := Ideal) x (constant (F := Ideal) S_ .f32 0x00000000#32) reducesTo_S100000x128_S128_d0 h_S_))
        (broadcastInDim S1x128 ![] bcast_S_S1x128 (constant (F := Ideal) S_ .f32 0x47C35000#32))))

/-- The node count minus an integer correction. -/
def cntT (c : IVec S_ 32) : FVec Ideal S_ .f32 :=
  subf (constant (F := Ideal) S_ .f32 0x47C35000#32) (sitofp (F := Ideal) .f32 c)

/-- A vector where the scalar test holds, else the scalar spread over the 128 positions. -/
def whereT (p : IVec S_ 1) (a : FVec Ideal S128 .f32) (c : FVec Ideal S_ .f32) : FVec Ideal S128 .f32 :=
  select (broadcastInDim S128 ![] bcast_S_S128 p) a (broadcastInDim S128 ![] bcast_S_S128 (id c))

/-- The biased column variance: squared deviations summed and divided by the count, under the count's positivity test. -/
def varT (x : FVec Ideal S100000x128 .f32) (c : IVec S_ 32) : FVec Ideal S128 .f32 :=
  whereT (cmpf .ogt (cntT c) (constant (F := Ideal) S_ .f32 0x00000000#32))
    (Host.divf (F := Ideal)
      (Host.reduceAdd (F := Ideal) (mulf (devT x) (devT x)) (constant (F := Ideal) S_ .f32 0x00000000#32)
        reducesTo_S100000x128_S128_d0 h_S_)
      (broadcastInDim S128 ![] bcast_S_S128 (cntT c)))
    (constant (F := Ideal) S_ .f32 0x7FC00000#32)

/-- A vector of length 128 spread down the rows. -/
def colsT (v : FVec Ideal S128 .f32) : FVec Ideal S100000x128 .f32 :=
  broadcastInDim S100000x128 ![0, 1] bcast_S1x128_S100000x128_0_1 (broadcastInDim S1x128 ![1] bcast_S128_S1x128_1 v)

/-- The rectifier: the maximum with the spread zero. -/
def reluT (x : FVec Ideal S100000x128 .f32) : FVec Ideal S100000x128 .f32 :=
  maximumf x (broadcastInDim S100000x128 ![] bcast_S_S100000x128 (constant (F := Ideal) S_ .f32 0x00000000#32))

/-- The standardised features. -/
def stdT (x : FVec Ideal S100000x128 .f32) : FVec Ideal S100000x128 .f32 :=
  Host.divf (F := Ideal) (subf x (colsT (meanT x))) (colsT (Host.sqrt (F := Ideal) (varT x (constantI S_ 32 0#32))))

/-- The first row of the edge list (source ids), as a vector. -/
def srcRowT (ei : IVec S2x1600000 32) : IVec S1600000 32 :=
  shapeCast S1600000 (extractStridedSlice S1x1600000 ![0, 0] ei slices_S2x1600000_S1x1600000_0_0)
    shapeCasts_S1x1600000_S1600000

/-- The source ids as an index column, a negative id raised by the node count. -/
def srcIdxT (ei : IVec S2x1600000 32) : IVec S1600000x1 32 :=
  broadcastInDim S1600000x1 ![0] bcast_S1600000_S1600000x1_0
    (select (cmpi .slt (srcRowT ei) (broadcastInDim S1600000 ![] bcast_S_S1600000 (constantI S_ 32 0#32)))
      (addi (srcRowT ei) (broadcastInDim S1600000 ![] bcast_S_S1600000 (constantI S_ 32 100000#32)))
      (srcRowT ei))

/-- The target ids as an index column, as they are. -/
def dstIdxT (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0)
      shapeCasts_S1x1600000_S1600000)

/-- A layer's entry of the stacked scalar parameter. -/
def epsT (off : Fin S4.rank → Nat) (hs : S4.Slices off S1) (e : FVec Ideal S4 .f32) : FVec Ideal S_ .f32 :=
  shapeCast S_ (extractStridedSlice S1 off e hs) shapeCasts_S1_S_

/-- A layer's matrix of a stacked matrix parameter. -/
def matT (off : Fin S4x128x128.rank → Nat) (hs : S4x128x128.Slices off S1x128x128) (W : FVec Ideal S4x128x128 .f32) :
    FVec Ideal S128x128 .f32 :=
  shapeCast S128x128 (extractStridedSlice S1x128x128 off W hs) shapeCasts_S1x128x128_S128x128

/-- A layer's row of a stacked vector parameter. -/
def vecT (off : Fin S4x128.rank → Nat) (hs : S4x128.Slices off S1x128) (v : FVec Ideal S4x128 .f32) : FVec Ideal S128 .f32 :=
  shapeCast S128 (extractStridedSlice S1x128 off v hs) shapeCasts_S1x128_S128

/-- The first dense layer's matrix of a layer. -/
def w1T (off : Fin S4x128x128.rank → Nat) (hs : S4x128x128.Slices off S1x128x128) (W : FVec Ideal S4x128x128 .f32) :
    FVec Ideal S128x128 .f32 := matT off hs W
/-- The second dense layer's matrix of a layer. -/
def w2T (off : Fin S4x128x128.rank → Nat) (hs : S4x128x128.Slices off S1x128x128) (W : FVec Ideal S4x128x128 .f32) :
    FVec Ideal S128x128 .f32 := matT off hs W
/-- The first dense layer's bias of a layer. -/
def b1T (off : Fin S4x128.rank → Nat) (hs : S4x128.Slices off S1x128) (v : FVec Ideal S4x128 .f32) : FVec Ideal S128 .f32 :=
  vecT off hs v
/-- The second dense layer's bias of a layer. -/
def b2T (off : Fin S4x128.rank → Nat) (hs : S4x128.Slices off S1x128) (v : FVec Ideal S4x128 .f32) : FVec Ideal S128 .f32 :=
  vecT off hs v
/-- The normalisation's scale of a layer. -/
def gT (off : Fin S4x128.rank → Nat) (hs : S4x128.Slices off S1x128) (v : FVec Ideal S4x128 .f32) : FVec Ideal S128 .f32 :=
  vecT off hs v
/-- The normalisation's shift of a layer. -/
def btT (off : Fin S4x128.rank → Nat) (hs : S4x128.Slices off S1x128) (v : FVec Ideal S4x128 .f32) : FVec Ideal S128 .f32 :=
  vecT off hs v

/-- The combined input of a layer. -/
def zT (h : FVec Ideal S100000x128 .f32) (ei : IVec S2x1600000 32) (e : FVec Ideal S_ .f32) : FVec Ideal S100000x128 .f32 :=
  addf
    (mulf
      (broadcastInDim S100000x128 ![] bcast_S_S100000x128 (addf (constant (F := Ideal) S_ .f32 0x3F800000#32) e))
      h)
    (Host.scatterAdd (F := Ideal) scatter_S100000x128_S1600000x1_S1600000x128_1_0_0_1
      (broadcastInDim S100000x128 ![] bcast_S_S100000x128 (constant (F := Ideal) S_ .f32 0x00000000#32))
      (dstIdxT ei)
      (Host.gather gather_S100000x128_S1600000x1_S1600000x128_1_0_n_n_0_1_1128 h (srcIdxT ei)))

/-- Two dense layers with a rectifier after each. -/
def lin2T (z : FVec Ideal S100000x128 .f32) (W1 : FVec Ideal S128x128 .f32) (b1 : FVec Ideal S128 .f32)
    (W2 : FVec Ideal S128x128 .f32) (b2 : FVec Ideal S128 .f32) : FVec Ideal S100000x128 .f32 :=
  reluT (addf
    (Host.dotGeneral (F := Ideal) dot_S100000x128_S128x128_S100000x128_1_0_0_1_n_n none
      (reluT (addf (Host.dotGeneral (F := Ideal) dot_S100000x128_S128x128_S100000x128_1_0_0_1_n_n none z W1) (colsT b1)))
      W2)
    (colsT b2))

/-- Batch normalisation with the centred statistics, then the rectifier. -/
def bnT (l : FVec Ideal S100000x128 .f32) (g bt : FVec Ideal S128 .f32) : FVec Ideal S100000x128 .f32 :=
  reluT (addf
    (mulf (mulf (colsT g) (subf l (colsT (meanT l))))
      (colsT (Host.rsqrt (F := Ideal)
        (addf (varT l (constantI S_ 32 0#32))
          (broadcastInDim S128 ![] bcast_S_S128 (constant (F := Ideal) S_ .f32 0x3727C5AC#32))))))
    (colsT bt))

/-- One graph layer, from its input features to its output features. -/
def layerT (h : FVec Ideal S100000x128 .f32) (ei : IVec S2x1600000 32) (e : FVec Ideal S_ .f32)
    (W1 : FVec Ideal S128x128 .f32) (b1 : FVec Ideal S128 .f32) (W2 : FVec Ideal S128x128 .f32)
    (b2 g bt : FVec Ideal S128 .f32) : FVec Ideal S100000x128 .f32 :=
  bnT (lin2T (zT h ei e) W1 b1 W2 b2) g bt

/-- The node rows summed per graph. -/
def poolT (h : FVec Ideal S100000x128 .f32) (batch : IVec S100000 32) : FVec Ideal S64x128 .f32 :=
  Host.scatterAdd (F := Ideal) scatter_S64x128_S100000x1_S100000x128_1_0_0_1
    (broadcastInDim S64x128 ![] bcast_S_S64x128 (constant (F := Ideal) S_ .f32 0x00000000#32))
    (broadcastInDim S100000x1 ![0] bcast_S100000_S100000x1_0 batch)
    h

/-- The three dense layers after pooling, a rectifier after the first two. -/
def headT (p : FVec Ideal S64x128 .f32) (fcw1 : FVec Ideal S128x128 .f32) (fcb1 : FVec Ideal S128 .f32)
    (fcw2 : FVec Ideal S128x64 .f32) (fcb2 : FVec Ideal S64 .f32) (fcw3 : FVec Ideal S64x10 .f32)
    (fcb3 : FVec Ideal S10 .f32) : FVec Ideal S64x10 .f32 :=
  addf
    (Host.dotGeneral (F := Ideal) dot_S64x64_S64x10_S64x10_1_0_0_1_n_n none
      (maximumf
        (addf
          (Host.dotGeneral (F := Ideal) dot_S64x128_S128x64_S64x64_1_0_0_1_n_n none
            (maximumf
              (addf
                (Host.dotGeneral (F := Ideal) dot_S64x128_S128x128_S64x128_1_0_0_1_n_n none p fcw1)
                (broadcastInDim S64x128 ![0, 1] bcast_S1x128_S64x128_0_1 (broadcastInDim S1x128 ![1] bcast_S128_S1x128_1 fcb1)))
              (broadcastInDim S64x128 ![] bcast_S_S64x128 (constant (F := Ideal) S_ .f32 0x00000000#32)))
            fcw2)
          (broadcastInDim S64x64 ![0, 1] bcast_S1x64_S64x64_0_1 (broadcastInDim S1x64 ![1] bcast_S64_S1x64_1 fcb2)))
        (broadcastInDim S64x64 ![] bcast_S_S64x64 (constant (F := Ideal) S_ .f32 0x00000000#32)))
      fcw3)
    (broadcastInDim S64x10 ![0, 1] bcast_S1x10_S64x10_0_1 (broadcastInDim S1x10 ![1] bcast_S10_S1x10_1 fcb3))

/-- From the last layer's output to the result. -/
def tailT (h : FVec Ideal S100000x128 .f32) (batch : IVec S100000 32) (fcw1 : FVec Ideal S128x128 .f32)
    (fcb1 : FVec Ideal S128 .f32) (fcw2 : FVec Ideal S128x64 .f32) (fcb2 : FVec Ideal S64 .f32)
    (fcw3 : FVec Ideal S64x10 .f32) (fcb3 : FVec Ideal S10 .f32) : FVec Ideal S64x10 .f32 :=
  headT (poolT h batch) fcw1 fcb1 fcw2 fcb2 fcw3 fcb3

end Cert.ReferenceIdeal.RefTerms

end
-- ==== Proof.RefRun.lean ====
/-
  The reference program's run, read as the composition of its stages.

  The operation list of @main (433 host operations, the outlined functions unfolded at their calls) is the concatenation of the prelude, four
  graph layers and the tail.  Each stage is read from ANY buffer contents: the prelude leaves the standardised features
  and the two rows of the edge list; a layer, from contents holding those rows, leaves the layer's term (gather,
  scatter-add, the (1 + eps) combination, two dense layers with rectifiers, batch normalisation, rectifier) of its
  input features and of its slices of the stacked parameters; the tail leaves the pooled rows through the three dense
  layers.  No stage writes an argument buffer or the edge rows, so the stages compose: the result buffer ends at
  `outT` of the sixteen arguments' launch contents and the arguments end as they were (`run`).
-/
import proofs.«125584_j43164421324859_2_alg».proof.Proof.RefOps
import proofs.«125584_j43164421324859_2_alg».proof.Proof.RefTerms

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.RefTerms

/-- A device's buffer contents at the extended reals. -/
abbrev VI : Type := Valuation τ sig (Elt Ideal)

/-- The second row of the edge list (target ids), as a vector. -/
def dstRowT (ei : IVec S2x1600000 32) : IVec S1600000 32 :=
  shapeCast S1600000 (extractStridedSlice S1x1600000 ![1, 0] ei slices_S2x1600000_S1x1600000_1_0)
    shapeCasts_S1x1600000_S1600000

/-- The argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15]

/-- What every stage keeps of the launch contents `V`: the arguments as they were, and the two rows of the edge list. -/
def Keeps (V W : VI) : Prop :=
  (∀ r ∈ argRefs, W (Proc.devRef .tc r) = V (Proc.devRef .tc r))
    ∧ W (Proc.devRef .tc main_v12) = srcRowT (V (Proc.devRef .tc main_arg1))
    ∧ W (Proc.devRef .tc main_v14) = dstRowT (V (Proc.devRef .tc main_arg1))

/-- A line of operations that writes none of those buffers keeps them. -/
theorem Keeps.step {V W : VI} (k : Keeps V W) {l : List (HloOp τ sig (Elt Ideal))} {Wr : List (Ref sig .tc)}
    (hw : l.Forall fun op => op.writes ⊆ (Wr.map (Proc.devRef (τ := τ) .tc)).toFinset)
    (hn : ∀ r ∈ main_v12 :: main_v14 :: argRefs, r ∉ Wr) : Keeps V (after l W) :=
  ⟨fun r hr => (after_of_writes_sub l W hw (hn r (List.mem_cons_of_mem _ (List.mem_cons_of_mem _ hr)))).trans (k.1 r hr),
    (after_of_writes_sub l W hw (hn main_v12 List.mem_cons_self)).trans k.2.1,
    (after_of_writes_sub l W hw (hn main_v14 (List.mem_cons_of_mem _ List.mem_cons_self))).trans k.2.2⟩

theorem notW_Pre : ∀ r ∈ argRefs, r ∉ opsPre_W := by decide
theorem notW_L0a : ∀ r ∈ main_v12 :: main_v14 :: argRefs, r ∉ opsL0a_W := by decide
theorem notW_L0b : ∀ r ∈ main_v12 :: main_v14 :: argRefs, r ∉ opsL0b_W := by decide
theorem notW_L1a : ∀ r ∈ main_v12 :: main_v14 :: argRefs, r ∉ opsL1a_W := by decide
theorem notW_L1b : ∀ r ∈ main_v12 :: main_v14 :: argRefs, r ∉ opsL1b_W := by decide
theorem notW_L2a : ∀ r ∈ main_v12 :: main_v14 :: argRefs, r ∉ opsL2a_W := by decide
theorem notW_L2b : ∀ r ∈ main_v12 :: main_v14 :: argRefs, r ∉ opsL2b_W := by decide
theorem notW_L3a : ∀ r ∈ main_v12 :: main_v14 :: argRefs, r ∉ opsL3a_W := by decide
theorem notW_L3b : ∀ r ∈ main_v12 :: main_v14 :: argRefs, r ∉ opsL3b_W := by decide
theorem notW_Tail : ∀ r ∈ main_v12 :: main_v14 :: argRefs, r ∉ opsTail_W := by decide

/-! ## The prelude -/

set_option maxRecDepth 8192 in
/-- The standardised features. -/
theorem pre_v10 (V : VI) : after opsPre V (Proc.devRef .tc main_v10) = stdT (V (Proc.devRef .tc main_arg0)) := by
  simp only [opsPre]
  after_results_simp
  rfl

set_option maxRecDepth 8192 in
/-- The source ids. -/
theorem pre_v12 (V : VI) : after opsPre V (Proc.devRef .tc main_v12) = srcRowT (V (Proc.devRef .tc main_arg1)) := by
  simp only [opsPre]
  after_results_simp
  rfl

set_option maxRecDepth 8192 in
/-- The target ids. -/
theorem pre_v14 (V : VI) : after opsPre V (Proc.devRef .tc main_v14) = dstRowT (V (Proc.devRef .tc main_arg1)) := by
  simp only [opsPre]
  after_results_simp
  rfl

theorem pre_keeps (V : VI) : Keeps V (after opsPre V) :=
  ⟨fun r hr => opsPre_keep V r (notW_Pre r hr), pre_v12 V, pre_v14 V⟩

/-! ## The layers -/

/-- Layer 0 over the stacked parameters: the layer's term at its slices. -/
def layer0T (h : FVec Ideal S100000x128 .f32) (ei : IVec S2x1600000 32) (W1 : FVec Ideal S4x128x128 .f32)
    (b1 : FVec Ideal S4x128 .f32) (W2 : FVec Ideal S4x128x128 .f32) (b2 g bt : FVec Ideal S4x128 .f32)
    (ep : FVec Ideal S4 .f32) : FVec Ideal S100000x128 .f32 :=
  layerT h ei (epsT ![0] slices_S4_S1_0 ep)
    (w1T ![0, 0, 0] slices_S4x128x128_S1x128x128_0_0_0 W1) (b1T ![0, 0] slices_S4x128_S1x128_0_0 b1)
    (w2T ![0, 0, 0] slices_S4x128x128_S1x128x128_0_0_0 W2) (b2T ![0, 0] slices_S4x128_S1x128_0_0 b2)
    (gT ![0, 0] slices_S4x128_S1x128_0_0 g) (btT ![0, 0] slices_S4x128_S1x128_0_0 bt)

/-- Layer 1 over the stacked parameters: the layer's term at its slices. -/
def layer1T (h : FVec Ideal S100000x128 .f32) (ei : IVec S2x1600000 32) (W1 : FVec Ideal S4x128x128 .f32)
    (b1 : FVec Ideal S4x128 .f32) (W2 : FVec Ideal S4x128x128 .f32) (b2 g bt : FVec Ideal S4x128 .f32)
    (ep : FVec Ideal S4 .f32) : FVec Ideal S100000x128 .f32 :=
  layerT h ei (epsT ![1] slices_S4_S1_1 ep)
    (w1T ![1, 0, 0] slices_S4x128x128_S1x128x128_1_0_0 W1) (b1T ![1, 0] slices_S4x128_S1x128_1_0 b1)
    (w2T ![1, 0, 0] slices_S4x128x128_S1x128x128_1_0_0 W2) (b2T ![1, 0] slices_S4x128_S1x128_1_0 b2)
    (gT ![1, 0] slices_S4x128_S1x128_1_0 g) (btT ![1, 0] slices_S4x128_S1x128_1_0 bt)

/-- Layer 2 over the stacked parameters: the layer's term at its slices. -/
def layer2T (h : FVec Ideal S100000x128 .f32) (ei : IVec S2x1600000 32) (W1 : FVec Ideal S4x128x128 .f32)
    (b1 : FVec Ideal S4x128 .f32) (W2 : FVec Ideal S4x128x128 .f32) (b2 g bt : FVec Ideal S4x128 .f32)
    (ep : FVec Ideal S4 .f32) : FVec Ideal S100000x128 .f32 :=
  layerT h ei (epsT ![2] slices_S4_S1_2 ep)
    (w1T ![2, 0, 0] slices_S4x128x128_S1x128x128_2_0_0 W1) (b1T ![2, 0] slices_S4x128_S1x128_2_0 b1)
    (w2T ![2, 0, 0] slices_S4x128x128_S1x128x128_2_0_0 W2) (b2T ![2, 0] slices_S4x128_S1x128_2_0 b2)
    (gT ![2, 0] slices_S4x128_S1x128_2_0 g) (btT ![2, 0] slices_S4x128_S1x128_2_0 bt)

/-- Layer 3 over the stacked parameters: the layer's term at its slices. -/
def layer3T (h : FVec Ideal S100000x128 .f32) (ei : IVec S2x1600000 32) (W1 : FVec Ideal S4x128x128 .f32)
    (b1 : FVec Ideal S4x128 .f32) (W2 : FVec Ideal S4x128x128 .f32) (b2 g bt : FVec Ideal S4x128 .f32)
    (ep : FVec Ideal S4 .f32) : FVec Ideal S100000x128 .f32 :=
  layerT h ei (epsT ![3] slices_S4_S1_3 ep)
    (w1T ![3, 0, 0] slices_S4x128x128_S1x128x128_3_0_0 W1) (b1T ![3, 0] slices_S4x128_S1x128_3_0 b1)
    (w2T ![3, 0, 0] slices_S4x128x128_S1x128x128_3_0_0 W2) (b2T ![3, 0] slices_S4x128_S1x128_3_0 b2)
    (gT ![3, 0] slices_S4x128_S1x128_3_0 g) (btT ![3, 0] slices_S4x128_S1x128_3_0 bt)

set_option maxRecDepth 16384 in
set_option maxHeartbeats 4000000 in
/-- Layer 0, from any contents holding the two rows of the edge list: its output features are the layer's term of its
    input features and of the stacked parameters. -/
theorem layer0_out (W : VI) (ei : IVec S2x1600000 32)
    (h12 : W (Proc.devRef .tc main_v12) = srcRowT ei) (h14 : W (Proc.devRef .tc main_v14) = dstRowT ei) :
    after (opsL0a ++ opsL0b) W (Proc.devRef .tc main_v72) =
      layer0T (W (Proc.devRef .tc main_v10)) ei (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9)) := by
  simp only [opsL0a, opsL0b, List.cons_append, List.nil_append]
  after_results_simp
  simp only [h12, h14]
  rfl

/-- The same from contents that keep the launch's arguments and the edge rows: the parameters are the launch's. -/
theorem layer0_step (V W : VI) (k : Keeps V W) :
    after opsL0b (after opsL0a W) (Proc.devRef .tc main_v72) =
      layer0T (W (Proc.devRef .tc main_v10)) (V (Proc.devRef .tc main_arg1)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) := by
  rw [← after_app, layer0_out W _ k.2.1 k.2.2, k.1 main_arg3 (by decide), k.1 main_arg4 (by decide), k.1 main_arg5 (by decide),
    k.1 main_arg6 (by decide), k.1 main_arg7 (by decide), k.1 main_arg8 (by decide), k.1 main_arg9 (by decide)]

set_option maxRecDepth 16384 in
set_option maxHeartbeats 4000000 in
/-- Layer 1, from any contents holding the two rows of the edge list: its output features are the layer's term of its
    input features and of the stacked parameters. -/
theorem layer1_out (W : VI) (ei : IVec S2x1600000 32)
    (h12 : W (Proc.devRef .tc main_v12) = srcRowT ei) (h14 : W (Proc.devRef .tc main_v14) = dstRowT ei) :
    after (opsL1a ++ opsL1b) W (Proc.devRef .tc main_v130) =
      layer1T (W (Proc.devRef .tc main_v72)) ei (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9)) := by
  simp only [opsL1a, opsL1b, List.cons_append, List.nil_append]
  after_results_simp
  simp only [h12, h14]
  rfl

/-- The same from contents that keep the launch's arguments and the edge rows: the parameters are the launch's. -/
theorem layer1_step (V W : VI) (k : Keeps V W) :
    after opsL1b (after opsL1a W) (Proc.devRef .tc main_v130) =
      layer1T (W (Proc.devRef .tc main_v72)) (V (Proc.devRef .tc main_arg1)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) := by
  rw [← after_app, layer1_out W _ k.2.1 k.2.2, k.1 main_arg3 (by decide), k.1 main_arg4 (by decide), k.1 main_arg5 (by decide),
    k.1 main_arg6 (by decide), k.1 main_arg7 (by decide), k.1 main_arg8 (by decide), k.1 main_arg9 (by decide)]

set_option maxRecDepth 16384 in
set_option maxHeartbeats 4000000 in
/-- Layer 2, from any contents holding the two rows of the edge list: its output features are the layer's term of its
    input features and of the stacked parameters. -/
theorem layer2_out (W : VI) (ei : IVec S2x1600000 32)
    (h12 : W (Proc.devRef .tc main_v12) = srcRowT ei) (h14 : W (Proc.devRef .tc main_v14) = dstRowT ei) :
    after (opsL2a ++ opsL2b) W (Proc.devRef .tc main_v188) =
      layer2T (W (Proc.devRef .tc main_v130)) ei (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9)) := by
  simp only [opsL2a, opsL2b, List.cons_append, List.nil_append]
  after_results_simp
  simp only [h12, h14]
  rfl

/-- The same from contents that keep the launch's arguments and the edge rows: the parameters are the launch's. -/
theorem layer2_step (V W : VI) (k : Keeps V W) :
    after opsL2b (after opsL2a W) (Proc.devRef .tc main_v188) =
      layer2T (W (Proc.devRef .tc main_v130)) (V (Proc.devRef .tc main_arg1)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) := by
  rw [← after_app, layer2_out W _ k.2.1 k.2.2, k.1 main_arg3 (by decide), k.1 main_arg4 (by decide), k.1 main_arg5 (by decide),
    k.1 main_arg6 (by decide), k.1 main_arg7 (by decide), k.1 main_arg8 (by decide), k.1 main_arg9 (by decide)]

set_option maxRecDepth 16384 in
set_option maxHeartbeats 4000000 in
/-- Layer 3, from any contents holding the two rows of the edge list: its output features are the layer's term of its
    input features and of the stacked parameters. -/
theorem layer3_out (W : VI) (ei : IVec S2x1600000 32)
    (h12 : W (Proc.devRef .tc main_v12) = srcRowT ei) (h14 : W (Proc.devRef .tc main_v14) = dstRowT ei) :
    after (opsL3a ++ opsL3b) W (Proc.devRef .tc main_v246) =
      layer3T (W (Proc.devRef .tc main_v188)) ei (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9)) := by
  simp only [opsL3a, opsL3b, List.cons_append, List.nil_append]
  after_results_simp
  simp only [h12, h14]
  rfl

/-- The same from contents that keep the launch's arguments and the edge rows: the parameters are the launch's. -/
theorem layer3_step (V W : VI) (k : Keeps V W) :
    after opsL3b (after opsL3a W) (Proc.devRef .tc main_v246) =
      layer3T (W (Proc.devRef .tc main_v188)) (V (Proc.devRef .tc main_arg1)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) := by
  rw [← after_app, layer3_out W _ k.2.1 k.2.2, k.1 main_arg3 (by decide), k.1 main_arg4 (by decide), k.1 main_arg5 (by decide),
    k.1 main_arg6 (by decide), k.1 main_arg7 (by decide), k.1 main_arg8 (by decide), k.1 main_arg9 (by decide)]

/-! ## The tail -/

set_option maxRecDepth 8192 in
/-- Pooling by graph id and the three dense layers. -/
theorem tail_out (W : VI) :
    after opsTail W (Proc.devRef .tc main_v263) =
      tailT (W (Proc.devRef .tc main_v246)) (W (Proc.devRef .tc main_arg2)) (W (Proc.devRef .tc main_arg10)) (W (Proc.devRef .tc main_arg11)) (W (Proc.devRef .tc main_arg12))
        (W (Proc.devRef .tc main_arg13)) (W (Proc.devRef .tc main_arg14)) (W (Proc.devRef .tc main_arg15)) := by
  simp only [opsTail]
  after_results_simp
  rfl

theorem tail_step (V W : VI) (k : Keeps V W) :
    after opsTail W (Proc.devRef .tc main_v263) =
      tailT (W (Proc.devRef .tc main_v246)) (V (Proc.devRef .tc main_arg2)) (V (Proc.devRef .tc main_arg10)) (V (Proc.devRef .tc main_arg11)) (V (Proc.devRef .tc main_arg12))
        (V (Proc.devRef .tc main_arg13)) (V (Proc.devRef .tc main_arg14)) (V (Proc.devRef .tc main_arg15)) := by
  rw [tail_out, k.1 main_arg2 (by decide), k.1 main_arg10 (by decide), k.1 main_arg11 (by decide), k.1 main_arg12 (by decide),
    k.1 main_arg13 (by decide), k.1 main_arg14 (by decide), k.1 main_arg15 (by decide)]

/-! ## The whole program -/

/-- The reference's result as a term of its sixteen arguments (in @main's order): standardise, four layers, pool, head. -/
def outT (x : FVec Ideal S100000x128 .f32) (ei : IVec S2x1600000 32) (batch : IVec S100000 32) (W1 : FVec Ideal S4x128x128 .f32) (b1 : FVec Ideal S4x128 .f32) (W2 : FVec Ideal S4x128x128 .f32) (b2 : FVec Ideal S4x128 .f32) (g : FVec Ideal S4x128 .f32) (bt : FVec Ideal S4x128 .f32) (ep : FVec Ideal S4 .f32) (fcw1 : FVec Ideal S128x128 .f32) (fcb1 : FVec Ideal S128 .f32) (fcw2 : FVec Ideal S128x64 .f32) (fcb2 : FVec Ideal S64 .f32) (fcw3 : FVec Ideal S64x10 .f32) (fcb3 : FVec Ideal S10 .f32) : FVec Ideal S64x10 .f32 :=
  tailT
    (layer3T (layer2T (layer1T (layer0T (stdT x) ei W1 b1 W2 b2 g bt ep) ei W1 b1 W2 b2 g bt ep) ei W1 b1 W2 b2 g bt ep)
      ei W1 b1 W2 b2 g bt ep)
    batch fcw1 fcb1 fcw2 fcb2 fcw3 fcb3

/-- After the whole line every stage's kept buffers are still the launch's. -/
theorem ops_keeps (V : VI) :
    Keeps V (after opsTail (after opsL3b (after opsL3a (after opsL2b (after opsL2a (after opsL1b (after opsL1a
      (after opsL0b (after opsL0a (after opsPre V)))))))))) :=
  (((((((((pre_keeps V).step opsL0a_writes notW_L0a).step opsL0b_writes notW_L0b).step opsL1a_writes notW_L1a).step
    opsL1b_writes notW_L1b).step opsL2a_writes notW_L2a).step opsL2b_writes notW_L2b).step opsL3a_writes notW_L3a).step
    opsL3b_writes notW_L3b).step opsTail_writes notW_Tail

/-- The result buffer after the whole line. -/
theorem ops_out (V : VI) : after ops V (Proc.devRef .tc main_v263) = outT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [ops, opsL0, opsL1, opsL2, opsL3, after_app]
  have k0 := pre_keeps V
  have k1 := (k0.step opsL0a_writes notW_L0a).step opsL0b_writes notW_L0b
  have k2 := (k1.step opsL1a_writes notW_L1a).step opsL1b_writes notW_L1b
  have k3 := (k2.step opsL2a_writes notW_L2a).step opsL2b_writes notW_L2b
  have k4 := (k3.step opsL3a_writes notW_L3a).step opsL3b_writes notW_L3b
  rw [tail_step V _ k4, layer3_step V _ k3, layer2_step V _ k2, layer1_step V _ k1, layer0_step V _ k0, pre_v10]
  rfl

/-- An argument buffer after the whole line. -/
theorem ops_arg (V : VI) (r : Ref sig .tc) (hr : r ∈ argRefs) : after ops V (Proc.devRef .tc r) = V (Proc.devRef .tc r) := by
  simp only [ops, opsL0, opsL1, opsL2, opsL3, after_app]
  exact (ops_keeps V).1 r hr

/-- On every device, from any memory with zero counters: every weakly fair execution of @main terminates with the result
    buffer at `outT` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v263) = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v263).trans (ops_out (launchContents m c)),
      (h c main_arg0).trans (ops_arg (launchContents m c) main_arg0 (by decide)),
      (h c main_arg1).trans (ops_arg (launchContents m c) main_arg1 (by decide)),
      (h c main_arg2).trans (ops_arg (launchContents m c) main_arg2 (by decide)),
      (h c main_arg3).trans (ops_arg (launchContents m c) main_arg3 (by decide)),
      (h c main_arg4).trans (ops_arg (launchContents m c) main_arg4 (by decide)),
      (h c main_arg5).trans (ops_arg (launchContents m c) main_arg5 (by decide)),
      (h c main_arg6).trans (ops_arg (launchContents m c) main_arg6 (by decide)),
      (h c main_arg7).trans (ops_arg (launchContents m c) main_arg7 (by decide)),
      (h c main_arg8).trans (ops_arg (launchContents m c) main_arg8 (by decide)),
      (h c main_arg9).trans (ops_arg (launchContents m c) main_arg9 (by decide)),
      (h c main_arg10).trans (ops_arg (launchContents m c) main_arg10 (by decide)),
      (h c main_arg11).trans (ops_arg (launchContents m c) main_arg11 (by decide)),
      (h c main_arg12).trans (ops_arg (launchContents m c) main_arg12 (by decide)),
      (h c main_arg13).trans (ops_arg (launchContents m c) main_arg13 (by decide)),
      (h c main_arg14).trans (ops_arg (launchContents m c) main_arg14 (by decide)),
      (h c main_arg15).trans (ops_arg (launchContents m c) main_arg15 (by decide))⟩)
    (run_fold m ρ)

/-- The arguments alone: every weakly fair execution of @main terminates with the sixteen arguments unchanged. -/
theorem run_args (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.ReferenceIdeal.HandRun

end
-- ==== Proof.Spec.lean ====
/-
  The mathematics of the two programs, index by index, over the extended reals.

  A graph-isomorphism layer on n nodes with 128 features: every node adds to (1 + eps) times its own row the rows
  `u e` of the edges `e` that point at it (`dst e`, read signed), passes the result through two dense layers with
  a rectifier each, and batch-normalises each feature over the nodes before a last rectifier.  The normalisation is
  written twice: with the mean and the centred variance (`bnRefF`), and with the sums of the values and of their
  squares, the variance `E[l²] − mean²` clamped at 0, folded into a scale and a shift (`bnKerF`).  On real
  entries the two agree; the file only states them.  Around the layers: the standardisation of the input features
  (`stdF`), the sum of the node rows per graph (`poolF`) and three dense layers (`headF`).
-/
import Idealize.ShloMosaic.PureOps.Ideal
import Idealize.ShloMosaic.Lib.ValueIdx

noncomputable section

namespace Cert.Spec

open Idealize.ShloMosaic Idealize.ShloMosaic.ValueIdx

/-- A matrix of extended reals, by row and column. -/
abbrev Mat (a b : ℕ) : Type := Fin a → Fin b → EReal

/-- A rank-2 array read by row and column. -/
def toMat {a b : ℕ} (v : (⟨2, ![a, b]⟩ : Shape).Idx → EReal) : Mat a b := fun i q => v (ix2 i q)
/-- A rank-1 array read by position. -/
def toVec {a : ℕ} (v : (⟨1, ![a]⟩ : Shape).Idx → EReal) : Fin a → EReal := fun i => v (ix1 i)

/-- The single-precision word of the node count 100000. -/
abbrev nLit : EReal := Ideal.ofBits .f32 0x47C35000#32
/-- The single-precision word nearest 1e-5. -/
abbrev epsLit : EReal := Ideal.ofBits .f32 0x3727C5AC#32
/-- The single-precision word of 1. -/
abbrev oneLit : EReal := Ideal.ofBits .f32 0x3F800000#32

/-- Column mean: the column's sum over the node count. -/
def colMean {n d : ℕ} (z : Mat n d) (q : Fin d) : EReal := Ideal.div (∑ i : Fin n, z i q) nLit
/-- Column variance about the mean (biased): the sum of squared deviations over the node count. -/
def colVar {n d : ℕ} (z : Mat n d) (q : Fin d) : EReal :=
  Ideal.div (∑ i : Fin n, (z i q - colMean z q) * (z i q - colMean z q)) nLit
/-- Standardised features: deviation from the column mean over the column's standard deviation. -/
def stdF {n d : ℕ} (x : Mat n d) : Mat n d := fun i q => Ideal.div (x i q - colMean x q) (Ideal.sqrt (colVar x q))

/-- The rows `u e` of the edges whose target, read signed, is node `i`, summed. -/
def aggF {E n d : ℕ} (u : Mat E d) (dst : Fin E → BitVec 32) : Mat n d :=
  fun i q => ∑ e : Fin E, if (dst e).toInt = (i.val : Int) then u e q else 0
/-- The combined input of a layer: `ope` (= 1 + eps) times the node's row plus its incoming rows. -/
def zF {E n d : ℕ} (ope : EReal) (h : Mat n d) (u : Mat E d) (dst : Fin E → BitVec 32) : Mat n d :=
  fun i q => ope * h i q + aggF u dst i q

/-- A dense layer: row times matrix plus bias. -/
def dense {n a b : ℕ} (x : Mat n a) (W : Mat a b) (bias : Fin b → EReal) : Mat n b :=
  fun i k => (∑ j : Fin a, x i j * W j k) + bias k
/-- The rectifier, entry by entry. -/
def reluM {n a : ℕ} (x : Mat n a) : Mat n a := fun i k => max (x i k) 0
/-- The two dense layers of a graph layer, a rectifier after each. -/
def lin2F {n : ℕ} (z : Mat n 128) (W1 : Mat 128 128) (b1 : Fin 128 → EReal) (W2 : Mat 128 128) (b2 : Fin 128 → EReal) :
    Mat n 128 := reluM (dense (reluM (dense z W1 b1)) W2 b2)

/-- Batch normalisation with the centred statistics, then the rectifier:
    `max (g · (l − mean) · rsqrt (var + ε) + β) 0`. -/
def bnRefF {n : ℕ} (l : Mat n 128) (g bt : Fin 128 → EReal) : Mat n 128 :=
  fun i q => max (g q * (l i q - colMean l q) * Ideal.rsqrt (colVar l q + epsLit) + bt q) 0

/-- Column sum. -/
def sumK {n : ℕ} (l : Mat n 128) (q : Fin 128) : EReal := ∑ i : Fin n, l i q
/-- Column sum of squares. -/
def sumsqK {n : ℕ} (l : Mat n 128) (q : Fin 128) : EReal := ∑ i : Fin n, l i q * l i q
/-- Mean from the column sum. -/
def meanK {n : ℕ} (l : Mat n 128) (q : Fin 128) : EReal := Ideal.div (sumK l q) nLit
/-- Variance as mean of squares minus squared mean, clamped at 0. -/
def varK {n : ℕ} (l : Mat n 128) (q : Fin 128) : EReal :=
  max (Ideal.div (sumsqK l q) nLit - meanK l q * meanK l q) 0
/-- The folded scale `g · rsqrt (var + ε)`. -/
def scaleK {n : ℕ} (l : Mat n 128) (g : Fin 128 → EReal) (q : Fin 128) : EReal := g q * Ideal.rsqrt (varK l q + epsLit)
/-- The folded shift `β − mean · scale`. -/
def shiftK {n : ℕ} (l : Mat n 128) (g bt : Fin 128 → EReal) (q : Fin 128) : EReal := bt q - meanK l q * scaleK l g q
/-- Batch normalisation in the folded form, then the rectifier: `max (l · scale + shift) 0`. -/
def bnKerF {n : ℕ} (l : Mat n 128) (g bt : Fin 128 → EReal) : Mat n 128 :=
  fun i q => max (l i q * scaleK l g q + shiftK l g bt q) 0

/-- One layer, normalised with the centred statistics. -/
def layerRefF {E n : ℕ} (ope : EReal) (h : Mat n 128) (u : Mat E 128) (dst : Fin E → BitVec 32)
    (W1 : Mat 128 128) (b1 : Fin 128 → EReal) (W2 : Mat 128 128) (b2 g bt : Fin 128 → EReal) : Mat n 128 :=
  bnRefF (lin2F (zF ope h u dst) W1 b1 W2 b2) g bt
/-- One layer, normalised in the folded form. -/
def layerKerF {E n : ℕ} (ope : EReal) (h : Mat n 128) (u : Mat E 128) (dst : Fin E → BitVec 32)
    (W1 : Mat 128 128) (b1 : Fin 128 → EReal) (W2 : Mat 128 128) (b2 g bt : Fin 128 → EReal) : Mat n 128 :=
  bnKerF (lin2F (zF ope h u dst) W1 b1 W2 b2) g bt

/-- The node rows of each graph, summed: node `i` belongs to graph `batch i`, read signed. -/
def poolF {n G d : ℕ} (h : Mat n d) (batch : Fin n → BitVec 32) : Mat G d :=
  fun g q => ∑ i : Fin n, if (batch i).toInt = (g.val : Int) then h i q else 0

/-- The three dense layers after pooling, a rectifier after the first two. -/
def headF {G : ℕ} (p : Mat G 128) (w1 : Mat 128 128) (c1 : Fin 128 → EReal) (w2 : Mat 128 64) (c2 : Fin 64 → EReal)
    (w3 : Mat 64 10) (c3 : Fin 10 → EReal) : Mat G 10 :=
  dense (reluM (dense (reluM (dense p w1 c1)) w2 c2)) w3 c3

end Cert.Spec

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.LibBnFold.lean ====
/-
  The folded inference BatchNorm on the extended reals.

  An inference BatchNorm applied to a biased product, g * ((z + b) - m) * rho + beta with rho = 1 / sqrt (v + eps), is
  commonly evaluated as ONE affine map s * z + t whose scale s = g * rho and shift t = (beta - s * m) + s * b are
  formed once, ahead of the product. Over the reals the two forms agree by distributivity. Over the extended reals
  distributivity fails as soon as a factor is infinite (0 * top = 0 and bot + top = bot), so the identity below asks
  every quantity to be a real number. The only quantity that is not an input is rho, and rho is real exactly when
  v + eps is positive: at v + eps = 0 it is top, below that it is the junk value bot. `fold_ne_of_scale_top` shows
  that the hypothesis cannot be dropped: at rho = top the two forms take the values bot and top.
-/
import Idealize.ShloMosaic.PureOps.Ideal

noncomputable section

namespace Idealize.ShloMosaic.BnFold

open Idealize.ShloMosaic

/-- The reciprocal square root of a positive real is the real (sqrt x)⁻¹. -/
theorem rsqrt_of_pos {x : ℝ} (hx : 0 < x) :
    Ideal.rsqrt (x : EReal) = (((Real.sqrt x)⁻¹ : ℝ) : EReal) := by
  rw [Ideal.rsqrt_coe, if_neg (not_lt.2 hx.le), if_neg hx.ne']

/-- With a non-negative variance and a positive epsilon the normalising factor 1 / sqrt (v + eps) is a real, the sum
    being taken on the extended reals as a program takes it. -/
theorem rsqrt_var_add_eps {v eps : ℝ} (hv : 0 ≤ v) (heps : 0 < eps) :
    Ideal.rsqrt ((v : EReal) + (eps : EReal)) = (((Real.sqrt (v + eps))⁻¹ : ℝ) : EReal) := by
  rw [← EReal.coe_add]
  exact rsqrt_of_pos (add_pos_of_nonneg_of_pos hv heps)

/-- That factor is positive. -/
theorem inv_sqrt_pos {v eps : ℝ} (hv : 0 ≤ v) (heps : 0 < eps) : 0 < (Real.sqrt (v + eps))⁻¹ :=
  inv_pos.2 (Real.sqrt_pos.2 (add_pos_of_nonneg_of_pos hv heps))

/-- THE FOLD. For real g, rho, z, b, m, beta the affine form with scale g * rho and shift
    (beta - (g * rho) * m) + (g * rho) * b is the BatchNorm (g * ((z + b) - m)) * rho + beta, every operation read on
    the extended reals in the order written. -/
theorem fold_eq (g rho z b m beta : ℝ) :
    ((g : EReal) * (rho : EReal)) * (z : EReal)
        + (((beta : EReal) - ((g : EReal) * (rho : EReal)) * (m : EReal)) + ((g : EReal) * (rho : EReal)) * (b : EReal))
      = ((g : EReal) * (((z : EReal) + (b : EReal)) - (m : EReal))) * (rho : EReal) + (beta : EReal) := by
  simp only [← EReal.coe_mul, ← EReal.coe_add, ← EReal.coe_sub]
  congr 1
  ring

/-- The same with the result named: both forms are the real g * ((z + b) - m) * rho + beta. -/
theorem fold_eq_coe (g rho z b m beta : ℝ) :
    ((g : EReal) * (rho : EReal)) * (z : EReal)
        + (((beta : EReal) - ((g : EReal) * (rho : EReal)) * (m : EReal)) + ((g : EReal) * (rho : EReal)) * (b : EReal))
      = ((g * ((z + b) - m) * rho + beta : ℝ) : EReal) := by
  rw [fold_eq]
  simp only [← EReal.coe_mul, ← EReal.coe_add, ← EReal.coe_sub]

/-- A rectifier keeps a real a real. -/
theorem max_zero_coe (x : ℝ) : max (x : EReal) 0 = ((max x 0 : ℝ) : EReal) := by
  rw [← EReal.coe_zero]
  exact (EReal.coe_strictMono.monotone.map_max).symm

/-- ONE LAYER. With a non-negative variance and a positive epsilon, the rectified affine form — scale g * rho, shift
    (beta - (g * rho) * m) + (g * rho) * b, the scale formed from rho = 1 / sqrt (v + eps) as a program forms it — is the
    rectified BatchNorm, and both are the real max (g * ((z + b) - m) / sqrt (v + eps) + beta) 0. -/
theorem layer_eq (g z b m beta v eps : ℝ) (hv : 0 ≤ v) (heps : 0 < eps) :
    max ((((g : EReal) * Ideal.rsqrt ((v : EReal) + (eps : EReal))) * (z : EReal))
          + (((beta : EReal) - ((g : EReal) * Ideal.rsqrt ((v : EReal) + (eps : EReal))) * (m : EReal))
              + ((g : EReal) * Ideal.rsqrt ((v : EReal) + (eps : EReal))) * (b : EReal))) 0
      = max (((g : EReal) * (((z : EReal) + (b : EReal)) - (m : EReal))) * Ideal.rsqrt ((v : EReal) + (eps : EReal)) + (beta : EReal)) 0 := by
  rw [rsqrt_var_add_eps hv heps, fold_eq]

/-- Its value, named. -/
theorem layer_eq_coe (g z b m beta v eps : ℝ) (hv : 0 ≤ v) (heps : 0 < eps) :
    max (((g : EReal) * (((z : EReal) + (b : EReal)) - (m : EReal))) * Ideal.rsqrt ((v : EReal) + (eps : EReal)) + (beta : EReal)) 0
      = ((max (g * ((z + b) - m) * (Real.sqrt (v + eps))⁻¹ + beta) 0 : ℝ) : EReal) := by
  rw [rsqrt_var_add_eps hv heps, ← max_zero_coe]
  simp only [← EReal.coe_mul, ← EReal.coe_add, ← EReal.coe_sub]

/-- The f32 word a program carries for the epsilon 1e-5 denotes a positive real, 10995116 / 2^40. -/
theorem eps_1e5 : Ideal.ofBits .f32 0x3727C5AC#32 = (((10995116 : ℝ) / 2 ^ 40 : ℝ) : EReal) ∧ (0 : ℝ) < (10995116 : ℝ) / 2 ^ 40 := by
  refine ⟨?_, by positivity⟩
  simp [Ideal.ofBits, Ideal.ieee]
  norm_num
  rw [← EReal.coe_mul]
  norm_num

/-- The hypothesis "rho is a real" cannot be dropped. At rho = top (a variance with v + eps = 0), with g = 1, z = 0,
    m = 1, b = 3, beta = 0, the affine form is top * 0 + ((0 - top * 1) + top * 3) = 0 + (bot + top) = bot, while the
    BatchNorm is (1 * ((0 + 3) - 1)) * top + 0 = 2 * top = top. -/
theorem fold_ne_of_scale_top :
    (((1 : ℝ) : EReal) * ⊤) * ((0 : ℝ) : EReal)
        + ((((0 : ℝ) : EReal) - (((1 : ℝ) : EReal) * ⊤) * ((1 : ℝ) : EReal)) + (((1 : ℝ) : EReal) * ⊤) * ((3 : ℝ) : EReal))
      ≠ (((1 : ℝ) : EReal) * ((((0 : ℝ) : EReal) + ((3 : ℝ) : EReal)) - ((1 : ℝ) : EReal))) * ⊤ + ((0 : ℝ) : EReal) := by
  have ht : ((1 : ℝ) : EReal) * ⊤ = ⊤ := EReal.coe_mul_top_of_pos one_pos
  have h0 : (⊤ : EReal) * ((0 : ℝ) : EReal) = 0 := by rw [EReal.coe_zero, mul_zero]
  have h1 : (⊤ : EReal) * ((1 : ℝ) : EReal) = ⊤ := EReal.top_mul_coe_of_pos one_pos
  have h3 : (⊤ : EReal) * ((3 : ℝ) : EReal) = ⊤ := EReal.top_mul_coe_of_pos (by norm_num)
  have hs : ((0 : ℝ) : EReal) - ⊤ = ⊥ := by rw [EReal.coe_zero, zero_sub, EReal.neg_top]
  have hb : (⊥ : EReal) + ⊤ = ⊥ := EReal.bot_add _
  have hr : ((1 : ℝ) : EReal) * ((((0 : ℝ) : EReal) + ((3 : ℝ) : EReal)) - ((1 : ℝ) : EReal)) = ((2 : ℝ) : EReal) := by
    rw [← EReal.coe_add, ← EReal.coe_sub, ← EReal.coe_mul]; norm_num
  have h2t : ((2 : ℝ) : EReal) * ⊤ = ⊤ := EReal.coe_mul_top_of_pos (by norm_num)
  rw [ht, h0, h1, h3, hs, hb, zero_add, hr, h2t, EReal.coe_zero, add_zero]
  exact bot_lt_top.ne

end Idealize.ShloMosaic.BnFold

end
-- ==== Proof.LibTiles.lean ====
/-
  Sums over a batch cut into equal tiles.

  A batch of N = T · R rows cut into T tiles of R rows: summing each tile and then the tiles' sums is summing the batch,
  in any commutative monoid.  Row r of tile t is row t · R + r of the batch.
-/
import Mathlib.Algebra.BigOperators.Fin
import Mathlib.Logic.Equiv.Fin.Basic
import Mathlib.Algebra.BigOperators.Group.Finset.Basic
import Mathlib.Tactic.Ring
import Mathlib.Tactic.Linarith

namespace Cert.Tiles

/-- Row r of tile t lies in the batch. -/
theorem tile_lt {T R N : ℕ} (hN : T * R = N) (t : Fin T) (r : Fin R) : t.val * R + r.val < N := by
  have ht := t.isLt
  have hr := r.isLt
  calc t.val * R + r.val < t.val * R + R := by omega
    _ = (t.val + 1) * R := by ring
    _ ≤ T * R := Nat.mul_le_mul_right R ht
    _ = N := hN

/-- Row r of tile t as a row of the batch. -/
def row {T R N : ℕ} (hN : T * R = N) (t : Fin T) (r : Fin R) : Fin N := ⟨t.val * R + r.val, tile_lt hN t r⟩

/-- The tiles' sums add up to the batch's sum. -/
theorem sum_tiles {M : Type*} [AddCommMonoid M] {T R N : ℕ} (hN : T * R = N) (f : Fin N → M) :
    ∑ t : Fin T, ∑ r : Fin R, f (row hN t r) = ∑ i : Fin N, f i := by
  subst hN
  rw [← Equiv.sum_comp finProdFinEquiv f, Fintype.sum_prod_type]
  refine Finset.sum_congr rfl fun t _ => Finset.sum_congr rfl fun r _ => congrArg f (Fin.ext ?_)
  show t.val * R + r.val = r.val + R * t.val
  ring

end Cert.Tiles
-- ==== Proof.Bridge.lean ====
/-
  The batch normalisation written with the centred statistics and the one written with the sums of the values and of
  their squares agree on real entries, and every stage of a layer keeps real entries real.

  Everything is over functions on Fin with values in the extended reals.  The extended reals carry two infinities
  (top + bot = bot, 0 * top = 0, a quotient by 0 is an infinity), so the reals' laws hold only where every entry is the
  coercion of a real: each statement carries real witnesses, rewrites every quantity to a coercion, and ends in an
  identity of the reals.

  The heart: for reals l_1 .. l_N with s = sum l_i and m = s / N (N the number of rows, N > 0),
      sum l_i^2 / N - m^2 = sum (l_i - m)^2 / N >= 0,
  so the clamp at 0 of the left side is the identity; with a positive epsilon the reciprocal square root of
  variance + epsilon is a positive real rho, and  l * (g * rho) + (beta - m * (g * rho)) = g * (l - m) * rho + beta.
-/
import proofs.«125584_j43164421324859_2_alg».proof.Proof.Spec
import proofs.«125584_j43164421324859_2_alg».proof.Proof.LibRealOps
import proofs.«125584_j43164421324859_2_alg».proof.Proof.LibBnFold
import proofs.«125584_j43164421324859_2_alg».proof.Proof.LibTiles
import Idealize.ShloMosaic.PureOps.Ideal

noncomputable section

namespace Cert.Bridge

open Idealize.ShloMosaic Cert.Spec

/-- Every entry of a matrix is a real number. -/
def RealM {a b : ℕ} (x : Cert.Spec.Mat a b) : Prop := ∀ i q, ∃ r : ℝ, x i q = (r : EReal)
/-- Every entry of a vector is a real number. -/
def RealV {a : ℕ} (v : Fin a → EReal) : Prop := ∀ i, ∃ r : ℝ, v i = (r : EReal)

/-- The word 0x47C35000 denotes 100000 = (2^23 + 4411392) * 2^(16 - 23). -/
theorem nLit_eq : Cert.Spec.nLit = ((100000 : ℝ) : EReal) := by
  simp [Ideal.ofBits, Ideal.ieee, -EReal.coe_mul]; norm_num

/-- The word 0x3F800000 denotes 1. -/
theorem oneLit_eq : Cert.Spec.oneLit = ((1 : ℝ) : EReal) := by
  simp [Ideal.ofBits, Ideal.ieee, -EReal.coe_mul]; norm_num

/-- Twenty tiles of 5000 rows, each tile's sum placed in the first of eight slots and zeros in the other seven: the
    slots add up to the sum over all 100000 rows. -/
theorem tiles_total (f : Fin 100000 → EReal) :
    ∑ t : Fin 20, ∑ s : Fin 8,
        (if s.val = 0 then ∑ r : Fin 5000, f (Cert.Tiles.row (by norm_num : 20 * 5000 = 100000) t r) else 0)
      = ∑ i : Fin 100000, f i := by
  rw [← Cert.Tiles.sum_tiles (by norm_num : 20 * 5000 = 100000) f]
  refine Finset.sum_congr rfl fun t _ => ?_
  rw [Fin.sum_univ_succ]
  simp

/-! ## Identities of the reals -/

/-- The sum of squared deviations from any m, expanded. -/
theorem sum_sq_dev {n : ℕ} (l : Fin n → ℝ) (m : ℝ) :
    ∑ i : Fin n, (l i - m) * (l i - m) = (∑ i : Fin n, l i * l i) - 2 * m * (∑ i : Fin n, l i) + (n : ℝ) * (m * m) := by
  have h : ∀ i : Fin n, (l i - m) * (l i - m) = l i * l i - 2 * m * l i + m * m := fun i => by ring
  simp only [h]
  rw [Finset.sum_add_distrib, Finset.sum_sub_distrib, ← Finset.mul_sum, Finset.sum_const, Finset.card_univ,
    Fintype.card_fin, nsmul_eq_mul]

/-- Mean of squares minus squared mean is the mean squared deviation, when N is the number of rows. -/
theorem var_identity {n : ℕ} (l : Fin n → ℝ) (N : ℝ) (hN : (n : ℝ) = N) (hN0 : N ≠ 0) :
    (∑ i : Fin n, l i * l i) / N - ((∑ i : Fin n, l i) / N) * ((∑ i : Fin n, l i) / N)
      = (∑ i : Fin n, (l i - (∑ i : Fin n, l i) / N) * (l i - (∑ i : Fin n, l i) / N)) / N := by
  rw [sum_sq_dev, hN]
  field_simp
  ring

/-- The mean squared deviation is non-negative. -/
theorem var_nonneg {n : ℕ} (l : Fin n → ℝ) (m N : ℝ) (hN : 0 ≤ N) :
    0 ≤ (∑ i : Fin n, (l i - m) * (l i - m)) / N :=
  div_nonneg (Finset.sum_nonneg fun i _ => mul_self_nonneg _) hN

/-- The folded affine form is the normalisation. -/
theorem fold_real (l g rho m beta : ℝ) : l * (g * rho) + (beta - m * (g * rho)) = g * (l - m) * rho + beta := by
  ring

/-! ## Real matrices inside the extended reals -/

/-- A matrix of real entries is the coercion of a real matrix. -/
theorem RealM.eq_coe {a b : ℕ} {x : Cert.Spec.Mat a b} (hx : RealM x) :
    ∃ xr : Fin a → Fin b → ℝ, x = fun i q => (xr i q : EReal) := by
  choose xr hxr using hx
  exact ⟨xr, funext fun i => funext fun q => hxr i q⟩

/-- A vector of real entries is the coercion of a real vector. -/
theorem RealV.eq_coe {a : ℕ} {v : Fin a → EReal} (hv : RealV v) :
    ∃ vr : Fin a → ℝ, v = fun i => (vr i : EReal) := by
  choose vr hvr using hv
  exact ⟨vr, funext fun i => hvr i⟩

/-- The epsilon word denotes the positive real 10995116 / 2^40. -/
theorem epsLit_eq : Cert.Spec.epsLit = (((10995116 : ℝ) / 2 ^ 40 : ℝ) : EReal) := BnFold.eps_1e5.1

/-- The real column mean: the column's sum over 100000. -/
def rmean {n d : ℕ} (x : Fin n → Fin d → ℝ) (q : Fin d) : ℝ := (∑ i : Fin n, x i q) / 100000
/-- The real column variance about the mean: the sum of squared deviations over 100000. -/
def rvar {n d : ℕ} (x : Fin n → Fin d → ℝ) (q : Fin d) : ℝ :=
  (∑ i : Fin n, (x i q - rmean x q) * (x i q - rmean x q)) / 100000

theorem rvar_nonneg {n d : ℕ} (x : Fin n → Fin d → ℝ) (q : Fin d) : 0 ≤ rvar x q :=
  var_nonneg _ _ _ (by norm_num)

/-- The column mean of a real matrix is the real column mean. -/
theorem colMean_coe {n d : ℕ} (x : Fin n → Fin d → ℝ) (q : Fin d) :
    colMean (fun i q => (x i q : EReal)) q = ((rmean x q : ℝ) : EReal) := by
  show Ideal.div (∑ i : Fin n, (x i q : EReal)) nLit = _
  rw [nLit_eq, ← RealOps.coe_sum, RealOps.div_coe_coe _ (by norm_num)]
  rfl

/-- The column variance of a real matrix is the real column variance. -/
theorem colVar_coe {n d : ℕ} (x : Fin n → Fin d → ℝ) (q : Fin d) :
    colVar (fun i q => (x i q : EReal)) q = ((rvar x q : ℝ) : EReal) := by
  show Ideal.div (∑ i : Fin n, ((x i q : EReal) - colMean (fun i q => (x i q : EReal)) q)
      * ((x i q : EReal) - colMean (fun i q => (x i q : EReal)) q)) nLit = _
  rw [colMean_coe, nLit_eq]
  simp only [← EReal.coe_sub, ← EReal.coe_mul]
  rw [← RealOps.coe_sum, RealOps.div_coe_coe _ (by norm_num)]
  rfl

/-- The mean from the column sum is the same real mean. -/
theorem meanK_coe {n : ℕ} (x : Fin n → Fin 128 → ℝ) (q : Fin 128) :
    meanK (fun i q => (x i q : EReal)) q = ((rmean x q : ℝ) : EReal) := colMean_coe x q

/-- With 100000 rows the clamped variance from the sums is the centred variance: the clamp is the identity. -/
theorem varK_coe (x : Fin 100000 → Fin 128 → ℝ) (q : Fin 128) :
    varK (fun i q => (x i q : EReal)) q = ((rvar x q : ℝ) : EReal) := by
  show max (Ideal.div (∑ i : Fin 100000, (x i q : EReal) * (x i q : EReal)) nLit
      - meanK (fun i q => (x i q : EReal)) q * meanK (fun i q => (x i q : EReal)) q) 0 = _
  rw [meanK_coe, nLit_eq, RealOps.sum_mul_coe, RealOps.div_coe_coe _ (by norm_num), ← EReal.coe_mul, ← EReal.coe_sub,
    BnFold.max_zero_coe]
  congr 1
  have h : (∑ i : Fin 100000, x i q * x i q) / 100000 - rmean x q * rmean x q = rvar x q :=
    var_identity (fun i => x i q) 100000 (by norm_num) (by norm_num)
  rw [h]
  exact max_eq_left (rvar_nonneg x q)

/-! ## The two normalisations -/

/-- The value both normalisations take at a real matrix: the real
    max (g * (l - mean) / sqrt (var + eps) + beta) 0. -/
def rbn (l : Fin 100000 → Fin 128 → ℝ) (g bt : Fin 128 → ℝ) (i : Fin 100000) (q : Fin 128) : ℝ :=
  max (g q * (l i q - rmean l q) * (Real.sqrt (rvar l q + (10995116 : ℝ) / 2 ^ 40))⁻¹ + bt q) 0

/-- The normalisation with the centred statistics, on real entries. -/
theorem bnRefF_coe (l : Fin 100000 → Fin 128 → ℝ) (g bt : Fin 128 → ℝ) (i : Fin 100000) (q : Fin 128) :
    bnRefF (fun i q => (l i q : EReal)) (fun q => (g q : EReal)) (fun q => (bt q : EReal)) i q
      = ((rbn l g bt i q : ℝ) : EReal) := by
  show max ((g q : EReal) * ((l i q : EReal) - colMean (fun i q => (l i q : EReal)) q)
      * Ideal.rsqrt (colVar (fun i q => (l i q : EReal)) q + epsLit) + (bt q : EReal)) 0 = _
  rw [colMean_coe, colVar_coe, epsLit_eq, BnFold.rsqrt_var_add_eps (rvar_nonneg l q) BnFold.eps_1e5.2]
  simp only [← EReal.coe_mul, ← EReal.coe_add, ← EReal.coe_sub]
  rw [BnFold.max_zero_coe]
  rfl

/-- The folded normalisation, on real entries: the same real. -/
theorem bnKerF_coe (l : Fin 100000 → Fin 128 → ℝ) (g bt : Fin 128 → ℝ) (i : Fin 100000) (q : Fin 128) :
    bnKerF (fun i q => (l i q : EReal)) (fun q => (g q : EReal)) (fun q => (bt q : EReal)) i q
      = ((rbn l g bt i q : ℝ) : EReal) := by
  show max ((l i q : EReal) * ((g q : EReal) * Ideal.rsqrt (varK (fun i q => (l i q : EReal)) q + epsLit))
      + ((bt q : EReal) - meanK (fun i q => (l i q : EReal)) q
          * ((g q : EReal) * Ideal.rsqrt (varK (fun i q => (l i q : EReal)) q + epsLit)))) 0 = _
  rw [varK_coe, meanK_coe, epsLit_eq, BnFold.rsqrt_var_add_eps (rvar_nonneg l q) BnFold.eps_1e5.2]
  simp only [← EReal.coe_mul, ← EReal.coe_add, ← EReal.coe_sub]
  rw [BnFold.max_zero_coe, fold_real]
  rfl

/-- On real entries the folded normalisation is the centred one. -/
theorem bn_agree (l : Cert.Spec.Mat 100000 128) (hl : RealM l) (g bt : Fin 128 → EReal) (hg : RealV g) (hbt : RealV bt) :
    Cert.Spec.bnKerF l g bt = Cert.Spec.bnRefF l g bt := by
  obtain ⟨lr, rfl⟩ := hl.eq_coe
  obtain ⟨gr, rfl⟩ := hg.eq_coe
  obtain ⟨br, rfl⟩ := hbt.eq_coe
  funext i q
  rw [bnKerF_coe, bnRefF_coe]

/-- On real entries the normalised matrix has real entries. -/
theorem bnRef_real (l : Cert.Spec.Mat 100000 128) (hl : RealM l) (g bt : Fin 128 → EReal) (hg : RealV g)
    (hbt : RealV bt) : RealM (Cert.Spec.bnRefF l g bt) := by
  obtain ⟨lr, rfl⟩ := hl.eq_coe
  obtain ⟨gr, rfl⟩ := hg.eq_coe
  obtain ⟨br, rfl⟩ := hbt.eq_coe
  intro i q
  exact ⟨_, bnRefF_coe lr gr br i q⟩

/-! ## The stages of a layer keep real entries real -/

/-- With a positive sum of squared deviations in every column, the standardised features are real: the standard
    deviation is a positive real, so the quotient is the reals'. -/
theorem std_real (x : Cert.Spec.Mat 100000 128) (hx : RealM x)
    (hv : ∀ q : Fin 128, (0 : EReal) < ∑ i : Fin 100000,
      (x i q - Cert.Spec.colMean x q) * (x i q - Cert.Spec.colMean x q)) :
    RealM (Cert.Spec.stdF x) := by
  obtain ⟨xr, rfl⟩ := hx.eq_coe
  intro i q
  have hq : (0 : EReal) < ∑ i : Fin 100000, ((xr i q : EReal) - colMean (fun i q => (xr i q : EReal)) q)
      * ((xr i q : EReal) - colMean (fun i q => (xr i q : EReal)) q) := hv q
  rw [colMean_coe] at hq
  simp only [← EReal.coe_sub, ← EReal.coe_mul] at hq
  rw [← RealOps.coe_sum, EReal.coe_pos] at hq
  have hvar : 0 < rvar xr q := div_pos hq (by norm_num)
  refine ⟨(xr i q - rmean xr q) / Real.sqrt (rvar xr q), ?_⟩
  show Ideal.div ((xr i q : EReal) - colMean (fun i q => (xr i q : EReal)) q)
      (Ideal.sqrt (colVar (fun i q => (xr i q : EReal)) q)) = _
  rw [colMean_coe, colVar_coe, RealOps.sqrt_coe_of_nonneg (rvar_nonneg xr q), ← EReal.coe_sub,
    RealOps.div_coe_coe _ (Real.sqrt_pos.2 hvar).ne']

/-- The incoming rows of a node, summed, on real entries. -/
theorem aggF_coe {E n d : ℕ} (u : Fin E → Fin d → ℝ) (dst : Fin E → BitVec 32) (i : Fin n) (q : Fin d) :
    aggF (fun e q => (u e q : EReal)) dst i q
      = ((∑ e : Fin E, if (dst e).toInt = (i.val : Int) then u e q else 0 : ℝ) : EReal) := by
  show (∑ e : Fin E, if (dst e).toInt = (i.val : Int) then (u e q : EReal) else 0) = _
  rw [RealOps.coe_sum]
  refine Finset.sum_congr rfl fun e _ => ?_
  split_ifs <;> simp

/-- The combined input of a layer has real entries. -/
theorem zF_real {E : ℕ} (ope : EReal) (hope : ∃ r : ℝ, ope = (r : EReal)) (h : Cert.Spec.Mat 100000 128)
    (hh : RealM h) (u : Cert.Spec.Mat E 128) (hu : RealM u) (dst : Fin E → BitVec 32) :
    RealM (Cert.Spec.zF ope h u dst) := by
  obtain ⟨o, rfl⟩ := hope
  obtain ⟨hr, rfl⟩ := hh.eq_coe
  obtain ⟨ur, rfl⟩ := hu.eq_coe
  intro i q
  refine ⟨o * hr i q + ∑ e : Fin E, if (dst e).toInt = (i.val : Int) then ur e q else 0, ?_⟩
  show (o : EReal) * (hr i q : EReal) + aggF (fun e q => (ur e q : EReal)) dst i q = _
  rw [aggF_coe, ← EReal.coe_mul, ← EReal.coe_add]

/-- A dense layer of real matrices has real entries. -/
theorem dense_real {n a b : ℕ} (x : Cert.Spec.Mat n a) (hx : RealM x) (W : Cert.Spec.Mat a b) (hW : RealM W)
    (bias : Fin b → EReal) (hb : RealV bias) : RealM (Cert.Spec.dense x W bias) := by
  obtain ⟨xr, rfl⟩ := hx.eq_coe
  obtain ⟨Wr, rfl⟩ := hW.eq_coe
  obtain ⟨br, rfl⟩ := hb.eq_coe
  intro i k
  refine ⟨(∑ j : Fin a, xr i j * Wr j k) + br k, ?_⟩
  show (∑ j : Fin a, (xr i j : EReal) * (Wr j k : EReal)) + (br k : EReal) = _
  rw [RealOps.sum_mul_coe, ← EReal.coe_add]

/-- The rectifier keeps real entries real. -/
theorem reluM_real {n a : ℕ} (x : Cert.Spec.Mat n a) (hx : RealM x) : RealM (Cert.Spec.reluM x) := by
  intro i k
  obtain ⟨r, hr⟩ := hx i k
  refine ⟨max r 0, ?_⟩
  show max (x i k) 0 = _
  rw [hr, BnFold.max_zero_coe]

/-- The two dense layers with their rectifiers keep real entries real. -/
theorem lin2F_real {n : ℕ} (z : Cert.Spec.Mat n 128) (hz : RealM z) (W1 : Cert.Spec.Mat 128 128) (hW1 : RealM W1)
    (b1 : Fin 128 → EReal) (hb1 : RealV b1) (W2 : Cert.Spec.Mat 128 128) (hW2 : RealM W2) (b2 : Fin 128 → EReal)
    (hb2 : RealV b2) : RealM (Cert.Spec.lin2F z W1 b1 W2 b2) :=
  reluM_real _ (dense_real _ (reluM_real _ (dense_real z hz W1 hW1 b1 hb1)) W2 hW2 b2 hb2)

/-! ## A whole layer -/

/-- On real inputs the layer normalised in the folded form is the layer normalised with the centred statistics. -/
theorem layer_agree {E : ℕ} (ope : EReal) (hope : ∃ r : ℝ, ope = (r : EReal)) (h : Cert.Spec.Mat 100000 128)
    (hh : RealM h) (u : Cert.Spec.Mat E 128) (hu : RealM u) (dst : Fin E → BitVec 32) (W1 : Cert.Spec.Mat 128 128)
    (hW1 : RealM W1) (b1 : Fin 128 → EReal) (hb1 : RealV b1) (W2 : Cert.Spec.Mat 128 128) (hW2 : RealM W2)
    (b2 g bt : Fin 128 → EReal) (hb2 : RealV b2) (hg : RealV g) (hbt : RealV bt) :
    Cert.Spec.layerKerF ope h u dst W1 b1 W2 b2 g bt = Cert.Spec.layerRefF ope h u dst W1 b1 W2 b2 g bt :=
  bn_agree _ (lin2F_real _ (zF_real ope hope h hh u hu dst) W1 hW1 b1 hb1 W2 hW2 b2 hb2) g bt hg hbt

/-- On real inputs a layer's output has real entries. -/
theorem layer_real {E : ℕ} (ope : EReal) (hope : ∃ r : ℝ, ope = (r : EReal)) (h : Cert.Spec.Mat 100000 128)
    (hh : RealM h) (u : Cert.Spec.Mat E 128) (hu : RealM u) (dst : Fin E → BitVec 32) (W1 : Cert.Spec.Mat 128 128)
    (hW1 : RealM W1) (b1 : Fin 128 → EReal) (hb1 : RealV b1) (W2 : Cert.Spec.Mat 128 128) (hW2 : RealM W2)
    (b2 g bt : Fin 128 → EReal) (hb2 : RealV b2) (hg : RealV g) (hbt : RealV bt) :
    RealM (Cert.Spec.layerRefF ope h u dst W1 b1 W2 b2 g bt) :=
  bnRef_real _ (lin2F_real _ (zF_real ope hope h hh u hu dst) W1 hW1 b1 hb1 W2 hW2 b2 hb2) g bt hg hbt

end Cert.Bridge

end
-- ==== Proof.Glue.lean ====
/-
  Small facts that join the pieces.  An array read by row and column determines the array; and "every entry is a
  real number" is inherited by any re-indexing of an array — a reshape, a slice, a broadcast, a gather of rows each
  read an entry of their operand and nothing else.
-/
import proofs.«125584_j43164421324859_2_alg».proof.Proof.Spec
import proofs.«125584_j43164421324859_2_alg».proof.Proof.Bridge
import Idealize.ShloMosaic.PureOps.Ideal
import Idealize.ShloMosaic.Lib.ValueIdx

noncomputable section

namespace Cert.Glue

open Idealize.ShloMosaic Idealize.ShloMosaic.ValueIdx Cert.Spec Cert.Bridge

/-- Every entry of the array is a real number. -/
def RealF {S : Shape} (x : S.Idx → EReal) : Prop := ∀ j, ∃ r : ℝ, x j = (r : EReal)

theorem toMat_inj {a b : ℕ} {x y : (⟨2, ![a, b]⟩ : Shape).Idx → EReal} (h : toMat x = toMat y) : x = y := by
  funext j
  rw [eq_ix2 j]
  exact congrFun (congrFun h (j 0)) (j 1)

theorem toVec_inj {a : ℕ} {x y : (⟨1, ![a]⟩ : Shape).Idx → EReal} (h : toVec x = toVec y) : x = y := by
  funext j
  rw [eq_ix1 j]
  exact congrFun h (j 0)

theorem RealF.toMat {a b : ℕ} {x : (⟨2, ![a, b]⟩ : Shape).Idx → EReal} (h : RealF x) : RealM (Cert.Spec.toMat x) :=
  fun _ _ => h _

theorem RealF.toVec {a : ℕ} {x : (⟨1, ![a]⟩ : Shape).Idx → EReal} (h : RealF x) : RealV (Cert.Spec.toVec x) :=
  fun _ => h _

theorem RealF.of_toMat {a b : ℕ} {x : (⟨2, ![a, b]⟩ : Shape).Idx → EReal} (h : RealM (Cert.Spec.toMat x)) : RealF x := by
  intro j
  rw [eq_ix2 j]
  exact h _ _

/-- A re-indexing of an array of reals is an array of reals. -/
theorem RealF.comp {S T : Shape} {x : S.Idx → EReal} (h : RealF x) (f : T.Idx → S.Idx) : RealF (fun j => x (f j)) :=
  fun _ => h _

theorem RealF.shapeCast {S : Shape} {x : S.Idx → EReal} (h : RealF x) (T : Shape) (hc : S.ShapeCasts T) :
    RealF (shapeCast T x hc) := fun _ => h _

theorem RealF.slice {S : Shape} {x : S.Idx → EReal} (h : RealF x) (T : Shape) (off : Fin S.rank → Nat)
    (hs : S.Slices off T) : RealF (extractStridedSlice T off x hs) := fun _ => h _

theorem RealF.gather {S SI T : Shape} {w : ℕ} {x : S.Idx → EReal} (h : RealF x) (d : GatherDims S SI T)
    (idx : IVec SI w) : RealF (Host.gather d x idx) := fun _ => h _

end Cert.Glue

end
-- ==== Proof.Chain.lean ====
/-
  One step of the comparison of the two programs.  If the two programs enter a layer with the same real features and
  the same real gathered rows, and one leaves it with the folded normalisation and the other with the centred one,
  then they leave it with the same features, and these are real again.
-/
import proofs.«125584_j43164421324859_2_alg».proof.Proof.Spec
import proofs.«125584_j43164421324859_2_alg».proof.Proof.Bridge

noncomputable section

namespace Cert.Chain

open Cert.Spec Cert.Bridge

theorem step {E : ℕ} (ope : EReal) (hope : ∃ r : ℝ, ope = (r : EReal))
    (hK hR : Mat 100000 128) (hEq : hK = hR) (hreal : RealM hK)
    (uK uR : Mat E 128) (hu : uK = uR) (hureal : RealM uK) (dst : Fin E → BitVec 32)
    (W1 : Mat 128 128) (hW1 : RealM W1) (b1 : Fin 128 → EReal) (hb1 : RealV b1)
    (W2 : Mat 128 128) (hW2 : RealM W2) (b2 g bt : Fin 128 → EReal) (hb2 : RealV b2) (hg : RealV g) (hbt : RealV bt)
    (oK oR : Mat 100000 128)
    (eK : oK = layerKerF ope hK uK dst W1 b1 W2 b2 g bt)
    (eR : oR = layerRefF ope hR uR dst W1 b1 W2 b2 g bt) :
    oK = oR ∧ RealM oK := by
  subst hEq hu
  have hag := layer_agree ope hope hK hreal uK hureal dst W1 hW1 b1 hb1 W2 hW2 b2 g bt hb2 hg hbt
  refine ⟨by rw [eK, eR, hag], ?_⟩
  rw [eK, hag]
  exact layer_real ope hope hK hreal uK hureal dst W1 hW1 b1 hb1 W2 hW2 b2 g bt hb2 hg hbt

end Cert.Chain

end
-- ==== Proof.PreFacts.lean ====
/-
  The precondition of the certificate, read back as mathematics.

  The precondition is a conjunction of sixteen tests on the sixteen arguments, each an "all entries" reduction by
  "and" of an entrywise comparison, the whole required to answer 1.  Over the extended reals it says:

  * every entry of each of the fourteen float arguments is a real number (the test |x| < +infinity holds exactly of
    the reals: both infinities have absolute value the top element);
  * every entry of row 1 of the integer pair array (the targets of the edges), read signed, is at least 0 (the row is
    taken by a slice at offsets (1, 0) and a reshape that keeps the row-major position, and compared with 0);
  * for every column q of the first argument x, the sum over the rows i of the squared deviation
    (x i q - mean q)^2 from the column mean is positive, where mean q is the column's sum (a reduction over the row
    axis, from the initial value 0) divided by the node count (the word of 100000.0).

  Two reads of the pair array, generic in the proofs of the side conditions: row 0 and row 1 of a 2 x n array, taken by
  a slice and a reshape to length n, read at e the array at (0, e) and (1, e).  A column sum of a matrix read at q is the
  sum over the rows of the entries of column q.
-/
import proofs.«125584_j43164421324859_2_alg».proof.Pre_finite_inputs
import proofs.«125584_j43164421324859_2_alg».proof.Proof.Gen.Pre_finite_inputs
import proofs.«125584_j43164421324859_2_alg».proof.Proof.Spec
import proofs.«125584_j43164421324859_2_alg».proof.Proof.LibRealOps
import Idealize.ShloMosaic.Lib.ReduceAll
import Idealize.ShloMosaic.Lib.ValueIdx
import Idealize.ShloMosaic.Lib.Pipeline.Value
import Idealize.ShloMosaic.PureOps.Ideal.Laws

noncomputable section

namespace Cert.PreFacts

open Idealize.ShloMosaic Idealize.ShloMosaic.ValueIdx
open Cert.Pre_finite_inputs

/-- A rank-0 array has one index. -/
instance : Subsingleton (⟨0, ![]⟩ : Shape).Idx := ⟨fun a b => funext fun d => d.elim0⟩

/-! ## The element tests -/

/-- The comparison "x > y" answers 1 exactly when y < x. -/
theorem cmp_gt_iff (x y : EReal) : Ideal.cmp .ogt x y = 1#1 ↔ y < x := by
  unfold Ideal.cmp
  by_cases h : y < x <;> simp [h]

/-- If the test |x| < +infinity, taken entrywise and reduced by "and" over every axis, answers 1, every entry is a real. -/
theorem finite_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hu ix0 = 1#1) :
    ∀ j, ∃ r : ℝ, a j = (r : EReal) := by
  intro j
  have hj := Host.reduce_andi_all _ _ hr hu ix0 e j
  exact (RealOps.cmp_abs_lt_inf (a j)).1 hj

/-! ## Rows of a pair array -/

/-- Row 0 of a 2 x n array, sliced out and reshaped to length n, reads at e the array at (0, e). -/
theorem row0_read {α : Type} {n : ℕ} (a1 : (⟨2, ![2, n]⟩ : Shape).Idx → α)
    (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] a1 hs) hc (ix1 e) = a1 (ix2 (0 : Fin 2) e) := by
  refine (shapeCast_apply _ hc (ix1 e) (ix2 (0 : Fin 1) e) (by
    rw [Shape.rowMajor_val_two, Shape.rowMajor_val_one]
    show 0 * n + e.val = e.val
    omega)).trans ?_
  exact extractStridedSlice_apply _ a1 hs (ix2 (0 : Fin 1) e) (ix2 (0 : Fin 2) e) (fun a =>
    match a with
    | ⟨0, _⟩ => by show 0 = 0 + 0; rfl
    | ⟨1, _⟩ => by show e.val = 0 + e.val; omega)

/-- Row 1 of a 2 x n array, sliced out and reshaped to length n, reads at e the array at (1, e). -/
theorem row1_read {α : Type} {n : ℕ} (a1 : (⟨2, ![2, n]⟩ : Shape).Idx → α)
    (hs : (⟨2, ![2, n]⟩ : Shape).Slices ![1, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![1, 0] a1 hs) hc (ix1 e) = a1 (ix2 (1 : Fin 2) e) := by
  refine (shapeCast_apply _ hc (ix1 e) (ix2 (0 : Fin 1) e) (by
    rw [Shape.rowMajor_val_two, Shape.rowMajor_val_one]
    show 0 * n + e.val = e.val
    omega)).trans ?_
  exact extractStridedSlice_apply _ a1 hs (ix2 (0 : Fin 1) e) (ix2 (1 : Fin 2) e) (fun a =>
    match a with
    | ⟨0, _⟩ => by show 1 = 1 + 0; rfl
    | ⟨1, _⟩ => by show e.val = 0 + e.val; omega)

/-- Either row: row k of a 2 x n array, sliced out at offsets (k, 0) and reshaped, reads at e the array at (k, e). -/
theorem row_of_pair_read {α : Type} {n : ℕ} (k : Fin 2) (a1 : (⟨2, ![2, n]⟩ : Shape).Idx → α)
    (hs : (⟨2, ![2, n]⟩ : Shape).Slices ![k.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![k.val, 0] a1 hs) hc (ix1 e) = a1 (ix2 k e) := by
  refine (shapeCast_apply _ hc (ix1 e) (ix2 (0 : Fin 1) e) (by
    rw [Shape.rowMajor_val_two, Shape.rowMajor_val_one]
    show 0 * n + e.val = e.val
    omega)).trans ?_
  exact extractStridedSlice_apply _ a1 hs (ix2 (0 : Fin 1) e) (ix2 k e) (fun a =>
    match a with
    | ⟨0, _⟩ => by show k.val = k.val + 0; omega
    | ⟨1, _⟩ => by show e.val = 0 + e.val; omega)

/-- If the test "entry >= 0" of row 1, reduced by "and", answers 1, every entry of row 1 read signed is at least 0. -/
theorem row1_nonneg_of_all {n : ℕ} (a1 : IVec ⟨2, ![2, n]⟩ 32)
    (hs : (⟨2, ![2, n]⟩ : Shape).Slices ![1, 0] ⟨2, ![1, n]⟩)
    (hc : (⟨2, ![1, n]⟩ : Shape).ShapeCasts ⟨1, ![n]⟩)
    (hb : (⟨0, ![]⟩ : Shape).BroadcastsInDim ⟨1, ![n]⟩ (![] : Fin 0 → Fin 1))
    (hr : (⟨1, ![n]⟩ : Shape).ReducesTo [0] ⟨0, ![]⟩) (hu : 0 < (⟨0, ![]⟩ : Shape).numel)
    (e : Host.reduce IntOp.andi
          (cmpi .sge (shapeCast ⟨1, ![n]⟩ (extractStridedSlice ⟨2, ![1, n]⟩ ![1, 0] a1 hs) hc)
            (broadcastInDim ⟨1, ![n]⟩ ![] hb (constantI ⟨0, ![]⟩ 32 0#32)))
          (constantI ⟨0, ![]⟩ 1 1#1) hr hu ix0 = 1#1) :
    ∀ k : Fin n, 0 ≤ (a1 (ix2 (1 : Fin 2) k)).toInt := by
  intro k
  have hk := Host.reduce_andi_all _ _ hr hu ix0 e (ix1 k)
  have hk' : IntOp.cmpi .sge (shapeCast ⟨1, ![n]⟩ (extractStridedSlice ⟨2, ![1, n]⟩ ![1, 0] a1 hs) hc (ix1 k)) 0#32 = 1#1 := hk
  rw [row1_read a1 hs hc k, IntOp.cmpi_sge] at hk'
  exact hk'

/-! ## The column statistics -/

/-- A sum over the row axis of a 100000 x 128 matrix from the initial value 0, read at q: the sum of column q. -/
theorem col_sum_read (x : FVec Ideal ⟨2, ![100000, 128]⟩ .f32)
    (hr' : (⟨2, ![100000, 128]⟩ : Shape).ReducesTo [0] ⟨1, ![128]⟩) (hu : 0 < (⟨0, ![]⟩ : Shape).numel) (q : Fin 128) :
    Host.reduceAdd x (constant (F := Ideal) ⟨0, ![]⟩ .f32 0x00000000#32) hr' hu (ix1 q)
      = ∑ i : Fin 100000, x (ix2 i q) := by
  have hr : (⟨2, ![100000, 128]⟩ : Shape).Reduces [0] ⟨1, ![128]⟩ := by decide
  show Ideal.hostReduceAdd hr' x (Ideal.ofBits .f32 0x00000000#32) (ix1 q) = _
  rw [Ideal.hostReduceAdd_single hr' hr, Ideal.ofBits_zero_f32, zero_add]
  refine Finset.sum_congr rfl (fun k _ => congrArg x ?_)
  funext c
  apply Fin.ext
  match c with
  | ⟨0, _⟩ => rfl
  | ⟨1, _⟩ => rfl

/-- The deviation array of the precondition, read at (i, q): the entry minus the column mean. -/
theorem dev_read (a0 : FVec Ideal ⟨2, ![100000, 128]⟩ .f32)
    (hr' : (⟨2, ![100000, 128]⟩ : Shape).ReducesTo [0] ⟨1, ![128]⟩) (hu : 0 < (⟨0, ![]⟩ : Shape).numel)
    (hb1 : (⟨1, ![128]⟩ : Shape).BroadcastsInDim ⟨2, ![1, 128]⟩ (![1] : Fin 1 → Fin 2))
    (hb2 : (⟨0, ![]⟩ : Shape).BroadcastsInDim ⟨2, ![1, 128]⟩ (![] : Fin 0 → Fin 2))
    (hb3 : (⟨2, ![1, 128]⟩ : Shape).BroadcastsInDim ⟨2, ![100000, 128]⟩ (![0, 1] : Fin 2 → Fin 2))
    (i : Fin 100000) (q : Fin 128) :
    subf a0 (broadcastInDim ⟨2, ![100000, 128]⟩ ![0, 1] hb3
        (Host.divf (broadcastInDim ⟨2, ![1, 128]⟩ ![1] hb1 (Host.reduceAdd a0 (constant (F := Ideal) ⟨0, ![]⟩ .f32 0x00000000#32) hr' hu))
          (broadcastInDim ⟨2, ![1, 128]⟩ ![] hb2 (constant (F := Ideal) ⟨0, ![]⟩ .f32 0x47C35000#32)))) (ix2 i q)
      = Cert.Spec.toMat a0 i q - Cert.Spec.colMean (Cert.Spec.toMat a0) q := by
  have e3 := broadcastInDim_apply ![0, 1] hb3
    (Host.divf (broadcastInDim ⟨2, ![1, 128]⟩ ![1] hb1 (Host.reduceAdd a0 (constant (F := Ideal) ⟨0, ![]⟩ .f32 0x00000000#32) hr' hu))
      (broadcastInDim ⟨2, ![1, 128]⟩ ![] hb2 (constant (F := Ideal) ⟨0, ![]⟩ .f32 0x47C35000#32)))
    (ix2 i q) (ix2 (0 : Fin 1) q) (fun d =>
      match d with
      | ⟨0, _⟩ => by
        show 0 = if 1 = 1 then 0 else i.val
        exact (if_pos rfl).symm
      | ⟨1, _⟩ => by
        show q.val = if 128 = 1 then 0 else q.val
        exact (if_neg (by decide)).symm)
  have e1 := broadcastInDim_apply ![1] hb1 (Host.reduceAdd a0 (constant (F := Ideal) ⟨0, ![]⟩ .f32 0x00000000#32) hr' hu)
    (ix2 (0 : Fin 1) q) (ix1 q) (fun d =>
      match d with
      | ⟨0, _⟩ => by
        show q.val = if 128 = 1 then 0 else q.val
        exact (if_neg (by decide)).symm)
  show a0 (ix2 i q) - _ = _
  rw [e3]
  show a0 (ix2 i q) - Ideal.div (broadcastInDim ⟨2, ![1, 128]⟩ ![1] hb1 (Host.reduceAdd a0 (constant (F := Ideal) ⟨0, ![]⟩ .f32 0x00000000#32) hr' hu) (ix2 (0 : Fin 1) q))
      (Ideal.ofBits .f32 0x47C35000#32) = _
  rw [e1, col_sum_read a0 hr' hu q]
  rfl

/-- A product of two arrays, read at an index: the product of the entries. -/
theorem mulf_apply {s : Shape} {φ : FTy} (X Y : FVec Ideal s φ) (j : s.Idx) : mulf X Y j = X j * Y j := rfl

/-- The test "entry > 0" answering 1 at an index says the entry there is positive. -/
theorem gt_zero_of_cmp {s : Shape} (A : FVec Ideal s .f32)
    (hb : (⟨0, ![]⟩ : Shape).BroadcastsInDim s (![] : Fin 0 → Fin s.rank)) (j : s.Idx)
    (h : cmpf .ogt A (broadcastInDim s ![] hb (constant (F := Ideal) ⟨0, ![]⟩ .f32 0x00000000#32)) j = 1#1) :
    (0 : EReal) < A j := by
  have h' : Ideal.cmp .ogt (A j) (Ideal.ofBits .f32 0x00000000#32) = 1#1 := h
  rw [cmp_gt_iff, Ideal.ofBits_zero_f32] at h'
  exact h'

/-- If the test "column sum of squared deviations > 0", reduced by "and" over the columns, answers 1, every column's sum
    of squared deviations from its mean is positive. -/
theorem var_pos_of_all (a0 : FVec Ideal ⟨2, ![100000, 128]⟩ .f32)
    (hr' : (⟨2, ![100000, 128]⟩ : Shape).ReducesTo [0] ⟨1, ![128]⟩) (hu : 0 < (⟨0, ![]⟩ : Shape).numel)
    (hb1 : (⟨1, ![128]⟩ : Shape).BroadcastsInDim ⟨2, ![1, 128]⟩ (![1] : Fin 1 → Fin 2))
    (hb2 : (⟨0, ![]⟩ : Shape).BroadcastsInDim ⟨2, ![1, 128]⟩ (![] : Fin 0 → Fin 2))
    (hb3 : (⟨2, ![1, 128]⟩ : Shape).BroadcastsInDim ⟨2, ![100000, 128]⟩ (![0, 1] : Fin 2 → Fin 2))
    (hb4 : (⟨0, ![]⟩ : Shape).BroadcastsInDim ⟨1, ![128]⟩ (![] : Fin 0 → Fin 1))
    (hr2 : (⟨1, ![128]⟩ : Shape).ReducesTo [0] ⟨0, ![]⟩)
    (e : Host.reduce IntOp.andi
          (cmpf .ogt
            (Host.reduceAdd
              (mulf
                (subf a0 (broadcastInDim ⟨2, ![100000, 128]⟩ ![0, 1] hb3
                  (Host.divf (broadcastInDim ⟨2, ![1, 128]⟩ ![1] hb1 (Host.reduceAdd a0 (constant (F := Ideal) ⟨0, ![]⟩ .f32 0x00000000#32) hr' hu))
                    (broadcastInDim ⟨2, ![1, 128]⟩ ![] hb2 (constant (F := Ideal) ⟨0, ![]⟩ .f32 0x47C35000#32)))))
                (subf a0 (broadcastInDim ⟨2, ![100000, 128]⟩ ![0, 1] hb3
                  (Host.divf (broadcastInDim ⟨2, ![1, 128]⟩ ![1] hb1 (Host.reduceAdd a0 (constant (F := Ideal) ⟨0, ![]⟩ .f32 0x00000000#32) hr' hu))
                    (broadcastInDim ⟨2, ![1, 128]⟩ ![] hb2 (constant (F := Ideal) ⟨0, ![]⟩ .f32 0x47C35000#32))))))
              (constant (F := Ideal) ⟨0, ![]⟩ .f32 0x00000000#32) hr' hu)
            (broadcastInDim ⟨1, ![128]⟩ ![] hb4 (constant (F := Ideal) ⟨0, ![]⟩ .f32 0x00000000#32)))
          (constantI ⟨0, ![]⟩ 1 1#1) hr2 hu ix0 = 1#1) :
    ∀ q : Fin 128, (0 : EReal) < ∑ i : Fin 100000,
      (Cert.Spec.toMat a0 i q - Cert.Spec.colMean (Cert.Spec.toMat a0) q)
        * (Cert.Spec.toMat a0 i q - Cert.Spec.colMean (Cert.Spec.toMat a0) q) := by
  intro q
  have hq := gt_zero_of_cmp _ hb4 (ix1 q) (Host.reduce_andi_all _ _ hr2 hu ix0 e (ix1 q))
  rw [col_sum_read _ hr' hu q] at hq
  refine lt_of_lt_of_eq hq (Finset.sum_congr rfl fun i _ => ?_)
  rw [mulf_apply, dev_read a0 hr' hu hb1 hb2 hb3 i q]

/-! ## The precondition decoded -/

/-- The precondition, all ones, says: every float argument has real entries only, the edge targets read signed are
    at least 0, and every column of the first argument has a positive sum of squared deviations from its mean. -/
theorem decode [Cert.Pre_finite_inputs.Facts] (a0 : FVec Ideal S100000x128 .f32) (a1 : IVec S2x1600000 32) (a2 : IVec S100000 32) (a3 : FVec Ideal S4x128x128 .f32) (a4 : FVec Ideal S4x128 .f32) (a5 : FVec Ideal S4x128x128 .f32) (a6 a7 a8 : FVec Ideal S4x128 .f32) (a9 : FVec Ideal S4 .f32) (a10 : FVec Ideal S128x128 .f32) (a11 : FVec Ideal S128 .f32) (a12 : FVec Ideal S128x64 .f32) (a13 : FVec Ideal S64 .f32) (a14 : FVec Ideal S64x10 .f32) (a15 : FVec Ideal S10 .f32)
    (h : Cert.Pre_finite_inputs.fn (F := Ideal) a0 a1 a2 a3 a4 a5 a6 a7 a8 a9 a10 a11 a12 a13 a14 a15 = (fun _ => 1#1)) :
    (∀ j, ∃ r : ℝ, a0 j = (r : EReal)) ∧ (∀ j, ∃ r : ℝ, a3 j = (r : EReal)) ∧ (∀ j, ∃ r : ℝ, a4 j = (r : EReal))
      ∧ (∀ j, ∃ r : ℝ, a5 j = (r : EReal)) ∧ (∀ j, ∃ r : ℝ, a6 j = (r : EReal)) ∧ (∀ j, ∃ r : ℝ, a7 j = (r : EReal))
      ∧ (∀ j, ∃ r : ℝ, a8 j = (r : EReal)) ∧ (∀ j, ∃ r : ℝ, a9 j = (r : EReal)) ∧ (∀ j, ∃ r : ℝ, a10 j = (r : EReal))
      ∧ (∀ j, ∃ r : ℝ, a11 j = (r : EReal)) ∧ (∀ j, ∃ r : ℝ, a12 j = (r : EReal)) ∧ (∀ j, ∃ r : ℝ, a13 j = (r : EReal))
      ∧ (∀ j, ∃ r : ℝ, a14 j = (r : EReal)) ∧ (∀ j, ∃ r : ℝ, a15 j = (r : EReal))
      ∧ (∀ e : Fin 1600000, 0 ≤ (a1 (ix2 (1 : Fin 2) e)).toInt)
      ∧ (∀ q : Fin 128, (0 : EReal) < ∑ i : Fin 100000,
          (Cert.Spec.toMat a0 i q - Cert.Spec.colMean (Cert.Spec.toMat a0) q)
            * (Cert.Spec.toMat a0 i q - Cert.Spec.colMean (Cert.Spec.toMat a0) q)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  simp only [IntOp.andi_eq_one, and_assoc] at h0
  obtain ⟨c0, c3, c4, c5, c6, c7, c8, c9, c10, c11, c12, c13, c14, c15, cE, cV⟩ := h0
  exact ⟨finite_of_all a0 _ _ _ c0, finite_of_all a3 _ _ _ c3, finite_of_all a4 _ _ _ c4, finite_of_all a5 _ _ _ c5,
    finite_of_all a6 _ _ _ c6, finite_of_all a7 _ _ _ c7, finite_of_all a8 _ _ _ c8, finite_of_all a9 _ _ _ c9,
    finite_of_all a10 _ _ _ c10, finite_of_all a11 _ _ _ c11, finite_of_all a12 _ _ _ c12, finite_of_all a13 _ _ _ c13,
    finite_of_all a14 _ _ _ c14, finite_of_all a15 _ _ _ c15,
    row1_nonneg_of_all a1 _ _ _ _ _ cE,
    var_pos_of_all a0 _ _ _ _ _ _ _ cV⟩

end Cert.PreFacts

end
-- ==== Proof.KerCarryA.lean ====
/-
  The layers' parameter stacks at every boundary of the run: no host operation and no kernel region writes an
  argument array, so at each boundary the fold still holds, for the four weight and bias stacks and the vector of
  epsilons, what the launch memory held.
-/
import proofs.«125584_j43164421324859_2_alg».proof.Proof.Gen.KernelIdeal.Frame
import Idealize.ShloMosaic.Lib.StableHlo.Run

set_option maxRecDepth 16384

noncomputable section

namespace Cert.KernelIdeal.KerVal

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A stretch of host operations leaves a buffer none of them writes as it was. -/
syntax "host_keeps " ident : tactic
macro_rules
  | `(tactic| host_keeps $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide))))

theorem W1_arg3 (c : Dev nD) : Gen.W1 m ρ c (Proc.devRef .tc main_arg3) = m ((c : Thread nD τ).loc main_arg3) :=
  (show StableHlo.after hostOps0 (Gen.W0 m ρ c) (Proc.devRef .tc main_arg3) = Gen.W0 m ρ c (Proc.devRef .tc main_arg3) by host_keeps hostOps0)
theorem W2_arg3 (c : Dev nD) : Gen.W2 m ρ c (Proc.devRef .tc main_arg3) = m ((c : Thread nD τ).loc main_arg3) :=
  (show StableHlo.after hostOps0_1 (Gen.W1 m ρ c) (Proc.devRef .tc main_arg3) = Gen.W1 m ρ c (Proc.devRef .tc main_arg3) by host_keeps hostOps0_1).trans (W1_arg3 m ρ c)
theorem W3_arg3 (c : Dev nD) : Gen.W3 m ρ c (Proc.devRef .tc main_arg3) = m ((c : Thread nD τ).loc main_arg3) :=
  (show StableHlo.after hostOps0_2 (Gen.W2 m ρ c) (Proc.devRef .tc main_arg3) = Gen.W2 m ρ c (Proc.devRef .tc main_arg3) by host_keeps hostOps0_2).trans (W2_arg3 m ρ c)
theorem W4_arg3 (c : Dev nD) : Gen.W4 m ρ c (Proc.devRef .tc main_arg3) = m ((c : Thread nD τ).loc main_arg3) :=
  (Gen.W4_of_ne m ρ c main_arg3 (by decide)).trans (W3_arg3 m ρ c)
theorem W5_arg3 (c : Dev nD) : Gen.W5 m ρ c (Proc.devRef .tc main_arg3) = m ((c : Thread nD τ).loc main_arg3) :=
  (show StableHlo.after hostOps1 (Gen.W4 m ρ c) (Proc.devRef .tc main_arg3) = Gen.W4 m ρ c (Proc.devRef .tc main_arg3) by host_keeps hostOps1).trans (W4_arg3 m ρ c)
theorem W6_arg3 (c : Dev nD) : Gen.W6 m ρ c (Proc.devRef .tc main_arg3) = m ((c : Thread nD τ).loc main_arg3) :=
  (Gen.W6_of_ne m ρ c main_arg3 (by decide)).trans (W5_arg3 m ρ c)
theorem W7_arg3 (c : Dev nD) : Gen.W7 m ρ c (Proc.devRef .tc main_arg3) = m ((c : Thread nD τ).loc main_arg3) :=
  (show StableHlo.after hostOps2 (Gen.W6 m ρ c) (Proc.devRef .tc main_arg3) = Gen.W6 m ρ c (Proc.devRef .tc main_arg3) by host_keeps hostOps2).trans (W6_arg3 m ρ c)
theorem W8_arg3 (c : Dev nD) : Gen.W8 m ρ c (Proc.devRef .tc main_arg3) = m ((c : Thread nD τ).loc main_arg3) :=
  (Gen.W8_of_ne m ρ c main_arg3 (by decide)).trans (W7_arg3 m ρ c)
theorem W9_arg3 (c : Dev nD) : Gen.W9 m ρ c (Proc.devRef .tc main_arg3) = m ((c : Thread nD τ).loc main_arg3) :=
  (show StableHlo.after hostOps3 (Gen.W8 m ρ c) (Proc.devRef .tc main_arg3) = Gen.W8 m ρ c (Proc.devRef .tc main_arg3) by host_keeps hostOps3).trans (W8_arg3 m ρ c)
theorem W10_arg3 (c : Dev nD) : Gen.W10 m ρ c (Proc.devRef .tc main_arg3) = m ((c : Thread nD τ).loc main_arg3) :=
  (Gen.W10_of_ne m ρ c main_arg3 (by decide)).trans (W9_arg3 m ρ c)
theorem W11_arg3 (c : Dev nD) : Gen.W11 m ρ c (Proc.devRef .tc main_arg3) = m ((c : Thread nD τ).loc main_arg3) :=
  (show StableHlo.after hostOps4 (Gen.W10 m ρ c) (Proc.devRef .tc main_arg3) = Gen.W10 m ρ c (Proc.devRef .tc main_arg3) by host_keeps hostOps4).trans (W10_arg3 m ρ c)
theorem W12_arg3 (c : Dev nD) : Gen.W12 m ρ c (Proc.devRef .tc main_arg3) = m ((c : Thread nD τ).loc main_arg3) :=
  (Gen.W12_of_ne m ρ c main_arg3 (by decide)).trans (W11_arg3 m ρ c)
theorem W13_arg3 (c : Dev nD) : Gen.W13 m ρ c (Proc.devRef .tc main_arg3) = m ((c : Thread nD τ).loc main_arg3) :=
  (show StableHlo.after hostOps5 (Gen.W12 m ρ c) (Proc.devRef .tc main_arg3) = Gen.W12 m ρ c (Proc.devRef .tc main_arg3) by host_keeps hostOps5).trans (W12_arg3 m ρ c)
theorem W14_arg3 (c : Dev nD) : Gen.W14 m ρ c (Proc.devRef .tc main_arg3) = m ((c : Thread nD τ).loc main_arg3) :=
  (Gen.W14_of_ne m ρ c main_arg3 (by decide)).trans (W13_arg3 m ρ c)

theorem W1_arg4 (c : Dev nD) : Gen.W1 m ρ c (Proc.devRef .tc main_arg4) = m ((c : Thread nD τ).loc main_arg4) :=
  (show StableHlo.after hostOps0 (Gen.W0 m ρ c) (Proc.devRef .tc main_arg4) = Gen.W0 m ρ c (Proc.devRef .tc main_arg4) by host_keeps hostOps0)
theorem W2_arg4 (c : Dev nD) : Gen.W2 m ρ c (Proc.devRef .tc main_arg4) = m ((c : Thread nD τ).loc main_arg4) :=
  (show StableHlo.after hostOps0_1 (Gen.W1 m ρ c) (Proc.devRef .tc main_arg4) = Gen.W1 m ρ c (Proc.devRef .tc main_arg4) by host_keeps hostOps0_1).trans (W1_arg4 m ρ c)
theorem W3_arg4 (c : Dev nD) : Gen.W3 m ρ c (Proc.devRef .tc main_arg4) = m ((c : Thread nD τ).loc main_arg4) :=
  (show StableHlo.after hostOps0_2 (Gen.W2 m ρ c) (Proc.devRef .tc main_arg4) = Gen.W2 m ρ c (Proc.devRef .tc main_arg4) by host_keeps hostOps0_2).trans (W2_arg4 m ρ c)
theorem W4_arg4 (c : Dev nD) : Gen.W4 m ρ c (Proc.devRef .tc main_arg4) = m ((c : Thread nD τ).loc main_arg4) :=
  (Gen.W4_of_ne m ρ c main_arg4 (by decide)).trans (W3_arg4 m ρ c)
theorem W5_arg4 (c : Dev nD) : Gen.W5 m ρ c (Proc.devRef .tc main_arg4) = m ((c : Thread nD τ).loc main_arg4) :=
  (show StableHlo.after hostOps1 (Gen.W4 m ρ c) (Proc.devRef .tc main_arg4) = Gen.W4 m ρ c (Proc.devRef .tc main_arg4) by host_keeps hostOps1).trans (W4_arg4 m ρ c)
theorem W6_arg4 (c : Dev nD) : Gen.W6 m ρ c (Proc.devRef .tc main_arg4) = m ((c : Thread nD τ).loc main_arg4) :=
  (Gen.W6_of_ne m ρ c main_arg4 (by decide)).trans (W5_arg4 m ρ c)
theorem W7_arg4 (c : Dev nD) : Gen.W7 m ρ c (Proc.devRef .tc main_arg4) = m ((c : Thread nD τ).loc main_arg4) :=
  (show StableHlo.after hostOps2 (Gen.W6 m ρ c) (Proc.devRef .tc main_arg4) = Gen.W6 m ρ c (Proc.devRef .tc main_arg4) by host_keeps hostOps2).trans (W6_arg4 m ρ c)
theorem W8_arg4 (c : Dev nD) : Gen.W8 m ρ c (Proc.devRef .tc main_arg4) = m ((c : Thread nD τ).loc main_arg4) :=
  (Gen.W8_of_ne m ρ c main_arg4 (by decide)).trans (W7_arg4 m ρ c)
theorem W9_arg4 (c : Dev nD) : Gen.W9 m ρ c (Proc.devRef .tc main_arg4) = m ((c : Thread nD τ).loc main_arg4) :=
  (show StableHlo.after hostOps3 (Gen.W8 m ρ c) (Proc.devRef .tc main_arg4) = Gen.W8 m ρ c (Proc.devRef .tc main_arg4) by host_keeps hostOps3).trans (W8_arg4 m ρ c)
theorem W10_arg4 (c : Dev nD) : Gen.W10 m ρ c (Proc.devRef .tc main_arg4) = m ((c : Thread nD τ).loc main_arg4) :=
  (Gen.W10_of_ne m ρ c main_arg4 (by decide)).trans (W9_arg4 m ρ c)
theorem W11_arg4 (c : Dev nD) : Gen.W11 m ρ c (Proc.devRef .tc main_arg4) = m ((c : Thread nD τ).loc main_arg4) :=
  (show StableHlo.after hostOps4 (Gen.W10 m ρ c) (Proc.devRef .tc main_arg4) = Gen.W10 m ρ c (Proc.devRef .tc main_arg4) by host_keeps hostOps4).trans (W10_arg4 m ρ c)
theorem W12_arg4 (c : Dev nD) : Gen.W12 m ρ c (Proc.devRef .tc main_arg4) = m ((c : Thread nD τ).loc main_arg4) :=
  (Gen.W12_of_ne m ρ c main_arg4 (by decide)).trans (W11_arg4 m ρ c)
theorem W13_arg4 (c : Dev nD) : Gen.W13 m ρ c (Proc.devRef .tc main_arg4) = m ((c : Thread nD τ).loc main_arg4) :=
  (show StableHlo.after hostOps5 (Gen.W12 m ρ c) (Proc.devRef .tc main_arg4) = Gen.W12 m ρ c (Proc.devRef .tc main_arg4) by host_keeps hostOps5).trans (W12_arg4 m ρ c)
theorem W14_arg4 (c : Dev nD) : Gen.W14 m ρ c (Proc.devRef .tc main_arg4) = m ((c : Thread nD τ).loc main_arg4) :=
  (Gen.W14_of_ne m ρ c main_arg4 (by decide)).trans (W13_arg4 m ρ c)

theorem W1_arg5 (c : Dev nD) : Gen.W1 m ρ c (Proc.devRef .tc main_arg5) = m ((c : Thread nD τ).loc main_arg5) :=
  (show StableHlo.after hostOps0 (Gen.W0 m ρ c) (Proc.devRef .tc main_arg5) = Gen.W0 m ρ c (Proc.devRef .tc main_arg5) by host_keeps hostOps0)
theorem W2_arg5 (c : Dev nD) : Gen.W2 m ρ c (Proc.devRef .tc main_arg5) = m ((c : Thread nD τ).loc main_arg5) :=
  (show StableHlo.after hostOps0_1 (Gen.W1 m ρ c) (Proc.devRef .tc main_arg5) = Gen.W1 m ρ c (Proc.devRef .tc main_arg5) by host_keeps hostOps0_1).trans (W1_arg5 m ρ c)
theorem W3_arg5 (c : Dev nD) : Gen.W3 m ρ c (Proc.devRef .tc main_arg5) = m ((c : Thread nD τ).loc main_arg5) :=
  (show StableHlo.after hostOps0_2 (Gen.W2 m ρ c) (Proc.devRef .tc main_arg5) = Gen.W2 m ρ c (Proc.devRef .tc main_arg5) by host_keeps hostOps0_2).trans (W2_arg5 m ρ c)
theorem W4_arg5 (c : Dev nD) : Gen.W4 m ρ c (Proc.devRef .tc main_arg5) = m ((c : Thread nD τ).loc main_arg5) :=
  (Gen.W4_of_ne m ρ c main_arg5 (by decide)).trans (W3_arg5 m ρ c)
theorem W5_arg5 (c : Dev nD) : Gen.W5 m ρ c (Proc.devRef .tc main_arg5) = m ((c : Thread nD τ).loc main_arg5) :=
  (show StableHlo.after hostOps1 (Gen.W4 m ρ c) (Proc.devRef .tc main_arg5) = Gen.W4 m ρ c (Proc.devRef .tc main_arg5) by host_keeps hostOps1).trans (W4_arg5 m ρ c)
theorem W6_arg5 (c : Dev nD) : Gen.W6 m ρ c (Proc.devRef .tc main_arg5) = m ((c : Thread nD τ).loc main_arg5) :=
  (Gen.W6_of_ne m ρ c main_arg5 (by decide)).trans (W5_arg5 m ρ c)
theorem W7_arg5 (c : Dev nD) : Gen.W7 m ρ c (Proc.devRef .tc main_arg5) = m ((c : Thread nD τ).loc main_arg5) :=
  (show StableHlo.after hostOps2 (Gen.W6 m ρ c) (Proc.devRef .tc main_arg5) = Gen.W6 m ρ c (Proc.devRef .tc main_arg5) by host_keeps hostOps2).trans (W6_arg5 m ρ c)
theorem W8_arg5 (c : Dev nD) : Gen.W8 m ρ c (Proc.devRef .tc main_arg5) = m ((c : Thread nD τ).loc main_arg5) :=
  (Gen.W8_of_ne m ρ c main_arg5 (by decide)).trans (W7_arg5 m ρ c)
theorem W9_arg5 (c : Dev nD) : Gen.W9 m ρ c (Proc.devRef .tc main_arg5) = m ((c : Thread nD τ).loc main_arg5) :=
  (show StableHlo.after hostOps3 (Gen.W8 m ρ c) (Proc.devRef .tc main_arg5) = Gen.W8 m ρ c (Proc.devRef .tc main_arg5) by host_keeps hostOps3).trans (W8_arg5 m ρ c)
theorem W10_arg5 (c : Dev nD) : Gen.W10 m ρ c (Proc.devRef .tc main_arg5) = m ((c : Thread nD τ).loc main_arg5) :=
  (Gen.W10_of_ne m ρ c main_arg5 (by decide)).trans (W9_arg5 m ρ c)
theorem W11_arg5 (c : Dev nD) : Gen.W11 m ρ c (Proc.devRef .tc main_arg5) = m ((c : Thread nD τ).loc main_arg5) :=
  (show StableHlo.after hostOps4 (Gen.W10 m ρ c) (Proc.devRef .tc main_arg5) = Gen.W10 m ρ c (Proc.devRef .tc main_arg5) by host_keeps hostOps4).trans (W10_arg5 m ρ c)
theorem W12_arg5 (c : Dev nD) : Gen.W12 m ρ c (Proc.devRef .tc main_arg5) = m ((c : Thread nD τ).loc main_arg5) :=
  (Gen.W12_of_ne m ρ c main_arg5 (by decide)).trans (W11_arg5 m ρ c)
theorem W13_arg5 (c : Dev nD) : Gen.W13 m ρ c (Proc.devRef .tc main_arg5) = m ((c : Thread nD τ).loc main_arg5) :=
  (show StableHlo.after hostOps5 (Gen.W12 m ρ c) (Proc.devRef .tc main_arg5) = Gen.W12 m ρ c (Proc.devRef .tc main_arg5) by host_keeps hostOps5).trans (W12_arg5 m ρ c)
theorem W14_arg5 (c : Dev nD) : Gen.W14 m ρ c (Proc.devRef .tc main_arg5) = m ((c : Thread nD τ).loc main_arg5) :=
  (Gen.W14_of_ne m ρ c main_arg5 (by decide)).trans (W13_arg5 m ρ c)

theorem W1_arg6 (c : Dev nD) : Gen.W1 m ρ c (Proc.devRef .tc main_arg6) = m ((c : Thread nD τ).loc main_arg6) :=
  (show StableHlo.after hostOps0 (Gen.W0 m ρ c) (Proc.devRef .tc main_arg6) = Gen.W0 m ρ c (Proc.devRef .tc main_arg6) by host_keeps hostOps0)
theorem W2_arg6 (c : Dev nD) : Gen.W2 m ρ c (Proc.devRef .tc main_arg6) = m ((c : Thread nD τ).loc main_arg6) :=
  (show StableHlo.after hostOps0_1 (Gen.W1 m ρ c) (Proc.devRef .tc main_arg6) = Gen.W1 m ρ c (Proc.devRef .tc main_arg6) by host_keeps hostOps0_1).trans (W1_arg6 m ρ c)
theorem W3_arg6 (c : Dev nD) : Gen.W3 m ρ c (Proc.devRef .tc main_arg6) = m ((c : Thread nD τ).loc main_arg6) :=
  (show StableHlo.after hostOps0_2 (Gen.W2 m ρ c) (Proc.devRef .tc main_arg6) = Gen.W2 m ρ c (Proc.devRef .tc main_arg6) by host_keeps hostOps0_2).trans (W2_arg6 m ρ c)
theorem W4_arg6 (c : Dev nD) : Gen.W4 m ρ c (Proc.devRef .tc main_arg6) = m ((c : Thread nD τ).loc main_arg6) :=
  (Gen.W4_of_ne m ρ c main_arg6 (by decide)).trans (W3_arg6 m ρ c)
theorem W5_arg6 (c : Dev nD) : Gen.W5 m ρ c (Proc.devRef .tc main_arg6) = m ((c : Thread nD τ).loc main_arg6) :=
  (show StableHlo.after hostOps1 (Gen.W4 m ρ c) (Proc.devRef .tc main_arg6) = Gen.W4 m ρ c (Proc.devRef .tc main_arg6) by host_keeps hostOps1).trans (W4_arg6 m ρ c)
theorem W6_arg6 (c : Dev nD) : Gen.W6 m ρ c (Proc.devRef .tc main_arg6) = m ((c : Thread nD τ).loc main_arg6) :=
  (Gen.W6_of_ne m ρ c main_arg6 (by decide)).trans (W5_arg6 m ρ c)
theorem W7_arg6 (c : Dev nD) : Gen.W7 m ρ c (Proc.devRef .tc main_arg6) = m ((c : Thread nD τ).loc main_arg6) :=
  (show StableHlo.after hostOps2 (Gen.W6 m ρ c) (Proc.devRef .tc main_arg6) = Gen.W6 m ρ c (Proc.devRef .tc main_arg6) by host_keeps hostOps2).trans (W6_arg6 m ρ c)
theorem W8_arg6 (c : Dev nD) : Gen.W8 m ρ c (Proc.devRef .tc main_arg6) = m ((c : Thread nD τ).loc main_arg6) :=
  (Gen.W8_of_ne m ρ c main_arg6 (by decide)).trans (W7_arg6 m ρ c)
theorem W9_arg6 (c : Dev nD) : Gen.W9 m ρ c (Proc.devRef .tc main_arg6) = m ((c : Thread nD τ).loc main_arg6) :=
  (show StableHlo.after hostOps3 (Gen.W8 m ρ c) (Proc.devRef .tc main_arg6) = Gen.W8 m ρ c (Proc.devRef .tc main_arg6) by host_keeps hostOps3).trans (W8_arg6 m ρ c)
theorem W10_arg6 (c : Dev nD) : Gen.W10 m ρ c (Proc.devRef .tc main_arg6) = m ((c : Thread nD τ).loc main_arg6) :=
  (Gen.W10_of_ne m ρ c main_arg6 (by decide)).trans (W9_arg6 m ρ c)
theorem W11_arg6 (c : Dev nD) : Gen.W11 m ρ c (Proc.devRef .tc main_arg6) = m ((c : Thread nD τ).loc main_arg6) :=
  (show StableHlo.after hostOps4 (Gen.W10 m ρ c) (Proc.devRef .tc main_arg6) = Gen.W10 m ρ c (Proc.devRef .tc main_arg6) by host_keeps hostOps4).trans (W10_arg6 m ρ c)
theorem W12_arg6 (c : Dev nD) : Gen.W12 m ρ c (Proc.devRef .tc main_arg6) = m ((c : Thread nD τ).loc main_arg6) :=
  (Gen.W12_of_ne m ρ c main_arg6 (by decide)).trans (W11_arg6 m ρ c)
theorem W13_arg6 (c : Dev nD) : Gen.W13 m ρ c (Proc.devRef .tc main_arg6) = m ((c : Thread nD τ).loc main_arg6) :=
  (show StableHlo.after hostOps5 (Gen.W12 m ρ c) (Proc.devRef .tc main_arg6) = Gen.W12 m ρ c (Proc.devRef .tc main_arg6) by host_keeps hostOps5).trans (W12_arg6 m ρ c)
theorem W14_arg6 (c : Dev nD) : Gen.W14 m ρ c (Proc.devRef .tc main_arg6) = m ((c : Thread nD τ).loc main_arg6) :=
  (Gen.W14_of_ne m ρ c main_arg6 (by decide)).trans (W13_arg6 m ρ c)

theorem W1_arg9 (c : Dev nD) : Gen.W1 m ρ c (Proc.devRef .tc main_arg9) = m ((c : Thread nD τ).loc main_arg9) :=
  (show StableHlo.after hostOps0 (Gen.W0 m ρ c) (Proc.devRef .tc main_arg9) = Gen.W0 m ρ c (Proc.devRef .tc main_arg9) by host_keeps hostOps0)
theorem W2_arg9 (c : Dev nD) : Gen.W2 m ρ c (Proc.devRef .tc main_arg9) = m ((c : Thread nD τ).loc main_arg9) :=
  (show StableHlo.after hostOps0_1 (Gen.W1 m ρ c) (Proc.devRef .tc main_arg9) = Gen.W1 m ρ c (Proc.devRef .tc main_arg9) by host_keeps hostOps0_1).trans (W1_arg9 m ρ c)
theorem W3_arg9 (c : Dev nD) : Gen.W3 m ρ c (Proc.devRef .tc main_arg9) = m ((c : Thread nD τ).loc main_arg9) :=
  (show StableHlo.after hostOps0_2 (Gen.W2 m ρ c) (Proc.devRef .tc main_arg9) = Gen.W2 m ρ c (Proc.devRef .tc main_arg9) by host_keeps hostOps0_2).trans (W2_arg9 m ρ c)
theorem W4_arg9 (c : Dev nD) : Gen.W4 m ρ c (Proc.devRef .tc main_arg9) = m ((c : Thread nD τ).loc main_arg9) :=
  (Gen.W4_of_ne m ρ c main_arg9 (by decide)).trans (W3_arg9 m ρ c)
theorem W5_arg9 (c : Dev nD) : Gen.W5 m ρ c (Proc.devRef .tc main_arg9) = m ((c : Thread nD τ).loc main_arg9) :=
  (show StableHlo.after hostOps1 (Gen.W4 m ρ c) (Proc.devRef .tc main_arg9) = Gen.W4 m ρ c (Proc.devRef .tc main_arg9) by host_keeps hostOps1).trans (W4_arg9 m ρ c)
theorem W6_arg9 (c : Dev nD) : Gen.W6 m ρ c (Proc.devRef .tc main_arg9) = m ((c : Thread nD τ).loc main_arg9) :=
  (Gen.W6_of_ne m ρ c main_arg9 (by decide)).trans (W5_arg9 m ρ c)
theorem W7_arg9 (c : Dev nD) : Gen.W7 m ρ c (Proc.devRef .tc main_arg9) = m ((c : Thread nD τ).loc main_arg9) :=
  (show StableHlo.after hostOps2 (Gen.W6 m ρ c) (Proc.devRef .tc main_arg9) = Gen.W6 m ρ c (Proc.devRef .tc main_arg9) by host_keeps hostOps2).trans (W6_arg9 m ρ c)
theorem W8_arg9 (c : Dev nD) : Gen.W8 m ρ c (Proc.devRef .tc main_arg9) = m ((c : Thread nD τ).loc main_arg9) :=
  (Gen.W8_of_ne m ρ c main_arg9 (by decide)).trans (W7_arg9 m ρ c)
theorem W9_arg9 (c : Dev nD) : Gen.W9 m ρ c (Proc.devRef .tc main_arg9) = m ((c : Thread nD τ).loc main_arg9) :=
  (show StableHlo.after hostOps3 (Gen.W8 m ρ c) (Proc.devRef .tc main_arg9) = Gen.W8 m ρ c (Proc.devRef .tc main_arg9) by host_keeps hostOps3).trans (W8_arg9 m ρ c)
theorem W10_arg9 (c : Dev nD) : Gen.W10 m ρ c (Proc.devRef .tc main_arg9) = m ((c : Thread nD τ).loc main_arg9) :=
  (Gen.W10_of_ne m ρ c main_arg9 (by decide)).trans (W9_arg9 m ρ c)
theorem W11_arg9 (c : Dev nD) : Gen.W11 m ρ c (Proc.devRef .tc main_arg9) = m ((c : Thread nD τ).loc main_arg9) :=
  (show StableHlo.after hostOps4 (Gen.W10 m ρ c) (Proc.devRef .tc main_arg9) = Gen.W10 m ρ c (Proc.devRef .tc main_arg9) by host_keeps hostOps4).trans (W10_arg9 m ρ c)
theorem W12_arg9 (c : Dev nD) : Gen.W12 m ρ c (Proc.devRef .tc main_arg9) = m ((c : Thread nD τ).loc main_arg9) :=
  (Gen.W12_of_ne m ρ c main_arg9 (by decide)).trans (W11_arg9 m ρ c)
theorem W13_arg9 (c : Dev nD) : Gen.W13 m ρ c (Proc.devRef .tc main_arg9) = m ((c : Thread nD τ).loc main_arg9) :=
  (show StableHlo.after hostOps5 (Gen.W12 m ρ c) (Proc.devRef .tc main_arg9) = Gen.W12 m ρ c (Proc.devRef .tc main_arg9) by host_keeps hostOps5).trans (W12_arg9 m ρ c)
theorem W14_arg9 (c : Dev nD) : Gen.W14 m ρ c (Proc.devRef .tc main_arg9) = m ((c : Thread nD τ).loc main_arg9) :=
  (Gen.W14_of_ne m ρ c main_arg9 (by decide)).trans (W13_arg9 m ρ c)

end Cert.KernelIdeal.KerVal

end
-- ==== Proof.KerCarryB.lean ====
/-
  The normalisation parameters, the edge list and the two edge-id vectors at every boundary of the run: the
  argument arrays are never written, and the source and target id vectors, cut out of the edge list before the first
  region, are never written again, so each boundary holds for them what the launch memory, or the boundary before
  the first region, held.
-/
import proofs.«125584_j43164421324859_2_alg».proof.Proof.Gen.KernelIdeal.Frame
import proofs.«125584_j43164421324859_2_alg».proof.Proof.KerCarryA
import Idealize.ShloMosaic.Lib.StableHlo.Run

set_option maxRecDepth 16384

noncomputable section

namespace Cert.KernelIdeal.KerVal

open Idealize.ShloMosaic Idealize.ShloMosaic.TcCoe Idealize.ShloMosaic.Tactic
open Idealize.ShloMosaic.Pipeline (Dat Cfg Window BodyObligation cellOf)
open Cert.KernelIdeal Cert.KernelIdeal.Gen
open Idealize.ShloMosaic.StableHlo

variable {F : FTy → Type} [FloatOps F]

variable (m : (ℓ : Loc nD τ sig) → Buf (Elt F) ℓ) (ρ : Dev nD → PrngReg)

theorem W1_arg7 (c : Dev nD) : Gen.W1 m ρ c (Proc.devRef .tc main_arg7) = m ((c : Thread nD τ).loc main_arg7) :=
  (show StableHlo.after hostOps0 (Gen.W0 m ρ c) (Proc.devRef .tc main_arg7) = Gen.W0 m ρ c (Proc.devRef .tc main_arg7) by host_keeps hostOps0)
theorem W2_arg7 (c : Dev nD) : Gen.W2 m ρ c (Proc.devRef .tc main_arg7) = m ((c : Thread nD τ).loc main_arg7) :=
  (show StableHlo.after hostOps0_1 (Gen.W1 m ρ c) (Proc.devRef .tc main_arg7) = Gen.W1 m ρ c (Proc.devRef .tc main_arg7) by host_keeps hostOps0_1).trans (W1_arg7 m ρ c)
theorem W3_arg7 (c : Dev nD) : Gen.W3 m ρ c (Proc.devRef .tc main_arg7) = m ((c : Thread nD τ).loc main_arg7) :=
  (show StableHlo.after hostOps0_2 (Gen.W2 m ρ c) (Proc.devRef .tc main_arg7) = Gen.W2 m ρ c (Proc.devRef .tc main_arg7) by host_keeps hostOps0_2).trans (W2_arg7 m ρ c)
theorem W4_arg7 (c : Dev nD) : Gen.W4 m ρ c (Proc.devRef .tc main_arg7) = m ((c : Thread nD τ).loc main_arg7) :=
  (Gen.W4_of_ne m ρ c main_arg7 (by decide)).trans (W3_arg7 m ρ c)
theorem W5_arg7 (c : Dev nD) : Gen.W5 m ρ c (Proc.devRef .tc main_arg7) = m ((c : Thread nD τ).loc main_arg7) :=
  (show StableHlo.after hostOps1 (Gen.W4 m ρ c) (Proc.devRef .tc main_arg7) = Gen.W4 m ρ c (Proc.devRef .tc main_arg7) by host_keeps hostOps1).trans (W4_arg7 m ρ c)
theorem W6_arg7 (c : Dev nD) : Gen.W6 m ρ c (Proc.devRef .tc main_arg7) = m ((c : Thread nD τ).loc main_arg7) :=
  (Gen.W6_of_ne m ρ c main_arg7 (by decide)).trans (W5_arg7 m ρ c)
theorem W7_arg7 (c : Dev nD) : Gen.W7 m ρ c (Proc.devRef .tc main_arg7) = m ((c : Thread nD τ).loc main_arg7) :=
  (show StableHlo.after hostOps2 (Gen.W6 m ρ c) (Proc.devRef .tc main_arg7) = Gen.W6 m ρ c (Proc.devRef .tc main_arg7) by host_keeps hostOps2).trans (W6_arg7 m ρ c)
theorem W8_arg7 (c : Dev nD) : Gen.W8 m ρ c (Proc.devRef .tc main_arg7) = m ((c : Thread nD τ).loc main_arg7) :=
  (Gen.W8_of_ne m ρ c main_arg7 (by decide)).trans (W7_arg7 m ρ c)
theorem W9_arg7 (c : Dev nD) : Gen.W9 m ρ c (Proc.devRef .tc main_arg7) = m ((c : Thread nD τ).loc main_arg7) :=
  (show StableHlo.after hostOps3 (Gen.W8 m ρ c) (Proc.devRef .tc main_arg7) = Gen.W8 m ρ c (Proc.devRef .tc main_arg7) by host_keeps hostOps3).trans (W8_arg7 m ρ c)
theorem W10_arg7 (c : Dev nD) : Gen.W10 m ρ c (Proc.devRef .tc main_arg7) = m ((c : Thread nD τ).loc main_arg7) :=
  (Gen.W10_of_ne m ρ c main_arg7 (by decide)).trans (W9_arg7 m ρ c)
theorem W11_arg7 (c : Dev nD) : Gen.W11 m ρ c (Proc.devRef .tc main_arg7) = m ((c : Thread nD τ).loc main_arg7) :=
  (show StableHlo.after hostOps4 (Gen.W10 m ρ c) (Proc.devRef .tc main_arg7) = Gen.W10 m ρ c (Proc.devRef .tc main_arg7) by host_keeps hostOps4).trans (W10_arg7 m ρ c)
theorem W12_arg7 (c : Dev nD) : Gen.W12 m ρ c (Proc.devRef .tc main_arg7) = m ((c : Thread nD τ).loc main_arg7) :=
  (Gen.W12_of_ne m ρ c main_arg7 (by decide)).trans (W11_arg7 m ρ c)
theorem W13_arg7 (c : Dev nD) : Gen.W13 m ρ c (Proc.devRef .tc main_arg7) = m ((c : Thread nD τ).loc main_arg7) :=
  (show StableHlo.after hostOps5 (Gen.W12 m ρ c) (Proc.devRef .tc main_arg7) = Gen.W12 m ρ c (Proc.devRef .tc main_arg7) by host_keeps hostOps5).trans (W12_arg7 m ρ c)
theorem W14_arg7 (c : Dev nD) : Gen.W14 m ρ c (Proc.devRef .tc main_arg7) = m ((c : Thread nD τ).loc main_arg7) :=
  (Gen.W14_of_ne m ρ c main_arg7 (by decide)).trans (W13_arg7 m ρ c)
theorem W15_arg7 (c : Dev nD) : Gen.W15 m ρ c (Proc.devRef .tc main_arg7) = m ((c : Thread nD τ).loc main_arg7) :=
  (show StableHlo.after hostOps6 (Gen.W14 m ρ c) (Proc.devRef .tc main_arg7) = Gen.W14 m ρ c (Proc.devRef .tc main_arg7) by host_keeps hostOps6).trans (W14_arg7 m ρ c)
theorem W16_arg7 (c : Dev nD) : Gen.W16 m ρ c (Proc.devRef .tc main_arg7) = m ((c : Thread nD τ).loc main_arg7) :=
  (Gen.W16_of_ne m ρ c main_arg7 (by decide)).trans (W15_arg7 m ρ c)

theorem W1_arg8 (c : Dev nD) : Gen.W1 m ρ c (Proc.devRef .tc main_arg8) = m ((c : Thread nD τ).loc main_arg8) :=
  (show StableHlo.after hostOps0 (Gen.W0 m ρ c) (Proc.devRef .tc main_arg8) = Gen.W0 m ρ c (Proc.devRef .tc main_arg8) by host_keeps hostOps0)
theorem W2_arg8 (c : Dev nD) : Gen.W2 m ρ c (Proc.devRef .tc main_arg8) = m ((c : Thread nD τ).loc main_arg8) :=
  (show StableHlo.after hostOps0_1 (Gen.W1 m ρ c) (Proc.devRef .tc main_arg8) = Gen.W1 m ρ c (Proc.devRef .tc main_arg8) by host_keeps hostOps0_1).trans (W1_arg8 m ρ c)
theorem W3_arg8 (c : Dev nD) : Gen.W3 m ρ c (Proc.devRef .tc main_arg8) = m ((c : Thread nD τ).loc main_arg8) :=
  (show StableHlo.after hostOps0_2 (Gen.W2 m ρ c) (Proc.devRef .tc main_arg8) = Gen.W2 m ρ c (Proc.devRef .tc main_arg8) by host_keeps hostOps0_2).trans (W2_arg8 m ρ c)
theorem W4_arg8 (c : Dev nD) : Gen.W4 m ρ c (Proc.devRef .tc main_arg8) = m ((c : Thread nD τ).loc main_arg8) :=
  (Gen.W4_of_ne m ρ c main_arg8 (by decide)).trans (W3_arg8 m ρ c)
theorem W5_arg8 (c : Dev nD) : Gen.W5 m ρ c (Proc.devRef .tc main_arg8) = m ((c : Thread nD τ).loc main_arg8) :=
  (show StableHlo.after hostOps1 (Gen.W4 m ρ c) (Proc.devRef .tc main_arg8) = Gen.W4 m ρ c (Proc.devRef .tc main_arg8) by host_keeps hostOps1).trans (W4_arg8 m ρ c)
theorem W6_arg8 (c : Dev nD) : Gen.W6 m ρ c (Proc.devRef .tc main_arg8) = m ((c : Thread nD τ).loc main_arg8) :=
  (Gen.W6_of_ne m ρ c main_arg8 (by decide)).trans (W5_arg8 m ρ c)
theorem W7_arg8 (c : Dev nD) : Gen.W7 m ρ c (Proc.devRef .tc main_arg8) = m ((c : Thread nD τ).loc main_arg8) :=
  (show StableHlo.after hostOps2 (Gen.W6 m ρ c) (Proc.devRef .tc main_arg8) = Gen.W6 m ρ c (Proc.devRef .tc main_arg8) by host_keeps hostOps2).trans (W6_arg8 m ρ c)
theorem W8_arg8 (c : Dev nD) : Gen.W8 m ρ c (Proc.devRef .tc main_arg8) = m ((c : Thread nD τ).loc main_arg8) :=
  (Gen.W8_of_ne m ρ c main_arg8 (by decide)).trans (W7_arg8 m ρ c)
theorem W9_arg8 (c : Dev nD) : Gen.W9 m ρ c (Proc.devRef .tc main_arg8) = m ((c : Thread nD τ).loc main_arg8) :=
  (show StableHlo.after hostOps3 (Gen.W8 m ρ c) (Proc.devRef .tc main_arg8) = Gen.W8 m ρ c (Proc.devRef .tc main_arg8) by host_keeps hostOps3).trans (W8_arg8 m ρ c)
theorem W10_arg8 (c : Dev nD) : Gen.W10 m ρ c (Proc.devRef .tc main_arg8) = m ((c : Thread nD τ).loc main_arg8) :=
  (Gen.W10_of_ne m ρ c main_arg8 (by decide)).trans (W9_arg8 m ρ c)
theorem W11_arg8 (c : Dev nD) : Gen.W11 m ρ c (Proc.devRef .tc main_arg8) = m ((c : Thread nD τ).loc main_arg8) :=
  (show StableHlo.after hostOps4 (Gen.W10 m ρ c) (Proc.devRef .tc main_arg8) = Gen.W10 m ρ c (Proc.devRef .tc main_arg8) by host_keeps hostOps4).trans (W10_arg8 m ρ c)
theorem W12_arg8 (c : Dev nD) : Gen.W12 m ρ c (Proc.devRef .tc main_arg8) = m ((c : Thread nD τ).loc main_arg8) :=
  (Gen.W12_of_ne m ρ c main_arg8 (by decide)).trans (W11_arg8 m ρ c)
theorem W13_arg8 (c : Dev nD) : Gen.W13 m ρ c (Proc.devRef .tc main_arg8) = m ((c : Thread nD τ).loc main_arg8) :=
  (show StableHlo.after hostOps5 (Gen.W12 m ρ c) (Proc.devRef .tc main_arg8) = Gen.W12 m ρ c (Proc.devRef .tc main_arg8) by host_keeps hostOps5).trans (W12_arg8 m ρ c)
theorem W14_arg8 (c : Dev nD) : Gen.W14 m ρ c (Proc.devRef .tc main_arg8) = m ((c : Thread nD τ).loc main_arg8) :=
  (Gen.W14_of_ne m ρ c main_arg8 (by decide)).trans (W13_arg8 m ρ c)
theorem W15_arg8 (c : Dev nD) : Gen.W15 m ρ c (Proc.devRef .tc main_arg8) = m ((c : Thread nD τ).loc main_arg8) :=
  (show StableHlo.after hostOps6 (Gen.W14 m ρ c) (Proc.devRef .tc main_arg8) = Gen.W14 m ρ c (Proc.devRef .tc main_arg8) by host_keeps hostOps6).trans (W14_arg8 m ρ c)
theorem W16_arg8 (c : Dev nD) : Gen.W16 m ρ c (Proc.devRef .tc main_arg8) = m ((c : Thread nD τ).loc main_arg8) :=
  (Gen.W16_of_ne m ρ c main_arg8 (by decide)).trans (W15_arg8 m ρ c)

theorem W1_arg1 (c : Dev nD) : Gen.W1 m ρ c (Proc.devRef .tc main_arg1) = m ((c : Thread nD τ).loc main_arg1) :=
  (show StableHlo.after hostOps0 (Gen.W0 m ρ c) (Proc.devRef .tc main_arg1) = Gen.W0 m ρ c (Proc.devRef .tc main_arg1) by host_keeps hostOps0)
theorem W2_arg1 (c : Dev nD) : Gen.W2 m ρ c (Proc.devRef .tc main_arg1) = m ((c : Thread nD τ).loc main_arg1) :=
  (show StableHlo.after hostOps0_1 (Gen.W1 m ρ c) (Proc.devRef .tc main_arg1) = Gen.W1 m ρ c (Proc.devRef .tc main_arg1) by host_keeps hostOps0_1).trans (W1_arg1 m ρ c)

theorem W4_v12 (c : Dev nD) : Gen.W4 m ρ c (Proc.devRef .tc main_v12) = Gen.W3 m ρ c (Proc.devRef .tc main_v12) :=
  (Gen.W4_of_ne m ρ c main_v12 (by decide))
theorem W5_v12 (c : Dev nD) : Gen.W5 m ρ c (Proc.devRef .tc main_v12) = Gen.W3 m ρ c (Proc.devRef .tc main_v12) :=
  (show StableHlo.after hostOps1 (Gen.W4 m ρ c) (Proc.devRef .tc main_v12) = Gen.W4 m ρ c (Proc.devRef .tc main_v12) by host_keeps hostOps1).trans (W4_v12 m ρ c)
theorem W6_v12 (c : Dev nD) : Gen.W6 m ρ c (Proc.devRef .tc main_v12) = Gen.W3 m ρ c (Proc.devRef .tc main_v12) :=
  (Gen.W6_of_ne m ρ c main_v12 (by decide)).trans (W5_v12 m ρ c)
theorem W7_v12 (c : Dev nD) : Gen.W7 m ρ c (Proc.devRef .tc main_v12) = Gen.W3 m ρ c (Proc.devRef .tc main_v12) :=
  (show StableHlo.after hostOps2 (Gen.W6 m ρ c) (Proc.devRef .tc main_v12) = Gen.W6 m ρ c (Proc.devRef .tc main_v12) by host_keeps hostOps2).trans (W6_v12 m ρ c)
theorem W8_v12 (c : Dev nD) : Gen.W8 m ρ c (Proc.devRef .tc main_v12) = Gen.W3 m ρ c (Proc.devRef .tc main_v12) :=
  (Gen.W8_of_ne m ρ c main_v12 (by decide)).trans (W7_v12 m ρ c)
theorem W9_v12 (c : Dev nD) : Gen.W9 m ρ c (Proc.devRef .tc main_v12) = Gen.W3 m ρ c (Proc.devRef .tc main_v12) :=
  (show StableHlo.after hostOps3 (Gen.W8 m ρ c) (Proc.devRef .tc main_v12) = Gen.W8 m ρ c (Proc.devRef .tc main_v12) by host_keeps hostOps3).trans (W8_v12 m ρ c)
theorem W10_v12 (c : Dev nD) : Gen.W10 m ρ c (Proc.devRef .tc main_v12) = Gen.W3 m ρ c (Proc.devRef .tc main_v12) :=
  (Gen.W10_of_ne m ρ c main_v12 (by decide)).trans (W9_v12 m ρ c)
theorem W11_v12 (c : Dev nD) : Gen.W11 m ρ c (Proc.devRef .tc main_v12) = Gen.W3 m ρ c (Proc.devRef .tc main_v12) :=
  (show StableHlo.after hostOps4 (Gen.W10 m ρ c) (Proc.devRef .tc main_v12) = Gen.W10 m ρ c (Proc.devRef .tc main_v12) by host_keeps hostOps4).trans (W10_v12 m ρ c)
theorem W12_v12 (c : Dev nD) : Gen.W12 m ρ c (Proc.devRef .tc main_v12) = Gen.W3 m ρ c (Proc.devRef .tc main_v12) :=
  (Gen.W12_of_ne m ρ c main_v12 (by decide)).trans (W11_v12 m ρ c)
theorem W13_v12 (c : Dev nD) : Gen.W13 m ρ c (Proc.devRef .tc main_v12) = Gen.W3 m ρ c (Proc.devRef .tc main_v12) :=
  (show StableHlo.after hostOps5 (Gen.W12 m ρ c) (Proc.devRef .tc main_v12) = Gen.W12 m ρ c (Proc.devRef .tc main_v12) by host_keeps hostOps5).trans (W12_v12 m ρ c)
theorem W14_v12 (c : Dev nD) : Gen.W14 m ρ c (Proc.devRef .tc main_v12) = Gen.W3 m ρ c (Proc.devRef .tc main_v12) :=
  (Gen.W14_of_ne m ρ c main_v12 (by decide)).trans (W13_v12 m ρ c)

theorem W4_v14 (c : Dev nD) : Gen.W4 m ρ c (Proc.devRef .tc main_v14) = Gen.W3 m ρ c (Proc.devRef .tc main_v14) :=
  (Gen.W4_of_ne m ρ c main_v14 (by decide))
theorem W5_v14 (c : Dev nD) : Gen.W5 m ρ c (Proc.devRef .tc main_v14) = Gen.W3 m ρ c (Proc.devRef .tc main_v14) :=
  (show StableHlo.after hostOps1 (Gen.W4 m ρ c) (Proc.devRef .tc main_v14) = Gen.W4 m ρ c (Proc.devRef .tc main_v14) by host_keeps hostOps1).trans (W4_v14 m ρ c)
theorem W6_v14 (c : Dev nD) : Gen.W6 m ρ c (Proc.devRef .tc main_v14) = Gen.W3 m ρ c (Proc.devRef .tc main_v14) :=
  (Gen.W6_of_ne m ρ c main_v14 (by decide)).trans (W5_v14 m ρ c)
theorem W7_v14 (c : Dev nD) : Gen.W7 m ρ c (Proc.devRef .tc main_v14) = Gen.W3 m ρ c (Proc.devRef .tc main_v14) :=
  (show StableHlo.after hostOps2 (Gen.W6 m ρ c) (Proc.devRef .tc main_v14) = Gen.W6 m ρ c (Proc.devRef .tc main_v14) by host_keeps hostOps2).trans (W6_v14 m ρ c)
theorem W8_v14 (c : Dev nD) : Gen.W8 m ρ c (Proc.devRef .tc main_v14) = Gen.W3 m ρ c (Proc.devRef .tc main_v14) :=
  (Gen.W8_of_ne m ρ c main_v14 (by decide)).trans (W7_v14 m ρ c)
theorem W9_v14 (c : Dev nD) : Gen.W9 m ρ c (Proc.devRef .tc main_v14) = Gen.W3 m ρ c (Proc.devRef .tc main_v14) :=
  (show StableHlo.after hostOps3 (Gen.W8 m ρ c) (Proc.devRef .tc main_v14) = Gen.W8 m ρ c (Proc.devRef .tc main_v14) by host_keeps hostOps3).trans (W8_v14 m ρ c)
theorem W10_v14 (c : Dev nD) : Gen.W10 m ρ c (Proc.devRef .tc main_v14) = Gen.W3 m ρ c (Proc.devRef .tc main_v14) :=
  (Gen.W10_of_ne m ρ c main_v14 (by decide)).trans (W9_v14 m ρ c)
theorem W11_v14 (c : Dev nD) : Gen.W11 m ρ c (Proc.devRef .tc main_v14) = Gen.W3 m ρ c (Proc.devRef .tc main_v14) :=
  (show StableHlo.after hostOps4 (Gen.W10 m ρ c) (Proc.devRef .tc main_v14) = Gen.W10 m ρ c (Proc.devRef .tc main_v14) by host_keeps hostOps4).trans (W10_v14 m ρ c)
theorem W12_v14 (c : Dev nD) : Gen.W12 m ρ c (Proc.devRef .tc main_v14) = Gen.W3 m ρ c (Proc.devRef .tc main_v14) :=
  (Gen.W12_of_ne m ρ c main_v14 (by decide)).trans (W11_v14 m ρ c)
theorem W13_v14 (c : Dev nD) : Gen.W13 m ρ c (Proc.devRef .tc main_v14) = Gen.W3 m ρ c (Proc.devRef .tc main_v14) :=
  (show StableHlo.after hostOps5 (Gen.W12 m ρ c) (Proc.devRef .tc main_v14) = Gen.W12 m ρ c (Proc.devRef .tc main_v14) by host_keeps hostOps5).trans (W12_v14 m ρ c)
theorem W14_v14 (c : Dev nD) : Gen.W14 m ρ c (Proc.devRef .tc main_v14) = Gen.W3 m ρ c (Proc.devRef .tc main_v14) :=
  (Gen.W14_of_ne m ρ c main_v14 (by decide)).trans (W13_v14 m ρ c)

/-! ## The edge-id terms -/

/-- The source ids: row 0 of the edge list as a vector. -/
abbrev srcIds (a1 : IVec S2x1600000 32) : IVec S1600000 32 :=
  shapeCast S1600000 (extractStridedSlice S1x1600000 ![0, 0] a1 slices_S2x1600000_S1x1600000_0_0) shapeCasts_S1x1600000_S1600000

/-- The target ids: row 1 of the edge list as a vector. -/
abbrev dstIds (a1 : IVec S2x1600000 32) : IVec S1600000 32 :=
  shapeCast S1600000 (extractStridedSlice S1x1600000 ![1, 0] a1 slices_S2x1600000_S1x1600000_1_0) shapeCasts_S1x1600000_S1600000

/-- "if t < 0 then t + 100000 else t", entry by entry, laid as one column. -/
abbrev normIds (t : IVec S1600000 32) : IVec S1600000x1 32 :=
  broadcastInDim S1600000x1 ![0] bcast_S1600000_S1600000x1_0
    (select (cmpi .slt t (broadcastInDim S1600000 ![] bcast_S_S1600000 (constantI S_ 32 0#32)))
      (addi t (broadcastInDim S1600000 ![] bcast_S_S1600000 (constantI S_ 32 100000#32))) t)

/-- The rows of a feature array at the edges' normalised sources, one row per edge. -/
abbrev gathered (h : FVec F S100000x128 .f32) (a1 : IVec S2x1600000 32) : FVec F S1600000x128 .f32 :=
  Host.gather gather_S100000x128_S1600000x1_S1600000x128_1_0_n_n_0_1_1128 h (normIds (srcIds a1))

/-- The stretch before the first region cuts the two id vectors out of the edge list. -/
theorem h02_v12 (W : Valuation τ sig (Elt F)) :
    StableHlo.after hostOps0_2 W (Proc.devRef .tc main_v12) = srcIds (W (Proc.devRef .tc main_arg1)) := by
  simp only [hostOps0_2]
  after_results
  rfl

theorem h02_v14 (W : Valuation τ sig (Elt F)) :
    StableHlo.after hostOps0_2 W (Proc.devRef .tc main_v14) = dstIds (W (Proc.devRef .tc main_arg1)) := by
  simp only [hostOps0_2]
  after_results
  rfl

theorem W3_v12_eq (c : Dev nD) :
    Gen.W3 m ρ c (Proc.devRef .tc main_v12) = srcIds (m ((c : Thread nD τ).loc main_arg1)) := by
  show StableHlo.after hostOps0_2 (Gen.W2 m ρ c) (Proc.devRef .tc main_v12) = _
  rw [h02_v12, W2_arg1]

theorem W3_v14_eq (c : Dev nD) :
    Gen.W3 m ρ c (Proc.devRef .tc main_v14) = dstIds (m ((c : Thread nD τ).loc main_arg1)) := by
  show StableHlo.after hostOps0_2 (Gen.W2 m ρ c) (Proc.devRef .tc main_v14) = _
  rw [h02_v14, W2_arg1]

end Cert.KernelIdeal.KerVal

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.LibScatter.lean ====
/-
  A row scatter-add read at an entry, on the extended reals.

  The lowering of a segment sum: an N × C operand, E update rows of C columns, and one scalar row index per update row
  (an E × 1 index array); update row e is added into operand row idx(e). On the extended reals the result's entry (n, c)
  is the operand's entry plus the sum, over the update rows e whose index (read signed) equals n, of the update's entry
  (e, c): an update lands on (n, c) exactly when its row index is n and its column is c, and an index outside
  [0, N) lands nowhere. It holds for every extent N, E, C.
-/
import Idealize.ShloMosaic.PureOps.Ideal
import Idealize.ShloMosaic.Lib.ValueIdx

noncomputable section

namespace Cert.LibScatter

open Idealize.ShloMosaic Idealize.ShloMosaic.ValueIdx

section Rows

variable {N E C w : Nat}
  (wf : ScatterDims.WF (⟨2, ![N, C]⟩ : Shape) ⟨2, ![E, 1]⟩ ⟨2, ![E, C]⟩ [1] [0] [0] 1)

/-- The row scatter's dimension numbers: window axis 1 of the updates, inserted axis 0 of the operand, the one
    index component goes to operand axis 0, and the index vector lies along axis 1 of the indices. -/
abbrev rowDims : ScatterDims (⟨2, ![N, C]⟩ : Shape) ⟨2, ![E, 1]⟩ ⟨2, ![E, C]⟩ := ⟨[1], [0], [0], 1, wf⟩

/-- On operand axis 0 the window of update entry (e, c') starts at row e's index, read signed: the one index component
    goes to axis 0, and it is read at (e, 0) of the indices. -/
theorem rows_start0 (idx : IVec ⟨2, ![E, 1]⟩ w) (e : Fin E) (c' : Fin C) :
    (rowDims wf).start (ix2 e c') idx 0 = (idx (ix2 e (0 : Fin 1))).toInt := by
  unfold ScatterDims.start
  rw [dif_pos (show (0 : Fin 2) ∈ (rowDims wf).scatterDimsToOperandDims from List.mem_singleton.mpr rfl)]
  have hsi : (rowDims wf).siIdx (ix2 e c') ⟨List.idxOf (0 : Fin 2) (rowDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no index component goes to, every window starts at 0. -/
theorem rows_start1 (idx : IVec ⟨2, ![E, 1]⟩ w) (j : (⟨2, ![E, C]⟩ : Shape).Idx) :
    (rowDims wf).start j idx 1 = 0 := by
  unfold ScatterDims.start
  have h : (1 : Fin 2) ∉ (rowDims wf).scatterDimsToOperandDims :=
    (by decide : (1 : Fin 2) ∉ ([0] : List (Fin 2)))
  rw [dif_neg h]

/-- Operand axis 0 is inserted, so the window coordinate on it is 0. -/
theorem rows_window0 (j : (⟨2, ![E, C]⟩ : Shape).Idx) : (rowDims wf).window j 0 = 0 := by
  unfold ScatterDims.window
  have h : (0 : Fin 2) ∉ (rowDims wf).sKept :=
    (by decide : (0 : Fin 2) ∉ (List.finRange 2).filter (· ∉ ([0] : List (Fin 2))))
  rw [dif_neg h]

/-- Operand axis 1 is the one kept axis; the window coordinate on it is the update entry's column. -/
theorem rows_window1 (e : Fin E) (c' : Fin C) : (rowDims wf).window (ix2 e c') 1 = c'.val := by
  unfold ScatterDims.window
  have h : (1 : Fin 2) ∈ (rowDims wf).sKept :=
    (by decide : (1 : Fin 2) ∈ (List.finRange 2).filter (· ∉ ([0] : List (Fin 2))))
  rw [dif_pos h]
  rfl

/-- An update entry (e, c') lands on the operand entry (n, c) exactly when row e's index, read signed, is n and the
    columns agree: on axis 0 the result coordinate is the index itself (window coordinate 0), on axis 1 it is the
    window coordinate c' (start 0); an index outside [0, N) lands nowhere. -/
theorem rows_resultIdx?_eq_some_iff (idx : IVec ⟨2, ![E, 1]⟩ w) (e : Fin E) (c' : Fin C) (n : Fin N) (c : Fin C) :
    (rowDims wf).resultIdx? (ix2 e c') idx = some (ix2 n c)
      ↔ (idx (ix2 e (0 : Fin 1))).toInt = (n.val : Int) ∧ c' = c := by
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [rows_start0, rows_start1, rows_window0, rows_window1] at h0 h1 hb0
      have h0' : ((idx (ix2 e (0 : Fin 1))).toInt + ((0 : Nat) : Int)).toNat = n.val := h0
      have h1' : ((0 : Int) + (c'.val : Int)).toNat = c.val := h1
      refine ⟨by omega, Fin.ext (by omega)⟩
    · exact absurd h (by simp)
  · rintro ⟨hi, rfl⟩
    have hb : ∀ a, 0 ≤ (rowDims wf).start (ix2 e c') idx a + (rowDims wf).window (ix2 e c') a ∧
        (rowDims wf).start (ix2 e c') idx a + (rowDims wf).window (ix2 e c') a
          < (⟨2, ![N, C]⟩ : Shape).size a := by
      intro a
      match a with
      | ⟨0, _⟩ =>
        show 0 ≤ (rowDims wf).start (ix2 e c') idx 0 + (rowDims wf).window (ix2 e c') 0 ∧
          (rowDims wf).start (ix2 e c') idx 0 + (rowDims wf).window (ix2 e c') 0 < (N : Int)
        rw [rows_start0, rows_window0]
        have := n.isLt
        omega
      | ⟨1, _⟩ =>
        show 0 ≤ (rowDims wf).start (ix2 e c') idx 1 + (rowDims wf).window (ix2 e c') 1 ∧
          (rowDims wf).start (ix2 e c') idx 1 + (rowDims wf).window (ix2 e c') 1 < (C : Int)
        rw [rows_start1, rows_window1]
        have := c'.isLt
        omega
    rw [dif_pos hb]
    congr 1
    funext a
    refine Fin.ext ?_
    match a with
    | ⟨0, _⟩ =>
      show ((rowDims wf).start (ix2 e c') idx 0 + (rowDims wf).window (ix2 e c') 0).toNat = n.val
      rw [rows_start0, rows_window0]
      omega
    | ⟨1, _⟩ =>
      show ((rowDims wf).start (ix2 e c') idx 1 + (rowDims wf).window (ix2 e c') 1).toNat = c'.val
      rw [rows_start1, rows_window1]
      omega

/-- The row scatter-add at the literal dimension numbers, read at entry (n, c). -/
theorem rows_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e (0 : Fin 1))).toInt = (n.val : Int)
  · simp [hA]
  · simp [hA]

end Rows

/-- A row scatter-add (the lowering of a segment sum): operand N×C, one scalar row index per update row (indices E×1),
    updates E×C, window axis 1, inserted axis 0. At the exact instance, entry (n, c) of the result is the operand's
    entry plus the sum, over the update rows e whose index (read signed) is n, of the update's entry (e, c). -/
theorem hostScatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e : Fin E, if (idx (ix2 e (0 : Fin 1))).toInt = (n.val : Int) then upd (ix2 e c) else 0 := by
  obtain ⟨uw, iw, sd, iv, wf⟩ := d
  simp only at hu hi hs hv
  subst hu hi hs hv
  exact rows_hostScatterAdd_apply wf x idx upd n c

/-- The same, for the scatter as a host program states it. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hu hi hs hv x idx upd n c

end Cert.LibScatter

end
-- ==== Proof.LibLayer.lean ====
/-
  The host arithmetic of one graph layer, read entry by entry on the extended reals.

  Four groups of facts, none about a particular program.

  Sums of parts.  A T × S × H array summed over its first two axes leaves, at q, the start value plus the double sum
  over (t, s) of the entries (t, s, q): the indices that reduce into q are exactly those whose last coordinate is q.
  When part (t, s, q) holds the sum of tile t of a batch for s = 0 and nothing otherwise, the double sum is the sum
  over the whole batch.

  Re-laid pieces.  A unit slice of a stack of matrices or vectors, re-cast without its unit axis, reads the stack at
  the slice's position; a one-entry slice of a vector re-cast as a scalar reads that entry.

  Edge ids.  An id t with 0 ≤ t (read signed) is left alone by "if t < 0 then t + k else t"; laid as a one-column
  array it is read back at (e, 0).

  Assembly.  If the combined input is (1 + eps) · h plus the gathered rows summed at their targets, the two dense
  layers are applied to it, the parts hold the tile sums of the result and of its squares, scale and shift are
  g · rsqrt (max (E[l²] − mean²) 0 + ε) and β − mean · scale with mean and E[l²] the sums over the node count, and the
  output is max (l · scale + shift) 0, then the output is the layer in its folded form.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.Affine
import proofs.«125584_j43164421324859_2_alg».proof.Proof.LibBcast
import proofs.«125584_j43164421324859_2_alg».proof.Proof.LibScatter
import proofs.«125584_j43164421324859_2_alg».proof.Proof.LibTiles
import proofs.«125584_j43164421324859_2_alg».proof.Proof.Spec

noncomputable section

namespace Cert.LibLayer

open Idealize.ShloMosaic Idealize.ShloMosaic.ValueIdx

/-! ## Sums of parts -/

/-- Dropping the first two coordinates of (a0, a1, a2) leaves a2. -/
theorem drop_val {T S H : ℕ} (h' : (⟨3, ![T, S, H]⟩ : Shape).ReducesTo [0, 1] ⟨1, ![H]⟩)
    (i : (⟨3, ![T, S, H]⟩ : Shape).Idx) : ((h'.drop i) 0).val = (i 2).val := rfl

/-- An index reduces into q exactly when its last coordinate is q. -/
theorem drop_eq_iff {T S H : ℕ} (h' : (⟨3, ![T, S, H]⟩ : Shape).ReducesTo [0, 1] ⟨1, ![H]⟩)
    (i : (⟨3, ![T, S, H]⟩ : Shape).Idx) (q : Fin H) : h'.drop i = ix1 q ↔ i 2 = q := by
  constructor
  · intro e
    have e0 : ((h'.drop i) 0).val = q.val := congrArg Fin.val (congrFun e 0)
    exact Fin.ext ((drop_val h' i).symm.trans e0)
  · intro e
    funext b
    match b with
    | ⟨0, _⟩ => exact Fin.ext ((drop_val h' i).trans (congrArg Fin.val e))

/-- An index whose last coordinate is q is (its first, its second, q). -/
theorem ix3_of_last {T S H : ℕ} (a : (⟨3, ![T, S, H]⟩ : Shape).Idx) (q : Fin H) (e2 : a 2 = q) :
    ix3 (a 0) (a 1) q = a := by
  funext d
  match d with
  | ⟨0, _⟩ => rfl
  | ⟨1, _⟩ => rfl
  | ⟨2, _⟩ => exact e2.symm

/-- The sum of a T × S × H array over its first two axes, at q: the start value plus the double sum of the entries
    (t, s, q). -/
theorem hostReduceAdd_parts {T S H : ℕ} (h' : (⟨3, ![T, S, H]⟩ : Shape).ReducesTo [0, 1] ⟨1, ![H]⟩)
    (x : (⟨3, ![T, S, H]⟩ : Shape).Idx → EReal) (init : EReal) (q : Fin H) :
    Ideal.hostReduceAdd h' x init (ix1 q) = init + ∑ t : Fin T, ∑ s : Fin S, x (ix3 t s q) := by
  unfold Ideal.hostReduceAdd
  congr 1
  rw [← Finset.sum_product' Finset.univ Finset.univ (fun (t : Fin T) (s : Fin S) => x (ix3 t s q))]
  refine Finset.sum_nbij' (fun i => ((i 0 : Fin T), (i 1 : Fin S))) (fun p => ix3 p.1 p.2 q) ?_ ?_ ?_ ?_ ?_
  · intro a _; exact Finset.mem_product.2 ⟨Finset.mem_univ _, Finset.mem_univ _⟩
  · intro p _
    exact Finset.mem_filter.2 ⟨Finset.mem_univ _, (drop_eq_iff h' _ q).2 rfl⟩
  · intro a ha
    exact ix3_of_last a q ((drop_eq_iff h' a q).1 (Finset.mem_filter.1 ha).2)
  · intro p _; rfl
  · intro a ha
    exact congrArg x (ix3_of_last a q ((drop_eq_iff h' a q).1 (Finset.mem_filter.1 ha).2)).symm

/-- The same for the sum as a host program states it, from the zero word: the double sum alone. -/
theorem reduceAdd_parts {T S H : ℕ} (x : FVec Ideal (⟨3, ![T, S, H]⟩ : Shape) .f32)
    (h' : (⟨3, ![T, S, H]⟩ : Shape).ReducesTo [0, 1] ⟨1, ![H]⟩) (hu : 0 < (⟨0, ![]⟩ : Shape).numel) (q : Fin H) :
    Host.reduceAdd x (constant (F := Ideal) ⟨0, ![]⟩ .f32 0x00000000#32) h' hu (ix1 q)
      = ∑ t : Fin T, ∑ s : Fin S, x (ix3 t s q) := by
  rw [hostReduceAdd_apply, hostReduceAdd_parts, constant_apply, Ideal.ofBits_zero_f32, zero_add]

/-! ## Re-laid pieces -/

/-- A unit slice at position l of a stack of matrices, re-cast as one matrix, reads the stack at (l, j, k). -/
theorem mat_piece_apply {α : Type} {L A B : ℕ} (l : ℕ) (hl : l < L) (a : (⟨3, ![L, A, B]⟩ : Shape).Idx → α)
    (hs : (⟨3, ![L, A, B]⟩ : Shape).Slices ![l, 0, 0] ⟨3, ![1, A, B]⟩)
    (hc : (⟨3, ![1, A, B]⟩ : Shape).ShapeCasts ⟨2, ![A, B]⟩) (j : Fin A) (k : Fin B) :
    shapeCast ⟨2, ![A, B]⟩ (extractStridedSlice ⟨3, ![1, A, B]⟩ ![l, 0, 0] a hs) hc (ix2 j k) = a (ix3 ⟨l, hl⟩ j k) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- A unit slice at position l of a stack of vectors, re-cast as one vector, reads the stack at (l, k). -/
theorem vec_piece_apply {α : Type} {L B : ℕ} (l : ℕ) (hl : l < L) (a : (⟨2, ![L, B]⟩ : Shape).Idx → α)
    (hs : (⟨2, ![L, B]⟩ : Shape).Slices ![l, 0] ⟨2, ![1, B]⟩)
    (hc : (⟨2, ![1, B]⟩ : Shape).ShapeCasts ⟨1, ![B]⟩) (k : Fin B) :
    shapeCast ⟨1, ![B]⟩ (extractStridedSlice ⟨2, ![1, B]⟩ ![l, 0] a hs) hc (ix1 k) = a (ix2 ⟨l, hl⟩ k) := by
  rw [shapeCast_1a_a_apply]
  exact slice2_axis0_apply l a hs (0 : Fin 1) k ⟨l, hl⟩ rfl

/-- A one-entry slice at position l of a vector, re-cast as a scalar, reads the vector at l. -/
theorem scalar_piece_apply {α : Type} {L : ℕ} (l : ℕ) (hl : l < L) (a : (⟨1, ![L]⟩ : Shape).Idx → α)
    (hs : (⟨1, ![L]⟩ : Shape).Slices ![l] ⟨1, ![1]⟩)
    (hc : (⟨1, ![1]⟩ : Shape).ShapeCasts ⟨0, ![]⟩) :
    shapeCast ⟨0, ![]⟩ (extractStridedSlice ⟨1, ![1]⟩ ![l] a hs) hc ix0 = a (ix1 ⟨l, hl⟩) := by
  rw [shapeCast_apply _ hc ix0 (ix1 (0 : Fin 1)) (by
    have h1 : (((⟨1, ![1]⟩ : Shape).rowMajor (ix1 (0 : Fin 1))) : ℕ) < 1 := Fin.isLt _
    have h0 : (((⟨0, ![]⟩ : Shape).rowMajor ix0) : ℕ) < 1 := Fin.isLt _
    omega)]
  exact extractStridedSlice_apply _ _ _ _ _ (fun ax => by
    match ax with
    | ⟨0, _⟩ => rfl)

/-! ## Edge ids -/

/-- An id that is not negative (read signed) passes "if t < 0 then t + k else t" unchanged; laid as one column it
    is read back at (e, 0). -/
theorem ids_apply {E : ℕ} (t k : IVec ⟨1, ![E]⟩ 32)
    (h0 : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (e : Fin E) (ht : 0 ≤ (t (ix1 e)).toInt) :
    broadcastInDim ⟨2, ![E, 1]⟩ ![0] hb
        (select (cmpi .slt t (broadcastInDim ⟨1, ![E]⟩ ![] h0 (constantI ⟨0, ![]⟩ 32 0#32))) (addi t k) t)
        (ix2 e (0 : Fin 1)) = t (ix1 e) := by
  have he : e.val < E := e.isLt
  rw [broadcastInDim_apply ![0] hb _ (ix2 e (0 : Fin 1)) (ix1 e) (fun d => by
    match d with
    | ⟨0, _⟩ =>
      show e.val = if E = 1 then 0 else e.val
      split
      · omega
      · rfl)]
  rw [select_apply]
  have hc : cmpi .slt t (broadcastInDim ⟨1, ![E]⟩ ![] h0 (constantI ⟨0, ![]⟩ 32 0#32)) (ix1 e) = 0#1 :=
    eq_zero_of_ne_one (fun h1 => by
      have h2 : (t (ix1 e)).toInt < (0#32 : BitVec 32).toInt := IntOp.cmpi_slt.1 h1
      have h3 : (0#32 : BitVec 32).toInt = 0 := by decide
      omega)
  rw [hc, select_zero]

/-! ## The combined input -/

/-- The scaled node rows with the gathered rows added at their targets, at (i, q). -/
theorem z_apply {N E C : ℕ} (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (ope : FVec Ideal (⟨0, ![]⟩ : Shape) .f32)
    (hb : (⟨0, ![]⟩ : Shape).BroadcastsInDim ⟨2, ![N, C]⟩ (![] : Fin 0 → Fin 2))
    (h : FVec Ideal (⟨2, ![N, C]⟩ : Shape) .f32) (idx : IVec ⟨2, ![E, 1]⟩ 32)
    (u : FVec Ideal (⟨2, ![E, C]⟩ : Shape) .f32) (dst : Fin E → BitVec 32)
    (hidx : ∀ e : Fin E, idx (ix2 e (0 : Fin 1)) = dst e) (i : Fin N) (q : Fin C) :
    Host.scatterAdd d (mulf (broadcastInDim ⟨2, ![N, C]⟩ ![] hb ope) h) idx u (ix2 i q)
      = Cert.Spec.zF (ope ix0) (Cert.Spec.toMat h) (Cert.Spec.toMat u) dst i q := by
  rw [Cert.LibScatter.scatterAdd_rows_apply d hu hi hs hv, mulf_apply, Cert.LibBcast.scalar_apply]
  unfold Cert.Spec.zF Cert.Spec.aggF Cert.Spec.toMat
  simp only [hidx]

/-- One plus the layer's epsilon, as the program adds them. -/
theorem ope_apply {L : ℕ} (l : ℕ) (hl : l < L) (a : FVec Ideal (⟨1, ![L]⟩ : Shape) .f32)
    (hs : (⟨1, ![L]⟩ : Shape).Slices ![l] ⟨1, ![1]⟩)
    (hc : (⟨1, ![1]⟩ : Shape).ShapeCasts ⟨0, ![]⟩) :
    addf (constant (F := Ideal) ⟨0, ![]⟩ .f32 0x3F800000#32) (shapeCast ⟨0, ![]⟩ (extractStridedSlice ⟨1, ![1]⟩ ![l] a hs) hc) ix0
      = Cert.Spec.oneLit + a (ix1 ⟨l, hl⟩) := by
  rw [addf_apply, constant_apply, scalar_piece_apply l hl]

/-! ## The folded statistics -/

/-- The folded scale at q from the two column sums: g · rsqrt (max (s2 / n − (s1 / n)²) 0 + ε). -/
theorem stat_scale {H : ℕ} (s1 s2 g : FVec Ideal (⟨1, ![H]⟩ : Shape) .f32)
    (hb : (⟨0, ![]⟩ : Shape).BroadcastsInDim ⟨1, ![H]⟩ (![] : Fin 0 → Fin 1)) (q : Fin H) :
    mulf g (Host.rsqrt (addf (maximumf
        (subf (Host.divf s2 (broadcastInDim ⟨1, ![H]⟩ ![] hb (constant (F := Ideal) ⟨0, ![]⟩ .f32 0x47C35000#32)))
          (mulf (Host.divf s1 (broadcastInDim ⟨1, ![H]⟩ ![] hb (constant (F := Ideal) ⟨0, ![]⟩ .f32 0x47C35000#32)))
                (Host.divf s1 (broadcastInDim ⟨1, ![H]⟩ ![] hb (constant (F := Ideal) ⟨0, ![]⟩ .f32 0x47C35000#32)))))
        (broadcastInDim ⟨1, ![H]⟩ ![] hb (constant (F := Ideal) ⟨0, ![]⟩ .f32 0x00000000#32)))
        (broadcastInDim ⟨1, ![H]⟩ ![] hb (constant (F := Ideal) ⟨0, ![]⟩ .f32 0x3727C5AC#32)))) (ix1 q)
      = g (ix1 q) * Ideal.rsqrt (max (Ideal.div (s2 (ix1 q)) Cert.Spec.nLit
            - Ideal.div (s1 (ix1 q)) Cert.Spec.nLit * Ideal.div (s1 (ix1 q)) Cert.Spec.nLit) 0 + Cert.Spec.epsLit) := by
  rw [← Ideal.ofBits_zero_f32]
  rfl

/-- The folded shift at q: β − (s1 / n) · scale. -/
theorem stat_shift {H : ℕ} (s1 bt sc : FVec Ideal (⟨1, ![H]⟩ : Shape) .f32)
    (hb : (⟨0, ![]⟩ : Shape).BroadcastsInDim ⟨1, ![H]⟩ (![] : Fin 0 → Fin 1)) (q : Fin H) :
    subf bt (mulf (Host.divf s1 (broadcastInDim ⟨1, ![H]⟩ ![] hb (constant (F := Ideal) ⟨0, ![]⟩ .f32 0x47C35000#32))) sc) (ix1 q)
      = bt (ix1 q) - Ideal.div (s1 (ix1 q)) Cert.Spec.nLit * sc (ix1 q) := rfl

/-! ## Sums of parts, continued -/

/-- Parts that hold a tile's sum in their first row and nothing below add up to the sum over the batch. -/
theorem parts_total {T S R N : ℕ} (hS : 0 < S) (hN : T * R = N) (f : Fin N → EReal) :
    (∑ t : Fin T, ∑ s : Fin S, (if s.val = 0 then ∑ r : Fin R, f (Cert.Tiles.row hN t r) else 0)) = ∑ i : Fin N, f i := by
  rw [← Cert.Tiles.sum_tiles hN f]
  refine Finset.sum_congr rfl fun t _ => ?_
  rw [Finset.sum_eq_single (⟨0, hS⟩ : Fin S)]
  · exact if_pos rfl
  · intro s _ hs
    exact if_neg fun e => hs (Fin.ext e)
  · intro h; exact absurd (Finset.mem_univ _) h

/-! ## Assembly -/

/-- A layer from its reads: the combined input, the two dense layers, the tile sums of the result and of its
    squares, scale and shift from the sums, and the normalised output. -/
theorem layer_of_reads {E : ℕ} (ope : EReal) (h : Cert.Spec.Mat 100000 128) (u : Cert.Spec.Mat E 128)
    (dst : Fin E → BitVec 32) (W1 : Cert.Spec.Mat 128 128) (b1 : Fin 128 → EReal) (W2 : Cert.Spec.Mat 128 128)
    (b2 g bt : Fin 128 → EReal)
    (Z L O : (⟨2, ![100000, 128]⟩ : Shape).Idx → EReal)
    (P1 P2 : (⟨3, ![20, 8, 128]⟩ : Shape).Idx → EReal)
    (sc sh : (⟨2, ![1, 128]⟩ : Shape).Idx → EReal)
    (hN : 20 * 5000 = 100000)
    (hZ : ∀ (i : Fin 100000) (q : Fin 128), Z (ix2 i q) = Cert.Spec.zF ope h u dst i q)
    (hL : ∀ (i : Fin 100000) (q : Fin 128), L (ix2 i q) = Cert.Spec.lin2F (Cert.Spec.toMat Z) W1 b1 W2 b2 i q)
    (hP1 : ∀ (t : Fin 20) (s : Fin 8) (q : Fin 128), P1 (ix3 t s q)
      = if s.val = 0 then ∑ r : Fin 5000, Cert.Spec.lin2F (Cert.Spec.toMat Z) W1 b1 W2 b2 (Cert.Tiles.row hN t r) q else 0)
    (hP2 : ∀ (t : Fin 20) (s : Fin 8) (q : Fin 128), P2 (ix3 t s q)
      = if s.val = 0 then ∑ r : Fin 5000, Cert.Spec.lin2F (Cert.Spec.toMat Z) W1 b1 W2 b2 (Cert.Tiles.row hN t r) q
          * Cert.Spec.lin2F (Cert.Spec.toMat Z) W1 b1 W2 b2 (Cert.Tiles.row hN t r) q else 0)
    (hsc : ∀ q : Fin 128, sc (ix2 (0 : Fin 1) q) = g q * Ideal.rsqrt (max
        (Ideal.div (∑ t : Fin 20, ∑ s : Fin 8, P2 (ix3 t s q)) Cert.Spec.nLit
          - Ideal.div (∑ t : Fin 20, ∑ s : Fin 8, P1 (ix3 t s q)) Cert.Spec.nLit
            * Ideal.div (∑ t : Fin 20, ∑ s : Fin 8, P1 (ix3 t s q)) Cert.Spec.nLit) 0 + Cert.Spec.epsLit))
    (hsh : ∀ q : Fin 128, sh (ix2 (0 : Fin 1) q)
      = bt q - Ideal.div (∑ t : Fin 20, ∑ s : Fin 8, P1 (ix3 t s q)) Cert.Spec.nLit * sc (ix2 (0 : Fin 1) q))
    (hO : ∀ (i : Fin 100000) (q : Fin 128), O (ix2 i q) = max (L (ix2 i q) * sc (ix2 (0 : Fin 1) q) + sh (ix2 (0 : Fin 1) q)) 0) :
    Cert.Spec.toMat O = Cert.Spec.layerKerF ope h u dst W1 b1 W2 b2 g bt := by
  have hZm : Cert.Spec.toMat Z = Cert.Spec.zF ope h u dst := funext fun i => funext fun q => hZ i q
  funext i q
  show O (ix2 i q) = _
  rw [hO, hsh, hsc, hL]
  simp only [hP1, hP2]
  rw [parts_total (by norm_num) hN (fun i => Cert.Spec.lin2F (Cert.Spec.toMat Z) W1 b1 W2 b2 i q),
    parts_total (by norm_num) hN (fun i => Cert.Spec.lin2F (Cert.Spec.toMat Z) W1 b1 W2 b2 i q
      * Cert.Spec.lin2F (Cert.Spec.toMat Z) W1 b1 W2 b2 i q), hZm]
  rfl

end Cert.LibLayer

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.RefRead.lean ====
/-
  The reference's array operations read entry by entry.

  Each stretch of the reference computation (the terms of RefTerms) is, at an entry, the formula of the specification:
  a column sum over the 100000 rows is the finite sum of the column's entries; a vector spread down the rows reads the
  vector at the column; a spread scalar reads the scalar; a matrix product plus a spread bias reads the dense layer's
  sum; the maximum with the spread zero is the rectifier; the scatter-add of rows into zeros reads, at row n, the sum of
  the rows whose index (read signed) is n.  The variance's select keeps its first branch because its test compares the
  node count minus zero against zero, and the node count is the real number 100000.
-/
import proofs.«125584_j43164421324859_2_alg».proof.Proof.RefTerms
import proofs.«125584_j43164421324859_2_alg».proof.Proof.Spec
import proofs.«125584_j43164421324859_2_alg».proof.Proof.LibDot
import proofs.«125584_j43164421324859_2_alg».proof.Proof.LibBcast
import proofs.«125584_j43164421324859_2_alg».proof.Proof.LibScatter
import proofs.«125584_j43164421324859_2_alg».proof.Proof.Bridge
import Idealize.ShloMosaic.PureOps.Ideal.Laws
import Idealize.ShloMosaic.Lib.IdealHost
import Idealize.ShloMosaic.Lib.ValueIdx
import Idealize.ShloMosaic.Lib.Pipeline.Value
import Idealize.ShloMosaic.Lib.ValueLayout

noncomputable section

namespace Cert.ReferenceIdeal.RefRead

open Idealize.ShloMosaic Idealize.ShloMosaic.ValueIdx
open Cert.ReferenceIdeal Cert.ReferenceIdeal.Facts₀ Cert.ReferenceIdeal.RefTerms
open Cert.Spec

variable [Cert.ReferenceIdeal.Facts₀]

/-! ## Single operations at an entry -/

/-- Removing the row axis of a 100000 x 128 array leaves its 128 columns. -/
theorem red : S100000x128.Reduces [0] S128 := by decide

/-- The host's sum over the rows, at column q: the start value plus the sum of the column. -/
theorem colsum_apply (h' : S100000x128.ReducesTo [0] S128) (hu : 0 < S_.numel) (x : FVec Ideal S100000x128 .f32)
    (init : S_.Idx → EReal) (q : Fin 128) :
    Host.reduceAdd (F := Ideal) x init h' hu (ix1 q) = init (Shape.Idx.first hu) + ∑ i : Fin 100000, x (ix2 i q) := by
  refine (Ideal.hostReduceAdd_single h' red x (init (Shape.Idx.first hu)) (ix1 q)).trans ?_
  refine congrArg (_ + ·) (Finset.sum_congr rfl fun k _ => ?_)
  exact congrArg x (funext fun a => Fin.ext (by match a with | ⟨0, _⟩ => rfl | ⟨1, _⟩ => rfl))

/-- The sum over the rows started from the zero word is the sum of the column. -/
theorem colsum_zero (x : FVec Ideal S100000x128 .f32) (q : Fin 128) :
    Host.reduceAdd (F := Ideal) x (constant (F := Ideal) S_ .f32 0x00000000#32) reducesTo_S100000x128_S128_d0 h_S_ (ix1 q)
      = ∑ i : Fin 100000, x (ix2 i q) := by
  rw [colsum_apply, constant_apply, Ideal.ofBits_zero_f32, zero_add]

/-- A 1 x b row spread down a rows reads, at (i, c), the row at c. -/
theorem rowbc_apply {α : Type} {a b : ℕ} (w : (⟨2, ![1, b]⟩ : Shape).Idx → α)
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 w (ix2 i c) = w (ix2 (0 : Fin 1) c) := by
  have hc : c.val < b := c.isLt
  exact broadcastInDim_apply ![0, 1] h2 w (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)

/-- A vector laid as a 1 x b row reads, at (0, c), the vector at c. -/
theorem vecrow_apply {α : Type} {b : ℕ} (v : (⟨1, ![b]⟩ : Shape).Idx → α)
    (h1 : (⟨1, ![b]⟩ : Shape).BroadcastsInDim ⟨2, ![1, b]⟩ (![1] : Fin 1 → Fin 2)) (c : Fin b) :
    broadcastInDim ⟨2, ![1, b]⟩ ![1] h1 v (ix2 (0 : Fin 1) c) = v (ix1 c) := by
  have hc : c.val < b := c.isLt
  exact broadcastInDim_apply ![1] h1 v (ix2 (0 : Fin 1) c) (ix1 c) (by
    intro d
    match d with
    | ⟨0, _⟩ =>
      show c.val = if b = 1 then 0 else c.val
      split
      · omega
      · rfl)

/-- A vector laid as an a x 1 column reads, at (e, 0), the vector at e. -/
theorem veccol_apply {α : Type} {a : ℕ} (v : (⟨1, ![a]⟩ : Shape).Idx → α)
    (h1 : (⟨1, ![a]⟩ : Shape).BroadcastsInDim ⟨2, ![a, 1]⟩ (![0] : Fin 1 → Fin 2)) (e : Fin a) :
    broadcastInDim ⟨2, ![a, 1]⟩ ![0] h1 v (ix2 e (0 : Fin 1)) = v (ix1 e) := by
  have he : e.val < a := e.isLt
  exact broadcastInDim_apply ![0] h1 v (ix2 e (0 : Fin 1)) (ix1 e) (by
    intro d
    match d with
    | ⟨0, _⟩ =>
      show e.val = if a = 1 then 0 else e.val
      split
      · omega
      · rfl)

/-- The spread zero word reads the extended real zero. -/
theorem zeros_apply (T : Shape) (h : S_.BroadcastsInDim T (![] : Fin 0 → Fin T.rank)) (i : T.Idx) :
    broadcastInDim T ![] h (constant (F := Ideal) S_ .f32 0x00000000#32) i = 0 := by
  rw [LibBcast.scalar_apply, constant_apply, Ideal.ofBits_zero_f32]

/-- The maximum with the spread zero is the rectifier's entry. -/
theorem relu_apply (T : Shape) (h : S_.BroadcastsInDim T (![] : Fin 0 → Fin T.rank)) (x : FVec Ideal T .f32) (i : T.Idx) :
    maximumf x (broadcastInDim T ![] h (constant (F := Ideal) S_ .f32 0x00000000#32)) i = max (x i) 0 := by
  rw [maximumf_apply, zeros_apply]

/-- A matrix product plus a spread bias, at (i, k): the dense layer's entry. -/
theorem dense_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (i : Fin M) (k : Fin N) :
    addf (Host.dotGeneral (F := Ideal) d none x W)
        (broadcastInDim ⟨2, ![M, N]⟩ ![0, 1] h2 (broadcastInDim ⟨2, ![1, N]⟩ ![1] h1 b)) (ix2 i k)
      = dense (toMat x) (toMat W) (toVec b) i k := by
  rw [addf_apply, LibBcast.cols_apply]
  refine congrArg (· + b (ix1 k)) ?_
  exact LibDot.dotGeneral_plain_apply d hlc hrc hln hrn hlb hrb none .single x W (ix2 i k)

/-! ## The statistics -/

/-- A vector spread down the rows reads the vector at the column. -/
theorem colsT_apply (v : FVec Ideal S128 .f32) (i : Fin 100000) (q : Fin 128) : colsT v (ix2 i q) = v (ix1 q) :=
  LibBcast.cols_apply v bcast_S128_S1x128_1 bcast_S1x128_S100000x128_0_1 i q

/-- The rectifier at an entry. -/
theorem reluT_apply (x : FVec Ideal S100000x128 .f32) (i : Fin 100000) (q : Fin 128) :
    reluT x (ix2 i q) = max (x (ix2 i q)) 0 :=
  relu_apply S100000x128 bcast_S_S100000x128 x (ix2 i q)

/-- The column mean: the column's sum over the node count. -/
theorem meanT_apply (z : FVec Ideal S100000x128 .f32) (q : Fin 128) : meanT z (ix1 q) = colMean (toMat z) q := by
  unfold meanT
  rw [hostDivf_apply, colsum_zero, LibBcast.scalar_apply, constant_apply]
  rfl

/-- The deviation from the column mean, the mean formed on a row before it is spread. -/
theorem devT_apply (x : FVec Ideal S100000x128 .f32) (i : Fin 100000) (q : Fin 128) :
    devT x (ix2 i q) = x (ix2 i q) - colMean (toMat x) q := by
  unfold devT
  rw [subf_apply, rowbc_apply, hostDivf_apply, vecrow_apply, colsum_zero, LibBcast.scalar_apply, constant_apply]
  rfl

/-- The node count minus the integer zero is the node count. -/
theorem cntT_zero (j : S_.Idx) : cntT (constantI S_ 32 0#32) j = nLit := by
  unfold cntT
  rw [subf_apply, constant_apply, sitofp_apply, constantI_apply]
  have h0 : (FloatOps.sitofp (F := Ideal) .f32 (0#32 : BitVec 32) : EReal) = 0 := by
    show (((0#32 : BitVec 32).toInt : ℝ) : EReal) = 0
    simp
  rw [h0, sub_zero]

/-- The node count is positive, so the test "count greater than zero" answers one. -/
theorem cnt_pos : Ideal.cmp .ogt nLit 0 = 1#1 := by
  have h : (0 : EReal) < nLit := by
    rw [Cert.Bridge.nLit_eq]
    exact EReal.coe_pos.mpr (by norm_num)
  unfold Ideal.cmp
  simp [h]

/-- The biased column variance: the select keeps the quotient, whose denominator is the node count. -/
theorem varT_apply (x : FVec Ideal S100000x128 .f32) (q : Fin 128) :
    varT x (constantI S_ 32 0#32) (ix1 q) = colVar (toMat x) q := by
  unfold varT whereT
  rw [select_apply, LibBcast.scalar_apply, cmpf_apply, cntT_zero, constant_apply, Ideal.ofBits_zero_f32,
    Ideal.cmpf_def, cnt_pos]
  unfold Scalar.select
  rw [if_pos (show (1#1 : BitVec 1) = 1 from rfl), hostDivf_apply, colsum_zero, LibBcast.scalar_apply, cntT_zero]
  unfold colVar
  refine congrArg (Ideal.div · nLit) (Finset.sum_congr rfl fun i _ => ?_)
  rw [mulf_apply, devT_apply]
  rfl

/-! ## The layer's stages -/

/-- The target ids as an index column read, at edge e, the second row of the edge list at e. -/
theorem dstIdxT_apply (ei : IVec S2x1600000 32) (e : Fin 1600000) :
    dstIdxT ei (ix2 e (0 : Fin 1)) = ei (ix2 (1 : Fin 2) e) := by
  unfold dstIdxT
  rw [veccol_apply, LibBcast.row_reshape_apply]
  exact extractStridedSlice_apply ![1, 0] ei slices_S2x1600000_S1x1600000_1_0 (ix2 (0 : Fin 1) e) (ix2 (1 : Fin 2) e) (by
    intro a
    match a with
    | ⟨0, _⟩ => rfl
    | ⟨1, _⟩ => exact (Nat.zero_add _).symm)

/-- The rows of the edges whose target id, read signed, is node i, summed. -/
theorem agg_read (ei : IVec S2x1600000 32) (G : FVec Ideal S1600000x128 .f32) (i : Fin 100000) (q : Fin 128) :
    (∑ j : Fin 1600000, if (dstIdxT ei (ix2 j (0 : Fin 1))).toInt = (i.val : Int) then G (ix2 j q) else 0)
      = aggF (toMat G) (fun j => ei (ix2 (1 : Fin 2) j)) i q := by
  unfold aggF
  refine Finset.sum_congr rfl fun j _ => ?_
  rw [dstIdxT_apply]
  rfl

/-- The combined input of a layer: (1 + eps) times the node's row plus its incoming rows. -/
theorem zT_read (h : FVec Ideal S100000x128 .f32) (ei : IVec S2x1600000 32) (e : FVec Ideal S_ .f32) :
    toMat (zT h ei e)
      = zF (oneLit + e ix0) (toMat h)
          (toMat (Host.gather gather_S100000x128_S1600000x1_S1600000x128_1_0_n_n_0_1_1128 h (srcIdxT ei)))
          (fun j => ei (ix2 (1 : Fin 2) j)) := by
  funext i q
  show zT h ei e (ix2 i q) = _
  unfold zT
  rw [addf_apply, mulf_apply, LibBcast.scalar_apply, addf_apply, constant_apply,
    LibScatter.scatterAdd_rows_apply scatter_S100000x128_S1600000x1_S1600000x128_1_0_0_1 rfl rfl rfl rfl,
    zeros_apply, zero_add]
  exact congrArg ((oneLit + e ix0) * h (ix2 i q) + ·) (agg_read ei _ i q)

/-- A dense layer followed by the rectifier. -/
theorem denseRelu_read (x : FVec Ideal S100000x128 .f32) (W : FVec Ideal S128x128 .f32) (b : FVec Ideal S128 .f32) :
    toMat (reluT (addf (Host.dotGeneral (F := Ideal) dot_S100000x128_S128x128_S100000x128_1_0_0_1_n_n none x W) (colsT b)))
      = reluM (dense (toMat x) (toMat W) (toVec b)) := by
  funext i k
  show reluT _ (ix2 i k) = _
  rw [reluT_apply]
  unfold colsT
  rw [dense_apply dot_S100000x128_S128x128_S100000x128_1_0_0_1_n_n rfl rfl rfl rfl rfl rfl]
  rfl

/-- The two dense layers of a graph layer. -/
theorem lin2T_read (z : FVec Ideal S100000x128 .f32) (W1 : FVec Ideal S128x128 .f32) (b1 : FVec Ideal S128 .f32)
    (W2 : FVec Ideal S128x128 .f32) (b2 : FVec Ideal S128 .f32) :
    toMat (lin2T z W1 b1 W2 b2) = lin2F (toMat z) (toMat W1) (toVec b1) (toMat W2) (toVec b2) := by
  unfold lin2T lin2F
  rw [denseRelu_read, denseRelu_read]

/-- Batch normalisation with the centred statistics, then the rectifier. -/
theorem bnT_read (l : FVec Ideal S100000x128 .f32) (g bt : FVec Ideal S128 .f32) :
    toMat (bnT l g bt) = bnRefF (toMat l) (toVec g) (toVec bt) := by
  funext i q
  show bnT l g bt (ix2 i q) = _
  unfold bnT
  rw [reluT_apply, addf_apply, mulf_apply, mulf_apply, subf_apply, colsT_apply, colsT_apply, colsT_apply, colsT_apply,
    meanT_apply]
  show max (g (ix1 q) * (l (ix2 i q) - colMean (toMat l) q)
      * Ideal.rsqrt (addf (varT l (constantI S_ 32 0#32))
          (broadcastInDim S128 ![] bcast_S_S128 (constant (F := Ideal) S_ .f32 0x3727C5AC#32)) (ix1 q)) + bt (ix1 q)) 0 = _
  rw [addf_apply, varT_apply, LibBcast.scalar_apply, constant_apply]
  rfl

/-- One graph layer, entry by entry. -/
theorem layer_read (h : FVec Ideal S100000x128 .f32) (ei : IVec S2x1600000 32) (e : FVec Ideal S_ .f32)
    (W1 : FVec Ideal S128x128 .f32) (b1 : FVec Ideal S128 .f32) (W2 : FVec Ideal S128x128 .f32)
    (b2 g bt : FVec Ideal S128 .f32) :
    toMat (layerT h ei e W1 b1 W2 b2 g bt)
      = layerRefF (oneLit + e ix0) (toMat h)
          (toMat (Host.gather gather_S100000x128_S1600000x1_S1600000x128_1_0_n_n_0_1_1128 h (srcIdxT ei)))
          (fun j => ei (ix2 (1 : Fin 2) j)) (toMat W1) (toVec b1) (toMat W2) (toVec b2) (toVec g) (toVec bt) := by
  unfold layerT layerRefF
  rw [bnT_read, lin2T_read, zT_read]

/-- The standardised features, entry by entry. -/
theorem std_read (x : FVec Ideal S100000x128 .f32) : toMat (stdT x) = stdF (toMat x) := by
  funext i q
  show stdT x (ix2 i q) = _
  unfold stdT
  rw [hostDivf_apply, subf_apply, colsT_apply, colsT_apply, meanT_apply]
  show Ideal.div (x (ix2 i q) - colMean (toMat x) q) (Ideal.sqrt (varT x (constantI S_ 32 0#32) (ix1 q))) = _
  rw [varT_apply]
  rfl

end Cert.ReferenceIdeal.RefRead

end
-- ==== Proof.StdRead.lean ====
/-
  The standardisation of the node features, read entry by entry.

  The features x (100000 rows, 128 columns) are standardised column by column: the column mean is the column's sum
  (a reduction over the row axis from the initial value 0) divided by the node count (the word of 100000.0); the column
  variance is the sum of the squared deviations from the mean (the mean formed on a 1 x 128 row and spread down the
  rows) divided by the node count minus an integer correction that is 0, kept because that count is positive (the
  alternative, a spread not-a-number word, is never taken: 100000 - 0 > 0); the result at (i, q) is the deviation
  x i q - mean q over the square root of the variance of column q.

  Each operation is read at an index by a lemma that is generic in the proofs of the shape side conditions, so that the
  same chain over another program's copies of the side conditions reads the same way: the mean (mean_read), the count
  (cnt_read, cnt_test), a select on a spread scalar test that holds (where_read), the variance (var_read), and the
  whole chain (std_chain_read).  std_read is the chain at the reference program's own side conditions.
-/
import proofs.«125584_j43164421324859_2_alg».proof.Proof.RefTerms
import proofs.«125584_j43164421324859_2_alg».proof.Proof.Spec
import proofs.«125584_j43164421324859_2_alg».proof.Proof.Bridge
import proofs.«125584_j43164421324859_2_alg».proof.Proof.LibBcast
import proofs.«125584_j43164421324859_2_alg».proof.Proof.LibRealOps
import proofs.«125584_j43164421324859_2_alg».proof.Proof.PreFacts
import Idealize.ShloMosaic.Lib.ValueIdx
import Idealize.ShloMosaic.Lib.Pipeline.Value
import Idealize.ShloMosaic.PureOps.Ideal.Laws

noncomputable section

namespace Cert.StdRead

open Idealize.ShloMosaic Idealize.ShloMosaic.ValueIdx

/-- The shapes of the chain, as abbreviations of the literal shapes: a scalar, a row of 128, a 1 x 128 row, the features. -/
abbrev S0 : Shape := ⟨0, ![]⟩
abbrev SD : Shape := ⟨1, ![128]⟩
abbrev S1D : Shape := ⟨2, ![1, 128]⟩
abbrev SND : Shape := ⟨2, ![100000, 128]⟩

/-! ## Elementwise operations at an index -/

/-- A difference of two arrays, read at an index: the difference of the entries. -/
theorem subf_apply {s : Shape} {φ : FTy} (X Y : FVec Ideal s φ) (j : s.Idx) : subf X Y j = X j - Y j := rfl
/-- A quotient of two arrays, read at an index: the quotient of the entries. -/
theorem divf_apply {s : Shape} {φ : FTy} (X Y : FVec Ideal s φ) (j : s.Idx) :
    Host.divf (F := Ideal) X Y j = Ideal.div (X j) (Y j) := rfl
/-- A square root of an array, read at an index: the square root of the entry. -/
theorem sqrt_apply {s : Shape} {φ : FTy} (X : FVec Ideal s φ) (j : s.Idx) :
    Host.sqrt (F := Ideal) X j = Ideal.sqrt (X j) := rfl
/-- A select on a bit that is 1 takes its first branch. -/
theorem select_of_one {α : Type} (c : BitVec 1) (a b : α) (h : c = 1#1) : Scalar.select c a b = a := by
  subst h; rfl

/-! ## The mean -/

/-- The column sums over the node count, read at q: the column mean. -/
theorem mean_read (z : FVec Ideal SND .f32) (hr' : SND.ReducesTo [0] SD) (hu : 0 < S0.numel)
    (hb : S0.BroadcastsInDim SD (![] : Fin 0 → Fin 1)) (q : Fin 128) :
    Host.divf (F := Ideal) (Host.reduceAdd (F := Ideal) z (constant (F := Ideal) S0 .f32 0x00000000#32) hr' hu)
      (broadcastInDim SD ![] hb (constant (F := Ideal) S0 .f32 0x47C35000#32)) (ix1 q)
      = Cert.Spec.colMean (Cert.Spec.toMat z) q := by
  rw [divf_apply, Cert.PreFacts.col_sum_read z hr' hu q]
  rfl

/-! ## The count -/

/-- The node count minus the integer correction 0 is the node count. -/
theorem cnt_read (j : S0.Idx) :
    subf (constant (F := Ideal) S0 .f32 0x47C35000#32) (sitofp (F := Ideal) .f32 (constantI S0 32 0#32)) j
      = Cert.Spec.nLit := by
  show Cert.Spec.nLit - ((((0#32 : BitVec 32).toInt : ℤ) : ℝ) : EReal) = Cert.Spec.nLit
  rw [BitVec.toInt_zero, Int.cast_zero, EReal.coe_zero, sub_zero]

/-- The test "count > 0" answers 1: the count is 100000. -/
theorem cnt_test (j : S0.Idx) :
    cmpf .ogt (subf (constant (F := Ideal) S0 .f32 0x47C35000#32) (sitofp (F := Ideal) .f32 (constantI S0 32 0#32)))
      (constant (F := Ideal) S0 .f32 0x00000000#32) j = 1#1 := by
  show Ideal.cmp .ogt
    (subf (constant (F := Ideal) S0 .f32 0x47C35000#32) (sitofp (F := Ideal) .f32 (constantI S0 32 0#32)) j)
    (Ideal.ofBits .f32 0x00000000#32) = 1#1
  rw [cnt_read, Cert.PreFacts.cmp_gt_iff, Ideal.ofBits_zero_f32, Cert.Bridge.nLit_eq, EReal.coe_pos]
  norm_num

/-! ## A select on a spread scalar test -/

/-- A select between a vector and a spread scalar on a spread scalar test that answers 1, read at q: the vector at q. -/
theorem where_read {α : Type} (p : IVec S0 1) (a : SD.Idx → α) (c : S0.Idx → α)
    (hb : S0.BroadcastsInDim SD (![] : Fin 0 → Fin 1)) (hb' : S0.BroadcastsInDim SD (![] : Fin 0 → Fin 1))
    (hp : p ix0 = 1#1) (q : Fin 128) :
    select (broadcastInDim SD ![] hb p) a (broadcastInDim SD ![] hb' c) (ix1 q) = a (ix1 q) := by
  rw [select_apply, Cert.LibBcast.scalar_apply SD p hb (ix1 q)]
  exact select_of_one _ _ _ hp

/-! ## The variance -/

/-- The variance chain read at q: the column's sum of squared deviations from its mean over the node count. -/
theorem var_read (x : FVec Ideal SND .f32) (hr' : SND.ReducesTo [0] SD) (hu : 0 < S0.numel)
    (hb1 : SD.BroadcastsInDim S1D (![1] : Fin 1 → Fin 2))
    (hb2 : S0.BroadcastsInDim S1D (![] : Fin 0 → Fin 2))
    (hb3 : S1D.BroadcastsInDim SND (![0, 1] : Fin 2 → Fin 2))
    (hbD : S0.BroadcastsInDim SD (![] : Fin 0 → Fin 1)) (c : FVec Ideal S0 .f32) (q : Fin 128) :
    select
      (broadcastInDim SD ![] hbD
        (cmpf .ogt (subf (constant (F := Ideal) S0 .f32 0x47C35000#32) (sitofp (F := Ideal) .f32 (constantI S0 32 0#32)))
          (constant (F := Ideal) S0 .f32 0x00000000#32)))
      (Host.divf (F := Ideal)
        (Host.reduceAdd (F := Ideal)
          (mulf
            (subf x (broadcastInDim SND ![0, 1] hb3
              (Host.divf (F := Ideal)
                (broadcastInDim S1D ![1] hb1 (Host.reduceAdd (F := Ideal) x (constant (F := Ideal) S0 .f32 0x00000000#32) hr' hu))
                (broadcastInDim S1D ![] hb2 (constant (F := Ideal) S0 .f32 0x47C35000#32)))))
            (subf x (broadcastInDim SND ![0, 1] hb3
              (Host.divf (F := Ideal)
                (broadcastInDim S1D ![1] hb1 (Host.reduceAdd (F := Ideal) x (constant (F := Ideal) S0 .f32 0x00000000#32) hr' hu))
                (broadcastInDim S1D ![] hb2 (constant (F := Ideal) S0 .f32 0x47C35000#32))))))
          (constant (F := Ideal) S0 .f32 0x00000000#32) hr' hu)
        (broadcastInDim SD ![] hbD
          (subf (constant (F := Ideal) S0 .f32 0x47C35000#32) (sitofp (F := Ideal) .f32 (constantI S0 32 0#32)))))
      (broadcastInDim SD ![] hbD c) (ix1 q)
      = Cert.Spec.colVar (Cert.Spec.toMat x) q := by
  rw [where_read _ _ c hbD hbD (cnt_test ix0) q, divf_apply, Cert.PreFacts.col_sum_read _ hr' hu q,
    Cert.LibBcast.scalar_apply SD _ hbD (ix1 q), cnt_read]
  refine congrArg (fun t => Ideal.div t Cert.Spec.nLit) (Finset.sum_congr rfl fun i _ => ?_)
  rw [Cert.PreFacts.mulf_apply, Cert.PreFacts.dev_read x hr' hu hb1 hb2 hb3 i q]

/-! ## The whole chain -/

/-- The standardisation chain read at (i, q): the deviation from the column mean over the column's standard deviation. -/
theorem std_chain_read (x : FVec Ideal SND .f32) (hr' : SND.ReducesTo [0] SD) (hu : 0 < S0.numel)
    (hb1 : SD.BroadcastsInDim S1D (![1] : Fin 1 → Fin 2))
    (hb2 : S0.BroadcastsInDim S1D (![] : Fin 0 → Fin 2))
    (hb3 : S1D.BroadcastsInDim SND (![0, 1] : Fin 2 → Fin 2))
    (hbD : S0.BroadcastsInDim SD (![] : Fin 0 → Fin 1)) (c : FVec Ideal S0 .f32) (i : Fin 100000) (q : Fin 128) :
    Host.divf (F := Ideal)
      (subf x (broadcastInDim SND ![0, 1] hb3 (broadcastInDim S1D ![1] hb1
        (Host.divf (F := Ideal) (Host.reduceAdd (F := Ideal) x (constant (F := Ideal) S0 .f32 0x00000000#32) hr' hu)
          (broadcastInDim SD ![] hbD (constant (F := Ideal) S0 .f32 0x47C35000#32))))))
      (broadcastInDim SND ![0, 1] hb3 (broadcastInDim S1D ![1] hb1
        (Host.sqrt (F := Ideal)
          (select
            (broadcastInDim SD ![] hbD
              (cmpf .ogt (subf (constant (F := Ideal) S0 .f32 0x47C35000#32) (sitofp (F := Ideal) .f32 (constantI S0 32 0#32)))
                (constant (F := Ideal) S0 .f32 0x00000000#32)))
            (Host.divf (F := Ideal)
              (Host.reduceAdd (F := Ideal)
                (mulf
                  (subf x (broadcastInDim SND ![0, 1] hb3
                    (Host.divf (F := Ideal)
                      (broadcastInDim S1D ![1] hb1 (Host.reduceAdd (F := Ideal) x (constant (F := Ideal) S0 .f32 0x00000000#32) hr' hu))
                      (broadcastInDim S1D ![] hb2 (constant (F := Ideal) S0 .f32 0x47C35000#32)))))
                  (subf x (broadcastInDim SND ![0, 1] hb3
                    (Host.divf (F := Ideal)
                      (broadcastInDim S1D ![1] hb1 (Host.reduceAdd (F := Ideal) x (constant (F := Ideal) S0 .f32 0x00000000#32) hr' hu))
                      (broadcastInDim S1D ![] hb2 (constant (F := Ideal) S0 .f32 0x47C35000#32))))))
                (constant (F := Ideal) S0 .f32 0x00000000#32) hr' hu)
              (broadcastInDim SD ![] hbD
                (subf (constant (F := Ideal) S0 .f32 0x47C35000#32) (sitofp (F := Ideal) .f32 (constantI S0 32 0#32)))))
            (broadcastInDim SD ![] hbD c)))))
      (ix2 i q)
      = Cert.Spec.stdF (Cert.Spec.toMat x) i q := by
  rw [divf_apply, subf_apply, Cert.LibBcast.cols_apply _ hb1 hb3 i q, Cert.LibBcast.cols_apply _ hb1 hb3 i q,
    sqrt_apply, mean_read x hr' hu hbD q, var_read x hr' hu hb1 hb2 hb3 hbD c q]
  rfl

/-- The reference program's standardised features, by row and column, are the standardisation of the features. -/
theorem std_read [Cert.ReferenceIdeal.Facts₀] (x : FVec Ideal Cert.ReferenceIdeal.S100000x128 .f32) :
    Cert.Spec.toMat (Cert.ReferenceIdeal.RefTerms.stdT x) = Cert.Spec.stdF (Cert.Spec.toMat x) := by
  funext i q
  exact std_chain_read x _ _ _ _ _ _ _ i q

end Cert.StdRead

end
-- ==== Proof.KerStd.lean ====
/-
  The kernel program's standardised features.

  Before its first region the program standardises the node features by host operations, in three stretches: the
  column means (the column sums over the node count) and the integer correction 0; the column variances (the mean
  formed on a 1 x 128 row and spread down the rows, the squared deviations summed and divided by the node count minus
  the correction, kept under the count's positivity test); and the quotient of the deviations from the spread means
  by the spread square roots of the variances.  No stretch writes the feature array, and the later stretches do not
  write the means.  Reading each stretch's result as the composition of its operations over the buffers it starts
  from, and those buffers back through the earlier stretches, the features entering the first region are the
  standardisation chain over the launch memory's feature array; read by row and column that chain is the
  standardisation (deviation from the column mean over the column's standard deviation).
-/
import proofs.«125584_j43164421324859_2_alg».proof.Proof.Gen.KernelIdeal.Frame
import proofs.«125584_j43164421324859_2_alg».proof.Proof.Spec
import proofs.«125584_j43164421324859_2_alg».proof.Proof.StdRead
import Idealize.ShloMosaic.Lib.StableHlo.Run

set_option maxRecDepth 16384

noncomputable section

namespace Cert.KernelIdeal.KerVal

open Idealize.ShloMosaic Idealize.ShloMosaic.TcCoe Idealize.ShloMosaic.Tactic
open Idealize.ShloMosaic.Pipeline (Dat Cfg Window BodyObligation cellOf)
open Cert.KernelIdeal Cert.KernelIdeal.Gen
open Idealize.ShloMosaic.StableHlo

/-- A stretch of host operations leaves a buffer none of them writes as it was. -/
syntax "std_keeps " ident : tactic
macro_rules
  | `(tactic| std_keeps $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide))))

/-! ## Each stretch over the buffers it starts from -/

section Stretches

variable {F : FTy → Type} [FloatOps F]

/-- The first stretch leaves in the mean buffer the column sums of the features over the node count. -/
theorem after0_v2 (V : Valuation τ sig (Elt F)) :
    StableHlo.after hostOps0 V (Proc.devRef .tc main_v2)
      = Host.divf (F := F) (Host.reduceAdd (F := F) (V (Proc.devRef .tc main_arg0)) (constant (F := F) S_ .f32 0x00000000#32) reducesTo_S100000x128_S128_d0 h_S_)
          (broadcastInDim S128 ![] bcast_S_S128 (constant (F := F) S_ .f32 0x47C35000#32)) := by
  simp only [hostOps0]
  after_results

/-- The first stretch leaves the integer correction 0. -/
theorem after0_c (V : Valuation τ sig (Elt F)) :
    StableHlo.after hostOps0 V (Proc.devRef .tc main_c) = constantI S_ 32 0#32 := by
  simp only [hostOps0]
  after_results

/-- The second stretch leaves in the variance buffer the variance chain over the features and the correction. -/
theorem after01_v3 (V : Valuation τ sig (Elt F)) :
    StableHlo.after hostOps0_1 V (Proc.devRef .tc main_v3)
      = select
          (broadcastInDim S128 ![] bcast_S_S128
            (cmpf .ogt (subf (constant (F := F) S_ .f32 0x47C35000#32) (sitofp (F := F) .f32 (V (Proc.devRef .tc main_c))))
              (constant (F := F) S_ .f32 0x00000000#32)))
          (Host.divf (F := F)
            (Host.reduceAdd (F := F)
              (mulf
                (subf (V (Proc.devRef .tc main_arg0)) (broadcastInDim S100000x128 ![0, 1] bcast_S1x128_S100000x128_0_1
                  (Host.divf (F := F)
                    (broadcastInDim S1x128 ![1] bcast_S128_S1x128_1 (Host.reduceAdd (F := F) (V (Proc.devRef .tc main_arg0)) (constant (F := F) S_ .f32 0x00000000#32) reducesTo_S100000x128_S128_d0 h_S_))
                    (broadcastInDim S1x128 ![] bcast_S_S1x128 (constant (F := F) S_ .f32 0x47C35000#32)))))
                (subf (V (Proc.devRef .tc main_arg0)) (broadcastInDim S100000x128 ![0, 1] bcast_S1x128_S100000x128_0_1
                  (Host.divf (F := F)
                    (broadcastInDim S1x128 ![1] bcast_S128_S1x128_1 (Host.reduceAdd (F := F) (V (Proc.devRef .tc main_arg0)) (constant (F := F) S_ .f32 0x00000000#32) reducesTo_S100000x128_S128_d0 h_S_))
                    (broadcastInDim S1x128 ![] bcast_S_S1x128 (constant (F := F) S_ .f32 0x47C35000#32))))))
              (constant (F := F) S_ .f32 0x00000000#32) reducesTo_S100000x128_S128_d0 h_S_)
            (broadcastInDim S128 ![] bcast_S_S128
              (subf (constant (F := F) S_ .f32 0x47C35000#32) (sitofp (F := F) .f32 (V (Proc.devRef .tc main_c))))))
          (broadcastInDim S128 ![] bcast_S_S128 (id (constant (F := F) S_ .f32 0x7FC00000#32))) := by
  simp only [hostOps0_1]
  after_results
  rfl

/-- The third stretch leaves in the feature buffer of the first region the quotient of the deviations from the spread
    means by the spread square roots of the variances. -/
theorem after02_v10 (V : Valuation τ sig (Elt F)) :
    StableHlo.after hostOps0_2 V (Proc.devRef .tc main_v10)
      = Host.divf (F := F)
          (subf (V (Proc.devRef .tc main_arg0))
            (broadcastInDim S100000x128 ![0, 1] bcast_S1x128_S100000x128_0_1
              (broadcastInDim S1x128 ![1] bcast_S128_S1x128_1 (V (Proc.devRef .tc main_v2)))))
          (broadcastInDim S100000x128 ![0, 1] bcast_S1x128_S100000x128_0_1
            (broadcastInDim S1x128 ![1] bcast_S128_S1x128_1 (Host.sqrt (F := F) (V (Proc.devRef .tc main_v3))))) := by
  simp only [hostOps0_2]
  after_results

end Stretches

/-! ## The folds read back to the launch memory -/

section Folds

variable (m : (ℓ : Loc nD τ sig) → Buf (Elt Ideal) ℓ) (ρ : Dev nD → PrngReg)

/-- The feature array after the first stretch is the launch memory's. -/
theorem W1_arg0 (c : Dev nD) : Gen.W1 m ρ c (Proc.devRef .tc main_arg0) = m ((c : Thread nD τ).loc main_arg0) :=
  (show StableHlo.after hostOps0 (Gen.W0 m ρ c) (Proc.devRef .tc main_arg0) = Gen.W0 m ρ c (Proc.devRef .tc main_arg0) by std_keeps hostOps0)
/-- The feature array after the second stretch is the launch memory's. -/
theorem W2_arg0 (c : Dev nD) : Gen.W2 m ρ c (Proc.devRef .tc main_arg0) = m ((c : Thread nD τ).loc main_arg0) :=
  (show StableHlo.after hostOps0_1 (Gen.W1 m ρ c) (Proc.devRef .tc main_arg0) = Gen.W1 m ρ c (Proc.devRef .tc main_arg0) by std_keeps hostOps0_1).trans (W1_arg0 m ρ c)
/-- The integer correction after the first stretch is 0. -/
theorem W1_c (c : Dev nD) : Gen.W1 m ρ c (Proc.devRef .tc main_c) = constantI S_ 32 0#32 :=
  after0_c (Gen.W0 m ρ c)
/-- The means after the first stretch: the column sums of the launch memory's features over the node count. -/
theorem W1_v2 (c : Dev nD) : Gen.W1 m ρ c (Proc.devRef .tc main_v2)
    = Host.divf (F := Ideal) (Host.reduceAdd (F := Ideal) (m ((c : Thread nD τ).loc main_arg0)) (constant (F := Ideal) S_ .f32 0x00000000#32) reducesTo_S100000x128_S128_d0 h_S_)
        (broadcastInDim S128 ![] bcast_S_S128 (constant (F := Ideal) S_ .f32 0x47C35000#32)) :=
  after0_v2 (Gen.W0 m ρ c)
/-- The second stretch does not write the means. -/
theorem W2_v2 (c : Dev nD) : Gen.W2 m ρ c (Proc.devRef .tc main_v2)
    = Host.divf (F := Ideal) (Host.reduceAdd (F := Ideal) (m ((c : Thread nD τ).loc main_arg0)) (constant (F := Ideal) S_ .f32 0x00000000#32) reducesTo_S100000x128_S128_d0 h_S_)
        (broadcastInDim S128 ![] bcast_S_S128 (constant (F := Ideal) S_ .f32 0x47C35000#32)) :=
  (show StableHlo.after hostOps0_1 (Gen.W1 m ρ c) (Proc.devRef .tc main_v2) = Gen.W1 m ρ c (Proc.devRef .tc main_v2) by std_keeps hostOps0_1).trans (W1_v2 m ρ c)

/-- The features entering the first region, by row and column, are the standardisation of the launch memory's
    features. -/
theorem std_value (c : Dev nD) :
    Cert.Spec.toMat (Gen.W3 m ρ c (Proc.devRef .tc main_v10))
      = Cert.Spec.stdF (Cert.Spec.toMat (m ((c : Thread nD τ).loc main_arg0))) := by
  have e3 : Gen.W2 m ρ c (Proc.devRef .tc main_v3) = _ := after01_v3 (Gen.W1 m ρ c)
  rw [W1_arg0 m ρ c, W1_c m ρ c] at e3
  have e : Gen.W3 m ρ c (Proc.devRef .tc main_v10) = _ := after02_v10 (Gen.W2 m ρ c)
  rw [W2_arg0 m ρ c, W2_v2 m ρ c, e3] at e
  funext i q
  rw [e]
  exact Cert.StdRead.std_chain_read (m ((c : Thread nD τ).loc main_arg0)) _ _ _ _ _ _ _ i q

end Folds

end Cert.KernelIdeal.KerVal

end
-- ==== Proof.RegionMlpCommon.lean ====
/-
  Two dense layers on one row, and a tile's column statistics, at an index.

  On the extended reals a matrix product accumulated into a zero array is, entry by entry, the plain sum over the
  contracted coordinate of the operands' products, and a change of float format does nothing; so a dense layer of a
  5000-row tile followed by a rectifier is max (∑ k, x (r, k) · w (k, q) + b (0, q)) 0 at (r, q).  A column sum over
  the tile's rows, laid as the first of eight rows above seven zero rows and re-cast with a leading unit axis, reads at
  (u, s, q) the sum over the 5000 row coordinates when s = 0 and zero otherwise.  The statements are over arbitrary
  tile contents; nothing here needs finiteness.
-/
import proofs.«125584_j43164421324859_2_alg».proof.Proof.Gen.KernelIdeal
import proofs.«125584_j43164421324859_2_alg».proof.Proof.Spec
import proofs.«125584_j43164421324859_2_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Idealize.ShloMosaic Idealize.ShloMosaic.ValueIdx Cert.KernelIdeal Cert.KernelIdeal.Gen

/-- Two dense layers with a rectifier after each, applied to one row z of 128 features, at output column q. -/
def rowOut (z : Fin 128 → EReal) (W1 : Fin 128 → Fin 128 → EReal) (b1 : Fin 128 → EReal)
    (W2 : Fin 128 → Fin 128 → EReal) (b2 : Fin 128 → EReal) (q : Fin 128) : EReal :=
  max ((∑ j : Fin 128, max ((∑ k : Fin 128, z k * W1 k j) + b1 j) 0 * W2 j q) + b2 q) 0

/-- The specification's two layers at (i, q) are the two layers applied to row i. -/
theorem lin2F_row {n : ℕ} (z : Cert.Spec.Mat n 128) (W1 : Cert.Spec.Mat 128 128) (b1 : Fin 128 → EReal)
    (W2 : Cert.Spec.Mat 128 128) (b2 : Fin 128 → EReal) (i : Fin n) (q : Fin 128) :
    Cert.Spec.lin2F z W1 b1 W2 b2 i q = rowOut (z i) W1 b1 W2 b2 q := rfl

/-- One dense layer of the tile at an index: the matrix product into the zero accumulator plus the bias row. -/
theorem denseRow (x : FVec Ideal S5000x128 .f32) (w : FVec Ideal S128x128 .f32) (b : FVec Ideal S1x128 .f32)
    (r : Fin 5000) (q : Fin 128) :
    max (addf (matmul dot_S5000x128_S128x128_S5000x128_1_0_0_1_n_n none
            (truncf .bf16 x bitsLt_bf16_f32) (truncf .bf16 w bitsLt_bf16_f32)
            (constant (F := Ideal) S5000x128 .f32 0x00000000#32))
          (broadcastTo S5000x128 b broadcasts_S1x128_S5000x128) (ix2 r q)) (Ideal.ofBits .f32 0x00000000#32)
      = max ((∑ k : Fin 128, x (ix2 r k) * w (ix2 k q)) + b (ix2 (0 : Fin 1) q)) 0 := by
  rw [addf_apply, broadcastTo_1b_ab_apply, Ideal.ofBits_zero_f32]
  refine congrArg (fun z => max (z + b (ix2 (0 : Fin 1) q)) 0) ?_
  exact Cert.LibDot.matmul_zero_plain_apply dot_S5000x128_S128x128_S5000x128_1_0_0_1_n_n rfl rfl rfl rfl rfl rfl none
    (truncf .bf16 x bitsLt_bf16_f32) (truncf .bf16 w bitsLt_bf16_f32) (ix2 r q)

/-- The statistics block at an index: a column sum over the tile's 5000 rows laid as the first of eight rows, the
    other seven rows zero. -/
theorem statsRow (src : FVec Ideal S5000x128 .f32) (pad : FVec Ideal S7x128 .f32) (hpad : ∀ j, pad j = 0)
    (u : Fin 1) (s : Fin 8) (q : Fin 128) :
    shapeCast S1x8x128 (concatenate S8x128 0
        [⟨S1x128, shapeCast S1x128 (multiReduction .add [0] S128 src 0x00000000#32 reduces_S5000x128_S128 (.inl rfl) rfl)
            shapeCasts_S128_S1x128⟩, ⟨S7x128, pad⟩] concatenates_S1x128_S7x128_S8x128_d0)
        shapeCasts_S8x128_S1x8x128 (ix3 u s q)
      = if s.val = 0 then ∑ k : Fin 5000, src (ix2 k q) else 0 := by
  rw [shapeCast_ab_1ab_apply]
  split
  · next hs =>
    refine (concatenate_pair_apply_left (t := S8x128) (s₁ := S1x128) (s₂ := S7x128) (0 : Fin 2)
      (shapeCast S1x128 (multiReduction .add [0] S128 src 0x00000000#32 reduces_S5000x128_S128 (.inl rfl) rfl)
            shapeCasts_S128_S1x128) pad concatenates_S1x128_S7x128_S8x128_d0 (ix2 s q) rfl
      (ix2 (0 : Fin 1) q) (fun b => ?_)).trans ?_
    · match b with
      | ⟨0, _⟩ => exact hs.symm
      | ⟨1, _⟩ => rfl
    · rw [shapeCast_a_1a_apply]
      refine (Ideal.multiReduction_add_single src _ reduces_S5000x128_S128 _ _ (ix1 q)).trans ?_
      refine Finset.sum_congr rfl fun k _ => congrArg src ?_
      funext a
      apply Fin.ext
      match a with
      | ⟨0, _⟩ => rfl
      | ⟨1, _⟩ => rfl
  · next hs =>
    refine (concatenate_pair_apply_right (t := S8x128) (s₁ := S1x128) (s₂ := S7x128) (0 : Fin 2)
      (shapeCast S1x128 (multiReduction .add [0] S128 src 0x00000000#32 reduces_S5000x128_S128 (.inl rfl) rfl)
            shapeCasts_S128_S1x128) pad concatenates_S1x128_S7x128_S8x128_d0 (ix2 s q) rfl rfl
      (ix2 (⟨s.val - 1, by have := s.isLt; omega⟩ : Fin 7) q) (fun b hb => ?_) ?_).trans (hpad _)
    · match b with
      | ⟨0, _⟩ => exact absurd rfl hb
      | ⟨1, _⟩ => rfl
    · show s.val - 1 + 1 = s.val
      omega

/-- A rank-2 and a rank-3 zero offset as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Twenty tiles of 5000 rows are the 100000 rows. -/
theorem hN20 : 20 * 5000 = 100000 := by norm_num

end Cert.KernelIdeal.RegVal

end
-- ==== Proof.RegionMlp0.lean ====
/-
  The dense-layer region of a graph layer, read off its blocks.

  The region walks the 100000 node rows in 20 tiles of 5000 rows.  At tile t it holds rows 5000 t … 5000 t + 4999 of the
  node array Z and the whole of the two weight matrices W1, W2 and bias rows B1, B2; it writes the same rows of
  L = max (max (Z · W1 + B1) 0 · W2 + B2) 0 — two dense layers, a rectifier after each, every entry a sum over the 128
  features of products on the extended reals — and, into row 0 of an eight-row block per tile, the tile's column sums of
  L and of L², the other seven rows zero.  The matrix products are accumulated into a zero array, so an entry is the
  plain sum over the contracted coordinate; changing the operands' float format does nothing on the extended reals; the
  column sum over the tile's rows is the sum over its 5000 row coordinates.

  First the tile's arithmetic at an index, over arbitrary tile contents; then the blocks as parts of the arrays (the row
  windows sit at block index t, the weight windows at block index 0, decided over the 20 points); then what each point
  writes back is the block of one whole-array function; row i lies in tile i / 5000, so the blocks cover each output
  array and it ends holding that function.  Nothing here needs finiteness.
-/
import proofs.«125584_j43164421324859_2_alg».proof.Proof.Gen.KernelIdeal.Frame
import proofs.«125584_j43164421324859_2_alg».proof.Proof.Spec
import proofs.«125584_j43164421324859_2_alg».proof.Proof.RegionMlpCommon
import proofs.«125584_j43164421324859_2_alg».proof.Proof.LibTiles
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal.Mlp0

open Idealize.ShloMosaic Idealize.ShloMosaic.ValueIdx Idealize.ShloMosaic.TcCoe Idealize.SL.Sem Cert.KernelIdeal Cert.KernelIdeal.Gen
open Cert.KernelIdeal.RegVal
open Idealize.ShloMosaic.Pipeline (Dat)

/-! ## The tile's arithmetic at an index -/

/-- The tile's payload at row r, column q: two dense layers with a rectifier after each. -/
theorem pay2_apply (x0 : Vec Ideal S5000x128 .f32) (x1 : Vec Ideal S128x128 .f32) (x2 : Vec Ideal S1x128 .f32)
    (x3 : Vec Ideal S128x128 .f32) (x4 : Vec Ideal S1x128 .f32) (r : Fin 5000) (q : Fin 128) :
    k0_pay2 (F := Ideal) x0 x1 x2 x3 x4 (ix2 r q)
      = rowOut (fun k => x0 (ix2 r k)) (fun k j => x1 (ix2 k j)) (fun j => x2 (ix2 (0 : Fin 1) j))
          (fun k j => x3 (ix2 k j)) (fun j => x4 (ix2 (0 : Fin 1) j)) q := by
  unfold k0_pay2
  simp only [shapeCast_self]
  refine (denseRow _ x3 x4 r q).trans ?_
  refine congrArg (fun z => max (z + x4 (ix2 (0 : Fin 1) q)) 0) (Finset.sum_congr rfl fun j _ => ?_)
  exact congrArg (fun z => z * x3 (ix2 j q)) (denseRow x0 x1 x2 r j)
/-- The seven padding rows are zero. -/
theorem pay3_zero (j : S7x128.Idx) : k0_pay3 (F := Ideal) j = 0 := Ideal.ofBits_zero_f32

/-- The first statistics block: the column sums of the tile's payload in row 0, zeros below. -/
theorem pay4_eq (x0 : Vec Ideal S5000x128 .f32) (x1 : Vec Ideal S128x128 .f32) (x2 : Vec Ideal S1x128 .f32)
    (x3 : Vec Ideal S128x128 .f32) (x4 : Vec Ideal S1x128 .f32) :
    k0_pay4 (F := Ideal) x0 x1 x2 x3 x4 = fun j : S1x8x128.Idx =>
      if (j 1).val = 0 then ∑ r : Fin 5000, k0_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k0_pay4
  exact statsRow (k0_pay2 (F := Ideal) x0 x1 x2 x3 x4) (k0_pay3 (F := Ideal)) pay3_zero u s q

/-- The second statistics block: the column sums of the squared payload in row 0, zeros below. -/
theorem pay7_eq (x0 : Vec Ideal S5000x128 .f32) (x1 : Vec Ideal S128x128 .f32) (x2 : Vec Ideal S1x128 .f32)
    (x3 : Vec Ideal S128x128 .f32) (x4 : Vec Ideal S1x128 .f32) :
    k0_pay1 (F := Ideal) (k0_pay5 (F := Ideal) x0 x1 x2 x3 x4) = fun j : S1x8x128.Idx =>
      if (j 1).val = 0 then ∑ r : Fin 5000, k0_pay2 (F := Ideal) x0 x1 x2 x3 x4 (ix2 r (j 2))
          * k0_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k0_pay1 k0_pay5
  exact statsRow (mulf (k0_pay2 (F := Ideal) x0 x1 x2 x3 x4) (k0_pay2 (F := Ideal) x0 x1 x2 x3 x4)) (k0_pay3 (F := Ideal))
    pay3_zero u s q

/-! ## The blocks as parts of the arrays -/

variable (V : (c : Dev nD) → (b : Ref sig .tc) → Buf (Elt Ideal) ((c : Thread nD τ).loc b))

/-- The printed index maps over the grid: the row windows sit at block t, the weights at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The region's input arrays as it finds them: node rows, first weights and bias, second weights and bias. -/
abbrev Zin (c : Dev nD) : S100000x128.Idx → EReal := V c (Pipeline.arrRef spec0 0)
abbrev W1in (c : Dev nD) : S128x128.Idx → EReal := V c (Pipeline.arrRef spec0 1)
abbrev B1in (c : Dev nD) : S1x128.Idx → EReal := V c (Pipeline.arrRef spec0 2)
abbrev W2in (c : Dev nD) : S128x128.Idx → EReal := V c (Pipeline.arrRef spec0 3)
abbrev B2in (c : Dev nD) : S1x128.Idx → EReal := V c (Pipeline.arrRef spec0 4)

/-- The row window's block at point t is rows 5000 t … 5000 t + 4999 of the node array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = Zin V c k := by
  obtain ⟨e0, e1, -⟩ := idx_facts0 t
  unfold iblk0
  rw [View.read_apply]
  show Zin V c _ = Zin V c _
  refine congrArg (Zin V c) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight and bias windows hold their whole arrays at every point. -/
theorem iblk0_1_eq (c : Dev nD) (t : Fin cfg0.N) : (iblk0 V c 1 t : Vec Ideal S128x128 .f32) = W1in V c := by
  obtain ⟨-, -, e0, e1, -⟩ := idx_facts0 t
  funext x
  unfold iblk0
  rw [View.read_apply]
  show W1in V c _ = W1in V c x
  refine congrArg (W1in V c) (funext fun a => Fin.ext ?_)
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

theorem iblk0_2_eq (c : Dev nD) (t : Fin cfg0.N) : (iblk0 V c 2 t : Vec Ideal S1x128 .f32) = B1in V c := by
  obtain ⟨-, -, -, -, e0, e1, -⟩ := idx_facts0 t
  funext x
  unfold iblk0
  rw [View.read_apply]
  show B1in V c _ = B1in V c x
  refine congrArg (B1in V c) (funext fun a => Fin.ext ?_)
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

theorem iblk0_3_eq (c : Dev nD) (t : Fin cfg0.N) : (iblk0 V c 3 t : Vec Ideal S128x128 .f32) = W2in V c := by
  obtain ⟨-, -, -, -, -, -, e0, e1, -⟩ := idx_facts0 t
  funext x
  unfold iblk0
  rw [View.read_apply]
  show W2in V c _ = W2in V c x
  refine congrArg (W2in V c) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem iblk0_4_eq (c : Dev nD) (t : Fin cfg0.N) : (iblk0 V c 4 t : Vec Ideal S1x128 .f32) = B2in V c := by
  obtain ⟨-, -, -, -, -, -, -, -, e0, e1, -⟩ := idx_facts0 t
  funext x
  unfold iblk0
  rw [View.read_apply]
  show B2in V c _ = B2in V c x
  refine congrArg (B2in V c) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-! ## The output arrays as functions of the input arrays -/

/-- A grid point as a tile number. -/
def tileOf (t : Fin cfg0.N) : Fin 20 := ⟨t.val, Nat.lt_of_lt_of_eq t.isLt N_0⟩

/-- The layer's output array: row i of the node array through the two layers. -/
def lin2Arr (c : Dev nD) : S100000x128.Idx → EReal := fun i =>
  rowOut (fun k => Zin V c (ix2 (i 0) k)) (fun k j => W1in V c (ix2 k j)) (fun j => B1in V c (ix2 (0 : Fin 1) j))
    (fun k j => W2in V c (ix2 k j)) (fun j => B2in V c (ix2 (0 : Fin 1) j)) (i 1)

/-- The per-tile column sums of the layer's output, in row 0 of each tile's eight rows. -/
def sumArr (c : Dev nD) : S20x8x128.Idx → EReal := fun i =>
  if (i 1).val = 0 then ∑ r : Fin 5000, lin2Arr V c (ix2 (Cert.Tiles.row hN20 (i 0) r) (i 2)) else 0

/-- The per-tile column sums of the squared output, in row 0 of each tile's eight rows. -/
def sumsqArr (c : Dev nD) : S20x8x128.Idx → EReal := fun i =>
  if (i 1).val = 0 then ∑ r : Fin 5000, lin2Arr V c (ix2 (Cert.Tiles.row hN20 (i 0) r) (i 2))
      * lin2Arr V c (ix2 (Cert.Tiles.row hN20 (i 0) r) (i 2)) else 0

/-- The tile's payload over the blocks at point t, at (r, q), is the output array at row 5000 t + r. -/
theorem tile_pay (c : Dev nD) (t : Fin cfg0.N) (r : Fin 5000) (q : Fin 128) (i : Fin 100000)
    (hi : i.val = 5000 * t.val + r.val) :
    k0_pay2 (F := Ideal) (iblk0 V c 0 t) (iblk0 V c 1 t) (iblk0 V c 2 t) (iblk0 V c 3 t) (iblk0 V c 4 t) (ix2 r q)
      = lin2Arr V c (ix2 i q) := by
  rw [pay2_apply (iblk0 V c 0 t) (iblk0 V c 1 t) (iblk0 V c 2 t) (iblk0 V c 3 t) (iblk0 V c 4 t) r q]
  rw [iblk0_1_eq V c t, iblk0_2_eq V c t, iblk0_3_eq V c t, iblk0_4_eq V c t]
  have hrow : (fun k : Fin 128 => (iblk0 V c 0 t : Vec Ideal S5000x128 .f32) (ix2 r k)) = fun k => Zin V c (ix2 i k) :=
    funext fun k => iblk0_0_apply V c t (ix2 r k) (ix2 i k) hi rfl
  rw [hrow]
  rfl

/-- The tile's payload over the blocks at point t is block t of the output array. -/
theorem tile_pay_fun (c : Dev nD) (t : Fin cfg0.N) :
    k0_pay2 (F := Ideal) (iblk0 V c 0 t) (iblk0 V c 1 t) (iblk0 V c 2 t) (iblk0 V c 3 t) (iblk0 V c 4 t)
      = fun j : S5000x128.Idx => lin2Arr V c (ix2 (Cert.Tiles.row hN20 (tileOf t) (j 0)) (j 1)) := by
  funext j
  obtain ⟨r, q, rfl⟩ : ∃ (r : Fin 5000) (q : Fin 128), j = ix2 r q := ⟨j 0, j 1, eq_ix2 j⟩
  exact tile_pay V c t r q (Cert.Tiles.row hN20 (tileOf t) r) (by show t.val * 5000 + r.val = 5000 * t.val + r.val; omega)

/-- The first statistics payload over the blocks at point t is block t of the column-sum array. -/
theorem sum_pay_fun (c : Dev nD) (t : Fin cfg0.N) :
    k0_pay4 (F := Ideal) (iblk0 V c 0 t) (iblk0 V c 1 t) (iblk0 V c 2 t) (iblk0 V c 3 t) (iblk0 V c 4 t)
      = fun j : S1x8x128.Idx => sumArr V c (ix3 (tileOf t) (j 1) (j 2)) := by
  rw [pay4_eq (iblk0 V c 0 t) (iblk0 V c 1 t) (iblk0 V c 2 t) (iblk0 V c 3 t) (iblk0 V c 4 t)]
  funext j
  unfold sumArr
  refine if_congr Iff.rfl (Finset.sum_congr rfl fun r _ => ?_) rfl
  exact tile_pay V c t r (j 2) (Cert.Tiles.row hN20 (tileOf t) r) (by show t.val * 5000 + r.val = 5000 * t.val + r.val; omega)

/-- The second statistics payload over the blocks at point t is block t of the squared column-sum array. -/
theorem sumsq_pay_fun (c : Dev nD) (t : Fin cfg0.N) :
    k0_pay1 (F := Ideal) (k0_pay5 (F := Ideal) (iblk0 V c 0 t) (iblk0 V c 1 t) (iblk0 V c 2 t) (iblk0 V c 3 t) (iblk0 V c 4 t))
      = fun j : S1x8x128.Idx => sumsqArr V c (ix3 (tileOf t) (j 1) (j 2)) := by
  rw [pay7_eq (iblk0 V c 0 t) (iblk0 V c 1 t) (iblk0 V c 2 t) (iblk0 V c 3 t) (iblk0 V c 4 t)]
  funext j
  unfold sumsqArr
  refine if_congr Iff.rfl (Finset.sum_congr rfl fun r _ => ?_) rfl
  have h := tile_pay V c t r (j 2) (Cert.Tiles.row hN20 (tileOf t) r) (by show t.val * 5000 + r.val = 5000 * t.val + r.val; omega)
  rw [h]

/-! ## What each point writes back, and the arrays after the region -/

/-- What point t writes back to the output window: block t of the output array. -/
theorem flushed5_eq (c : Dev nD) (t : Fin cfg0.N) :
    (dat0 V c).flushed 5 t = ((cfg0.win 5).blk t).view.read (Elt Ideal) (lin2Arr V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S1x128) hz2]
  rw [tile_pay_fun V c t]
  obtain ⟨-, -, -, -, -, -, -, -, -, -, e0, e1, -⟩ := idx_facts0 t
  funext j
  show lin2Arr V c (ix2 (Cert.Tiles.row hN20 (tileOf t) (j 0)) (j 1)) = lin2Arr V c (((cfg0.win 5).blk t).view.emb j)
  refine congrArg (lin2Arr V c) (funext fun a => Fin.ext ?_)
  match a with
  | ⟨0, _⟩ => show t.val * 5000 + (j 0).val = win0_5.index t (0 : Fin 2) * 5000 + 1 * (j 0).val; rw [e0]; omega
  | ⟨1, _⟩ => show (j 1).val = win0_5.index t (1 : Fin 2) * 128 + 1 * (j 1).val; rw [e1]; omega

/-- What point t writes back to the first statistics window: block t of the column-sum array. -/
theorem flushed6_eq (c : Dev nD) (t : Fin cfg0.N) :
    (dat0 V c).flushed 6 t = ((cfg0.win 6).blk t).view.read (Elt Ideal) (sumArr V c) := by
  show (cfg0.win 6).cut (grid0.coords t) ((dat0 V c).after 6 t) = _
  rw [after0_6]
  unfold out0_6
  rw [View.canon_unit_zero hz3]
  simp only [View.ld_unit_zero (S := S5000x128) hz2, View.ld_unit_zero (S := S128x128) hz2, View.ld_unit_zero (S := S1x128) hz2]
  rw [sum_pay_fun V c t]
  obtain ⟨-, -, -, -, -, -, -, -, -, -, -, -, e0, e1, e2, -⟩ := idx_facts0 t
  funext j
  show sumArr V c (ix3 (tileOf t) (j 1) (j 2)) = sumArr V c (((cfg0.win 6).blk t).view.emb j)
  refine congrArg (sumArr V c) (funext fun a => Fin.ext ?_)
  match a with
  | ⟨0, _⟩ => show t.val = win0_6.index t (0 : Fin 3) * 1 + 1 * (j 0).val; have hj : (j 0).val < 1 := (j 0).isLt; rw [e0]; omega
  | ⟨1, _⟩ => show (j 1).val = win0_6.index t (1 : Fin 3) * 8 + 1 * (j 1).val; rw [e1]; omega
  | ⟨2, _⟩ => show (j 2).val = win0_6.index t (2 : Fin 3) * 128 + 1 * (j 2).val; rw [e2]; omega

/-- What point t writes back to the second statistics window: block t of the squared column-sum array. -/
theorem flushed7_eq (c : Dev nD) (t : Fin cfg0.N) :
    (dat0 V c).flushed 7 t = ((cfg0.win 7).blk t).view.read (Elt Ideal) (sumsqArr V c) := by
  show (cfg0.win 7).cut (grid0.coords t) ((dat0 V c).after 7 t) = _
  rw [after0_7]
  unfold out0_7
  rw [View.canon_unit_zero hz3]
  simp only [View.ld_unit_zero (S := S5000x128) hz2, View.ld_unit_zero (S := S128x128) hz2, View.ld_unit_zero (S := S1x128) hz2]
  rw [sumsq_pay_fun V c t]
  obtain ⟨-, -, -, -, -, -, -, -, -, -, -, -, -, -, -, e0, e1, e2⟩ := idx_facts0 t
  funext j
  show sumsqArr V c (ix3 (tileOf t) (j 1) (j 2)) = sumsqArr V c (((cfg0.win 7).blk t).view.emb j)
  refine congrArg (sumsqArr V c) (funext fun a => Fin.ext ?_)
  match a with
  | ⟨0, _⟩ => show t.val = win0_7.index t (0 : Fin 3) * 1 + 1 * (j 0).val; have hj : (j 0).val < 1 := (j 0).isLt; rw [e0]; omega
  | ⟨1, _⟩ => show (j 1).val = win0_7.index t (1 : Fin 3) * 8 + 1 * (j 1).val; rw [e1]; omega
  | ⟨2, _⟩ => show (j 2).val = win0_7.index t (2 : Fin 3) * 128 + 1 * (j 2).val; rw [e2]; omega

/-- An index of the output array is in point t's block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v44_0).slice (win0_5.rect t)).set ↔ _
  rw [View.set_slice_whole, Rect.mem_set_unit]
  exact Iff.rfl

theorem mem_blk6 (t : Fin cfg0.N) (i : S20x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v44_1).slice (win0_6.rect t)).set ↔ _
  rw [View.set_slice_whole, Rect.mem_set_unit]
  exact Iff.rfl

theorem mem_blk7 (t : Fin cfg0.N) (i : S20x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v44_2).slice (win0_7.rect t)).set ↔ _
  rw [View.set_slice_whole, Rect.mem_set_unit]
  exact Iff.rfl

/-- Row i lies in the block of point i / 5000. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1, -⟩ := idx_facts0 t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- Tile i 0 of a statistics array is the block of point i 0. -/
theorem cover6 (i : S20x8x128.Idx) : ∃ t : Fin cfg0.N, (cfg0.win 6).flush t = true ∧ i ∈ ((cfg0.win 6).blk t).view.set := by
  have hi0 : (i 0).val < 20 := (i 0).isLt
  have hi1 : (i 1).val < 8 := (i 1).isLt
  have hi2 : (i 2).val < 128 := (i 2).isLt
  have hN : cfg0.N = 20 := N_0
  let t : Fin cfg0.N := ⟨(i 0).val, by rw [hN]; omega⟩
  obtain ⟨-, -, -, -, -, -, -, -, -, -, -, -, e0, e1, e2, -⟩ := idx_facts0 t
  have ht : t.val = (i 0).val := rfl
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 8 ≤ (i 1).val ∧ (i 1).val < win0_6.index t (1 : Fin 3) * 8 + 8; rw [e1]; omega
  | ⟨2, _⟩ => show win0_6.index t (2 : Fin 3) * 128 ≤ (i 2).val ∧ (i 2).val < win0_6.index t (2 : Fin 3) * 128 + 128; rw [e2]; omega

theorem cover7 (i : S20x8x128.Idx) : ∃ t : Fin cfg0.N, (cfg0.win 7).flush t = true ∧ i ∈ ((cfg0.win 7).blk t).view.set := by
  have hi0 : (i 0).val < 20 := (i 0).isLt
  have hi1 : (i 1).val < 8 := (i 1).isLt
  have hi2 : (i 2).val < 128 := (i 2).isLt
  have hN : cfg0.N = 20 := N_0
  let t : Fin cfg0.N := ⟨(i 0).val, by rw [hN]; omega⟩
  obtain ⟨-, -, -, -, -, -, -, -, -, -, -, -, -, -, -, e0, e1, e2⟩ := idx_facts0 t
  have ht : t.val = (i 0).val := rfl
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 8 ≤ (i 1).val ∧ (i 1).val < win0_7.index t (1 : Fin 3) * 8 + 8; rw [e1]; omega
  | ⟨2, _⟩ => show win0_7.index t (2 : Fin 3) * 128 ≤ (i 2).val ∧ (i 2).val < win0_7.index t (2 : Fin 3) * 128 + 128; rw [e2]; omega

/-- The output array after the region. -/
theorem final5 (c : Dev nD) : (dat0 V c).arrAt 5 cfg0.N = lin2Arr V c :=
  (dat0 V c).arrAt_eq_of_cover 5 (lin2Arr V c) (fun t _ => flushed5_eq V c t) (cover5)

/-- The column-sum array after the region. -/
theorem final6 (c : Dev nD) : (dat0 V c).arrAt 6 cfg0.N = sumArr V c :=
  (dat0 V c).arrAt_eq_of_cover 6 (sumArr V c) (fun t _ => flushed6_eq V c t) (cover6)

/-- The squared column-sum array after the region. -/
theorem final7 (c : Dev nD) : (dat0 V c).arrAt 7 cfg0.N = sumsqArr V c :=
  (dat0 V c).arrAt_eq_of_cover 7 (sumsqArr V c) (fun t _ => flushed7_eq V c t) (cover7)

end Cert.KernelIdeal.RegVal.Mlp0

namespace Cert.KernelIdeal.RegVal

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The region's outputs, entry by entry -/

/-- The region's result in the specification's terms: the two dense layers of the node array it finds in window 0,
    with the weights and bias rows it finds in windows 1 to 4. -/
abbrev mlp0_L (c : Dev nD) : Cert.Spec.Mat 100000 128 :=
  Cert.Spec.lin2F (Cert.Spec.toMat (a := 100000) (b := 128) (V c (Pipeline.arrRef spec0 0)))
    (Cert.Spec.toMat (a := 128) (b := 128) (V c (Pipeline.arrRef spec0 1)))
    (fun k => (V c (Pipeline.arrRef spec0 2) : S1x128.Idx → EReal) (ix2 (0 : Fin 1) k))
    (Cert.Spec.toMat (a := 128) (b := 128) (V c (Pipeline.arrRef spec0 3)))
    (fun k => (V c (Pipeline.arrRef spec0 4) : S1x128.Idx → EReal) (ix2 (0 : Fin 1) k))

/-- The layer's output array, entry by entry: the specification's two dense layers of the node array. -/
theorem mlp0_lin2 (c : Dev nD) (i : Fin 100000) (q : Fin 128) :
    (dat0 V c).arrAt 5 cfg0.N (ix2 i q) = mlp0_L V c i q := by
  rw [Mlp0.final5]
  rfl

/-- Row 0 of tile t of the first statistics array: the column sums of the output over the tile's rows; rows 1 to 7: zero. -/
theorem mlp0_sum (c : Dev nD) (t : Fin 20) (s : Fin 8) (q : Fin 128) :
    (dat0 V c).arrAt 6 cfg0.N (ix3 t s q)
      = if s.val = 0 then ∑ r : Fin 5000, mlp0_L V c (Cert.Tiles.row (by norm_num : 20 * 5000 = 100000) t r) q else 0 := by
  rw [Mlp0.final6]
  rfl

/-- Row 0 of tile t of the second statistics array: the column sums of the squared output; rows 1 to 7: zero. -/
theorem mlp0_sumsq (c : Dev nD) (t : Fin 20) (s : Fin 8) (q : Fin 128) :
    (dat0 V c).arrAt 7 cfg0.N (ix3 t s q)
      = if s.val = 0 then ∑ r : Fin 5000, mlp0_L V c (Cert.Tiles.row (by norm_num : 20 * 5000 = 100000) t r) q
          * mlp0_L V c (Cert.Tiles.row (by norm_num : 20 * 5000 = 100000) t r) q else 0 := by
  rw [Mlp0.final7]
  rfl

end Cert.KernelIdeal.RegVal

end
-- ==== Proof.RegionBn1.lean ====
/-
  The normalisation region number 1, read as one function of the arrays it finds.

  The region walks the 100000 rows of a 100000 x 128 array `L` in 20 blocks of 5000 rows; beside each block it
  holds the whole of two 1 x 128 rows, a scale `s` and a shift `h`.  At every entry of the block it multiplies by
  the scale of the entry's column, adds the shift of that column and takes the maximum with zero, and writes the block
  back at the same rows of the result.  Row `i` lies in block `i / 5000`, so the blocks fill the result, and the
  result is, entry by entry,

      out (i, q) = max (L (i, q) * s (0, q) + h (0, q)) 0 .

  The steps: the body's arithmetic at one entry of a block (`pay_apply`, `point_eq`); where the four windows' blocks
  sit, decided over the 20 points (`idx_facts`), and hence where an entry of a block sits in its array (`rows_emb`,
  `scale_emb`, `shift_emb`, and the loaded values `rows_val`, `scale_val`, `shift_val`); what one point writes back is that block of the function above (`flushed_eq`); every index
  is in the block of its row's quotient by 5000 (`cover`); hence the array (`arr_eq`, `bn1`).
-/
import proofs.«125584_j43164421324859_2_alg».proof.Proof.Gen.KernelIdeal.Frame
import proofs.«125584_j43164421324859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.ValueIdx Idealize.ShloMosaic.TcCoe Idealize.SL.Sem
open Idealize.ShloMosaic.Pipeline (Dat)

namespace Bn1

/-- The zero word of single precision is the extended real 0. -/
theorem zeroLit : (Scalar.ofBits (F := Ideal) .f32 0x00000000#32 : Ideal .f32) = 0 := Ideal.ofBits_zero_f32

/-- The body's arithmetic at entry `(r, q)` of a block: scale of column `q`, shift of column `q`, maximum with 0. -/
theorem pay_apply (x0 : Vec Ideal S5000x128 .f32) (x1 x2 : Vec Ideal S1x128 .f32) (r : Fin 5000) (q : Fin 128) :
    Gen.k1_pay1 (F := Ideal) x0 x1 x2 (ix2 r q)
      = max (x0 (ix2 r q) * x1 (ix2 (0 : Fin 1) q) + x2 (ix2 (0 : Fin 1) q)) 0 := by
  unfold Gen.k1_pay1
  simp only [maximumf_apply, addf_apply, mulf_apply, broadcast_apply, shapeCast_self]
  rw [broadcastTo_1b_ab_apply, broadcastTo_1b_ab_apply, zeroLit]

/-- The result as one function of the array `L`, the scale row `s` and the shift row `h`. -/
abbrev G (L : S100000x128.Idx → EReal) (s h : S1x128.Idx → EReal) : S100000x128.Idx → EReal := fun i =>
  max (L i * s (ix2 (0 : Fin 1) (i 1 : Fin 128)) + h (ix2 (0 : Fin 1) (i 1 : Fin 128))) 0

/-- The body's arithmetic at an entry `j` of a block is `G` at the array index `i` where that entry sits, once the
    three loaded values are the arrays' values there. -/
theorem point_eq (x0 : Vec Ideal S5000x128 .f32) (x1 x2 : Vec Ideal S1x128 .f32)
    (L : S100000x128.Idx → EReal) (s h : S1x128.Idx → EReal) (j : S5000x128.Idx) (i : S100000x128.Idx)
    (h0 : x0 j = L i)
    (h1 : x1 (ix2 (0 : Fin 1) (j 1 : Fin 128)) = s (ix2 (0 : Fin 1) (i 1 : Fin 128)))
    (h2 : x2 (ix2 (0 : Fin 1) (j 1 : Fin 128)) = h (ix2 (0 : Fin 1) (i 1 : Fin 128))) :
    Gen.k1_pay1 (F := Ideal) x0 x1 x2 j = G L s h i := by
  have e : Gen.k1_pay1 (F := Ideal) x0 x1 x2 j
      = max (x0 j * x1 (ix2 (0 : Fin 1) (j 1 : Fin 128)) + x2 (ix2 (0 : Fin 1) (j 1 : Fin 128))) 0 := by
    have hj : j = ix2 (j 0 : Fin 5000) (j 1 : Fin 128) := eq_ix2 j
    rw [hj]
    exact pay_apply x0 x1 x2 (j 0) (j 1)
  rw [e, h0, h1, h2]

theorem hz : (![0, 0] : Fin 2 → Nat) = fun _ => 0 := funext fun a => by fin_cases a <;> rfl

/-- Where the blocks sit, decided over the 20 points: the row windows at block `t` of the rows and block 0 of the
    columns, the two one-row windows at block 0 of both. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the input block sits at the same array index as that entry of the output block. -/
theorem rows_emb (t : Fin cfg1.N) (j : S5000x128.Idx) :
    ((cfg1.win 0).blk t).view.emb j = ((cfg1.win 3).blk t).view.emb j := by
  obtain ⟨e00, e01, e10, e11, e20, e21, e30, e31⟩ := idx_facts t
  funext a; apply Fin.ext
  match a with
  | ⟨0, _⟩ => show win1_0.index t (0 : Fin 2) * 5000 + 1 * (j 0).val = win1_3.index t (0 : Fin 2) * 5000 + 1 * (j 0).val; omega
  | ⟨1, _⟩ => show win1_0.index t (1 : Fin 2) * 128 + 1 * (j 1).val = win1_3.index t (1 : Fin 2) * 128 + 1 * (j 1).val; omega

/-- Entry `(0, q)` of the scale row's block sits at `(0, q')`, `q'` the column of the output block's entry. -/
theorem scale_emb (t : Fin cfg1.N) (j : S5000x128.Idx) :
    ((cfg1.win 1).blk t).view.emb (ix2 (0 : Fin 1) (j 1 : Fin 128))
      = (ix2 (0 : Fin 1) ((((cfg1.win 3).blk t).view.emb j) 1 : Fin 128) : S1x128.Idx) := by
  obtain ⟨e00, e01, e10, e11, e20, e21, e30, e31⟩ := idx_facts t
  funext a; apply Fin.ext
  match a with
  | ⟨0, _⟩ => show win1_1.index t (0 : Fin 2) * 1 + 1 * 0 = 0; omega
  | ⟨1, _⟩ => show win1_1.index t (1 : Fin 2) * 128 + 1 * (j 1).val = win1_3.index t (1 : Fin 2) * 128 + 1 * (j 1).val; omega

/-- The same for the shift row's block. -/
theorem shift_emb (t : Fin cfg1.N) (j : S5000x128.Idx) :
    ((cfg1.win 2).blk t).view.emb (ix2 (0 : Fin 1) (j 1 : Fin 128))
      = (ix2 (0 : Fin 1) ((((cfg1.win 3).blk t).view.emb j) 1 : Fin 128) : S1x128.Idx) := by
  obtain ⟨e00, e01, e10, e11, e20, e21, e30, e31⟩ := idx_facts t
  funext a; apply Fin.ext
  match a with
  | ⟨0, _⟩ => show win1_2.index t (0 : Fin 2) * 1 + 1 * 0 = 0; omega
  | ⟨1, _⟩ => show win1_2.index t (1 : Fin 2) * 128 + 1 * (j 1).val = win1_3.index t (1 : Fin 2) * 128 + 1 * (j 1).val; omega

variable (V : (c : Dev nD) → (b : Ref sig .tc) → Buf (Elt Ideal) ((c : Thread nD τ).loc b))

/-- The input block's entry `j` is the array's value where the output block's entry `j` sits. -/
theorem rows_val (c : Dev nD) (t : Fin cfg1.N) (j : S5000x128.Idx) :
    (iblk1 V c 0 t : Vec Ideal S5000x128 .f32) j
      = (V c (Pipeline.arrRef spec1 0) : S100000x128.Idx → EReal) (((cfg1.win 3).blk t).view.emb j) := by
  show V c (Pipeline.arrRef spec1 0) (((cfg1.win 0).blk t).view.emb j) = _
  rw [rows_emb t j]

/-- The scale block's entry `(0, q)` is the scale row's value at the column of the output block's entry. -/
theorem scale_val (c : Dev nD) (t : Fin cfg1.N) (j : S5000x128.Idx) :
    (iblk1 V c 1 t : Vec Ideal S1x128 .f32) (ix2 (0 : Fin 1) (j 1 : Fin 128))
      = (V c (Pipeline.arrRef spec1 1) : S1x128.Idx → EReal) (ix2 (0 : Fin 1) ((((cfg1.win 3).blk t).view.emb j) 1 : Fin 128)) := by
  show V c (Pipeline.arrRef spec1 1) (((cfg1.win 1).blk t).view.emb (ix2 (0 : Fin 1) (j 1 : Fin 128))) = _
  rw [scale_emb t j]

/-- The same for the shift block. -/
theorem shift_val (c : Dev nD) (t : Fin cfg1.N) (j : S5000x128.Idx) :
    (iblk1 V c 2 t : Vec Ideal S1x128 .f32) (ix2 (0 : Fin 1) (j 1 : Fin 128))
      = (V c (Pipeline.arrRef spec1 2) : S1x128.Idx → EReal) (ix2 (0 : Fin 1) ((((cfg1.win 3).blk t).view.emb j) 1 : Fin 128)) := by
  show V c (Pipeline.arrRef spec1 2) (((cfg1.win 2).blk t).view.emb (ix2 (0 : Fin 1) (j 1 : Fin 128))) = _
  rw [shift_emb t j]

set_option maxHeartbeats 1000000 in
/-- What point `t` writes back is block `t` of `G` of the arrays the region finds. -/
theorem flushed_eq (c : Dev nD) (t : Fin cfg1.N) :
    (dat1 (F := Ideal) V c).flushed 3 t = ((cfg1.win 3).blk t).view.read (Elt Ideal)
      (G (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz]
  refine funext fun (j : S5000x128.Idx) => ?_
  refine point_eq (iblk1 V c 0 t) (iblk1 V c 1 t) (iblk1 V c 2 t)
    (V c (Pipeline.arrRef spec1 0)) (V c (Pipeline.arrRef spec1 1)) (V c (Pipeline.arrRef spec1 2))
    j (((cfg1.win 3).blk t).view.emb j) (rows_val V c t j) (scale_val V c t j) (shift_val V c t j)

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v67).slice (win1_3.rect t)).set ↔ _
  rw [View.set_slice_whole, Rect.mem_set_unit]
  exact Iff.rfl

/-- Every index is in the block of the quotient of its row by 5000. -/
theorem cover (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  have hlt : (i 0).val / 5000 < cfg1.N := by rw [hN]; omega
  obtain ⟨e00, e01, e10, e11, e20, e21, e30, e31⟩ := idx_facts ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_blk]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 128 ≤ (i 1).val ∧ (i 1).val < win1_3.index ⟨(i 0).val / 5000, hlt⟩ (1 : Fin 2) * 128 + 128; omega

/-- The result array after the region is `G` of the arrays the region finds. -/
theorem arr_eq (c : Dev nD) : (dat1 (F := Ideal) V c).arrAt 3 cfg1.N
    = G (V c (Pipeline.arrRef spec1 0)) (V c (Pipeline.arrRef spec1 1)) (V c (Pipeline.arrRef spec1 2)) :=
  (dat1 (F := Ideal) V c).arrAt_eq_of_cover 3 _ (fun t _ => flushed_eq V c t) cover

end Bn1

/-- The result of normalisation region 1, entry by entry: `max (L (i, q) * s (0, q) + h (0, q)) 0`, the arrays
    read by row and column. -/
theorem bn1 (V : (c : Dev nD) → (b : Ref sig .tc) → Buf (Elt Ideal) ((c : Thread nD τ).loc b)) (c : Dev nD)
    (i : Fin 100000) (q : Fin 128) :
    Cert.Spec.toMat (a := 100000) (b := 128) ((Gen.dat1 (F := Ideal) V c).arrAt 3 cfg1.N) i q
      = max (Cert.Spec.toMat (a := 100000) (b := 128) (V c (Pipeline.arrRef spec1 0)) i q
            * Cert.Spec.toMat (a := 1) (b := 128) (V c (Pipeline.arrRef spec1 1)) (0 : Fin 1) q
          + Cert.Spec.toMat (a := 1) (b := 128) (V c (Pipeline.arrRef spec1 2)) (0 : Fin 1) q) 0 :=
  congrFun (Bn1.arr_eq V c) (ix2 i q)

end Cert.KernelIdeal.RegVal

end
-- ==== Proof.KerLayer0.lean ====
/-
  The first graph layer of the program, read on the extended reals.

  Between the boundary before its first region and the boundary after its second the program forms, for the
  standardised node features h:  the combined input  (1 + eps) * h  plus the rows of h gathered at the edges' sources
  and added at the edges' targets;  two dense layers with a rectifier each (the first region), which also leaves, per
  tile of 5000 rows, the column sums of the result and of its squares in the first of eight rows;  from the sums over
  all tiles the mean, the clamped variance E[l^2] - mean^2, the folded scale g * rsqrt (var + 1e-5) and the folded
  shift beta - mean * scale (a stretch of array operations);  and  max (l * scale + shift) 0  (the second region).

  Each stretch of array operations is read at a variable valuation of the buffers, one buffer at a time; each read is
  then taken entry by entry with the lemmas on scatter-adds, sums of parts, re-laid pieces and edge ids; the regions'
  values are those proved for them; and the whole is assembled into the layer in its folded form.  The only
  hypothesis is that no target id is negative, so that the id normalisation "if t < 0 then t + 100000 else t" leaves
  the target ids as they are.
-/
import proofs.«125584_j43164421324859_2_alg».proof.Proof.Gen.KernelIdeal.Frame
import Idealize.ShloMosaic.Lib.StableHlo.Run
import proofs.«125584_j43164421324859_2_alg».proof.Proof.LibLayer
import proofs.«125584_j43164421324859_2_alg».proof.Proof.KerCarryA
import proofs.«125584_j43164421324859_2_alg».proof.Proof.KerCarryB
import proofs.«125584_j43164421324859_2_alg».proof.Proof.RegionMlp0
import proofs.«125584_j43164421324859_2_alg».proof.Proof.RegionBn1

set_option maxRecDepth 16384

noncomputable section

namespace Cert.KernelIdeal.KerVal

open Idealize.ShloMosaic Idealize.ShloMosaic.TcCoe Idealize.ShloMosaic.Tactic Idealize.ShloMosaic.ValueIdx
open Idealize.ShloMosaic.Pipeline (Dat Cfg Window BodyObligation cellOf)
open Cert.KernelIdeal Cert.KernelIdeal.Gen
open Idealize.ShloMosaic.StableHlo

/-! ## The first layer's pieces of the parameter stacks -/

/-- Matrix 0 of a stack of four. -/
abbrev matPiece0 (a : FVec Ideal S4x128x128 .f32) : FVec Ideal S128x128 .f32 :=
  shapeCast S128x128 (extractStridedSlice S1x128x128 ![0, 0, 0] a slices_S4x128x128_S1x128x128_0_0_0) shapeCasts_S1x128x128_S128x128

/-- Vector 0 of a stack of four. -/
abbrev vecPiece0 (a : FVec Ideal S4x128 .f32) : FVec Ideal S128 .f32 :=
  shapeCast S128 (extractStridedSlice S1x128 ![0, 0] a slices_S4x128_S1x128_0_0) shapeCasts_S1x128_S128

end Cert.KernelIdeal.KerVal

namespace Cert.KernelIdeal.KerVal.L0

open Idealize.ShloMosaic Idealize.ShloMosaic.TcCoe Idealize.ShloMosaic.Tactic Idealize.ShloMosaic.ValueIdx
open Idealize.ShloMosaic.Pipeline (Dat Cfg Window BodyObligation cellOf)
open Cert.KernelIdeal Cert.KernelIdeal.Gen Cert.KernelIdeal.KerVal
open Idealize.ShloMosaic.StableHlo

variable {F : FTy → Type} [FloatOps F]

/-! ## The stretch before the first region, read at a variable valuation -/

/-- The standardised features as the stretch forms them: deviations from the spread means over the spread roots of
    the variances. -/
abbrev std0 (a0 : FVec F S100000x128 .f32) (v2 v3 : FVec F S128 .f32) : FVec F S100000x128 .f32 :=
  Host.divf
    (subf a0 (broadcastInDim S100000x128 ![0, 1] bcast_S1x128_S100000x128_0_1 (broadcastInDim S1x128 ![1] bcast_S128_S1x128_1 v2)))
    (broadcastInDim S100000x128 ![0, 1] bcast_S1x128_S100000x128_0_1
      (broadcastInDim S1x128 ![1] bcast_S128_S1x128_1 (Host.sqrt v3)))

/-- One plus the first layer's epsilon. -/
abbrev ope0 (a9 : FVec F S4 .f32) : FVec F S_ .f32 :=
  addf (constant S_ .f32 0x3F800000#32) (shapeCast S_ (extractStridedSlice S1 ![0] a9 slices_S4_S1_0) shapeCasts_S1_S_)

/-- The combined input of the first layer. -/
abbrev z0 (h : FVec F S100000x128 .f32) (a1 : IVec S2x1600000 32) (a9 : FVec F S4 .f32) : FVec F S100000x128 .f32 :=
  Host.scatterAdd scatter_S100000x128_S1600000x1_S1600000x128_1_0_0_1
    (mulf (broadcastInDim S100000x128 ![] bcast_S_S100000x128 (ope0 a9)) h)
    (normIds (dstIds a1)) (gathered h a1)

theorem h02_v10 (W : Valuation τ sig (Elt F)) :
    StableHlo.after hostOps0_2 W (Proc.devRef .tc main_v10)
      = std0 (W (Proc.devRef .tc main_arg0)) (W (Proc.devRef .tc main_v2)) (W (Proc.devRef .tc main_v3)) := by
  simp only [hostOps0_2]
  after_results

theorem h02_v33 (W : Valuation τ sig (Elt F)) :
    StableHlo.after hostOps0_2 W (Proc.devRef .tc main_v33)
      = z0 (std0 (W (Proc.devRef .tc main_arg0)) (W (Proc.devRef .tc main_v2)) (W (Proc.devRef .tc main_v3)))
          (W (Proc.devRef .tc main_arg1)) (W (Proc.devRef .tc main_arg9)) := by
  simp only [hostOps0_2]
  after_results_simp
  rfl

/-! ## The first layer's parameter pieces, as the stretch cuts them -/

/-- A vector laid as one row. -/
abbrev rowOf (v : FVec F S128 .f32) : FVec F S1x128 .f32 := shapeCast S1x128 v shapeCasts_S128_S1x128

theorem h02_v35 (W : Valuation τ sig (Elt Ideal)) :
    StableHlo.after hostOps0_2 W (Proc.devRef .tc main_v35) = matPiece0 (W (Proc.devRef .tc main_arg3)) := by
  simp only [hostOps0_2]
  after_results_simp
  rfl

theorem h02_v38 (W : Valuation τ sig (Elt Ideal)) :
    StableHlo.after hostOps0_2 W (Proc.devRef .tc main_v38) = rowOf (vecPiece0 (W (Proc.devRef .tc main_arg4))) := by
  simp only [hostOps0_2]
  after_results_simp
  rfl

theorem h02_v40 (W : Valuation τ sig (Elt Ideal)) :
    StableHlo.after hostOps0_2 W (Proc.devRef .tc main_v40) = matPiece0 (W (Proc.devRef .tc main_arg5)) := by
  simp only [hostOps0_2]
  after_results_simp
  rfl

theorem h02_v43 (W : Valuation τ sig (Elt Ideal)) :
    StableHlo.after hostOps0_2 W (Proc.devRef .tc main_v43) = rowOf (vecPiece0 (W (Proc.devRef .tc main_arg6))) := by
  simp only [hostOps0_2]
  after_results_simp
  rfl

/-! ## The statistics stretch, read at a variable valuation -/

/-- The sum of the parts over their first two axes. -/
abbrev partSum (x : FVec F S20x8x128 .f32) : FVec F S128 .f32 :=
  Host.reduceAdd x (constant S_ .f32 0x00000000#32) reducesTo_S20x8x128_S128_d0_1 h_S_

/-- The node count spread over the 128 columns. -/
abbrev nSpread : FVec F S128 .f32 := broadcastInDim S128 ![] bcast_S_S128 (constant S_ .f32 0x47C35000#32)

/-- The folded scale from the two arrays of parts and the normalisation's scale. -/
abbrev scaleT (p1 p2 : FVec F S20x8x128 .f32) (g : FVec F S128 .f32) : FVec F S128 .f32 :=
  mulf g (Host.rsqrt (addf (maximumf
    (subf (Host.divf (partSum p2) nSpread) (mulf (Host.divf (partSum p1) nSpread) (Host.divf (partSum p1) nSpread)))
    (broadcastInDim S128 ![] bcast_S_S128 (constant S_ .f32 0x00000000#32)))
    (broadcastInDim S128 ![] bcast_S_S128 (constant S_ .f32 0x3727C5AC#32))))

/-- The folded shift. -/
abbrev shiftT (p1 : FVec F S20x8x128 .f32) (bt sc : FVec F S128 .f32) : FVec F S128 .f32 :=
  subf bt (mulf (Host.divf (partSum p1) nSpread) sc)

theorem h1_v65 (W : Valuation τ sig (Elt Ideal)) :
    StableHlo.after hostOps1 W (Proc.devRef .tc main_v65)
      = rowOf (scaleT (W (Proc.devRef .tc main_v44_1)) (W (Proc.devRef .tc main_v44_2))
          (vecPiece0 (W (Proc.devRef .tc main_arg7)))) := by
  simp only [hostOps1]
  after_results_simp
  rfl

theorem h1_v66 (W : Valuation τ sig (Elt Ideal)) :
    StableHlo.after hostOps1 W (Proc.devRef .tc main_v66)
      = rowOf (shiftT (W (Proc.devRef .tc main_v44_1)) (vecPiece0 (W (Proc.devRef .tc main_arg8)))
          (scaleT (W (Proc.devRef .tc main_v44_1)) (W (Proc.devRef .tc main_v44_2))
            (vecPiece0 (W (Proc.devRef .tc main_arg7))))) := by
  simp only [hostOps1]
  after_results_simp
  rfl

theorem h1_v44_0 (W : Valuation τ sig (Elt F)) :
    StableHlo.after hostOps1 W (Proc.devRef .tc main_v44_0) = W (Proc.devRef .tc main_v44_0) := by
  host_keeps hostOps1

/-! ## The boundary before the first region -/

section Boundaries

variable (m : (ℓ : Loc nD τ sig) → Buf (Elt Ideal) ℓ) (ρ : Dev nD → PrngReg)

theorem W3_v33 (c : Dev nD) :
    Gen.W3 m ρ c (Proc.devRef .tc main_v33)
      = z0 (F := Ideal) (Gen.W3 m ρ c (Proc.devRef .tc main_v10)) (m ((c : Thread nD τ).loc main_arg1))
          (m ((c : Thread nD τ).loc main_arg9)) := by
  show StableHlo.after hostOps0_2 (Gen.W2 m ρ c) (Proc.devRef .tc main_v33)
    = z0 (F := Ideal) (StableHlo.after hostOps0_2 (Gen.W2 m ρ c) (Proc.devRef .tc main_v10)) _ _
  rw [h02_v33, h02_v10, W2_arg1, W2_arg9]

theorem W3_v35 (c : Dev nD) :
    Gen.W3 m ρ c (Proc.devRef .tc main_v35) = matPiece0 (m ((c : Thread nD τ).loc main_arg3)) := by
  show StableHlo.after hostOps0_2 (Gen.W2 m ρ c) (Proc.devRef .tc main_v35) = _
  rw [h02_v35, W2_arg3]

theorem W3_v38 (c : Dev nD) :
    Gen.W3 m ρ c (Proc.devRef .tc main_v38) = rowOf (F := Ideal) (vecPiece0 (m ((c : Thread nD τ).loc main_arg4))) := by
  show StableHlo.after hostOps0_2 (Gen.W2 m ρ c) (Proc.devRef .tc main_v38) = _
  rw [h02_v38, W2_arg4]

theorem W3_v40 (c : Dev nD) :
    Gen.W3 m ρ c (Proc.devRef .tc main_v40) = matPiece0 (m ((c : Thread nD τ).loc main_arg5)) := by
  show StableHlo.after hostOps0_2 (Gen.W2 m ρ c) (Proc.devRef .tc main_v40) = _
  rw [h02_v40, W2_arg5]

theorem W3_v43 (c : Dev nD) :
    Gen.W3 m ρ c (Proc.devRef .tc main_v43) = rowOf (F := Ideal) (vecPiece0 (m ((c : Thread nD τ).loc main_arg6))) := by
  show StableHlo.after hostOps0_2 (Gen.W2 m ρ c) (Proc.devRef .tc main_v43) = _
  rw [h02_v43, W2_arg6]

/-! ## The boundary before the second region -/

theorem W5_v44_0 (c : Dev nD) :
    Gen.W5 m ρ c (Proc.devRef .tc main_v44_0) = Gen.W4 m ρ c (Proc.devRef .tc main_v44_0) :=
  h1_v44_0 (Gen.W4 m ρ c)

theorem W5_v65 (c : Dev nD) :
    Gen.W5 m ρ c (Proc.devRef .tc main_v65)
      = rowOf (F := Ideal) (scaleT (F := Ideal) (Gen.W4 m ρ c (Proc.devRef .tc main_v44_1)) (Gen.W4 m ρ c (Proc.devRef .tc main_v44_2))
          (vecPiece0 (m ((c : Thread nD τ).loc main_arg7)))) := by
  show StableHlo.after hostOps1 (Gen.W4 m ρ c) (Proc.devRef .tc main_v65) = _
  rw [h1_v65, W4_arg7]

theorem W5_v66 (c : Dev nD) :
    Gen.W5 m ρ c (Proc.devRef .tc main_v66)
      = rowOf (F := Ideal) (shiftT (F := Ideal) (Gen.W4 m ρ c (Proc.devRef .tc main_v44_1)) (vecPiece0 (m ((c : Thread nD τ).loc main_arg8)))
          (scaleT (F := Ideal) (Gen.W4 m ρ c (Proc.devRef .tc main_v44_1)) (Gen.W4 m ρ c (Proc.devRef .tc main_v44_2))
            (vecPiece0 (m ((c : Thread nD τ).loc main_arg7))))) := by
  show StableHlo.after hostOps1 (Gen.W4 m ρ c) (Proc.devRef .tc main_v66) = _
  rw [h1_v66, W4_arg7, W4_arg8]

end Boundaries

/-! ## Entry reads on the extended reals -/

/-- Entry e of the target-id vector is the edge list at (1, e). -/
theorem dstIds_apply (a1 : IVec S2x1600000 32) (e : Fin 1600000) : dstIds a1 (ix1 e) = a1 (ix2 (1 : Fin 2) e) := by
  show shapeCast S1600000 (extractStridedSlice S1x1600000 ![1, 0] a1 slices_S2x1600000_S1x1600000_1_0)
    shapeCasts_S1x1600000_S1600000 (ix1 e) = _
  rw [Cert.LibBcast.row_reshape_apply]
  exact slice2_axis0_apply 1 a1 _ (0 : Fin 1) e (1 : Fin 2) rfl

/-- A vector laid as one row reads the vector. -/
theorem rowOf_apply (v : FVec Ideal S128 .f32) (q : Fin 128) : rowOf v (ix2 (0 : Fin 1) q) = v (ix1 q) :=
  shapeCast_a_1a_apply v shapeCasts_S128_S1x128 (0 : Fin 1) q

/-- The combined input of the first layer, entry by entry. -/
theorem z0_apply (h : FVec Ideal S100000x128 .f32) (a1 : IVec S2x1600000 32) (a9 : FVec Ideal S4 .f32)
    (hdst : ∀ e : Fin 1600000, 0 ≤ (a1 (ix2 (1 : Fin 2) e)).toInt) (i : Fin 100000) (q : Fin 128) :
    z0 h a1 a9 (ix2 i q)
      = Cert.Spec.zF (Cert.Spec.oneLit + a9 (ix1 (0 : Fin 4))) (Cert.Spec.toMat h) (Cert.Spec.toMat (gathered h a1))
          (fun e => a1 (ix2 (1 : Fin 2) e)) i q := by
  have hidx : ∀ e : Fin 1600000, normIds (dstIds a1) (ix2 e (0 : Fin 1)) = a1 (ix2 (1 : Fin 2) e) := fun e => by
    have h1 : normIds (dstIds a1) (ix2 e (0 : Fin 1)) = dstIds a1 (ix1 e) :=
      Cert.LibLayer.ids_apply (dstIds a1) _ bcast_S_S1600000 bcast_S1600000_S1600000x1_0 e
        (by rw [dstIds_apply]; exact hdst e)
    rw [h1, dstIds_apply]
  have hope : ope0 a9 ix0 = Cert.Spec.oneLit + a9 (ix1 (0 : Fin 4)) :=
    Cert.LibLayer.ope_apply 0 (by norm_num) a9 slices_S4_S1_0 shapeCasts_S1_S_
  refine (Cert.LibLayer.z_apply scatter_S100000x128_S1600000x1_S1600000x128_1_0_0_1 rfl rfl rfl rfl (ope0 a9)
    bcast_S_S100000x128 h (normIds (dstIds a1)) (gathered h a1) (fun e => a1 (ix2 (1 : Fin 2) e)) hidx i q).trans ?_
  rw [hope]

/-- The folded scale, entry by entry, from the double sums of the parts. -/
theorem scaleT_apply (p1 p2 : FVec Ideal S20x8x128 .f32) (g : FVec Ideal S128 .f32) (q : Fin 128) :
    scaleT p1 p2 g (ix1 q)
      = g (ix1 q) * Ideal.rsqrt (max
          (Ideal.div (∑ t : Fin 20, ∑ s : Fin 8, p2 (ix3 t s q)) Cert.Spec.nLit
            - Ideal.div (∑ t : Fin 20, ∑ s : Fin 8, p1 (ix3 t s q)) Cert.Spec.nLit
              * Ideal.div (∑ t : Fin 20, ∑ s : Fin 8, p1 (ix3 t s q)) Cert.Spec.nLit) 0 + Cert.Spec.epsLit) := by
  have e1 : partSum p1 (ix1 q) = ∑ t : Fin 20, ∑ s : Fin 8, p1 (ix3 t s q) :=
    Cert.LibLayer.reduceAdd_parts p1 reducesTo_S20x8x128_S128_d0_1 h_S_ q
  have e2 : partSum p2 (ix1 q) = ∑ t : Fin 20, ∑ s : Fin 8, p2 (ix3 t s q) :=
    Cert.LibLayer.reduceAdd_parts p2 reducesTo_S20x8x128_S128_d0_1 h_S_ q
  refine (Cert.LibLayer.stat_scale (partSum p1) (partSum p2) g bcast_S_S128 q).trans ?_
  rw [e1, e2]

/-- The folded shift, entry by entry. -/
theorem shiftT_apply (p1 : FVec Ideal S20x8x128 .f32) (bt sc : FVec Ideal S128 .f32) (q : Fin 128) :
    shiftT p1 bt sc (ix1 q)
      = bt (ix1 q) - Ideal.div (∑ t : Fin 20, ∑ s : Fin 8, p1 (ix3 t s q)) Cert.Spec.nLit * sc (ix1 q) := by
  have e1 : partSum p1 (ix1 q) = ∑ t : Fin 20, ∑ s : Fin 8, p1 (ix3 t s q) :=
    Cert.LibLayer.reduceAdd_parts p1 reducesTo_S20x8x128_S128_d0_1 h_S_ q
  refine (Cert.LibLayer.stat_shift (partSum p1) bt sc bcast_S_S128 q).trans ?_
  rw [e1]

/-! ## The first region's dense layers in the terms of the boundary before it -/

section Layer0

open Cert.KernelIdeal.RegVal

variable (m : (ℓ : Loc nD τ sig) → Buf (Elt Ideal) ℓ) (ρ : Dev nD → PrngReg)

/-- The two dense layers the first region applies, in the terms of the boundary before it. -/
theorem L0_eq (c : Dev nD) :
    mlp0_L (Gen.V3 m ρ) c
      = Cert.Spec.lin2F (Cert.Spec.toMat (a := 100000) (b := 128) (Gen.W3 m ρ c (Proc.devRef .tc main_v33)))
          (Cert.Spec.toMat (matPiece0 (m ((c : Thread nD τ).loc main_arg3))))
          (Cert.Spec.toVec (vecPiece0 (m ((c : Thread nD τ).loc main_arg4))))
          (Cert.Spec.toMat (matPiece0 (m ((c : Thread nD τ).loc main_arg5))))
          (Cert.Spec.toVec (vecPiece0 (m ((c : Thread nD τ).loc main_arg6)))) := by
  show Cert.Spec.lin2F (Cert.Spec.toMat (a := 100000) (b := 128) (Gen.W3 m ρ c (Proc.devRef .tc main_v33)))
      (Cert.Spec.toMat (a := 128) (b := 128) (Gen.W3 m ρ c (Proc.devRef .tc main_v35)))
      (fun k => Cert.Spec.toMat (a := 1) (b := 128) (Gen.W3 m ρ c (Proc.devRef .tc main_v38)) (0 : Fin 1) k)
      (Cert.Spec.toMat (a := 128) (b := 128) (Gen.W3 m ρ c (Proc.devRef .tc main_v40)))
      (fun k => Cert.Spec.toMat (a := 1) (b := 128) (Gen.W3 m ρ c (Proc.devRef .tc main_v43)) (0 : Fin 1) k) = _
  rw [W3_v35, W3_v38, W3_v40, W3_v43]
  have r4 : (fun k => Cert.Spec.toMat (a := 1) (b := 128) (rowOf (vecPiece0 (m ((c : Thread nD τ).loc main_arg4)))) (0 : Fin 1) k)
      = Cert.Spec.toVec (vecPiece0 (m ((c : Thread nD τ).loc main_arg4))) := funext fun k => rowOf_apply _ k
  have r6 : (fun k => Cert.Spec.toMat (a := 1) (b := 128) (rowOf (vecPiece0 (m ((c : Thread nD τ).loc main_arg6)))) (0 : Fin 1) k)
      = Cert.Spec.toVec (vecPiece0 (m ((c : Thread nD τ).loc main_arg6))) := funext fun k => rowOf_apply _ k
  rw [r4, r6]

end Layer0

end Cert.KernelIdeal.KerVal.L0

namespace Cert.KernelIdeal.KerVal

open Idealize.ShloMosaic Idealize.ShloMosaic.TcCoe Idealize.ShloMosaic.Tactic Idealize.ShloMosaic.ValueIdx
open Idealize.ShloMosaic.Pipeline (Dat Cfg Window BodyObligation cellOf)
open Cert.KernelIdeal Cert.KernelIdeal.Gen Cert.KernelIdeal.KerVal.L0
open Idealize.ShloMosaic.StableHlo

variable (m : (ℓ : Loc nD τ sig) → Buf (Elt Ideal) ℓ) (ρ : Dev nD → PrngReg)

/-- The first layer of the program, from the boundary before its first region to the boundary after its second: the
    layer in its folded form, applied to the standardised features.  The hypotheses are what the two regions compute
    from the arrays they find, and that no target id is negative. -/
theorem layer0 (c : Dev nD)
    (hlin2 : ∀ (i : Fin 100000) (q : Fin 128),
      (dat0 (F := Ideal) (Gen.V3 m ρ) c).arrAt 5 cfg0.N (ix2 i q) = RegVal.mlp0_L (Gen.V3 m ρ) c i q)
    (hsum : ∀ (t : Fin 20) (s : Fin 8) (q : Fin 128),
      (dat0 (F := Ideal) (Gen.V3 m ρ) c).arrAt 6 cfg0.N (ix3 t s q)
        = if s.val = 0 then ∑ r : Fin 5000, RegVal.mlp0_L (Gen.V3 m ρ) c (Cert.Tiles.row (by norm_num : 20 * 5000 = 100000) t r) q else 0)
    (hsumsq : ∀ (t : Fin 20) (s : Fin 8) (q : Fin 128),
      (dat0 (F := Ideal) (Gen.V3 m ρ) c).arrAt 7 cfg0.N (ix3 t s q)
        = if s.val = 0 then ∑ r : Fin 5000, RegVal.mlp0_L (Gen.V3 m ρ) c (Cert.Tiles.row (by norm_num : 20 * 5000 = 100000) t r) q
            * RegVal.mlp0_L (Gen.V3 m ρ) c (Cert.Tiles.row (by norm_num : 20 * 5000 = 100000) t r) q else 0)
    (hbn : ∀ (i : Fin 100000) (q : Fin 128),
      Cert.Spec.toMat (a := 100000) (b := 128) ((Gen.dat1 (F := Ideal) (Gen.V5 m ρ) c).arrAt 3 cfg1.N) i q
        = max (Cert.Spec.toMat (a := 100000) (b := 128) (Gen.V5 m ρ c (Pipeline.arrRef spec1 0)) i q
              * Cert.Spec.toMat (a := 1) (b := 128) (Gen.V5 m ρ c (Pipeline.arrRef spec1 1)) (0 : Fin 1) q
            + Cert.Spec.toMat (a := 1) (b := 128) (Gen.V5 m ρ c (Pipeline.arrRef spec1 2)) (0 : Fin 1) q) 0)
    (hdst : ∀ e : Fin 1600000, 0 ≤ (((m ((c : Thread nD τ).loc main_arg1)) : IVec S2x1600000 32) (ix2 (1 : Fin 2) e)).toInt) :
    Cert.Spec.toMat (a := 100000) (b := 128) (Gen.W6 m ρ c (Proc.devRef .tc main_v67))
      = Cert.Spec.layerKerF (Cert.Spec.oneLit + ((m ((c : Thread nD τ).loc main_arg9)) : S4.Idx → EReal) (ix1 (0 : Fin 4)))
          (Cert.Spec.toMat (a := 100000) (b := 128) (Gen.W3 m ρ c (Proc.devRef .tc main_v10)))
          (Cert.Spec.toMat (a := 1600000) (b := 128) (gathered (F := Ideal) (Gen.W3 m ρ c (Proc.devRef .tc main_v10)) (m ((c : Thread nD τ).loc main_arg1))))
          (fun e => ((m ((c : Thread nD τ).loc main_arg1)) : IVec S2x1600000 32) (ix2 (1 : Fin 2) e))
          (Cert.Spec.toMat (a := 128) (b := 128) (matPiece0 (m ((c : Thread nD τ).loc main_arg3))))
          (Cert.Spec.toVec (a := 128) (vecPiece0 (m ((c : Thread nD τ).loc main_arg4))))
          (Cert.Spec.toMat (a := 128) (b := 128) (matPiece0 (m ((c : Thread nD τ).loc main_arg5))))
          (Cert.Spec.toVec (a := 128) (vecPiece0 (m ((c : Thread nD τ).loc main_arg6))))
          (Cert.Spec.toVec (a := 128) (vecPiece0 (m ((c : Thread nD τ).loc main_arg7))))
          (Cert.Spec.toVec (a := 128) (vecPiece0 (m ((c : Thread nD τ).loc main_arg8)))) := by
  have hN : 20 * 5000 = 100000 := by norm_num
  have e5 : Gen.W4 m ρ c (Proc.devRef .tc main_v44_0) = (dat0 (Gen.V3 m ρ) c).arrAt 5 cfg0.N := Gen.W4_arr m ρ c 5
  have e6 : Gen.W4 m ρ c (Proc.devRef .tc main_v44_1) = (dat0 (Gen.V3 m ρ) c).arrAt 6 cfg0.N := Gen.W4_arr m ρ c 6
  have e7 : Gen.W4 m ρ c (Proc.devRef .tc main_v44_2) = (dat0 (Gen.V3 m ρ) c).arrAt 7 cfg0.N := Gen.W4_arr m ρ c 7
  have eO : Gen.W6 m ρ c (Proc.devRef .tc main_v67) = (dat1 (Gen.V5 m ρ) c).arrAt 3 cfg1.N := Gen.W6_arr m ρ c 3
  refine Cert.LibLayer.layer_of_reads _ _ _ _ _ _ _ _ _ _
    (Gen.W3 m ρ c (Proc.devRef .tc main_v33)) (Gen.W5 m ρ c (Proc.devRef .tc main_v44_0))
    (Gen.W6 m ρ c (Proc.devRef .tc main_v67))
    (Gen.W4 m ρ c (Proc.devRef .tc main_v44_1)) (Gen.W4 m ρ c (Proc.devRef .tc main_v44_2))
    (Gen.W5 m ρ c (Proc.devRef .tc main_v65)) (Gen.W5 m ρ c (Proc.devRef .tc main_v66)) hN ?_ ?_ ?_ ?_ ?_ ?_ ?_
  · intro i q
    rw [W3_v33]
    exact z0_apply _ _ _ hdst i q
  · intro i q
    rw [W5_v44_0, e5, ← L0_eq]
    exact hlin2 i q
  · intro t s q
    rw [e6, ← L0_eq]
    exact hsum t s q
  · intro t s q
    rw [e7, ← L0_eq]
    exact hsumsq t s q
  · intro q
    rw [W5_v65, rowOf_apply, scaleT_apply]
    rfl
  · intro q
    rw [W5_v66, rowOf_apply, shiftT_apply, W5_v65, rowOf_apply]
    rfl
  · intro i q
    rw [eO]
    exact hbn i q

/-- The same with the regions' values supplied: only the hypothesis on the target ids is left. -/
theorem layer0_closed (c : Dev nD)
    (hdst : ∀ e : Fin 1600000, 0 ≤ (((m ((c : Thread nD τ).loc main_arg1)) : IVec S2x1600000 32) (ix2 (1 : Fin 2) e)).toInt) :
    Cert.Spec.toMat (a := 100000) (b := 128) (Gen.W6 m ρ c (Proc.devRef .tc main_v67))
      = Cert.Spec.layerKerF (Cert.Spec.oneLit + ((m ((c : Thread nD τ).loc main_arg9)) : S4.Idx → EReal) (ix1 (0 : Fin 4)))
          (Cert.Spec.toMat (a := 100000) (b := 128) (Gen.W3 m ρ c (Proc.devRef .tc main_v10)))
          (Cert.Spec.toMat (a := 1600000) (b := 128) (gathered (F := Ideal) (Gen.W3 m ρ c (Proc.devRef .tc main_v10)) (m ((c : Thread nD τ).loc main_arg1))))
          (fun e => ((m ((c : Thread nD τ).loc main_arg1)) : IVec S2x1600000 32) (ix2 (1 : Fin 2) e))
          (Cert.Spec.toMat (a := 128) (b := 128) (matPiece0 (m ((c : Thread nD τ).loc main_arg3))))
          (Cert.Spec.toVec (a := 128) (vecPiece0 (m ((c : Thread nD τ).loc main_arg4))))
          (Cert.Spec.toMat (a := 128) (b := 128) (matPiece0 (m ((c : Thread nD τ).loc main_arg5))))
          (Cert.Spec.toVec (a := 128) (vecPiece0 (m ((c : Thread nD τ).loc main_arg6))))
          (Cert.Spec.toVec (a := 128) (vecPiece0 (m ((c : Thread nD τ).loc main_arg7))))
          (Cert.Spec.toVec (a := 128) (vecPiece0 (m ((c : Thread nD τ).loc main_arg8)))) :=
  layer0 m ρ c (RegVal.mlp0_lin2 (Gen.V3 m ρ) c) (RegVal.mlp0_sum (Gen.V3 m ρ) c) (RegVal.mlp0_sumsq (Gen.V3 m ρ) c)
    (RegVal.bn1 (Gen.V5 m ρ) c) hdst

end Cert.KernelIdeal.KerVal

end
-- ==== Proof.KerLayer1.lean ====
/-
  Layer 1 of the kernel program, as the index-level formula of the specification.

  The stretch of host operations before the dense layers forms (1 + eps[1]) times the features region 1 left, gathers
  the features' rows at the edges' sources, and adds each gathered row into the row of the edge's target; it also cuts
  the layer's two weight matrices and two biases out of their stacks.  Read at an entry this is the specification's
  combined input: an edge id that is not negative passes the "add the node count if negative" step unchanged, so the
  rows summed into node i are those of the edges whose raw target id is i.  The first kernel region applies the two
  dense layers and leaves, per tile of 5000 nodes, the column sums of the result and of its squares in row 0 of an
  8-row part.  The next stretch adds the parts up (the sum over parts and rows is the sum over all nodes), divides
  by the node count, forms the clamped variance E[l²] − mean², and folds the normalisation into a scale
  g · rsqrt (var + ε) and a shift β − mean · scale, each as a row.  The second kernel region computes
  max (l · scale + shift) 0.  Put together this is the specification's layer in its folded form.
-/
import proofs.«125584_j43164421324859_2_alg».proof.Proof.Gen.KernelIdeal.Frame
import proofs.«125584_j43164421324859_2_alg».proof.Proof.Spec
import proofs.«125584_j43164421324859_2_alg».proof.Proof.LibLayer
import proofs.«125584_j43164421324859_2_alg».proof.Proof.KerCarryA
import proofs.«125584_j43164421324859_2_alg».proof.Proof.KerCarryB
import Idealize.ShloMosaic.Lib.StableHlo.Run

set_option maxRecDepth 16384

noncomputable section

namespace Cert.KernelIdeal.KerVal

open Idealize.ShloMosaic Idealize.ShloMosaic.TcCoe Idealize.ShloMosaic.Tactic
open Idealize.ShloMosaic.Pipeline (Dat Cfg Window BodyObligation cellOf)
open Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The layer's pieces of the parameter stacks -/

/-- The layer's epsilon: entry 1 of the vector of epsilons, as a scalar. -/
abbrev eps1 (a : FVec Ideal S4 .f32) : FVec Ideal S_ .f32 :=
  shapeCast S_ (extractStridedSlice S1 ![1] a slices_S4_S1_1) shapeCasts_S1_S_

/-- Matrix 1 of a stack of four. -/
abbrev matPiece1 (a : FVec Ideal S4x128x128 .f32) : FVec Ideal S128x128 .f32 :=
  shapeCast S128x128 (extractStridedSlice S1x128x128 ![1, 0, 0] a slices_S4x128x128_S1x128x128_1_0_0) shapeCasts_S1x128x128_S128x128

/-- Vector 1 of a stack of four. -/
abbrev vecPiece1 (a : FVec Ideal S4x128 .f32) : FVec Ideal S128 .f32 :=
  shapeCast S128 (extractStridedSlice S1x128 ![1, 0] a slices_S4x128_S1x128_1_0) shapeCasts_S1x128_S128

/-! ## The stretch before the dense layers, read at any contents -/

set_option maxHeartbeats 1000000 in
/-- The combined input: (1 + eps) times the node's row plus the gathered rows of the edges that point at the node. -/
theorem l1_z (W : Valuation τ sig (Elt Ideal))
    (hdst : ∀ e : Fin 1600000, 0 ≤ ((W (Proc.devRef .tc main_v14) : IVec S1600000 32) (ix1 e)).toInt)
    (i : Fin 100000) (q : Fin 128) :
    (StableHlo.after (hostOps2 (F := Ideal)) W (Proc.devRef .tc main_v86) : S100000x128.Idx → EReal) (ix2 i q)
      = Cert.Spec.zF (Cert.Spec.oneLit + (W (Proc.devRef .tc main_arg9) : S4.Idx → EReal) (ix1 (1 : Fin 4)))
          (Cert.Spec.toMat (a := 100000) (b := 128) (W (Proc.devRef .tc main_v67)))
          (Cert.Spec.toMat (a := 1600000) (b := 128)
            (Host.gather gather_S100000x128_S1600000x1_S1600000x128_1_0_n_n_0_1_1128
              (W (Proc.devRef .tc main_v67) : S100000x128.Idx → EReal) (normIds (W (Proc.devRef .tc main_v12)))))
          (fun e => (W (Proc.devRef .tc main_v14) : IVec S1600000 32) (ix1 e)) i q := by
  simp only [hostOps2]
  after_results_simp
  refine (Cert.LibLayer.z_apply _ rfl rfl rfl rfl _ _ _ _ _
    (fun e => (W (Proc.devRef .tc main_v14) : IVec S1600000 32) (ix1 e))
    (fun e => Cert.LibLayer.ids_apply _ _ _ _ e (hdst e)) i q).trans ?_
  exact congrArg (fun x => Cert.Spec.zF x (Cert.Spec.toMat (a := 100000) (b := 128) (W (Proc.devRef .tc main_v67)))
      (Cert.Spec.toMat (a := 1600000) (b := 128)
        (Host.gather gather_S100000x128_S1600000x1_S1600000x128_1_0_n_n_0_1_1128
          (W (Proc.devRef .tc main_v67) : S100000x128.Idx → EReal) (normIds (W (Proc.devRef .tc main_v12)))))
      (fun e => (W (Proc.devRef .tc main_v14) : IVec S1600000 32) (ix1 e)) i q)
    (Cert.LibLayer.ope_apply 1 (by norm_num) (W (Proc.devRef .tc main_arg9)) slices_S4_S1_1 shapeCasts_S1_S_)

set_option maxHeartbeats 1000000 in
/-- The first weight matrix. -/
theorem l1_w1 (W : Valuation τ sig (Elt Ideal)) :
    (StableHlo.after (hostOps2 (F := Ideal)) W (Proc.devRef .tc main_v88) : S128x128.Idx → EReal)
      = matPiece1 (W (Proc.devRef .tc main_arg3)) := by
  simp only [hostOps2]
  after_results_simp
  rfl

set_option maxHeartbeats 1000000 in
/-- The first bias, as a row. -/
theorem l1_b1 (W : Valuation τ sig (Elt Ideal)) (k : Fin 128) :
    (StableHlo.after (hostOps2 (F := Ideal)) W (Proc.devRef .tc main_v91) : S1x128.Idx → EReal) (ix2 (0 : Fin 1) k)
      = vecPiece1 (W (Proc.devRef .tc main_arg4)) (ix1 k) := by
  simp only [hostOps2]
  after_results_simp
  exact shapeCast_a_1a_apply _ _ (0 : Fin 1) k

set_option maxHeartbeats 1000000 in
/-- The second weight matrix. -/
theorem l1_w2 (W : Valuation τ sig (Elt Ideal)) :
    (StableHlo.after (hostOps2 (F := Ideal)) W (Proc.devRef .tc main_v93) : S128x128.Idx → EReal)
      = matPiece1 (W (Proc.devRef .tc main_arg5)) := by
  simp only [hostOps2]
  after_results_simp
  rfl

set_option maxHeartbeats 1000000 in
/-- The second bias, as a row. -/
theorem l1_b2 (W : Valuation τ sig (Elt Ideal)) (k : Fin 128) :
    (StableHlo.after (hostOps2 (F := Ideal)) W (Proc.devRef .tc main_v96) : S1x128.Idx → EReal) (ix2 (0 : Fin 1) k)
      = vecPiece1 (W (Proc.devRef .tc main_arg6)) (ix1 k) := by
  simp only [hostOps2]
  after_results_simp
  exact shapeCast_a_1a_apply _ _ (0 : Fin 1) k

/-! ## The stretch of the statistics, read at any contents -/

set_option maxHeartbeats 1000000 in
/-- The folded scale, from the parts' sums. -/
theorem l1_scale (W : Valuation τ sig (Elt Ideal)) (q : Fin 128) :
    (StableHlo.after (hostOps3 (F := Ideal)) W (Proc.devRef .tc main_v118) : S1x128.Idx → EReal) (ix2 (0 : Fin 1) q)
      = vecPiece1 (W (Proc.devRef .tc main_arg7)) (ix1 q) * Ideal.rsqrt (max
          (Ideal.div (∑ t : Fin 20, ∑ s : Fin 8, (W (Proc.devRef .tc main_v97_2) : S20x8x128.Idx → EReal) (ix3 t s q)) Cert.Spec.nLit
            - Ideal.div (∑ t : Fin 20, ∑ s : Fin 8, (W (Proc.devRef .tc main_v97_1) : S20x8x128.Idx → EReal) (ix3 t s q)) Cert.Spec.nLit
              * Ideal.div (∑ t : Fin 20, ∑ s : Fin 8, (W (Proc.devRef .tc main_v97_1) : S20x8x128.Idx → EReal) (ix3 t s q)) Cert.Spec.nLit) 0 + Cert.Spec.epsLit) := by
  simp only [hostOps3]
  after_results_simp
  refine (shapeCast_a_1a_apply _ _ (0 : Fin 1) q).trans ?_
  refine (Cert.LibLayer.stat_scale _ _ _ _ q).trans ?_
  rw [Cert.LibLayer.reduceAdd_parts, Cert.LibLayer.reduceAdd_parts]
  rfl

set_option maxHeartbeats 1000000 in
/-- The folded shift, from the parts' sums. -/
theorem l1_shift (W : Valuation τ sig (Elt Ideal)) (q : Fin 128) :
    (StableHlo.after (hostOps3 (F := Ideal)) W (Proc.devRef .tc main_v119) : S1x128.Idx → EReal) (ix2 (0 : Fin 1) q)
      = vecPiece1 (W (Proc.devRef .tc main_arg8)) (ix1 q)
        - Ideal.div (∑ t : Fin 20, ∑ s : Fin 8, (W (Proc.devRef .tc main_v97_1) : S20x8x128.Idx → EReal) (ix3 t s q)) Cert.Spec.nLit
          * (vecPiece1 (W (Proc.devRef .tc main_arg7)) (ix1 q) * Ideal.rsqrt (max
          (Ideal.div (∑ t : Fin 20, ∑ s : Fin 8, (W (Proc.devRef .tc main_v97_2) : S20x8x128.Idx → EReal) (ix3 t s q)) Cert.Spec.nLit
            - Ideal.div (∑ t : Fin 20, ∑ s : Fin 8, (W (Proc.devRef .tc main_v97_1) : S20x8x128.Idx → EReal) (ix3 t s q)) Cert.Spec.nLit
              * Ideal.div (∑ t : Fin 20, ∑ s : Fin 8, (W (Proc.devRef .tc main_v97_1) : S20x8x128.Idx → EReal) (ix3 t s q)) Cert.Spec.nLit) 0 + Cert.Spec.epsLit)) := by
  simp only [hostOps3]
  after_results_simp
  refine (shapeCast_a_1a_apply _ _ (0 : Fin 1) q).trans ?_
  refine (Cert.LibLayer.stat_shift _ _ _ _ q).trans ?_
  rw [Cert.LibLayer.stat_scale, Cert.LibLayer.reduceAdd_parts, Cert.LibLayer.reduceAdd_parts]
  rfl

/-- The dense layers' output is not written by the stretch of the statistics. -/
theorem l1_keep_lin (W : Valuation τ sig (Elt Ideal)) :
    StableHlo.after (hostOps3 (F := Ideal)) W (Proc.devRef .tc main_v97_0) = W (Proc.devRef .tc main_v97_0) := by
  host_keeps hostOps3

/-! ## The layer -/

/-- The dense layers' result in the terms of the region that computes it: the two dense layers of the array the
    region finds in window 0, with the weights and bias rows it finds in windows 1 to 4. -/
abbrev L1 (c : Dev nD) : Cert.Spec.Mat 100000 128 :=
  Cert.Spec.lin2F (Cert.Spec.toMat (a := 100000) (b := 128) (Gen.V7 m ρ c (Pipeline.arrRef spec2 0)))
    (Cert.Spec.toMat (a := 128) (b := 128) (Gen.V7 m ρ c (Pipeline.arrRef spec2 1)))
    (fun k => (Gen.V7 m ρ c (Pipeline.arrRef spec2 2) : S1x128.Idx → EReal) (ix2 (0 : Fin 1) k))
    (Cert.Spec.toMat (a := 128) (b := 128) (Gen.V7 m ρ c (Pipeline.arrRef spec2 3)))
    (fun k => (Gen.V7 m ρ c (Pipeline.arrRef spec2 4) : S1x128.Idx → EReal) (ix2 (0 : Fin 1) k))

/-- The same with the windows' arrays named: the combined input and the layer's pieces of the parameter stacks. -/
theorem L1_eq (c : Dev nD) :
    L1 m ρ c = Cert.Spec.lin2F
      (Cert.Spec.toMat (a := 100000) (b := 128) (Gen.W7 m ρ c (Proc.devRef .tc main_v86)))
      (Cert.Spec.toMat (a := 128) (b := 128) (matPiece1 (m ((c : Thread nD τ).loc main_arg3))))
      (Cert.Spec.toVec (a := 128) (vecPiece1 (m ((c : Thread nD τ).loc main_arg4))))
      (Cert.Spec.toMat (a := 128) (b := 128) (matPiece1 (m ((c : Thread nD τ).loc main_arg5))))
      (Cert.Spec.toVec (a := 128) (vecPiece1 (m ((c : Thread nD τ).loc main_arg6)))) := by
  have e1 : (Gen.V7 m ρ c (Pipeline.arrRef spec2 1) : S128x128.Idx → EReal) = matPiece1 (m ((c : Thread nD τ).loc main_arg3)) := by
    show (StableHlo.after (hostOps2 (F := Ideal)) (Gen.W6 m ρ c) (Proc.devRef .tc main_v88) : S128x128.Idx → EReal) = _
    rw [l1_w1, W6_arg3]
  have e3 : (Gen.V7 m ρ c (Pipeline.arrRef spec2 3) : S128x128.Idx → EReal) = matPiece1 (m ((c : Thread nD τ).loc main_arg5)) := by
    show (StableHlo.after (hostOps2 (F := Ideal)) (Gen.W6 m ρ c) (Proc.devRef .tc main_v93) : S128x128.Idx → EReal) = _
    rw [l1_w2, W6_arg5]
  have e2 : (fun k => (Gen.V7 m ρ c (Pipeline.arrRef spec2 2) : S1x128.Idx → EReal) (ix2 (0 : Fin 1) k))
      = Cert.Spec.toVec (a := 128) (vecPiece1 (m ((c : Thread nD τ).loc main_arg4))) := by
    funext k
    show (StableHlo.after (hostOps2 (F := Ideal)) (Gen.W6 m ρ c) (Proc.devRef .tc main_v91) : S1x128.Idx → EReal) (ix2 (0 : Fin 1) k) = _
    rw [l1_b1, W6_arg4]
    rfl
  have e4 : (fun k => (Gen.V7 m ρ c (Pipeline.arrRef spec2 4) : S1x128.Idx → EReal) (ix2 (0 : Fin 1) k))
      = Cert.Spec.toVec (a := 128) (vecPiece1 (m ((c : Thread nD τ).loc main_arg6))) := by
    funext k
    show (StableHlo.after (hostOps2 (F := Ideal)) (Gen.W6 m ρ c) (Proc.devRef .tc main_v96) : S1x128.Idx → EReal) (ix2 (0 : Fin 1) k) = _
    rw [l1_b2, W6_arg6]
    rfl
  show Cert.Spec.lin2F _ _ _ _ _ = _
  rw [e1, e2, e3, e4]

/-- Layer 1 of the kernel program.  From the features region 1 leaves, the edge list and the layer's pieces of the
    parameter stacks, the array region 3 leaves is the layer in its folded form: (1 + eps) times each node's row
    plus the rows gathered at the edges' sources and summed at their targets, two dense layers with a rectifier
    each, and the batch normalisation from the column sums and sums of squares, with a last rectifier.  The
    hypotheses are what regions 2 and 3 compute from the arrays they find, and that no target id is negative. -/
theorem layer1 (c : Dev nD)
    (hlin2 : ∀ (i : Fin 100000) (q : Fin 128),
      (dat2 (F := Ideal) (Gen.V7 m ρ) c).arrAt 5 cfg2.N (ix2 i q) = L1 m ρ c i q)
    (hsum : ∀ (t : Fin 20) (s : Fin 8) (q : Fin 128),
      (dat2 (F := Ideal) (Gen.V7 m ρ) c).arrAt 6 cfg2.N (ix3 t s q)
        = if s.val = 0 then ∑ r : Fin 5000, L1 m ρ c (Cert.Tiles.row (by norm_num : 20 * 5000 = 100000) t r) q else 0)
    (hsumsq : ∀ (t : Fin 20) (s : Fin 8) (q : Fin 128),
      (dat2 (F := Ideal) (Gen.V7 m ρ) c).arrAt 7 cfg2.N (ix3 t s q)
        = if s.val = 0 then ∑ r : Fin 5000, L1 m ρ c (Cert.Tiles.row (by norm_num : 20 * 5000 = 100000) t r) q
            * L1 m ρ c (Cert.Tiles.row (by norm_num : 20 * 5000 = 100000) t r) q else 0)
    (hbn : ∀ (i : Fin 100000) (q : Fin 128),
      Cert.Spec.toMat (a := 100000) (b := 128) ((Gen.dat3 (F := Ideal) (Gen.V9 m ρ) c).arrAt 3 cfg3.N) i q
        = max (Cert.Spec.toMat (a := 100000) (b := 128) (Gen.V9 m ρ c (Pipeline.arrRef spec3 0)) i q
              * Cert.Spec.toMat (a := 1) (b := 128) (Gen.V9 m ρ c (Pipeline.arrRef spec3 1)) (0 : Fin 1) q
            + Cert.Spec.toMat (a := 1) (b := 128) (Gen.V9 m ρ c (Pipeline.arrRef spec3 2)) (0 : Fin 1) q) 0)
    (hdst : ∀ e : Fin 1600000, 0 ≤ (((m ((c : Thread nD τ).loc main_arg1)) : IVec S2x1600000 32) (ix2 (1 : Fin 2) e)).toInt) :
    Cert.Spec.toMat (a := 100000) (b := 128) (Gen.W10 m ρ c (Proc.devRef .tc main_v120))
      = Cert.Spec.layerKerF (Cert.Spec.oneLit + ((m ((c : Thread nD τ).loc main_arg9)) : S4.Idx → EReal) (ix1 (1 : Fin 4)))
          (Cert.Spec.toMat (a := 100000) (b := 128) (Gen.W6 m ρ c (Proc.devRef .tc main_v67)))
          (Cert.Spec.toMat (a := 1600000) (b := 128) (gathered (F := Ideal) (Gen.W6 m ρ c (Proc.devRef .tc main_v67)) (m ((c : Thread nD τ).loc main_arg1))))
          (fun e => ((m ((c : Thread nD τ).loc main_arg1)) : IVec S2x1600000 32) (ix2 (1 : Fin 2) e))
          (Cert.Spec.toMat (a := 128) (b := 128) (matPiece1 (m ((c : Thread nD τ).loc main_arg3))))
          (Cert.Spec.toVec (a := 128) (vecPiece1 (m ((c : Thread nD τ).loc main_arg4))))
          (Cert.Spec.toMat (a := 128) (b := 128) (matPiece1 (m ((c : Thread nD τ).loc main_arg5))))
          (Cert.Spec.toVec (a := 128) (vecPiece1 (m ((c : Thread nD τ).loc main_arg6))))
          (Cert.Spec.toVec (a := 128) (vecPiece1 (m ((c : Thread nD τ).loc main_arg7))))
          (Cert.Spec.toVec (a := 128) (vecPiece1 (m ((c : Thread nD τ).loc main_arg8)))) := by
  have e14 : (Gen.W6 m ρ c (Proc.devRef .tc main_v14) : IVec S1600000 32) = dstIds (m ((c : Thread nD τ).loc main_arg1)) :=
    (W6_v14 m ρ c).trans (W3_v14_eq m ρ c)
  have e12 : (Gen.W6 m ρ c (Proc.devRef .tc main_v12) : IVec S1600000 32) = srcIds (m ((c : Thread nD τ).loc main_arg1)) :=
    (W6_v12 m ρ c).trans (W3_v12_eq m ρ c)
  have hd : ∀ e : Fin 1600000, (dstIds (m ((c : Thread nD τ).loc main_arg1))) (ix1 e) = ((m ((c : Thread nD τ).loc main_arg1)) : IVec S2x1600000 32) (ix2 (1 : Fin 2) e) :=
    fun e => Cert.LibLayer.vec_piece_apply 1 (by norm_num) _ _ _ e
  refine Cert.LibLayer.layer_of_reads _ _ _ _ _ _ _ _ _ _
    (Gen.W7 m ρ c (Proc.devRef .tc main_v86)) (Gen.W8 m ρ c (Proc.devRef .tc main_v97_0))
    (Gen.W10 m ρ c (Proc.devRef .tc main_v120))
    (Gen.W8 m ρ c (Proc.devRef .tc main_v97_1)) (Gen.W8 m ρ c (Proc.devRef .tc main_v97_2))
    (Gen.W9 m ρ c (Proc.devRef .tc main_v118)) (Gen.W9 m ρ c (Proc.devRef .tc main_v119))
    (by norm_num) ?hZ ?hL ?hP1 ?hP2 ?hsc ?hsh ?hO
  case hZ =>
    intro i q
    have h := l1_z (Gen.W6 m ρ c) (by intro e; rw [e14, hd e]; exact hdst e) i q
    rw [e14, e12, W6_arg9] at h
    simp only [hd] at h
    exact h
  case hL =>
    intro i q
    refine ((congrArg (fun f : S100000x128.Idx → EReal => f (ix2 i q)) (Gen.W8_arr m ρ c 5)).trans (hlin2 i q)).trans ?_
    rw [L1_eq]
  case hP1 =>
    intro t s q
    refine ((congrArg (fun f : S20x8x128.Idx → EReal => f (ix3 t s q)) (Gen.W8_arr m ρ c 6)).trans (hsum t s q)).trans ?_
    rw [L1_eq]
  case hP2 =>
    intro t s q
    refine ((congrArg (fun f : S20x8x128.Idx → EReal => f (ix3 t s q)) (Gen.W8_arr m ρ c 7)).trans (hsumsq t s q)).trans ?_
    rw [L1_eq]
  case hsc =>
    intro q
    have h := l1_scale (Gen.W8 m ρ c) q
    rw [W8_arg7] at h
    exact h
  case hsh =>
    intro q
    have h := l1_shift (Gen.W8 m ρ c) q
    have hs := l1_scale (Gen.W8 m ρ c) q
    rw [W8_arg7] at h hs
    rw [W8_arg8] at h
    exact h.trans (congrArg (fun x => _ - _ * x) hs.symm)
  case hO =>
    intro i q
    refine ((congrArg (fun f : S100000x128.Idx → EReal => f (ix2 i q)) (Gen.W10_arr m ρ c 3)).trans (hbn i q)).trans ?_
    have hk : (Gen.V9 m ρ c (Pipeline.arrRef spec3 0) : S100000x128.Idx → EReal) = Gen.W8 m ρ c (Proc.devRef .tc main_v97_0) :=
      l1_keep_lin (Gen.W8 m ρ c)
    rw [hk]
    rfl

end Cert.KernelIdeal.KerVal

end
-- ==== Proof.KerLayer2.lean ====
/-
  Layer 2 of the kernel program, as the index-level formula of the specification.

  The stretch of host operations before the dense layers forms (1 + eps[2]) times the features region 3 left, gathers
  the features' rows at the edges' sources, and adds each gathered row into the row of the edge's target; it also cuts
  the layer's two weight matrices and two biases out of their stacks.  Read at an entry this is the specification's
  combined input: an edge id that is not negative passes the "add the node count if negative" step unchanged, so the
  rows summed into node i are those of the edges whose raw target id is i.  The first kernel region applies the two
  dense layers and leaves, per tile of 5000 nodes, the column sums of the result and of its squares in row 0 of an
  8-row part.  The next stretch adds the parts up (the sum over parts and rows is the sum over all nodes), divides
  by the node count, forms the clamped variance E[l²] − mean², and folds the normalisation into a scale
  g · rsqrt (var + ε) and a shift β − mean · scale, each as a row.  The second kernel region computes
  max (l · scale + shift) 0.  Put together this is the specification's layer in its folded form.
-/
import proofs.«125584_j43164421324859_2_alg».proof.Proof.Gen.KernelIdeal.Frame
import proofs.«125584_j43164421324859_2_alg».proof.Proof.Spec
import proofs.«125584_j43164421324859_2_alg».proof.Proof.LibLayer
import proofs.«125584_j43164421324859_2_alg».proof.Proof.KerCarryA
import proofs.«125584_j43164421324859_2_alg».proof.Proof.KerCarryB
import Idealize.ShloMosaic.Lib.StableHlo.Run

set_option maxRecDepth 16384

noncomputable section

namespace Cert.KernelIdeal.KerVal

open Idealize.ShloMosaic Idealize.ShloMosaic.TcCoe Idealize.ShloMosaic.Tactic
open Idealize.ShloMosaic.Pipeline (Dat Cfg Window BodyObligation cellOf)
open Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The layer's pieces of the parameter stacks -/

/-- The layer's epsilon: entry 2 of the vector of epsilons, as a scalar. -/
abbrev eps2 (a : FVec Ideal S4 .f32) : FVec Ideal S_ .f32 :=
  shapeCast S_ (extractStridedSlice S1 ![2] a slices_S4_S1_2) shapeCasts_S1_S_

/-- Matrix 2 of a stack of four. -/
abbrev matPiece2 (a : FVec Ideal S4x128x128 .f32) : FVec Ideal S128x128 .f32 :=
  shapeCast S128x128 (extractStridedSlice S1x128x128 ![2, 0, 0] a slices_S4x128x128_S1x128x128_2_0_0) shapeCasts_S1x128x128_S128x128

/-- Vector 2 of a stack of four. -/
abbrev vecPiece2 (a : FVec Ideal S4x128 .f32) : FVec Ideal S128 .f32 :=
  shapeCast S128 (extractStridedSlice S1x128 ![2, 0] a slices_S4x128_S1x128_2_0) shapeCasts_S1x128_S128

/-! ## The stretch before the dense layers, read at any contents -/

set_option maxHeartbeats 1000000 in
/-- The combined input: (1 + eps) times the node's row plus the gathered rows of the edges that point at the node. -/
theorem l2_z (W : Valuation τ sig (Elt Ideal))
    (hdst : ∀ e : Fin 1600000, 0 ≤ ((W (Proc.devRef .tc main_v14) : IVec S1600000 32) (ix1 e)).toInt)
    (i : Fin 100000) (q : Fin 128) :
    (StableHlo.after (hostOps4 (F := Ideal)) W (Proc.devRef .tc main_v139) : S100000x128.Idx → EReal) (ix2 i q)
      = Cert.Spec.zF (Cert.Spec.oneLit + (W (Proc.devRef .tc main_arg9) : S4.Idx → EReal) (ix1 (2 : Fin 4)))
          (Cert.Spec.toMat (a := 100000) (b := 128) (W (Proc.devRef .tc main_v120)))
          (Cert.Spec.toMat (a := 1600000) (b := 128)
            (Host.gather gather_S100000x128_S1600000x1_S1600000x128_1_0_n_n_0_1_1128
              (W (Proc.devRef .tc main_v120) : S100000x128.Idx → EReal) (normIds (W (Proc.devRef .tc main_v12)))))
          (fun e => (W (Proc.devRef .tc main_v14) : IVec S1600000 32) (ix1 e)) i q := by
  simp only [hostOps4]
  after_results_simp
  refine (Cert.LibLayer.z_apply _ rfl rfl rfl rfl _ _ _ _ _
    (fun e => (W (Proc.devRef .tc main_v14) : IVec S1600000 32) (ix1 e))
    (fun e => Cert.LibLayer.ids_apply _ _ _ _ e (hdst e)) i q).trans ?_
  exact congrArg (fun x => Cert.Spec.zF x (Cert.Spec.toMat (a := 100000) (b := 128) (W (Proc.devRef .tc main_v120)))
      (Cert.Spec.toMat (a := 1600000) (b := 128)
        (Host.gather gather_S100000x128_S1600000x1_S1600000x128_1_0_n_n_0_1_1128
          (W (Proc.devRef .tc main_v120) : S100000x128.Idx → EReal) (normIds (W (Proc.devRef .tc main_v12)))))
      (fun e => (W (Proc.devRef .tc main_v14) : IVec S1600000 32) (ix1 e)) i q)
    (Cert.LibLayer.ope_apply 2 (by norm_num) (W (Proc.devRef .tc main_arg9)) slices_S4_S1_2 shapeCasts_S1_S_)

set_option maxHeartbeats 1000000 in
/-- The first weight matrix. -/
theorem l2_w1 (W : Valuation τ sig (Elt Ideal)) :
    (StableHlo.after (hostOps4 (F := Ideal)) W (Proc.devRef .tc main_v141) : S128x128.Idx → EReal)
      = matPiece2 (W (Proc.devRef .tc main_arg3)) := by
  simp only [hostOps4]
  after_results_simp
  rfl

set_option maxHeartbeats 1000000 in
/-- The first bias, as a row. -/
theorem l2_b1 (W : Valuation τ sig (Elt Ideal)) (k : Fin 128) :
    (StableHlo.after (hostOps4 (F := Ideal)) W (Proc.devRef .tc main_v144) : S1x128.Idx → EReal) (ix2 (0 : Fin 1) k)
      = vecPiece2 (W (Proc.devRef .tc main_arg4)) (ix1 k) := by
  simp only [hostOps4]
  after_results_simp
  exact shapeCast_a_1a_apply _ _ (0 : Fin 1) k

set_option maxHeartbeats 1000000 in
/-- The second weight matrix. -/
theorem l2_w2 (W : Valuation τ sig (Elt Ideal)) :
    (StableHlo.after (hostOps4 (F := Ideal)) W (Proc.devRef .tc main_v146) : S128x128.Idx → EReal)
      = matPiece2 (W (Proc.devRef .tc main_arg5)) := by
  simp only [hostOps4]
  after_results_simp
  rfl

set_option maxHeartbeats 1000000 in
/-- The second bias, as a row. -/
theorem l2_b2 (W : Valuation τ sig (Elt Ideal)) (k : Fin 128) :
    (StableHlo.after (hostOps4 (F := Ideal)) W (Proc.devRef .tc main_v149) : S1x128.Idx → EReal) (ix2 (0 : Fin 1) k)
      = vecPiece2 (W (Proc.devRef .tc main_arg6)) (ix1 k) := by
  simp only [hostOps4]
  after_results_simp
  exact shapeCast_a_1a_apply _ _ (0 : Fin 1) k

/-! ## The stretch of the statistics, read at any contents -/

set_option maxHeartbeats 1000000 in
/-- The folded scale, from the parts' sums. -/
theorem l2_scale (W : Valuation τ sig (Elt Ideal)) (q : Fin 128) :
    (StableHlo.after (hostOps5 (F := Ideal)) W (Proc.devRef .tc main_v171) : S1x128.Idx → EReal) (ix2 (0 : Fin 1) q)
      = vecPiece2 (W (Proc.devRef .tc main_arg7)) (ix1 q) * Ideal.rsqrt (max
          (Ideal.div (∑ t : Fin 20, ∑ s : Fin 8, (W (Proc.devRef .tc main_v150_2) : S20x8x128.Idx → EReal) (ix3 t s q)) Cert.Spec.nLit
            - Ideal.div (∑ t : Fin 20, ∑ s : Fin 8, (W (Proc.devRef .tc main_v150_1) : S20x8x128.Idx → EReal) (ix3 t s q)) Cert.Spec.nLit
              * Ideal.div (∑ t : Fin 20, ∑ s : Fin 8, (W (Proc.devRef .tc main_v150_1) : S20x8x128.Idx → EReal) (ix3 t s q)) Cert.Spec.nLit) 0 + Cert.Spec.epsLit) := by
  simp only [hostOps5]
  after_results_simp
  refine (shapeCast_a_1a_apply _ _ (0 : Fin 1) q).trans ?_
  refine (Cert.LibLayer.stat_scale _ _ _ _ q).trans ?_
  rw [Cert.LibLayer.reduceAdd_parts, Cert.LibLayer.reduceAdd_parts]
  rfl

set_option maxHeartbeats 1000000 in
/-- The folded shift, from the parts' sums. -/
theorem l2_shift (W : Valuation τ sig (Elt Ideal)) (q : Fin 128) :
    (StableHlo.after (hostOps5 (F := Ideal)) W (Proc.devRef .tc main_v172) : S1x128.Idx → EReal) (ix2 (0 : Fin 1) q)
      = vecPiece2 (W (Proc.devRef .tc main_arg8)) (ix1 q)
        - Ideal.div (∑ t : Fin 20, ∑ s : Fin 8, (W (Proc.devRef .tc main_v150_1) : S20x8x128.Idx → EReal) (ix3 t s q)) Cert.Spec.nLit
          * (vecPiece2 (W (Proc.devRef .tc main_arg7)) (ix1 q) * Ideal.rsqrt (max
          (Ideal.div (∑ t : Fin 20, ∑ s : Fin 8, (W (Proc.devRef .tc main_v150_2) : S20x8x128.Idx → EReal) (ix3 t s q)) Cert.Spec.nLit
            - Ideal.div (∑ t : Fin 20, ∑ s : Fin 8, (W (Proc.devRef .tc main_v150_1) : S20x8x128.Idx → EReal) (ix3 t s q)) Cert.Spec.nLit
              * Ideal.div (∑ t : Fin 20, ∑ s : Fin 8, (W (Proc.devRef .tc main_v150_1) : S20x8x128.Idx → EReal) (ix3 t s q)) Cert.Spec.nLit) 0 + Cert.Spec.epsLit)) := by
  simp only [hostOps5]
  after_results_simp
  refine (shapeCast_a_1a_apply _ _ (0 : Fin 1) q).trans ?_
  refine (Cert.LibLayer.stat_shift _ _ _ _ q).trans ?_
  rw [Cert.LibLayer.stat_scale, Cert.LibLayer.reduceAdd_parts, Cert.LibLayer.reduceAdd_parts]
  rfl

/-- The dense layers' output is not written by the stretch of the statistics. -/
theorem l2_keep_lin (W : Valuation τ sig (Elt Ideal)) :
    StableHlo.after (hostOps5 (F := Ideal)) W (Proc.devRef .tc main_v150_0) = W (Proc.devRef .tc main_v150_0) := by
  host_keeps hostOps5

/-! ## The layer -/

/-- The dense layers' result in the terms of the region that computes it: the two dense layers of the array the
    region finds in window 0, with the weights and bias rows it finds in windows 1 to 4. -/
abbrev L2 (c : Dev nD) : Cert.Spec.Mat 100000 128 :=
  Cert.Spec.lin2F (Cert.Spec.toMat (a := 100000) (b := 128) (Gen.V11 m ρ c (Pipeline.arrRef spec4 0)))
    (Cert.Spec.toMat (a := 128) (b := 128) (Gen.V11 m ρ c (Pipeline.arrRef spec4 1)))
    (fun k => (Gen.V11 m ρ c (Pipeline.arrRef spec4 2) : S1x128.Idx → EReal) (ix2 (0 : Fin 1) k))
    (Cert.Spec.toMat (a := 128) (b := 128) (Gen.V11 m ρ c (Pipeline.arrRef spec4 3)))
    (fun k => (Gen.V11 m ρ c (Pipeline.arrRef spec4 4) : S1x128.Idx → EReal) (ix2 (0 : Fin 1) k))

/-- The same with the windows' arrays named: the combined input and the layer's pieces of the parameter stacks. -/
theorem L2_eq (c : Dev nD) :
    L2 m ρ c = Cert.Spec.lin2F
      (Cert.Spec.toMat (a := 100000) (b := 128) (Gen.W11 m ρ c (Proc.devRef .tc main_v139)))
      (Cert.Spec.toMat (a := 128) (b := 128) (matPiece2 (m ((c : Thread nD τ).loc main_arg3))))
      (Cert.Spec.toVec (a := 128) (vecPiece2 (m ((c : Thread nD τ).loc main_arg4))))
      (Cert.Spec.toMat (a := 128) (b := 128) (matPiece2 (m ((c : Thread nD τ).loc main_arg5))))
      (Cert.Spec.toVec (a := 128) (vecPiece2 (m ((c : Thread nD τ).loc main_arg6)))) := by
  have e1 : (Gen.V11 m ρ c (Pipeline.arrRef spec4 1) : S128x128.Idx → EReal) = matPiece2 (m ((c : Thread nD τ).loc main_arg3)) := by
    show (StableHlo.after (hostOps4 (F := Ideal)) (Gen.W10 m ρ c) (Proc.devRef .tc main_v141) : S128x128.Idx → EReal) = _
    rw [l2_w1, W10_arg3]
  have e3 : (Gen.V11 m ρ c (Pipeline.arrRef spec4 3) : S128x128.Idx → EReal) = matPiece2 (m ((c : Thread nD τ).loc main_arg5)) := by
    show (StableHlo.after (hostOps4 (F := Ideal)) (Gen.W10 m ρ c) (Proc.devRef .tc main_v146) : S128x128.Idx → EReal) = _
    rw [l2_w2, W10_arg5]
  have e2 : (fun k => (Gen.V11 m ρ c (Pipeline.arrRef spec4 2) : S1x128.Idx → EReal) (ix2 (0 : Fin 1) k))
      = Cert.Spec.toVec (a := 128) (vecPiece2 (m ((c : Thread nD τ).loc main_arg4))) := by
    funext k
    show (StableHlo.after (hostOps4 (F := Ideal)) (Gen.W10 m ρ c) (Proc.devRef .tc main_v144) : S1x128.Idx → EReal) (ix2 (0 : Fin 1) k) = _
    rw [l2_b1, W10_arg4]
    rfl
  have e4 : (fun k => (Gen.V11 m ρ c (Pipeline.arrRef spec4 4) : S1x128.Idx → EReal) (ix2 (0 : Fin 1) k))
      = Cert.Spec.toVec (a := 128) (vecPiece2 (m ((c : Thread nD τ).loc main_arg6))) := by
    funext k
    show (StableHlo.after (hostOps4 (F := Ideal)) (Gen.W10 m ρ c) (Proc.devRef .tc main_v149) : S1x128.Idx → EReal) (ix2 (0 : Fin 1) k) = _
    rw [l2_b2, W10_arg6]
    rfl
  show Cert.Spec.lin2F _ _ _ _ _ = _
  rw [e1, e2, e3, e4]

/-- Layer 2 of the kernel program.  From the features region 3 leaves, the edge list and the layer's pieces of the
    parameter stacks, the array region 5 leaves is the layer in its folded form: (1 + eps) times each node's row
    plus the rows gathered at the edges' sources and summed at their targets, two dense layers with a rectifier
    each, and the batch normalisation from the column sums and sums of squares, with a last rectifier.  The
    hypotheses are what regions 4 and 5 compute from the arrays they find, and that no target id is negative. -/
theorem layer2 (c : Dev nD)
    (hlin2 : ∀ (i : Fin 100000) (q : Fin 128),
      (dat4 (F := Ideal) (Gen.V11 m ρ) c).arrAt 5 cfg4.N (ix2 i q) = L2 m ρ c i q)
    (hsum : ∀ (t : Fin 20) (s : Fin 8) (q : Fin 128),
      (dat4 (F := Ideal) (Gen.V11 m ρ) c).arrAt 6 cfg4.N (ix3 t s q)
        = if s.val = 0 then ∑ r : Fin 5000, L2 m ρ c (Cert.Tiles.row (by norm_num : 20 * 5000 = 100000) t r) q else 0)
    (hsumsq : ∀ (t : Fin 20) (s : Fin 8) (q : Fin 128),
      (dat4 (F := Ideal) (Gen.V11 m ρ) c).arrAt 7 cfg4.N (ix3 t s q)
        = if s.val = 0 then ∑ r : Fin 5000, L2 m ρ c (Cert.Tiles.row (by norm_num : 20 * 5000 = 100000) t r) q
            * L2 m ρ c (Cert.Tiles.row (by norm_num : 20 * 5000 = 100000) t r) q else 0)
    (hbn : ∀ (i : Fin 100000) (q : Fin 128),
      Cert.Spec.toMat (a := 100000) (b := 128) ((Gen.dat5 (F := Ideal) (Gen.V13 m ρ) c).arrAt 3 cfg5.N) i q
        = max (Cert.Spec.toMat (a := 100000) (b := 128) (Gen.V13 m ρ c (Pipeline.arrRef spec5 0)) i q
              * Cert.Spec.toMat (a := 1) (b := 128) (Gen.V13 m ρ c (Pipeline.arrRef spec5 1)) (0 : Fin 1) q
            + Cert.Spec.toMat (a := 1) (b := 128) (Gen.V13 m ρ c (Pipeline.arrRef spec5 2)) (0 : Fin 1) q) 0)
    (hdst : ∀ e : Fin 1600000, 0 ≤ (((m ((c : Thread nD τ).loc main_arg1)) : IVec S2x1600000 32) (ix2 (1 : Fin 2) e)).toInt) :
    Cert.Spec.toMat (a := 100000) (b := 128) (Gen.W14 m ρ c (Proc.devRef .tc main_v173))
      = Cert.Spec.layerKerF (Cert.Spec.oneLit + ((m ((c : Thread nD τ).loc main_arg9)) : S4.Idx → EReal) (ix1 (2 : Fin 4)))
          (Cert.Spec.toMat (a := 100000) (b := 128) (Gen.W10 m ρ c (Proc.devRef .tc main_v120)))
          (Cert.Spec.toMat (a := 1600000) (b := 128) (gathered (F := Ideal) (Gen.W10 m ρ c (Proc.devRef .tc main_v120)) (m ((c : Thread nD τ).loc main_arg1))))
          (fun e => ((m ((c : Thread nD τ).loc main_arg1)) : IVec S2x1600000 32) (ix2 (1 : Fin 2) e))
          (Cert.Spec.toMat (a := 128) (b := 128) (matPiece2 (m ((c : Thread nD τ).loc main_arg3))))
          (Cert.Spec.toVec (a := 128) (vecPiece2 (m ((c : Thread nD τ).loc main_arg4))))
          (Cert.Spec.toMat (a := 128) (b := 128) (matPiece2 (m ((c : Thread nD τ).loc main_arg5))))
          (Cert.Spec.toVec (a := 128) (vecPiece2 (m ((c : Thread nD τ).loc main_arg6))))
          (Cert.Spec.toVec (a := 128) (vecPiece2 (m ((c : Thread nD τ).loc main_arg7))))
          (Cert.Spec.toVec (a := 128) (vecPiece2 (m ((c : Thread nD τ).loc main_arg8)))) := by
  have e14 : (Gen.W10 m ρ c (Proc.devRef .tc main_v14) : IVec S1600000 32) = dstIds (m ((c : Thread nD τ).loc main_arg1)) :=
    (W10_v14 m ρ c).trans (W3_v14_eq m ρ c)
  have e12 : (Gen.W10 m ρ c (Proc.devRef .tc main_v12) : IVec S1600000 32) = srcIds (m ((c : Thread nD τ).loc main_arg1)) :=
    (W10_v12 m ρ c).trans (W3_v12_eq m ρ c)
  have hd : ∀ e : Fin 1600000, (dstIds (m ((c : Thread nD τ).loc main_arg1))) (ix1 e) = ((m ((c : Thread nD τ).loc main_arg1)) : IVec S2x1600000 32) (ix2 (1 : Fin 2) e) :=
    fun e => Cert.LibLayer.vec_piece_apply 1 (by norm_num) _ _ _ e
  refine Cert.LibLayer.layer_of_reads _ _ _ _ _ _ _ _ _ _
    (Gen.W11 m ρ c (Proc.devRef .tc main_v139)) (Gen.W12 m ρ c (Proc.devRef .tc main_v150_0))
    (Gen.W14 m ρ c (Proc.devRef .tc main_v173))
    (Gen.W12 m ρ c (Proc.devRef .tc main_v150_1)) (Gen.W12 m ρ c (Proc.devRef .tc main_v150_2))
    (Gen.W13 m ρ c (Proc.devRef .tc main_v171)) (Gen.W13 m ρ c (Proc.devRef .tc main_v172))
    (by norm_num) ?hZ ?hL ?hP1 ?hP2 ?hsc ?hsh ?hO
  case hZ =>
    intro i q
    have h := l2_z (Gen.W10 m ρ c) (by intro e; rw [e14, hd e]; exact hdst e) i q
    rw [e14, e12, W10_arg9] at h
    simp only [hd] at h
    exact h
  case hL =>
    intro i q
    refine ((congrArg (fun f : S100000x128.Idx → EReal => f (ix2 i q)) (Gen.W12_arr m ρ c 5)).trans (hlin2 i q)).trans ?_
    rw [L2_eq]
  case hP1 =>
    intro t s q
    refine ((congrArg (fun f : S20x8x128.Idx → EReal => f (ix3 t s q)) (Gen.W12_arr m ρ c 6)).trans (hsum t s q)).trans ?_
    rw [L2_eq]
  case hP2 =>
    intro t s q
    refine ((congrArg (fun f : S20x8x128.Idx → EReal => f (ix3 t s q)) (Gen.W12_arr m ρ c 7)).trans (hsumsq t s q)).trans ?_
    rw [L2_eq]
  case hsc =>
    intro q
    have h := l2_scale (Gen.W12 m ρ c) q
    rw [W12_arg7] at h
    exact h
  case hsh =>
    intro q
    have h := l2_shift (Gen.W12 m ρ c) q
    have hs := l2_scale (Gen.W12 m ρ c) q
    rw [W12_arg7] at h hs
    rw [W12_arg8] at h
    exact h.trans (congrArg (fun x => _ - _ * x) hs.symm)
  case hO =>
    intro i q
    refine ((congrArg (fun f : S100000x128.Idx → EReal => f (ix2 i q)) (Gen.W14_arr m ρ c 3)).trans (hbn i q)).trans ?_
    have hk : (Gen.V13 m ρ c (Pipeline.arrRef spec5 0) : S100000x128.Idx → EReal) = Gen.W12 m ρ c (Proc.devRef .tc main_v150_0) :=
      l2_keep_lin (Gen.W12 m ρ c)
    rw [hk]
    rfl

end Cert.KernelIdeal.KerVal

end
-- ==== Proof.KerLayer3.lean ====
/-
  Layer 3 of the kernel program, as the index-level formula of the specification.

  The stretch of host operations before the dense layers forms (1 + eps[3]) times the features region 5 left, gathers
  the features' rows at the edges' sources, and adds each gathered row into the row of the edge's target; it also cuts
  the layer's two weight matrices and two biases out of their stacks.  Read at an entry this is the specification's
  combined input: an edge id that is not negative passes the "add the node count if negative" step unchanged, so the
  rows summed into node i are those of the edges whose raw target id is i.  The first kernel region applies the two
  dense layers and leaves, per tile of 5000 nodes, the column sums of the result and of its squares in row 0 of an
  8-row part.  The next stretch adds the parts up (the sum over parts and rows is the sum over all nodes), divides
  by the node count, forms the clamped variance E[l²] − mean², and folds the normalisation into a scale
  g · rsqrt (var + ε) and a shift β − mean · scale, each as a row.  The second kernel region computes
  max (l · scale + shift) 0.  Put together this is the specification's layer in its folded form.
-/
import proofs.«125584_j43164421324859_2_alg».proof.Proof.Gen.KernelIdeal.Frame
import proofs.«125584_j43164421324859_2_alg».proof.Proof.Spec
import proofs.«125584_j43164421324859_2_alg».proof.Proof.LibLayer
import proofs.«125584_j43164421324859_2_alg».proof.Proof.KerCarryA
import proofs.«125584_j43164421324859_2_alg».proof.Proof.KerCarryB
import Idealize.ShloMosaic.Lib.StableHlo.Run

set_option maxRecDepth 16384

noncomputable section

namespace Cert.KernelIdeal.KerVal

open Idealize.ShloMosaic Idealize.ShloMosaic.TcCoe Idealize.ShloMosaic.Tactic
open Idealize.ShloMosaic.Pipeline (Dat Cfg Window BodyObligation cellOf)
open Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The layer's pieces of the parameter stacks -/

/-- The layer's epsilon: entry 3 of the vector of epsilons, as a scalar. -/
abbrev eps3 (a : FVec Ideal S4 .f32) : FVec Ideal S_ .f32 :=
  shapeCast S_ (extractStridedSlice S1 ![3] a slices_S4_S1_3) shapeCasts_S1_S_

/-- Matrix 3 of a stack of four. -/
abbrev matPiece3 (a : FVec Ideal S4x128x128 .f32) : FVec Ideal S128x128 .f32 :=
  shapeCast S128x128 (extractStridedSlice S1x128x128 ![3, 0, 0] a slices_S4x128x128_S1x128x128_3_0_0) shapeCasts_S1x128x128_S128x128

/-- Vector 3 of a stack of four. -/
abbrev vecPiece3 (a : FVec Ideal S4x128 .f32) : FVec Ideal S128 .f32 :=
  shapeCast S128 (extractStridedSlice S1x128 ![3, 0] a slices_S4x128_S1x128_3_0) shapeCasts_S1x128_S128

/-! ## The stretch before the dense layers, read at any contents -/

set_option maxHeartbeats 1000000 in
/-- The combined input: (1 + eps) times the node's row plus the gathered rows of the edges that point at the node. -/
theorem l3_z (W : Valuation τ sig (Elt Ideal))
    (hdst : ∀ e : Fin 1600000, 0 ≤ ((W (Proc.devRef .tc main_v14) : IVec S1600000 32) (ix1 e)).toInt)
    (i : Fin 100000) (q : Fin 128) :
    (StableHlo.after (hostOps6 (F := Ideal)) W (Proc.devRef .tc main_v192) : S100000x128.Idx → EReal) (ix2 i q)
      = Cert.Spec.zF (Cert.Spec.oneLit + (W (Proc.devRef .tc main_arg9) : S4.Idx → EReal) (ix1 (3 : Fin 4)))
          (Cert.Spec.toMat (a := 100000) (b := 128) (W (Proc.devRef .tc main_v173)))
          (Cert.Spec.toMat (a := 1600000) (b := 128)
            (Host.gather gather_S100000x128_S1600000x1_S1600000x128_1_0_n_n_0_1_1128
              (W (Proc.devRef .tc main_v173) : S100000x128.Idx → EReal) (normIds (W (Proc.devRef .tc main_v12)))))
          (fun e => (W (Proc.devRef .tc main_v14) : IVec S1600000 32) (ix1 e)) i q := by
  simp only [hostOps6]
  after_results_simp
  refine (Cert.LibLayer.z_apply _ rfl rfl rfl rfl _ _ _ _ _
    (fun e => (W (Proc.devRef .tc main_v14) : IVec S1600000 32) (ix1 e))
    (fun e => Cert.LibLayer.ids_apply _ _ _ _ e (hdst e)) i q).trans ?_
  exact congrArg (fun x => Cert.Spec.zF x (Cert.Spec.toMat (a := 100000) (b := 128) (W (Proc.devRef .tc main_v173)))
      (Cert.Spec.toMat (a := 1600000) (b := 128)
        (Host.gather gather_S100000x128_S1600000x1_S1600000x128_1_0_n_n_0_1_1128
          (W (Proc.devRef .tc main_v173) : S100000x128.Idx → EReal) (normIds (W (Proc.devRef .tc main_v12)))))
      (fun e => (W (Proc.devRef .tc main_v14) : IVec S1600000 32) (ix1 e)) i q)
    (Cert.LibLayer.ope_apply 3 (by norm_num) (W (Proc.devRef .tc main_arg9)) slices_S4_S1_3 shapeCasts_S1_S_)

set_option maxHeartbeats 1000000 in
/-- The first weight matrix. -/
theorem l3_w1 (W : Valuation τ sig (Elt Ideal)) :
    (StableHlo.after (hostOps6 (F := Ideal)) W (Proc.devRef .tc main_v194) : S128x128.Idx → EReal)
      = matPiece3 (W (Proc.devRef .tc main_arg3)) := by
  simp only [hostOps6]
  after_results_simp
  rfl

set_option maxHeartbeats 1000000 in
/-- The first bias, as a row. -/
theorem l3_b1 (W : Valuation τ sig (Elt Ideal)) (k : Fin 128) :
    (StableHlo.after (hostOps6 (F := Ideal)) W (Proc.devRef .tc main_v197) : S1x128.Idx → EReal) (ix2 (0 : Fin 1) k)
      = vecPiece3 (W (Proc.devRef .tc main_arg4)) (ix1 k) := by
  simp only [hostOps6]
  after_results_simp
  exact shapeCast_a_1a_apply _ _ (0 : Fin 1) k

set_option maxHeartbeats 1000000 in
/-- The second weight matrix. -/
theorem l3_w2 (W : Valuation τ sig (Elt Ideal)) :
    (StableHlo.after (hostOps6 (F := Ideal)) W (Proc.devRef .tc main_v199) : S128x128.Idx → EReal)
      = matPiece3 (W (Proc.devRef .tc main_arg5)) := by
  simp only [hostOps6]
  after_results_simp
  rfl

set_option maxHeartbeats 1000000 in
/-- The second bias, as a row. -/
theorem l3_b2 (W : Valuation τ sig (Elt Ideal)) (k : Fin 128) :
    (StableHlo.after (hostOps6 (F := Ideal)) W (Proc.devRef .tc main_v202) : S1x128.Idx → EReal) (ix2 (0 : Fin 1) k)
      = vecPiece3 (W (Proc.devRef .tc main_arg6)) (ix1 k) := by
  simp only [hostOps6]
  after_results_simp
  exact shapeCast_a_1a_apply _ _ (0 : Fin 1) k

/-! ## The stretch of the statistics, read at any contents -/

set_option maxHeartbeats 1000000 in
/-- The folded scale, from the parts' sums. -/
theorem l3_scale (W : Valuation τ sig (Elt Ideal)) (q : Fin 128) :
    (StableHlo.after (hostOps7 (F := Ideal)) W (Proc.devRef .tc main_v224) : S1x128.Idx → EReal) (ix2 (0 : Fin 1) q)
      = vecPiece3 (W (Proc.devRef .tc main_arg7)) (ix1 q) * Ideal.rsqrt (max
          (Ideal.div (∑ t : Fin 20, ∑ s : Fin 8, (W (Proc.devRef .tc main_v203_2) : S20x8x128.Idx → EReal) (ix3 t s q)) Cert.Spec.nLit
            - Ideal.div (∑ t : Fin 20, ∑ s : Fin 8, (W (Proc.devRef .tc main_v203_1) : S20x8x128.Idx → EReal) (ix3 t s q)) Cert.Spec.nLit
              * Ideal.div (∑ t : Fin 20, ∑ s : Fin 8, (W (Proc.devRef .tc main_v203_1) : S20x8x128.Idx → EReal) (ix3 t s q)) Cert.Spec.nLit) 0 + Cert.Spec.epsLit) := by
  simp only [hostOps7]
  after_results_simp
  refine (shapeCast_a_1a_apply _ _ (0 : Fin 1) q).trans ?_
  refine (Cert.LibLayer.stat_scale _ _ _ _ q).trans ?_
  rw [Cert.LibLayer.reduceAdd_parts, Cert.LibLayer.reduceAdd_parts]
  rfl

set_option maxHeartbeats 1000000 in
/-- The folded shift, from the parts' sums. -/
theorem l3_shift (W : Valuation τ sig (Elt Ideal)) (q : Fin 128) :
    (StableHlo.after (hostOps7 (F := Ideal)) W (Proc.devRef .tc main_v225) : S1x128.Idx → EReal) (ix2 (0 : Fin 1) q)
      = vecPiece3 (W (Proc.devRef .tc main_arg8)) (ix1 q)
        - Ideal.div (∑ t : Fin 20, ∑ s : Fin 8, (W (Proc.devRef .tc main_v203_1) : S20x8x128.Idx → EReal) (ix3 t s q)) Cert.Spec.nLit
          * (vecPiece3 (W (Proc.devRef .tc main_arg7)) (ix1 q) * Ideal.rsqrt (max
          (Ideal.div (∑ t : Fin 20, ∑ s : Fin 8, (W (Proc.devRef .tc main_v203_2) : S20x8x128.Idx → EReal) (ix3 t s q)) Cert.Spec.nLit
            - Ideal.div (∑ t : Fin 20, ∑ s : Fin 8, (W (Proc.devRef .tc main_v203_1) : S20x8x128.Idx → EReal) (ix3 t s q)) Cert.Spec.nLit
              * Ideal.div (∑ t : Fin 20, ∑ s : Fin 8, (W (Proc.devRef .tc main_v203_1) : S20x8x128.Idx → EReal) (ix3 t s q)) Cert.Spec.nLit) 0 + Cert.Spec.epsLit)) := by
  simp only [hostOps7]
  after_results_simp
  refine (shapeCast_a_1a_apply _ _ (0 : Fin 1) q).trans ?_
  refine (Cert.LibLayer.stat_shift _ _ _ _ q).trans ?_
  rw [Cert.LibLayer.stat_scale, Cert.LibLayer.reduceAdd_parts, Cert.LibLayer.reduceAdd_parts]
  rfl

/-- The dense layers' output is not written by the stretch of the statistics. -/
theorem l3_keep_lin (W : Valuation τ sig (Elt Ideal)) :
    StableHlo.after (hostOps7 (F := Ideal)) W (Proc.devRef .tc main_v203_0) = W (Proc.devRef .tc main_v203_0) := by
  host_keeps hostOps7

/-! ## The layer -/

/-- The dense layers' result in the terms of the region that computes it: the two dense layers of the array the
    region finds in window 0, with the weights and bias rows it finds in windows 1 to 4. -/
abbrev L3 (c : Dev nD) : Cert.Spec.Mat 100000 128 :=
  Cert.Spec.lin2F (Cert.Spec.toMat (a := 100000) (b := 128) (Gen.V15 m ρ c (Pipeline.arrRef spec6 0)))
    (Cert.Spec.toMat (a := 128) (b := 128) (Gen.V15 m ρ c (Pipeline.arrRef spec6 1)))
    (fun k => (Gen.V15 m ρ c (Pipeline.arrRef spec6 2) : S1x128.Idx → EReal) (ix2 (0 : Fin 1) k))
    (Cert.Spec.toMat (a := 128) (b := 128) (Gen.V15 m ρ c (Pipeline.arrRef spec6 3)))
    (fun k => (Gen.V15 m ρ c (Pipeline.arrRef spec6 4) : S1x128.Idx → EReal) (ix2 (0 : Fin 1) k))

/-- The same with the windows' arrays named: the combined input and the layer's pieces of the parameter stacks. -/
theorem L3_eq (c : Dev nD) :
    L3 m ρ c = Cert.Spec.lin2F
      (Cert.Spec.toMat (a := 100000) (b := 128) (Gen.W15 m ρ c (Proc.devRef .tc main_v192)))
      (Cert.Spec.toMat (a := 128) (b := 128) (matPiece3 (m ((c : Thread nD τ).loc main_arg3))))
      (Cert.Spec.toVec (a := 128) (vecPiece3 (m ((c : Thread nD τ).loc main_arg4))))
      (Cert.Spec.toMat (a := 128) (b := 128) (matPiece3 (m ((c : Thread nD τ).loc main_arg5))))
      (Cert.Spec.toVec (a := 128) (vecPiece3 (m ((c : Thread nD τ).loc main_arg6)))) := by
  have e1 : (Gen.V15 m ρ c (Pipeline.arrRef spec6 1) : S128x128.Idx → EReal) = matPiece3 (m ((c : Thread nD τ).loc main_arg3)) := by
    show (StableHlo.after (hostOps6 (F := Ideal)) (Gen.W14 m ρ c) (Proc.devRef .tc main_v194) : S128x128.Idx → EReal) = _
    rw [l3_w1, W14_arg3]
  have e3 : (Gen.V15 m ρ c (Pipeline.arrRef spec6 3) : S128x128.Idx → EReal) = matPiece3 (m ((c : Thread nD τ).loc main_arg5)) := by
    show (StableHlo.after (hostOps6 (F := Ideal)) (Gen.W14 m ρ c) (Proc.devRef .tc main_v199) : S128x128.Idx → EReal) = _
    rw [l3_w2, W14_arg5]
  have e2 : (fun k => (Gen.V15 m ρ c (Pipeline.arrRef spec6 2) : S1x128.Idx → EReal) (ix2 (0 : Fin 1) k))
      = Cert.Spec.toVec (a := 128) (vecPiece3 (m ((c : Thread nD τ).loc main_arg4))) := by
    funext k
    show (StableHlo.after (hostOps6 (F := Ideal)) (Gen.W14 m ρ c) (Proc.devRef .tc main_v197) : S1x128.Idx → EReal) (ix2 (0 : Fin 1) k) = _
    rw [l3_b1, W14_arg4]
    rfl
  have e4 : (fun k => (Gen.V15 m ρ c (Pipeline.arrRef spec6 4) : S1x128.Idx → EReal) (ix2 (0 : Fin 1) k))
      = Cert.Spec.toVec (a := 128) (vecPiece3 (m ((c : Thread nD τ).loc main_arg6))) := by
    funext k
    show (StableHlo.after (hostOps6 (F := Ideal)) (Gen.W14 m ρ c) (Proc.devRef .tc main_v202) : S1x128.Idx → EReal) (ix2 (0 : Fin 1) k) = _
    rw [l3_b2, W14_arg6]
    rfl
  show Cert.Spec.lin2F _ _ _ _ _ = _
  rw [e1, e2, e3, e4]

/-- Layer 3 of the kernel program.  From the features region 5 leaves, the edge list and the layer's pieces of the
    parameter stacks, the array region 7 leaves is the layer in its folded form: (1 + eps) times each node's row
    plus the rows gathered at the edges' sources and summed at their targets, two dense layers with a rectifier
    each, and the batch normalisation from the column sums and sums of squares, with a last rectifier.  The
    hypotheses are what regions 6 and 7 compute from the arrays they find, and that no target id is negative. -/
theorem layer3 (c : Dev nD)
    (hlin2 : ∀ (i : Fin 100000) (q : Fin 128),
      (dat6 (F := Ideal) (Gen.V15 m ρ) c).arrAt 5 cfg6.N (ix2 i q) = L3 m ρ c i q)
    (hsum : ∀ (t : Fin 20) (s : Fin 8) (q : Fin 128),
      (dat6 (F := Ideal) (Gen.V15 m ρ) c).arrAt 6 cfg6.N (ix3 t s q)
        = if s.val = 0 then ∑ r : Fin 5000, L3 m ρ c (Cert.Tiles.row (by norm_num : 20 * 5000 = 100000) t r) q else 0)
    (hsumsq : ∀ (t : Fin 20) (s : Fin 8) (q : Fin 128),
      (dat6 (F := Ideal) (Gen.V15 m ρ) c).arrAt 7 cfg6.N (ix3 t s q)
        = if s.val = 0 then ∑ r : Fin 5000, L3 m ρ c (Cert.Tiles.row (by norm_num : 20 * 5000 = 100000) t r) q
            * L3 m ρ c (Cert.Tiles.row (by norm_num : 20 * 5000 = 100000) t r) q else 0)
    (hbn : ∀ (i : Fin 100000) (q : Fin 128),
      Cert.Spec.toMat (a := 100000) (b := 128) ((Gen.dat7 (F := Ideal) (Gen.V17 m ρ) c).arrAt 3 cfg7.N) i q
        = max (Cert.Spec.toMat (a := 100000) (b := 128) (Gen.V17 m ρ c (Pipeline.arrRef spec7 0)) i q
              * Cert.Spec.toMat (a := 1) (b := 128) (Gen.V17 m ρ c (Pipeline.arrRef spec7 1)) (0 : Fin 1) q
            + Cert.Spec.toMat (a := 1) (b := 128) (Gen.V17 m ρ c (Pipeline.arrRef spec7 2)) (0 : Fin 1) q) 0)
    (hdst : ∀ e : Fin 1600000, 0 ≤ (((m ((c : Thread nD τ).loc main_arg1)) : IVec S2x1600000 32) (ix2 (1 : Fin 2) e)).toInt) :
    Cert.Spec.toMat (a := 100000) (b := 128) (Gen.W18 m ρ c (Proc.devRef .tc main_v226))
      = Cert.Spec.layerKerF (Cert.Spec.oneLit + ((m ((c : Thread nD τ).loc main_arg9)) : S4.Idx → EReal) (ix1 (3 : Fin 4)))
          (Cert.Spec.toMat (a := 100000) (b := 128) (Gen.W14 m ρ c (Proc.devRef .tc main_v173)))
          (Cert.Spec.toMat (a := 1600000) (b := 128) (gathered (F := Ideal) (Gen.W14 m ρ c (Proc.devRef .tc main_v173)) (m ((c : Thread nD τ).loc main_arg1))))
          (fun e => ((m ((c : Thread nD τ).loc main_arg1)) : IVec S2x1600000 32) (ix2 (1 : Fin 2) e))
          (Cert.Spec.toMat (a := 128) (b := 128) (matPiece3 (m ((c : Thread nD τ).loc main_arg3))))
          (Cert.Spec.toVec (a := 128) (vecPiece3 (m ((c : Thread nD τ).loc main_arg4))))
          (Cert.Spec.toMat (a := 128) (b := 128) (matPiece3 (m ((c : Thread nD τ).loc main_arg5))))
          (Cert.Spec.toVec (a := 128) (vecPiece3 (m ((c : Thread nD τ).loc main_arg6))))
          (Cert.Spec.toVec (a := 128) (vecPiece3 (m ((c : Thread nD τ).loc main_arg7))))
          (Cert.Spec.toVec (a := 128) (vecPiece3 (m ((c : Thread nD τ).loc main_arg8)))) := by
  have e14 : (Gen.W14 m ρ c (Proc.devRef .tc main_v14) : IVec S1600000 32) = dstIds (m ((c : Thread nD τ).loc main_arg1)) :=
    (W14_v14 m ρ c).trans (W3_v14_eq m ρ c)
  have e12 : (Gen.W14 m ρ c (Proc.devRef .tc main_v12) : IVec S1600000 32) = srcIds (m ((c : Thread nD τ).loc main_arg1)) :=
    (W14_v12 m ρ c).trans (W3_v12_eq m ρ c)
  have hd : ∀ e : Fin 1600000, (dstIds (m ((c : Thread nD τ).loc main_arg1))) (ix1 e) = ((m ((c : Thread nD τ).loc main_arg1)) : IVec S2x1600000 32) (ix2 (1 : Fin 2) e) :=
    fun e => Cert.LibLayer.vec_piece_apply 1 (by norm_num) _ _ _ e
  refine Cert.LibLayer.layer_of_reads _ _ _ _ _ _ _ _ _ _
    (Gen.W15 m ρ c (Proc.devRef .tc main_v192)) (Gen.W16 m ρ c (Proc.devRef .tc main_v203_0))
    (Gen.W18 m ρ c (Proc.devRef .tc main_v226))
    (Gen.W16 m ρ c (Proc.devRef .tc main_v203_1)) (Gen.W16 m ρ c (Proc.devRef .tc main_v203_2))
    (Gen.W17 m ρ c (Proc.devRef .tc main_v224)) (Gen.W17 m ρ c (Proc.devRef .tc main_v225))
    (by norm_num) ?hZ ?hL ?hP1 ?hP2 ?hsc ?hsh ?hO
  case hZ =>
    intro i q
    have h := l3_z (Gen.W14 m ρ c) (by intro e; rw [e14, hd e]; exact hdst e) i q
    rw [e14, e12, W14_arg9] at h
    simp only [hd] at h
    exact h
  case hL =>
    intro i q
    refine ((congrArg (fun f : S100000x128.Idx → EReal => f (ix2 i q)) (Gen.W16_arr m ρ c 5)).trans (hlin2 i q)).trans ?_
    rw [L3_eq]
  case hP1 =>
    intro t s q
    refine ((congrArg (fun f : S20x8x128.Idx → EReal => f (ix3 t s q)) (Gen.W16_arr m ρ c 6)).trans (hsum t s q)).trans ?_
    rw [L3_eq]
  case hP2 =>
    intro t s q
    refine ((congrArg (fun f : S20x8x128.Idx → EReal => f (ix3 t s q)) (Gen.W16_arr m ρ c 7)).trans (hsumsq t s q)).trans ?_
    rw [L3_eq]
  case hsc =>
    intro q
    have h := l3_scale (Gen.W16 m ρ c) q
    rw [W16_arg7] at h
    exact h
  case hsh =>
    intro q
    have h := l3_shift (Gen.W16 m ρ c) q
    have hs := l3_scale (Gen.W16 m ρ c) q
    rw [W16_arg7] at h hs
    rw [W16_arg8] at h
    exact h.trans (congrArg (fun x => _ - _ * x) hs.symm)
  case hO =>
    intro i q
    refine ((congrArg (fun f : S100000x128.Idx → EReal => f (ix2 i q)) (Gen.W18_arr m ρ c 3)).trans (hbn i q)).trans ?_
    have hk : (Gen.V17 m ρ c (Pipeline.arrRef spec7 0) : S100000x128.Idx → EReal) = Gen.W16 m ρ c (Proc.devRef .tc main_v203_0) :=
      l3_keep_lin (Gen.W16 m ρ c)
    rw [hk]
    rfl

end Cert.KernelIdeal.KerVal

end
-- ==== Proof.KerTail.lean ====
/-
  The end of the kernel program: pooling and the three dense layers.

  After the third graph layer the program sums the node rows of each graph: a scatter-add of the 100000 × 128 layer
  output into a 64 × 128 array of zeros, the row of node i going to the row named by the node's graph id (the id array
  laid as a 100000 × 1 column of indices, read signed, not normalised: an id outside [0, 64) lands nowhere).  Entry
  (g, q) of the result is therefore 0 plus the sum, over the nodes i whose id is g, of the layer output's entry (i, q),
  and 0 + s = s: the pooled array is `poolF` of the layer output and the ids.  The same stretch of host operations
  re-lays the three bias vectors (lengths 128, 64, 10) as 1 × n rows, which keeps every entry at its row-major
  position, so row 0 of each is the vector itself.  No operation of the stretch writes an argument array or the layer
  output.  The last kernel region then takes the pooled array, the three weight matrices as launched (the region only
  reads them, and leaves an array it only reads as it found it) and the three bias rows, and its output array — the
  program's result — is the three dense layers `headF` of them (the hypothesis `hfc`, the region's value at any entry
  contents).  Putting the reads together, the result buffer at the last boundary is
  `headF (poolF h₃ batch) W₁ b₁ W₂ b₂ W₃ b₃` with h₃ the third layer's output at the boundary before the stretch and
  the seven parameters at their launch contents.
-/
import proofs.«125584_j43164421324859_2_alg».proof.Proof.Gen.KernelIdeal.Frame
import proofs.«125584_j43164421324859_2_alg».proof.Proof.Spec
import proofs.«125584_j43164421324859_2_alg».proof.Proof.LibScatter
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.KernelIdeal.KerTail

open Idealize.ShloMosaic Idealize.ShloMosaic.ValueIdx Idealize.ShloMosaic.TcCoe
open Idealize.ShloMosaic.StableHlo
open Cert.KernelIdeal Cert.KernelIdeal.Gen

/-- A vector of length n reshaped to a 1 × n row reads, at (0, j), the vector at j: the same row-major position. -/
theorem vec_to_row_apply {α : Type} {n : ℕ} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_two, Shape.rowMajor_val_one]
    show j.val = 0 * n + j.val
    omega)

/-- A vector of length a broadcast to an a × 1 column reads, at (i, 0), the vector at i. -/
theorem vec_to_col_apply {α : Type} {a : ℕ} (v : (⟨1, ![a]⟩ : Shape).Idx → α)
    (h1 : (⟨1, ![a]⟩ : Shape).BroadcastsInDim ⟨2, ![a, 1]⟩ (![0] : Fin 1 → Fin 2)) (i : Fin a) :
    broadcastInDim ⟨2, ![a, 1]⟩ ![0] h1 v (ix2 i (0 : Fin 1)) = v (ix1 i) := by
  have hi : i.val < a := i.isLt
  exact broadcastInDim_apply ![0] h1 v (ix2 i (0 : Fin 1)) (ix1 i) (by
    intro d
    match d with
    | ⟨0, _⟩ =>
      show i.val = if a = 1 then 0 else i.val
      split
      · omega
      · rfl)

/-! ## The last stretch of host operations, at any contents W of the buffers before it -/

theorem pool_term (W : Valuation τ sig (Elt Ideal)) :
    StableHlo.after (hostOps8 (F := Ideal)) W (Proc.devRef .tc main_v229)
      = Host.scatterAdd scatter_S64x128_S100000x1_S100000x128_1_0_0_1
          (broadcastInDim S64x128 ![] bcast_S_S64x128 (constant (F := Ideal) S_ .f32 0x00000000#32))
          (broadcastInDim S100000x1 ![0] bcast_S100000_S100000x1_0 (W (Proc.devRef .tc main_arg2)))
          (W (Proc.devRef .tc main_v226)) := by
  simp only [hostOps8]
  after_results

theorem b1_term (W : Valuation τ sig (Elt Ideal)) :
    StableHlo.after (hostOps8 (F := Ideal)) W (Proc.devRef .tc main_v230)
      = shapeCast S1x128 (W (Proc.devRef .tc main_arg11)) shapeCasts_S128_S1x128 := by
  simp only [hostOps8]
  after_results
  rfl

theorem b2_term (W : Valuation τ sig (Elt Ideal)) :
    StableHlo.after (hostOps8 (F := Ideal)) W (Proc.devRef .tc main_v231)
      = shapeCast S1x64 (W (Proc.devRef .tc main_arg13)) shapeCasts_S64_S1x64 := by
  simp only [hostOps8]
  after_results
  rfl

theorem b3_term (W : Valuation τ sig (Elt Ideal)) :
    StableHlo.after (hostOps8 (F := Ideal)) W (Proc.devRef .tc main_v232)
      = shapeCast S1x10 (W (Proc.devRef .tc main_arg15)) shapeCasts_S10_S1x10 := by
  simp only [hostOps8]
  after_results
  rfl

theorem b1_apply (W : Valuation τ sig (Elt Ideal)) (i : Fin 128) :
    StableHlo.after (hostOps8 (F := Ideal)) W (Proc.devRef .tc main_v230) (ix2 (0 : Fin 1) i)
      = W (Proc.devRef .tc main_arg11) (ix1 i) := by
  rw [b1_term]
  exact vec_to_row_apply (W (Proc.devRef .tc main_arg11)) shapeCasts_S128_S1x128 i

theorem b2_apply (W : Valuation τ sig (Elt Ideal)) (i : Fin 64) :
    StableHlo.after (hostOps8 (F := Ideal)) W (Proc.devRef .tc main_v231) (ix2 (0 : Fin 1) i)
      = W (Proc.devRef .tc main_arg13) (ix1 i) := by
  rw [b2_term]
  exact vec_to_row_apply (W (Proc.devRef .tc main_arg13)) shapeCasts_S64_S1x64 i

theorem b3_apply (W : Valuation τ sig (Elt Ideal)) (i : Fin 10) :
    StableHlo.after (hostOps8 (F := Ideal)) W (Proc.devRef .tc main_v232) (ix2 (0 : Fin 1) i)
      = W (Proc.devRef .tc main_arg15) (ix1 i) := by
  rw [b3_term]
  exact vec_to_row_apply (W (Proc.devRef .tc main_arg15)) shapeCasts_S10_S1x10 i

/-- A buffer the stretch does not write keeps its contents. -/
theorem keep8 (W : Valuation τ sig (Elt Ideal)) (b : Ref sig .tc)
    (hb : b ∉ [main_cst_45, main_v227, main_v228, main_v229, main_v230, main_v231, main_v232]) :
    StableHlo.after (hostOps8 (F := Ideal)) W (Proc.devRef .tc b) = W (Proc.devRef .tc b) :=
  StableHlo.after_of_writes_sub (W := [main_cst_45, main_v227, main_v228, main_v229, main_v230, main_v231, main_v232])
    _ W (by
      simp only [hostOps8, List.Forall, StableHlo.nullary_writes, StableHlo.unary_writes, StableHlo.binary_writes,
        StableHlo.ternary_writes, StableHlo.reshape_writes, List.map_cons, List.map_nil, List.toFinset_cons,
        List.toFinset_nil, Finset.singleton_subset_iff, Finset.mem_insert, Finset.mem_singleton, true_or, or_true,
        and_self]) hb

/-- The pooled features as the last stretch leaves them: graph g's entry of column q is the sum of the node rows
    whose graph id, read signed, is g. -/
theorem pool_apply (W : Valuation τ sig (Elt Ideal)) (g : Fin 64) (q : Fin 128) :
    Cert.Spec.toMat (StableHlo.after (hostOps8 (F := Ideal)) W (Proc.devRef .tc main_v229)) g q
      = Cert.Spec.poolF (Cert.Spec.toMat (W (Proc.devRef .tc main_v226)))
          (fun i => W (Proc.devRef .tc main_arg2) (ix1 i)) g q := by
  show (StableHlo.after (hostOps8 (F := Ideal)) W (Proc.devRef .tc main_v229)) (ix2 g q) = _
  rw [pool_term]
  refine (Cert.LibScatter.scatterAdd_rows_apply scatter_S64x128_S100000x1_S100000x128_1_0_0_1 rfl rfl rfl rfl
    _ _ _ g q).trans ?_
  rw [broadcastInDim_scalar_apply, constant_apply, Ideal.ofBits_zero_f32, zero_add]
  unfold Cert.Spec.poolF Cert.Spec.toMat
  refine Finset.sum_congr rfl fun e _ => ?_
  rw [vec_to_col_apply]

/-! ## The result buffer at the last boundary -/

variable (m : (ℓ : Loc nD τ sig) → Buf (Elt Ideal) ℓ) (ρ : Dev nD → PrngReg)

/-- An argument array the last stretch and the last region leave alone holds, before the last stretch, what it held
    at launch. -/
theorem arg2_at18 (c : Dev nD) : Gen.W18 m ρ c (Proc.devRef .tc main_arg2) = m ((c : Thread nD τ).loc main_arg2) :=
  (keep8 (Gen.W18 m ρ c) main_arg2 (by decide)).symm.trans
    ((Gen.W20_of_ne m ρ c main_arg2 (by decide)).symm.trans (Gen.W20_main_arg2 m ρ c))
theorem arg11_at18 (c : Dev nD) : Gen.W18 m ρ c (Proc.devRef .tc main_arg11) = m ((c : Thread nD τ).loc main_arg11) :=
  (keep8 (Gen.W18 m ρ c) main_arg11 (by decide)).symm.trans
    ((Gen.W20_of_ne m ρ c main_arg11 (by decide)).symm.trans (Gen.W20_main_arg11 m ρ c))
theorem arg13_at18 (c : Dev nD) : Gen.W18 m ρ c (Proc.devRef .tc main_arg13) = m ((c : Thread nD τ).loc main_arg13) :=
  (keep8 (Gen.W18 m ρ c) main_arg13 (by decide)).symm.trans
    ((Gen.W20_of_ne m ρ c main_arg13 (by decide)).symm.trans (Gen.W20_main_arg13 m ρ c))
theorem arg15_at18 (c : Dev nD) : Gen.W18 m ρ c (Proc.devRef .tc main_arg15) = m ((c : Thread nD τ).loc main_arg15) :=
  (keep8 (Gen.W18 m ρ c) main_arg15 (by decide)).symm.trans
    ((Gen.W20_of_ne m ρ c main_arg15 (by decide)).symm.trans (Gen.W20_main_arg15 m ρ c))
/-- … and an argument array the last region only reads holds the same at that region's entry: the region leaves an
    input array as it found it. -/
theorem arg10_at19 (c : Dev nD) : Gen.W19 m ρ c (Proc.devRef .tc main_arg10) = m ((c : Thread nD τ).loc main_arg10) :=
  ((Gen.W20_arr m ρ c 1).trans (((Gen.dat8 (Gen.V19 m ρ) c).arrAt_in 1 rfl _).trans (Gen.A_eq8 (Gen.V19 m ρ) c 1))).symm.trans
    (Gen.W20_main_arg10 m ρ c)
theorem arg12_at19 (c : Dev nD) : Gen.W19 m ρ c (Proc.devRef .tc main_arg12) = m ((c : Thread nD τ).loc main_arg12) :=
  ((Gen.W20_arr m ρ c 3).trans (((Gen.dat8 (Gen.V19 m ρ) c).arrAt_in 3 rfl _).trans (Gen.A_eq8 (Gen.V19 m ρ) c 3))).symm.trans
    (Gen.W20_main_arg12 m ρ c)
theorem arg14_at19 (c : Dev nD) : Gen.W19 m ρ c (Proc.devRef .tc main_arg14) = m ((c : Thread nD τ).loc main_arg14) :=
  ((Gen.W20_arr m ρ c 5).trans (((Gen.dat8 (Gen.V19 m ρ) c).arrAt_in 5 rfl _).trans (Gen.A_eq8 (Gen.V19 m ρ) c 5))).symm.trans
    (Gen.W20_main_arg14 m ρ c)

/-- The result: the three dense layers of the pooled output of the third graph layer, with the launch contents of the
    six head parameters.  `hfc` is the last region's value at any entry contents. -/
theorem tail_value
    (hfc : ∀ (V : (c : Dev nD) → (b : Ref sig .tc) → Buf (Elt Ideal) ((c : Thread nD τ).loc b)) (c : Dev nD)
        (g : Fin 64) (k : Fin 10),
      (Gen.dat8 (F := Ideal) V c).arrAt 7 cfg8.N (ix2 g k)
        = Cert.Spec.headF (Cert.Spec.toMat (V c (Pipeline.arrRef spec8 0))) (Cert.Spec.toMat (V c (Pipeline.arrRef spec8 1)))
            (fun i => (V c (Pipeline.arrRef spec8 2)) (ix2 (0 : Fin 1) i)) (Cert.Spec.toMat (V c (Pipeline.arrRef spec8 3)))
            (fun i => (V c (Pipeline.arrRef spec8 4)) (ix2 (0 : Fin 1) i)) (Cert.Spec.toMat (V c (Pipeline.arrRef spec8 5)))
            (fun i => (V c (Pipeline.arrRef spec8 6)) (ix2 (0 : Fin 1) i)) g k)
    (c : Dev nD) :
    Cert.Spec.toMat (Gen.W20 m ρ c (Proc.devRef .tc main_v233))
      = Cert.Spec.headF
          (Cert.Spec.poolF (Cert.Spec.toMat (Gen.W18 m ρ c (Proc.devRef .tc main_v226)))
            (fun i => (m ((c : Thread nD τ).loc main_arg2)) (ix1 i)))
          (Cert.Spec.toMat (m ((c : Thread nD τ).loc main_arg10))) (Cert.Spec.toVec (m ((c : Thread nD τ).loc main_arg11)))
          (Cert.Spec.toMat (m ((c : Thread nD τ).loc main_arg12))) (Cert.Spec.toVec (m ((c : Thread nD τ).loc main_arg13)))
          (Cert.Spec.toMat (m ((c : Thread nD τ).loc main_arg14))) (Cert.Spec.toVec (m ((c : Thread nD τ).loc main_arg15))) := by
  have h20 : Gen.W20 m ρ c (Proc.devRef .tc main_v233) = (Gen.dat8 (Gen.V19 m ρ) c).arrAt 7 cfg8.N :=
    Gen.W20_arr m ρ c 7
  have e0 : Cert.Spec.toMat (Gen.V19 m ρ c (Pipeline.arrRef spec8 0))
      = Cert.Spec.poolF (Cert.Spec.toMat (Gen.W18 m ρ c (Proc.devRef .tc main_v226)))
          (fun i => (m ((c : Thread nD τ).loc main_arg2)) (ix1 i)) := by
    funext g q
    show Cert.Spec.toMat (StableHlo.after (hostOps8 (F := Ideal)) (Gen.W18 m ρ c) (Proc.devRef .tc main_v229)) g q = _
    rw [pool_apply, arg2_at18]
  have e1 : Cert.Spec.toMat (Gen.V19 m ρ c (Pipeline.arrRef spec8 1)) = Cert.Spec.toMat (m ((c : Thread nD τ).loc main_arg10)) :=
    congrArg Cert.Spec.toMat (arg10_at19 m ρ c)
  have e2 : (fun i => (Gen.V19 m ρ c (Pipeline.arrRef spec8 2)) (ix2 (0 : Fin 1) i))
      = Cert.Spec.toVec (m ((c : Thread nD τ).loc main_arg11)) := by
    funext i
    show (StableHlo.after (hostOps8 (F := Ideal)) (Gen.W18 m ρ c) (Proc.devRef .tc main_v230)) (ix2 (0 : Fin 1) i) = _
    rw [b1_apply, arg11_at18]
    rfl
  have e3 : Cert.Spec.toMat (Gen.V19 m ρ c (Pipeline.arrRef spec8 3)) = Cert.Spec.toMat (m ((c : Thread nD τ).loc main_arg12)) :=
    congrArg Cert.Spec.toMat (arg12_at19 m ρ c)
  have e4 : (fun i => (Gen.V19 m ρ c (Pipeline.arrRef spec8 4)) (ix2 (0 : Fin 1) i))
      = Cert.Spec.toVec (m ((c : Thread nD τ).loc main_arg13)) := by
    funext i
    show (StableHlo.after (hostOps8 (F := Ideal)) (Gen.W18 m ρ c) (Proc.devRef .tc main_v231)) (ix2 (0 : Fin 1) i) = _
    rw [b2_apply, arg13_at18]
    rfl
  have e5 : Cert.Spec.toMat (Gen.V19 m ρ c (Pipeline.arrRef spec8 5)) = Cert.Spec.toMat (m ((c : Thread nD τ).loc main_arg14)) :=
    congrArg Cert.Spec.toMat (arg14_at19 m ρ c)
  have e6 : (fun i => (Gen.V19 m ρ c (Pipeline.arrRef spec8 6)) (ix2 (0 : Fin 1) i))
      = Cert.Spec.toVec (m ((c : Thread nD τ).loc main_arg15)) := by
    funext i
    show (StableHlo.after (hostOps8 (F := Ideal)) (Gen.W18 m ρ c) (Proc.devRef .tc main_v232)) (ix2 (0 : Fin 1) i) = _
    rw [b3_apply, arg15_at18]
    rfl
  funext g k
  show (Gen.W20 m ρ c (Proc.devRef .tc main_v233)) (ix2 g k) = _
  rw [h20, hfc, e0, e1, e2, e3, e4, e5, e6]

end Cert.KernelIdeal.KerTail

end
-- ==== Proof.RegionMlp2.lean ====
/-
  The dense-layer region of a graph layer, read off its blocks.

  The region walks the 100000 node rows in 20 tiles of 5000 rows.  At tile t it holds rows 5000 t … 5000 t + 4999 of the
  node array Z and the whole of the two weight matrices W1, W2 and bias rows B1, B2; it writes the same rows of
  L = max (max (Z · W1 + B1) 0 · W2 + B2) 0 — two dense layers, a rectifier after each, every entry a sum over the 128
  features of products on the extended reals — and, into row 0 of an eight-row block per tile, the tile's column sums of
  L and of L², the other seven rows zero.  The matrix products are accumulated into a zero array, so an entry is the
  plain sum over the contracted coordinate; changing the operands' float format does nothing on the extended reals; the
  column sum over the tile's rows is the sum over its 5000 row coordinates.

  First the tile's arithmetic at an index, over arbitrary tile contents; then the blocks as parts of the arrays (the row
  windows sit at block index t, the weight windows at block index 0, decided over the 20 points); then what each point
  writes back is the block of one whole-array function; row i lies in tile i / 5000, so the blocks cover each output
  array and it ends holding that function.  Nothing here needs finiteness.
-/
import proofs.«125584_j43164421324859_2_alg».proof.Proof.Gen.KernelIdeal.Frame
import proofs.«125584_j43164421324859_2_alg».proof.Proof.Spec
import proofs.«125584_j43164421324859_2_alg».proof.Proof.RegionMlpCommon
import proofs.«125584_j43164421324859_2_alg».proof.Proof.LibTiles
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal.Mlp2

open Idealize.ShloMosaic Idealize.ShloMosaic.ValueIdx Idealize.ShloMosaic.TcCoe Idealize.SL.Sem Cert.KernelIdeal Cert.KernelIdeal.Gen
open Cert.KernelIdeal.RegVal
open Idealize.ShloMosaic.Pipeline (Dat)

/-! ## The tile's arithmetic at an index -/

/-- The tile's payload at row r, column q: two dense layers with a rectifier after each. -/
theorem pay2_apply (x0 : Vec Ideal S5000x128 .f32) (x1 : Vec Ideal S128x128 .f32) (x2 : Vec Ideal S1x128 .f32)
    (x3 : Vec Ideal S128x128 .f32) (x4 : Vec Ideal S1x128 .f32) (r : Fin 5000) (q : Fin 128) :
    k2_pay2 (F := Ideal) x0 x1 x2 x3 x4 (ix2 r q)
      = rowOut (fun k => x0 (ix2 r k)) (fun k j => x1 (ix2 k j)) (fun j => x2 (ix2 (0 : Fin 1) j))
          (fun k j => x3 (ix2 k j)) (fun j => x4 (ix2 (0 : Fin 1) j)) q := by
  unfold k2_pay2
  simp only [shapeCast_self]
  refine (denseRow _ x3 x4 r q).trans ?_
  refine congrArg (fun z => max (z + x4 (ix2 (0 : Fin 1) q)) 0) (Finset.sum_congr rfl fun j _ => ?_)
  exact congrArg (fun z => z * x3 (ix2 j q)) (denseRow x0 x1 x2 r j)
/-- The seven padding rows are zero. -/
theorem pay3_zero (j : S7x128.Idx) : k2_pay3 (F := Ideal) j = 0 := Ideal.ofBits_zero_f32

/-- The first statistics block: the column sums of the tile's payload in row 0, zeros below. -/
theorem pay4_eq (x0 : Vec Ideal S5000x128 .f32) (x1 : Vec Ideal S128x128 .f32) (x2 : Vec Ideal S1x128 .f32)
    (x3 : Vec Ideal S128x128 .f32) (x4 : Vec Ideal S1x128 .f32) :
    k2_pay4 (F := Ideal) x0 x1 x2 x3 x4 = fun j : S1x8x128.Idx =>
      if (j 1).val = 0 then ∑ r : Fin 5000, k2_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k2_pay4
  exact statsRow (k2_pay2 (F := Ideal) x0 x1 x2 x3 x4) (k2_pay3 (F := Ideal)) pay3_zero u s q

/-- The second statistics block: the column sums of the squared payload in row 0, zeros below. -/
theorem pay7_eq (x0 : Vec Ideal S5000x128 .f32) (x1 : Vec Ideal S128x128 .f32) (x2 : Vec Ideal S1x128 .f32)
    (x3 : Vec Ideal S128x128 .f32) (x4 : Vec Ideal S1x128 .f32) :
    k2_pay1 (F := Ideal) (k2_pay5 (F := Ideal) x0 x1 x2 x3 x4) = fun j : S1x8x128.Idx =>
      if (j 1).val = 0 then ∑ r : Fin 5000, k2_pay2 (F := Ideal) x0 x1 x2 x3 x4 (ix2 r (j 2))
          * k2_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k2_pay1 k2_pay5
  exact statsRow (mulf (k2_pay2 (F := Ideal) x0 x1 x2 x3 x4) (k2_pay2 (F := Ideal) x0 x1 x2 x3 x4)) (k2_pay3 (F := Ideal))
    pay3_zero u s q

/-! ## The blocks as parts of the arrays -/

variable (V : (c : Dev nD) → (b : Ref sig .tc) → Buf (Elt Ideal) ((c : Thread nD τ).loc b))

/-- The printed index maps over the grid: the row windows sit at block t, the weights at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

/-- The region's input arrays as it finds them: node rows, first weights and bias, second weights and bias. -/
abbrev Zin (c : Dev nD) : S100000x128.Idx → EReal := V c (Pipeline.arrRef spec2 0)
abbrev W1in (c : Dev nD) : S128x128.Idx → EReal := V c (Pipeline.arrRef spec2 1)
abbrev B1in (c : Dev nD) : S1x128.Idx → EReal := V c (Pipeline.arrRef spec2 2)
abbrev W2in (c : Dev nD) : S128x128.Idx → EReal := V c (Pipeline.arrRef spec2 3)
abbrev B2in (c : Dev nD) : S1x128.Idx → EReal := V c (Pipeline.arrRef spec2 4)

/-- The row window's block at point t is rows 5000 t … 5000 t + 4999 of the node array. -/
theorem iblk2_0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = Zin V c k := by
  obtain ⟨e0, e1, -⟩ := idx_facts2 t
  unfold iblk2
  rw [View.read_apply]
  show Zin V c _ = Zin V c _
  refine congrArg (Zin V c) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The weight and bias windows hold their whole arrays at every point. -/
theorem iblk2_1_eq (c : Dev nD) (t : Fin cfg2.N) : (iblk2 V c 1 t : Vec Ideal S128x128 .f32) = W1in V c := by
  obtain ⟨-, -, e0, e1, -⟩ := idx_facts2 t
  funext x
  unfold iblk2
  rw [View.read_apply]
  show W1in V c _ = W1in V c x
  refine congrArg (W1in V c) (funext fun a => Fin.ext ?_)
  match a with
  | ⟨0, _⟩ => show win2_1.index t (0 : Fin 2) * 128 + 1 * (x 0).val = (x 0).val; rw [e0]; omega
  | ⟨1, _⟩ => show win2_1.index t (1 : Fin 2) * 128 + 1 * (x 1).val = (x 1).val; rw [e1]; omega

theorem iblk2_2_eq (c : Dev nD) (t : Fin cfg2.N) : (iblk2 V c 2 t : Vec Ideal S1x128 .f32) = B1in V c := by
  obtain ⟨-, -, -, -, e0, e1, -⟩ := idx_facts2 t
  funext x
  unfold iblk2
  rw [View.read_apply]
  show B1in V c _ = B1in V c x
  refine congrArg (B1in V c) (funext fun a => Fin.ext ?_)
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

theorem iblk2_3_eq (c : Dev nD) (t : Fin cfg2.N) : (iblk2 V c 3 t : Vec Ideal S128x128 .f32) = W2in V c := by
  obtain ⟨-, -, -, -, -, -, e0, e1, -⟩ := idx_facts2 t
  funext x
  unfold iblk2
  rw [View.read_apply]
  show W2in V c _ = W2in V c x
  refine congrArg (W2in V c) (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

theorem iblk2_4_eq (c : Dev nD) (t : Fin cfg2.N) : (iblk2 V c 4 t : Vec Ideal S1x128 .f32) = B2in V c := by
  obtain ⟨-, -, -, -, -, -, -, -, e0, e1, -⟩ := idx_facts2 t
  funext x
  unfold iblk2
  rw [View.read_apply]
  show B2in V c _ = B2in V c x
  refine congrArg (B2in V c) (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-! ## The output arrays as functions of the input arrays -/

/-- A grid point as a tile number. -/
def tileOf (t : Fin cfg2.N) : Fin 20 := ⟨t.val, Nat.lt_of_lt_of_eq t.isLt N_2⟩

/-- The layer's output array: row i of the node array through the two layers. -/
def lin2Arr (c : Dev nD) : S100000x128.Idx → EReal := fun i =>
  rowOut (fun k => Zin V c (ix2 (i 0) k)) (fun k j => W1in V c (ix2 k j)) (fun j => B1in V c (ix2 (0 : Fin 1) j))
    (fun k j => W2in V c (ix2 k j)) (fun j => B2in V c (ix2 (0 : Fin 1) j)) (i 1)

/-- The per-tile column sums of the layer's output, in row 0 of each tile's eight rows. -/
def sumArr (c : Dev nD) : S20x8x128.Idx → EReal := fun i =>
  if (i 1).val = 0 then ∑ r : Fin 5000, lin2Arr V c (ix2 (Cert.Tiles.row hN20 (i 0) r) (i 2)) else 0

/-- The per-tile column sums of the squared output, in row 0 of each tile's eight rows. -/
def sumsqArr (c : Dev nD) : S20x8x128.Idx → EReal := fun i =>
  if (i 1).val = 0 then ∑ r : Fin 5000, lin2Arr V c (ix2 (Cert.Tiles.row hN20 (i 0) r) (i 2))
      * lin2Arr V c (ix2 (Cert.Tiles.row hN20 (i 0) r) (i 2)) else 0

/-- The tile's payload over the blocks at point t, at (r, q), is the output array at row 5000 t + r. -/
theorem tile_pay (c : Dev nD) (t : Fin cfg2.N) (r : Fin 5000) (q : Fin 128) (i : Fin 100000)
    (hi : i.val = 5000 * t.val + r.val) :
    k2_pay2 (F := Ideal) (iblk2 V c 0 t) (iblk2 V c 1 t) (iblk2 V c 2 t) (iblk2 V c 3 t) (iblk2 V c 4 t) (ix2 r q)
      = lin2Arr V c (ix2 i q) := by
  rw [pay2_apply (iblk2 V c 0 t) (iblk2 V c 1 t) (iblk2 V c 2 t) (iblk2 V c 3 t) (iblk2 V c 4 t) r q]
  rw [iblk2_1_eq V c t, iblk2_2_eq V c t, iblk2_3_eq V c t, iblk2_4_eq V c t]
  have hrow : (fun k : Fin 128 => (iblk2 V c 0 t : Vec Ideal S5000x128 .f32) (ix2 r k)) = fun k => Zin V c (ix2 i k) :=
    funext fun k => iblk2_0_apply V c t (ix2 r k) (ix2 i k) hi rfl
  rw [hrow]
  rfl

/-- The tile's payload over the blocks at point t is block t of the output array. -/
theorem tile_pay_fun (c : Dev nD) (t : Fin cfg2.N) :
    k2_pay2 (F := Ideal) (iblk2 V c 0 t) (iblk2 V c 1 t) (iblk2 V c 2 t) (iblk2 V c 3 t) (iblk2 V c 4 t)
      = fun j : S5000x128.Idx => lin2Arr V c (ix2 (Cert.Tiles.row hN20 (tileOf t) (j 0)) (j 1)) := by
  funext j
  obtain ⟨r, q, rfl⟩ : ∃ (r : Fin 5000) (q : Fin 128), j = ix2 r q := ⟨j 0, j 1, eq_ix2 j⟩
  exact tile_pay V c t r q (Cert.Tiles.row hN20 (tileOf t) r) (by show t.val * 5000 + r.val = 5000 * t.val + r.val; omega)

/-- The first statistics payload over the blocks at point t is block t of the column-sum array. -/
theorem sum_pay_fun (c : Dev nD) (t : Fin cfg2.N) :
    k2_pay4 (F := Ideal) (iblk2 V c 0 t) (iblk2 V c 1 t) (iblk2 V c 2 t) (iblk2 V c 3 t) (iblk2 V c 4 t)
      = fun j : S1x8x128.Idx => sumArr V c (ix3 (tileOf t) (j 1) (j 2)) := by
  rw [pay4_eq (iblk2 V c 0 t) (iblk2 V c 1 t) (iblk2 V c 2 t) (iblk2 V c 3 t) (iblk2 V c 4 t)]
  funext j
  unfold sumArr
  refine if_congr Iff.rfl (Finset.sum_congr rfl fun r _ => ?_) rfl
  exact tile_pay V c t r (j 2) (Cert.Tiles.row hN20 (tileOf t) r) (by show t.val * 5000 + r.val = 5000 * t.val + r.val; omega)

/-- The second statistics payload over the blocks at point t is block t of the squared column-sum array. -/
theorem sumsq_pay_fun (c : Dev nD) (t : Fin cfg2.N) :
    k2_pay1 (F := Ideal) (k2_pay5 (F := Ideal) (iblk2 V c 0 t) (iblk2 V c 1 t) (iblk2 V c 2 t) (iblk2 V c 3 t) (iblk2 V c 4 t))
      = fun j : S1x8x128.Idx => sumsqArr V c (ix3 (tileOf t) (j 1) (j 2)) := by
  rw [pay7_eq (iblk2 V c 0 t) (iblk2 V c 1 t) (iblk2 V c 2 t) (iblk2 V c 3 t) (iblk2 V c 4 t)]
  funext j
  unfold sumsqArr
  refine if_congr Iff.rfl (Finset.sum_congr rfl fun r _ => ?_) rfl
  have h := tile_pay V c t r (j 2) (Cert.Tiles.row hN20 (tileOf t) r) (by show t.val * 5000 + r.val = 5000 * t.val + r.val; omega)
  rw [h]

/-! ## What each point writes back, and the arrays after the region -/

/-- What point t writes back to the output window: block t of the output array. -/
theorem flushed5_eq (c : Dev nD) (t : Fin cfg2.N) :
    (dat2 V c).flushed 5 t = ((cfg2.win 5).blk t).view.read (Elt Ideal) (lin2Arr V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  rw [tile_pay_fun V c t]
  obtain ⟨-, -, -, -, -, -, -, -, -, -, e0, e1, -⟩ := idx_facts2 t
  funext j
  show lin2Arr V c (ix2 (Cert.Tiles.row hN20 (tileOf t) (j 0)) (j 1)) = lin2Arr V c (((cfg2.win 5).blk t).view.emb j)
  refine congrArg (lin2Arr V c) (funext fun a => Fin.ext ?_)
  match a with
  | ⟨0, _⟩ => show t.val * 5000 + (j 0).val = win2_5.index t (0 : Fin 2) * 5000 + 1 * (j 0).val; rw [e0]; omega
  | ⟨1, _⟩ => show (j 1).val = win2_5.index t (1 : Fin 2) * 128 + 1 * (j 1).val; rw [e1]; omega

/-- What point t writes back to the first statistics window: block t of the column-sum array. -/
theorem flushed6_eq (c : Dev nD) (t : Fin cfg2.N) :
    (dat2 V c).flushed 6 t = ((cfg2.win 6).blk t).view.read (Elt Ideal) (sumArr V c) := by
  show (cfg2.win 6).cut (grid2.coords t) ((dat2 V c).after 6 t) = _
  rw [after2_6]
  unfold out2_6
  rw [View.canon_unit_zero hz3]
  simp only [View.ld_unit_zero (S := S5000x128) hz2, View.ld_unit_zero (S := S128x128) hz2, View.ld_unit_zero (S := S1x128) hz2]
  rw [sum_pay_fun V c t]
  obtain ⟨-, -, -, -, -, -, -, -, -, -, -, -, e0, e1, e2, -⟩ := idx_facts2 t
  funext j
  show sumArr V c (ix3 (tileOf t) (j 1) (j 2)) = sumArr V c (((cfg2.win 6).blk t).view.emb j)
  refine congrArg (sumArr V c) (funext fun a => Fin.ext ?_)
  match a with
  | ⟨0, _⟩ => show t.val = win2_6.index t (0 : Fin 3) * 1 + 1 * (j 0).val; have hj : (j 0).val < 1 := (j 0).isLt; rw [e0]; omega
  | ⟨1, _⟩ => show (j 1).val = win2_6.index t (1 : Fin 3) * 8 + 1 * (j 1).val; rw [e1]; omega
  | ⟨2, _⟩ => show (j 2).val = win2_6.index t (2 : Fin 3) * 128 + 1 * (j 2).val; rw [e2]; omega

/-- What point t writes back to the second statistics window: block t of the squared column-sum array. -/
theorem flushed7_eq (c : Dev nD) (t : Fin cfg2.N) :
    (dat2 V c).flushed 7 t = ((cfg2.win 7).blk t).view.read (Elt Ideal) (sumsqArr V c) := by
  show (cfg2.win 7).cut (grid2.coords t) ((dat2 V c).after 7 t) = _
  rw [after2_7]
  unfold out2_7
  rw [View.canon_unit_zero hz3]
  simp only [View.ld_unit_zero (S := S5000x128) hz2, View.ld_unit_zero (S := S128x128) hz2, View.ld_unit_zero (S := S1x128) hz2]
  rw [sumsq_pay_fun V c t]
  obtain ⟨-, -, -, -, -, -, -, -, -, -, -, -, -, -, -, e0, e1, e2⟩ := idx_facts2 t
  funext j
  show sumsqArr V c (ix3 (tileOf t) (j 1) (j 2)) = sumsqArr V c (((cfg2.win 7).blk t).view.emb j)
  refine congrArg (sumsqArr V c) (funext fun a => Fin.ext ?_)
  match a with
  | ⟨0, _⟩ => show t.val = win2_7.index t (0 : Fin 3) * 1 + 1 * (j 0).val; have hj : (j 0).val < 1 := (j 0).isLt; rw [e0]; omega
  | ⟨1, _⟩ => show (j 1).val = win2_7.index t (1 : Fin 3) * 8 + 1 * (j 1).val; rw [e1]; omega
  | ⟨2, _⟩ => show (j 2).val = win2_7.index t (2 : Fin 3) * 128 + 1 * (j 2).val; rw [e2]; omega

/-- An index of the output array is in point t's block iff each coordinate is in the block's range on its axis. -/
theorem mem_blk5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v97_0).slice (win2_5.rect t)).set ↔ _
  rw [View.set_slice_whole, Rect.mem_set_unit]
  exact Iff.rfl

theorem mem_blk6 (t : Fin cfg2.N) (i : S20x8x128.Idx) :
    i ∈ ((cfg2.win 6).blk t).view.set ↔ ∀ a : Fin 3, win2_6.index t a * S1x8x128.size a ≤ (i a).val ∧ (i a).val < win2_6.index t a * S1x8x128.size a + S1x8x128.size a := by
  show i ∈ ((View.whole main_v97_1).slice (win2_6.rect t)).set ↔ _
  rw [View.set_slice_whole, Rect.mem_set_unit]
  exact Iff.rfl

theorem mem_blk7 (t : Fin cfg2.N) (i : S20x8x128.Idx) :
    i ∈ ((cfg2.win 7).blk t).view.set ↔ ∀ a : Fin 3, win2_7.index t a * S1x8x128.size a ≤ (i a).val ∧ (i a).val < win2_7.index t a * S1x8x128.size a + S1x8x128.size a := by
  show i ∈ ((View.whole main_v97_2).slice (win2_7.rect t)).set ↔ _
  rw [View.set_slice_whole, Rect.mem_set_unit]
  exact Iff.rfl

/-- Row i lies in the block of point i / 5000. -/
theorem cover5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, -, e0, e1, -⟩ := idx_facts2 t
  have ht : t.val = (i 0).val / 5000 := rfl
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- Tile i 0 of a statistics array is the block of point i 0. -/
theorem cover6 (i : S20x8x128.Idx) : ∃ t : Fin cfg2.N, (cfg2.win 6).flush t = true ∧ i ∈ ((cfg2.win 6).blk t).view.set := by
  have hi0 : (i 0).val < 20 := (i 0).isLt
  have hi1 : (i 1).val < 8 := (i 1).isLt
  have hi2 : (i 2).val < 128 := (i 2).isLt
  have hN : cfg2.N = 20 := N_2
  let t : Fin cfg2.N := ⟨(i 0).val, by rw [hN]; omega⟩
  obtain ⟨-, -, -, -, -, -, -, -, -, -, -, -, e0, e1, e2, -⟩ := idx_facts2 t
  have ht : t.val = (i 0).val := rfl
  refine ⟨t, flush2_6 t, ?_⟩
  rw [mem_blk6]
  intro a
  match a with
  | ⟨0, _⟩ => show win2_6.index t (0 : Fin 3) * 1 ≤ (i 0).val ∧ (i 0).val < win2_6.index t (0 : Fin 3) * 1 + 1; rw [e0, ht]; omega
  | ⟨1, _⟩ => show win2_6.index t (1 : Fin 3) * 8 ≤ (i 1).val ∧ (i 1).val < win2_6.index t (1 : Fin 3) * 8 + 8; rw [e1]; omega
  | ⟨2, _⟩ => show win2_6.index t (2 : Fin 3) * 128 ≤ (i 2).val ∧ (i 2).val < win2_6.index t (2 : Fin 3) * 128 + 128; rw [e2]; omega

theorem cover7 (i : S20x8x128.Idx) : ∃ t : Fin cfg2.N, (cfg2.win 7).flush t = true ∧ i ∈ ((cfg2.win 7).blk t).view.set := by
  have hi0 : (i 0).val < 20 := (i 0).isLt
  have hi1 : (i 1).val < 8 := (i 1).isLt
  have hi2 : (i 2).val < 128 := (i 2).isLt
  have hN : cfg2.N = 20 := N_2
  let t : Fin cfg2.N := ⟨(i 0).val, by rw [hN]; omega⟩
  obtain ⟨-, -, -, -, -, -, -, -, -, -, -, -, -, -, -, e0, e1, e2⟩ := idx_facts2 t
  have ht : t.val = (i 0).val := rfl
  refine ⟨t, flush2_7 t, ?_⟩
  rw [mem_blk7]
  intro a
  match a with
  | ⟨0, _⟩ => show win2_7.index t (0 : Fin 3) * 1 ≤ (i 0).val ∧ (i 0).val < win2_7.index t (0 : Fin 3) * 1 + 1; rw [e0, ht]; omega
  | ⟨1, _⟩ => show win2_7.index t (1 : Fin 3) * 8 ≤ (i 1).val ∧ (i 1).val < win2_7.index t (1 : Fin 3) * 8 + 8; rw [e1]; omega
  | ⟨2, _⟩ => show win2_7.index t (2 : Fin 3) * 128 ≤ (i 2).val ∧ (i 2).val < win2_7.index t (2 : Fin 3) * 128 + 128; rw [e2]; omega

/-- The output array after the region. -/
theorem final5 (c : Dev nD) : (dat2 V c).arrAt 5 cfg2.N = lin2Arr V c :=
  (dat2 V c).arrAt_eq_of_cover 5 (lin2Arr V c) (fun t _ => flushed5_eq V c t) (cover5)

/-- The column-sum array after the region. -/
theorem final6 (c : Dev nD) : (dat2 V c).arrAt 6 cfg2.N = sumArr V c :=
  (dat2 V c).arrAt_eq_of_cover 6 (sumArr V c) (fun t _ => flushed6_eq V c t) (cover6)

/-- The squared column-sum array after the region. -/
theorem final7 (c : Dev nD) : (dat2 V c).arrAt 7 cfg2.N = sumsqArr V c :=
  (dat2 V c).arrAt_eq_of_cover 7 (sumsqArr V c) (fun t _ => flushed7_eq V c t) (cover7)

end Cert.KernelIdeal.RegVal.Mlp2

namespace Cert.KernelIdeal.RegVal

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The region's outputs, entry by entry -/

/-- The region's result in the specification's terms: the two dense layers of the node array it finds in window 0,
    with the weights and bias rows it finds in windows 1 to 4. -/
abbrev mlp2_L (c : Dev nD) : Cert.Spec.Mat 100000 128 :=
  Cert.Spec.lin2F (Cert.Spec.toMat (a := 100000) (b := 128) (V c (Pipeline.arrRef spec2 0)))
    (Cert.Spec.toMat (a := 128) (b := 128) (V c (Pipeline.arrRef spec2 1)))
    (fun k => (V c (Pipeline.arrRef spec2 2) : S1x128.Idx → EReal) (ix2 (0 : Fin 1) k))
    (Cert.Spec.toMat (a := 128) (b := 128) (V c (Pipeline.arrRef spec2 3)))
    (fun k => (V c (Pipeline.arrRef spec2 4) : S1x128.Idx → EReal) (ix2 (0 : Fin 1) k))

/-- The layer's output array, entry by entry: the specification's two dense layers of the node array. -/
theorem mlp2_lin2 (c : Dev nD) (i : Fin 100000) (q : Fin 128) :
    (dat2 V c).arrAt 5 cfg2.N (ix2 i q) = mlp2_L V c i q := by
  rw [Mlp2.final5]
  rfl

/-- Row 0 of tile t of the first statistics array: the column sums of the output over the tile's rows; rows 1 to 7: zero. -/
theorem mlp2_sum (c : Dev nD) (t : Fin 20) (s : Fin 8) (q : Fin 128) :
    (dat2 V c).arrAt 6 cfg2.N (ix3 t s q)
      = if s.val = 0 then ∑ r : Fin 5000, mlp2_L V c (Cert.Tiles.row (by norm_num : 20 * 5000 = 100000) t r) q else 0 := by
  rw [Mlp2.final6]
  rfl

/-- Row 0 of tile t of the second statistics array: the column sums of the squared output; rows 1 to 7: zero. -/
theorem mlp2_sumsq (c : Dev nD) (t : Fin 20) (s : Fin 8) (q : Fin 128) :
    (dat2 V c).arrAt 7 cfg2.N (ix3 t s q)
      = if s.val = 0 then ∑ r : Fin 5000, mlp2_L V c (Cert.Tiles.row (by norm_num : 20 * 5000 = 100000) t r) q
          * mlp2_L V c (Cert.Tiles.row (by norm_num : 20 * 5000 = 100000) t r) q else 0 := by
  rw [Mlp2.final7]
  rfl

end Cert.KernelIdeal.RegVal

end
-- ==== Proof.RegionMlp4.lean ====
/-
  The dense-layer region of a graph layer, read off its blocks.

  The region walks the 100000 node rows in 20 tiles of 5000 rows.  At tile t it holds rows 5000 t … 5000 t + 4999 of the
  node array Z and the whole of the two weight matrices W1, W2 and bias rows B1, B2; it writes the same rows of
  L = max (max (Z · W1 + B1) 0 · W2 + B2) 0 — two dense layers, a rectifier after each, every entry a sum over the 128
  features of products on the extended reals — and, into row 0 of an eight-row block per tile, the tile's column sums of
  L and of L², the other seven rows zero.  The matrix products are accumulated into a zero array, so an entry is the
  plain sum over the contracted coordinate; changing the operands' float format does nothing on the extended reals; the
  column sum over the tile's rows is the sum over its 5000 row coordinates.

  First the tile's arithmetic at an index, over arbitrary tile contents; then the blocks as parts of the arrays (the row
  windows sit at block index t, the weight windows at block index 0, decided over the 20 points); then what each point
  writes back is the block of one whole-array function; row i lies in tile i / 5000, so the blocks cover each output
  array and it ends holding that function.  Nothing here needs finiteness.
-/
import proofs.«125584_j43164421324859_2_alg».proof.Proof.Gen.KernelIdeal.Frame
import proofs.«125584_j43164421324859_2_alg».proof.Proof.Spec
import proofs.«125584_j43164421324859_2_alg».proof.Proof.RegionMlpCommon
import proofs.«125584_j43164421324859_2_alg».proof.Proof.LibTiles
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal.Mlp4

open Idealize.ShloMosaic Idealize.ShloMosaic.ValueIdx Idealize.ShloMosaic.TcCoe Idealize.SL.Sem Cert.KernelIdeal Cert.KernelIdeal.Gen
open Cert.KernelIdeal.RegVal
open Idealize.ShloMosaic.Pipeline (Dat)

/-! ## The tile's arithmetic at an index -/

/-- The tile's payload at row r, column q: two dense layers with a rectifier after each. -/
theorem pay2_apply (x0 : Vec Ideal S5000x128 .f32) (x1 : Vec Ideal S128x128 .f32) (x2 : Vec Ideal S1x128 .f32)
    (x3 : Vec Ideal S128x128 .f32) (x4 : Vec Ideal S1x128 .f32) (r : Fin 5000) (q : Fin 128) :
    k4_pay2 (F := Ideal) x0 x1 x2 x3 x4 (ix2 r q)
      = rowOut (fun k => x0 (ix2 r k)) (fun k j => x1 (ix2 k j)) (fun j => x2 (ix2 (0 : Fin 1) j))
          (fun k j => x3 (ix2 k j)) (fun j => x4 (ix2 (0 : Fin 1) j)) q := by
  unfold k4_pay2
  simp only [shapeCast_self]
  refine (denseRow _ x3 x4 r q).trans ?_
  refine congrArg (fun z => max (z + x4 (ix2 (0 : Fin 1) q)) 0) (Finset.sum_congr rfl fun j _ => ?_)
  exact congrArg (fun z => z * x3 (ix2 j q)) (denseRow x0 x1 x2 r j)
/-- The seven padding rows are zero. -/
theorem pay3_zero (j : S7x128.Idx) : k4_pay3 (F := Ideal) j = 0 := Ideal.ofBits_zero_f32

/-- The first statistics block: the column sums of the tile's payload in row 0, zeros below. -/
theorem pay4_eq (x0 : Vec Ideal S5000x128 .f32) (x1 : Vec Ideal S128x128 .f32) (x2 : Vec Ideal S1x128 .f32)
    (x3 : Vec Ideal S128x128 .f32) (x4 : Vec Ideal S1x128 .f32) :
    k4_pay4 (F := Ideal) x0 x1 x2 x3 x4 = fun j : S1x8x128.Idx =>
      if (j 1).val = 0 then ∑ r : Fin 5000, k4_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k4_pay4
  exact statsRow (k4_pay2 (F := Ideal) x0 x1 x2 x3 x4) (k4_pay3 (F := Ideal)) pay3_zero u s q

/-- The second statistics block: the column sums of the squared payload in row 0, zeros below. -/
theorem pay7_eq (x0 : Vec Ideal S5000x128 .f32) (x1 : Vec Ideal S128x128 .f32) (x2 : Vec Ideal S1x128 .f32)
    (x3 : Vec Ideal S128x128 .f32) (x4 : Vec Ideal S1x128 .f32) :
    k4_pay1 (F := Ideal) (k4_pay5 (F := Ideal) x0 x1 x2 x3 x4) = fun j : S1x8x128.Idx =>
      if (j 1).val = 0 then ∑ r : Fin 5000, k4_pay2 (F := Ideal) x0 x1 x2 x3 x4 (ix2 r (j 2))
          * k4_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k4_pay1 k4_pay5
  exact statsRow (mulf (k4_pay2 (F := Ideal) x0 x1 x2 x3 x4) (k4_pay2 (F := Ideal) x0 x1 x2 x3 x4)) (k4_pay3 (F := Ideal))
    pay3_zero u s q

/-! ## The blocks as parts of the arrays -/

variable (V : (c : Dev nD) → (b : Ref sig .tc) → Buf (Elt Ideal) ((c : Thread nD τ).loc b))

/-- The printed index maps over the grid: the row windows sit at block t, the weights at block 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 3) = t.val ∧ win4_6.index t (1 : Fin 3) = 0 ∧ win4_6.index t (2 : Fin 3) = 0
    ∧ win4_7.index t (0 : Fin 3) = t.val ∧ win4_7.index t (1 : Fin 3) = 0 ∧ win4_7.index t (2 : Fin 3) = 0 :=
  (by decide +kernel : ∀ t : Fin grid4.N, _)

/-- The region's input arrays as it finds them: node rows, first weights and bias, second weights and bias. -/
abbrev Zin (c : Dev nD) : S100000x128.Idx → EReal := V c (Pipeline.arrRef spec4 0)
abbrev W1in (c : Dev nD) : S128x128.Idx → EReal := V c (Pipeline.arrRef spec4 1)
abbrev B1in (c : Dev nD) : S1x128.Idx → EReal := V c (Pipeline.arrRef spec4 2)
abbrev W2in (c : Dev nD) : S128x128.Idx → EReal := V c (Pipeline.arrRef spec4 3)
abbrev B2in (c : Dev nD) : S1x128.Idx → EReal := V c (Pipeline.arrRef spec4 4)

/-- The row window's block at point t is rows 5000 t … 5000 t + 4999 of the node array. -/
theorem iblk4_0_apply (c : Dev nD) (t : Fin cfg4.N) (x : S5000x128.Idx) (k : S100000x128.Idx)
    (hk0 : (k 0).val = 5000 * t.val + (x 0).val) (hk1 : (k 1).val = (x 1).val) :
    (iblk4 V c 0 t : Vec Ideal S5000x128 .f32) x = Zin V c k := by
  obtain ⟨e0, e1, -⟩ := idx_facts4 t
  unfold iblk4
  rw [View.read_apply]
  show Zin V c _ = Zin V c _
  refine congrArg (Zin V c) (funext fun a => Fin.ext ?_)
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The weight and bias windows hold their whole arrays at every point. -/
theorem iblk4_1_eq (c : Dev nD) (t : Fin cfg4.N) : (iblk4 V c 1 t : Vec Ideal S128x128 .f32) = W1in V c := by
  obtain ⟨-, -, e0, e1, -⟩ := idx_facts4 t
  funext x
  unfold iblk4
  rw [View.read_apply]
  show W1in V c _ = W1in V c x
  refine congrArg (W1in V c) (funext fun a => Fin.ext ?_)
  match a with
  | ⟨0, _⟩ => show win4_1.index t (0 : Fin 2) * 128 + 1 * (x 0).val = (x 0).val; rw [e0]; omega
  | ⟨1, _⟩ => show win4_1.index t (1 : Fin 2) * 128 + 1 * (x 1).val = (x 1).val; rw [e1]; omega

theorem iblk4_2_eq (c : Dev nD) (t : Fin cfg4.N) : (iblk4 V c 2 t : Vec Ideal S1x128 .f32) = B1in V c := by
  obtain ⟨-, -, -, -, e0, e1, -⟩ := idx_facts4 t
  funext x
  unfold iblk4
  rw [View.read_apply]
  show B1in V c _ = B1in V c x
  refine congrArg (B1in V c) (funext fun a => Fin.ext ?_)
  match a with
  | ⟨0, _⟩ => show win4_2.index t (0 : Fin 2) * 1 + 1 * (x 0).val = (x 0).val; rw [e0]; omega
  | ⟨1, _⟩ => show win4_2.index t (1 : Fin 2) * 128 + 1 * (x 1).val = (x 1).val; rw [e1]; omega

theorem iblk4_3_eq (c : Dev nD) (t : Fin cfg4.N) : (iblk4 V c 3 t : Vec Ideal S128x128 .f32) = W2in V c := by
  obtain ⟨-, -, -, -, -, -, e0, e1, -⟩ := idx_facts4 t
  funext x
  unfold iblk4
  rw [View.read_apply]
  show W2in V c _ = W2in V c x
  refine congrArg (W2in V c) (funext fun a => Fin.ext ?_)
  match a with
  | ⟨0, _⟩ => show win4_3.index t (0 : Fin 2) * 128 + 1 * (x 0).val = (x 0).val; rw [e0]; omega
  | ⟨1, _⟩ => show win4_3.index t (1 : Fin 2) * 128 + 1 * (x 1).val = (x 1).val; rw [e1]; omega

theorem iblk4_4_eq (c : Dev nD) (t : Fin cfg4.N) : (iblk4 V c 4 t : Vec Ideal S1x128 .f32) = B2in V c := by
  obtain ⟨-, -, -, -, -, -, -, -, e0, e1, -⟩ := idx_facts4 t
  funext x
  unfold iblk4
  rw [View.read_apply]
  show B2in V c _ = B2in V c x
  refine congrArg (B2in V c) (funext fun a => Fin.ext ?_)
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

/-! ## The output arrays as functions of the input arrays -/

/-- A grid point as a tile number. -/
def tileOf (t : Fin cfg4.N) : Fin 20 := ⟨t.val, Nat.lt_of_lt_of_eq t.isLt N_4⟩

/-- The layer's output array: row i of the node array through the two layers. -/
def lin2Arr (c : Dev nD) : S100000x128.Idx → EReal := fun i =>
  rowOut (fun k => Zin V c (ix2 (i 0) k)) (fun k j => W1in V c (ix2 k j)) (fun j => B1in V c (ix2 (0 : Fin 1) j))
    (fun k j => W2in V c (ix2 k j)) (fun j => B2in V c (ix2 (0 : Fin 1) j)) (i 1)

/-- The per-tile column sums of the layer's output, in row 0 of each tile's eight rows. -/
def sumArr (c : Dev nD) : S20x8x128.Idx → EReal := fun i =>
  if (i 1).val = 0 then ∑ r : Fin 5000, lin2Arr V c (ix2 (Cert.Tiles.row hN20 (i 0) r) (i 2)) else 0

/-- The per-tile column sums of the squared output, in row 0 of each tile's eight rows. -/
def sumsqArr (c : Dev nD) : S20x8x128.Idx → EReal := fun i =>
  if (i 1).val = 0 then ∑ r : Fin 5000, lin2Arr V c (ix2 (Cert.Tiles.row hN20 (i 0) r) (i 2))
      * lin2Arr V c (ix2 (Cert.Tiles.row hN20 (i 0) r) (i 2)) else 0

/-- The tile's payload over the blocks at point t, at (r, q), is the output array at row 5000 t + r. -/
theorem tile_pay (c : Dev nD) (t : Fin cfg4.N) (r : Fin 5000) (q : Fin 128) (i : Fin 100000)
    (hi : i.val = 5000 * t.val + r.val) :
    k4_pay2 (F := Ideal) (iblk4 V c 0 t) (iblk4 V c 1 t) (iblk4 V c 2 t) (iblk4 V c 3 t) (iblk4 V c 4 t) (ix2 r q)
      = lin2Arr V c (ix2 i q) := by
  rw [pay2_apply (iblk4 V c 0 t) (iblk4 V c 1 t) (iblk4 V c 2 t) (iblk4 V c 3 t) (iblk4 V c 4 t) r q]
  rw [iblk4_1_eq V c t, iblk4_2_eq V c t, iblk4_3_eq V c t, iblk4_4_eq V c t]
  have hrow : (fun k : Fin 128 => (iblk4 V c 0 t : Vec Ideal S5000x128 .f32) (ix2 r k)) = fun k => Zin V c (ix2 i k) :=
    funext fun k => iblk4_0_apply V c t (ix2 r k) (ix2 i k) hi rfl
  rw [hrow]
  rfl

/-- The tile's payload over the blocks at point t is block t of the output array. -/
theorem tile_pay_fun (c : Dev nD) (t : Fin cfg4.N) :
    k4_pay2 (F := Ideal) (iblk4 V c 0 t) (iblk4 V c 1 t) (iblk4 V c 2 t) (iblk4 V c 3 t) (iblk4 V c 4 t)
      = fun j : S5000x128.Idx => lin2Arr V c (ix2 (Cert.Tiles.row hN20 (tileOf t) (j 0)) (j 1)) := by
  funext j
  obtain ⟨r, q, rfl⟩ : ∃ (r : Fin 5000) (q : Fin 128), j = ix2 r q := ⟨j 0, j 1, eq_ix2 j⟩
  exact tile_pay V c t r q (Cert.Tiles.row hN20 (tileOf t) r) (by show t.val * 5000 + r.val = 5000 * t.val + r.val; omega)

/-- The first statistics payload over the blocks at point t is block t of the column-sum array. -/
theorem sum_pay_fun (c : Dev nD) (t : Fin cfg4.N) :
    k4_pay4 (F := Ideal) (iblk4 V c 0 t) (iblk4 V c 1 t) (iblk4 V c 2 t) (iblk4 V c 3 t) (iblk4 V c 4 t)
      = fun j : S1x8x128.Idx => sumArr V c (ix3 (tileOf t) (j 1) (j 2)) := by
  rw [pay4_eq (iblk4 V c 0 t) (iblk4 V c 1 t) (iblk4 V c 2 t) (iblk4 V c 3 t) (iblk4 V c 4 t)]
  funext j
  unfold sumArr
  refine if_congr Iff.rfl (Finset.sum_congr rfl fun r _ => ?_) rfl
  exact tile_pay V c t r (j 2) (Cert.Tiles.row hN20 (tileOf t) r) (by show t.val * 5000 + r.val = 5000 * t.val + r.val; omega)

/-- The second statistics payload over the blocks at point t is block t of the squared column-sum array. -/
theorem sumsq_pay_fun (c : Dev nD) (t : Fin cfg4.N) :
    k4_pay1 (F := Ideal) (k4_pay5 (F := Ideal) (iblk4 V c 0 t) (iblk4 V c 1 t) (iblk4 V c 2 t) (iblk4 V c 3 t) (iblk4 V c 4 t))
      = fun j : S1x8x128.Idx => sumsqArr V c (ix3 (tileOf t) (j 1) (j 2)) := by
  rw [pay7_eq (iblk4 V c 0 t) (iblk4 V c 1 t) (iblk4 V c 2 t) (iblk4 V c 3 t) (iblk4 V c 4 t)]
  funext j
  unfold sumsqArr
  refine if_congr Iff.rfl (Finset.sum_congr rfl fun r _ => ?_) rfl
  have h := tile_pay V c t r (j 2) (Cert.Tiles.row hN20 (tileOf t) r) (by show t.val * 5000 + r.val = 5000 * t.val + r.val; omega)
  rw [h]

/-! ## What each point writes back, and the arrays after the region -/

/-- What point t writes back to the output window: block t of the output array. -/
theorem flushed5_eq (c : Dev nD) (t : Fin cfg4.N) :
    (dat4 V c).flushed 5 t = ((cfg4.win 5).blk t).view.read (Elt Ideal) (lin2Arr V c) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128x128) hz2, View.ld_unit_zero (S := S1x128) hz2]
  rw [tile_pay_fun V c t]
  obtain ⟨-, -, -, -, -, -, -, -, -, -, e0, e1, -⟩ := idx_facts4 t
  funext j
  show lin2Arr V c (ix2 (Cert.Tiles.row hN20 (tileOf t) (j 0)) (j 1)) = lin2Arr V c (((cfg4.win 5).blk t).view.emb j)
  refine congrArg (lin2Arr V c) (funext fun a => Fin.ext ?_)
  match a with
  | ⟨0, _⟩ => show t.val * 5000 + (j 0).val = win4_5.index t (0 : Fin 2) * 5000 + 1 * (j 0).val; rw [e0]; omega
  | ⟨1, _⟩ => show (j 1).val = win4_5.index t (1 : Fin 2) * 128 + 1 * (j 1).val; rw [e1]; omega

/-- What point t writes back to the first statistics window: block t of the column-sum array. -/
theorem flushed6_eq (c : Dev nD) (t : Fin cfg4.N) :
    (dat4 V c).flushed 6 t = ((cfg4.win 6).blk t).view.read (Elt Ideal) (sumArr V c) := by
  show (cfg4.win 6).cut (grid4.coords t) ((dat4 V c).after 6 t) = _
  rw [after4_6]
  unfold out4_6
  rw [View.canon_unit_zero hz3]
  simp only [View.ld_unit_zero (S := S5000x128) hz2, View.ld_unit_zero (S := S128x128) hz2, View.ld_unit_zero (S := S1x128) hz2]
  rw [sum_pay_fun V c t]
  obtain ⟨-, -, -, -, -, -, -, -, -, -, -, -, e0, e1, e2, -⟩ := idx_facts4 t
  funext j
  show sumArr V c (ix3 (tileOf t) (j 1) (j 2)) = sumArr V c (((cfg4.win 6).blk t).view.emb j)
  refine congrArg (sumArr V c) (funext fun a => Fin.ext ?_)
  match a with
  | ⟨0, _⟩ => show t.val = win4_6.index t (0 : Fin 3) * 1 + 1 * (j 0).val; have hj : (j 0).val < 1 := (j 0).isLt; rw [e0]; omega
  | ⟨1, _⟩ => show (j 1).val = win4_6.index t (1 : Fin 3) * 8 + 1 * (j 1).val; rw [e1]; omega
  | ⟨2, _⟩ => show (j 2).val = win4_6.index t (2 : Fin 3) * 128 + 1 * (j 2).val; rw [e2]; omega

/-- What point t writes back to the second statistics window: block t of the squared column-sum array. -/
theorem flushed7_eq (c : Dev nD) (t : Fin cfg4.N) :
    (dat4 V c).flushed 7 t = ((cfg4.win 7).blk t).view.read (Elt Ideal) (sumsqArr V c) := by
  show (cfg4.win 7).cut (grid4.coords t) ((dat4 V c).after 7 t) = _
  rw [after4_7]
  unfold out4_7
  rw [View.canon_unit_zero hz3]
  simp only [View.ld_unit_zero (S := S5000x128) hz2, View.ld_unit_zero (S := S128x128) hz2, View.ld_unit_zero (S := S1x128) hz2]
  rw [sumsq_pay_fun V c t]
  obtain ⟨-, -, -, -, -, -, -, -, -, -, -, -, -, -, -, e0, e1, e2⟩ := idx_facts4 t
  funext j
  show sumsqArr V c (ix3 (tileOf t) (j 1) (j 2)) = sumsqArr V c (((cfg4.win 7).blk t).view.emb j)
  refine congrArg (sumsqArr V c) (funext fun a => Fin.ext ?_)
  match a with
  | ⟨0, _⟩ => show t.val = win4_7.index t (0 : Fin 3) * 1 + 1 * (j 0).val; have hj : (j 0).val < 1 := (j 0).isLt; rw [e0]; omega
  | ⟨1, _⟩ => show (j 1).val = win4_7.index t (1 : Fin 3) * 8 + 1 * (j 1).val; rw [e1]; omega
  | ⟨2, _⟩ => show (j 2).val = win4_7.index t (2 : Fin 3) * 128 + 1 * (j 2).val; rw [e2]; omega

/-- An index of the output array is in point t's block iff each coordinate is in the block's range on its axis. -/
theorem mem_blk5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v150_0).slice (win4_5.rect t)).set ↔ _
  rw [View.set_slice_whole, Rect.mem_set_unit]
  exact Iff.rfl

theorem mem_blk6 (t : Fin cfg4.N) (i : S20x8x128.Idx) :
    i ∈ ((cfg4.win 6).blk t).view.set ↔ ∀ a : Fin 3, win4_6.index t a * S1x8x128.size a ≤ (i a).val ∧ (i a).val < win4_6.index t a * S1x8x128.size a + S1x8x128.size a := by
  show i ∈ ((View.whole main_v150_1).slice (win4_6.rect t)).set ↔ _
  rw [View.set_slice_whole, Rect.mem_set_unit]
  exact Iff.rfl

theorem mem_blk7 (t : Fin cfg4.N) (i : S20x8x128.Idx) :
    i ∈ ((cfg4.win 7).blk t).view.set ↔ ∀ a : Fin 3, win4_7.index t a * S1x8x128.size a ≤ (i a).val ∧ (i a).val < win4_7.index t a * S1x8x128.size a + S1x8x128.size a := by
  show i ∈ ((View.whole main_v150_2).slice (win4_7.rect t)).set ↔ _
  rw [View.set_slice_whole, Rect.mem_set_unit]
  exact Iff.rfl

/-- Row i lies in the block of point i / 5000. -/
theorem cover5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, -, -, -, e0, e1, -⟩ := idx_facts4 t
  have ht : t.val = (i 0).val / 5000 := rfl
  refine ⟨t, flush4_5 t, ?_⟩
  rw [mem_blk5]
  intro a
  match a with
  | ⟨0, _⟩ => show win4_5.index t (0 : Fin 2) * 5000 ≤ (i 0).val ∧ (i 0).val < win4_5.index t (0 : Fin 2) * 5000 + 5000; rw [e0, ht]; omega
  | ⟨1, _⟩ => show win4_5.index t (1 : Fin 2) * 128 ≤ (i 1).val ∧ (i 1).val < win4_5.index t (1 : Fin 2) * 128 + 128; rw [e1]; omega

/-- Tile i 0 of a statistics array is the block of point i 0. -/
theorem cover6 (i : S20x8x128.Idx) : ∃ t : Fin cfg4.N, (cfg4.win 6).flush t = true ∧ i ∈ ((cfg4.win 6).blk t).view.set := by
  have hi0 : (i 0).val < 20 := (i 0).isLt
  have hi1 : (i 1).val < 8 := (i 1).isLt
  have hi2 : (i 2).val < 128 := (i 2).isLt
  have hN : cfg4.N = 20 := N_4
  let t : Fin cfg4.N := ⟨(i 0).val, by rw [hN]; omega⟩
  obtain ⟨-, -, -, -, -, -, -, -, -, -, -, -, e0, e1, e2, -⟩ := idx_facts4 t
  have ht : t.val = (i 0).val := rfl
  refine ⟨t, flush4_6 t, ?_⟩
  rw [mem_blk6]
  intro a
  match a with
  | ⟨0, _⟩ => show win4_6.index t (0 : Fin 3) * 1 ≤ (i 0).val ∧ (i 0).val < win4_6.index t (0 : Fin 3) * 1 + 1; rw [e0, ht]; omega
  | ⟨1, _⟩ => show win4_6.index t (1 : Fin 3) * 8 ≤ (i 1).val ∧ (i 1).val < win4_6.index t (1 : Fin 3) * 8 + 8; rw [e1]; omega
  | ⟨2, _⟩ => show win4_6.index t (2 : Fin 3) * 128 ≤ (i 2).val ∧ (i 2).val < win4_6.index t (2 : Fin 3) * 128 + 128; rw [e2]; omega

theorem cover7 (i : S20x8x128.Idx) : ∃ t : Fin cfg4.N, (cfg4.win 7).flush t = true ∧ i ∈ ((cfg4.win 7).blk t).view.set := by
  have hi0 : (i 0).val < 20 := (i 0).isLt
  have hi1 : (i 1).val < 8 := (i 1).isLt
  have hi2 : (i 2).val < 128 := (i 2).isLt
  have hN : cfg4.N = 20 := N_4
  let t : Fin cfg4.N := ⟨(i 0).val, by rw [hN]; omega⟩
  obtain ⟨-, -, -, -, -, -, -, -, -, -, -, -, -, -, -, e0, e1, e2⟩ := idx_facts4 t
  have ht : t.val = (i 0).val := rfl
  refine ⟨t, flush4_7 t, ?_⟩
  rw [mem_blk7]
  intro a
  match a with
  | ⟨0, _⟩ => show win4_7.index t (0 : Fin 3) * 1 ≤ (i 0).val ∧ (i 0).val < win4_7.index t (0 : Fin 3) * 1 + 1; rw [e0, ht]; omega
  | ⟨1, _⟩ => show win4_7.index t (1 : Fin 3) * 8 ≤ (i 1).val ∧ (i 1).val < win4_7.index t (1 : Fin 3) * 8 + 8; rw [e1]; omega
  | ⟨2, _⟩ => show win4_7.index t (2 : Fin 3) * 128 ≤ (i 2).val ∧ (i 2).val < win4_7.index t (2 : Fin 3) * 128 + 128; rw [e2]; omega

/-- The output array after the region. -/
theorem final5 (c : Dev nD) : (dat4 V c).arrAt 5 cfg4.N = lin2Arr V c :=
  (dat4 V c).arrAt_eq_of_cover 5 (lin2Arr V c) (fun t _ => flushed5_eq V c t) (cover5)

/-- The column-sum array after the region. -/
theorem final6 (c : Dev nD) : (dat4 V c).arrAt 6 cfg4.N = sumArr V c :=
  (dat4 V c).arrAt_eq_of_cover 6 (sumArr V c) (fun t _ => flushed6_eq V c t) (cover6)

/-- The squared column-sum array after the region. -/
theorem final7 (c : Dev nD) : (dat4 V c).arrAt 7 cfg4.N = sumsqArr V c :=
  (dat4 V c).arrAt_eq_of_cover 7 (sumsqArr V c) (fun t _ => flushed7_eq V c t) (cover7)

end Cert.KernelIdeal.RegVal.Mlp4

namespace Cert.KernelIdeal.RegVal

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The region's outputs, entry by entry -/

/-- The region's result in the specification's terms: the two dense layers of the node array it finds in window 0,
    with the weights and bias rows it finds in windows 1 to 4. -/
abbrev mlp4_L (c : Dev nD) : Cert.Spec.Mat 100000 128 :=
  Cert.Spec.lin2F (Cert.Spec.toMat (a := 100000) (b := 128) (V c (Pipeline.arrRef spec4 0)))
    (Cert.Spec.toMat (a := 128) (b := 128) (V c (Pipeline.arrRef spec4 1)))
    (fun k => (V c (Pipeline.arrRef spec4 2) : S1x128.Idx → EReal) (ix2 (0 : Fin 1) k))
    (Cert.Spec.toMat (a := 128) (b := 128) (V c (Pipeline.arrRef spec4 3)))
    (fun k => (V c (Pipeline.arrRef spec4 4) : S1x128.Idx → EReal) (ix2 (0 : Fin 1) k))

/-- The layer's output array, entry by entry: the specification's two dense layers of the node array. -/
theorem mlp4_lin2 (c : Dev nD) (i : Fin 100000) (q : Fin 128) :
    (dat4 V c).arrAt 5 cfg4.N (ix2 i q) = mlp4_L V c i q := by
  rw [Mlp4.final5]
  rfl

/-- Row 0 of tile t of the first statistics array: the column sums of the output over the tile's rows; rows 1 to 7: zero. -/
theorem mlp4_sum (c : Dev nD) (t : Fin 20) (s : Fin 8) (q : Fin 128) :
    (dat4 V c).arrAt 6 cfg4.N (ix3 t s q)
      = if s.val = 0 then ∑ r : Fin 5000, mlp4_L V c (Cert.Tiles.row (by norm_num : 20 * 5000 = 100000) t r) q else 0 := by
  rw [Mlp4.final6]
  rfl

/-- Row 0 of tile t of the second statistics array: the column sums of the squared output; rows 1 to 7: zero. -/
theorem mlp4_sumsq (c : Dev nD) (t : Fin 20) (s : Fin 8) (q : Fin 128) :
    (dat4 V c).arrAt 7 cfg4.N (ix3 t s q)
      = if s.val = 0 then ∑ r : Fin 5000, mlp4_L V c (Cert.Tiles.row (by norm_num : 20 * 5000 = 100000) t r) q
          * mlp4_L V c (Cert.Tiles.row (by norm_num : 20 * 5000 = 100000) t r) q else 0 := by
  rw [Mlp4.final7]
  rfl

end Cert.KernelIdeal.RegVal

end
-- ==== Proof.RegionMlp6.lean ====
/-
  The dense-layer region of a graph layer, read off its blocks.

  The region walks the 100000 node rows in 20 tiles of 5000 rows.  At tile t it holds rows 5000 t … 5000 t + 4999 of the
  node array Z and the whole of the two weight matrices W1, W2 and bias rows B1, B2; it writes the same rows of
  L = max (max (Z · W1 + B1) 0 · W2 + B2) 0 — two dense layers, a rectifier after each, every entry a sum over the 128
  features of products on the extended reals — and, into row 0 of an eight-row block per tile, the tile's column sums of
  L and of L², the other seven rows zero.  The matrix products are accumulated into a zero array, so an entry is the
  plain sum over the contracted coordinate; changing the operands' float format does nothing on the extended reals; the
  column sum over the tile's rows is the sum over its 5000 row coordinates.

  First the tile's arithmetic at an index, over arbitrary tile contents; then the blocks as parts of the arrays (the row
  windows sit at block index t, the weight windows at block index 0, decided over the 20 points); then what each point
  writes back is the block of one whole-array function; row i lies in tile i / 5000, so the blocks cover each output
  array and it ends holding that function.  Nothing here needs finiteness.
-/
import proofs.«125584_j43164421324859_2_alg».proof.Proof.Gen.KernelIdeal.Frame
import proofs.«125584_j43164421324859_2_alg».proof.Proof.Spec
import proofs.«125584_j43164421324859_2_alg».proof.Proof.RegionMlpCommon
import proofs.«125584_j43164421324859_2_alg».proof.Proof.LibTiles
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal.Mlp6

open Idealize.ShloMosaic Idealize.ShloMosaic.ValueIdx Idealize.ShloMosaic.TcCoe Idealize.SL.Sem Cert.KernelIdeal Cert.KernelIdeal.Gen
open Cert.KernelIdeal.RegVal
open Idealize.ShloMosaic.Pipeline (Dat)

/-! ## The tile's arithmetic at an index -/

/-- The tile's payload at row r, column q: two dense layers with a rectifier after each. -/
theorem pay2_apply (x0 : Vec Ideal S5000x128 .f32) (x1 : Vec Ideal S128x128 .f32) (x2 : Vec Ideal S1x128 .f32)
    (x3 : Vec Ideal S128x128 .f32) (x4 : Vec Ideal S1x128 .f32) (r : Fin 5000) (q : Fin 128) :
    k6_pay2 (F := Ideal) x0 x1 x2 x3 x4 (ix2 r q)
      = rowOut (fun k => x0 (ix2 r k)) (fun k j => x1 (ix2 k j)) (fun j => x2 (ix2 (0 : Fin 1) j))
          (fun k j => x3 (ix2 k j)) (fun j => x4 (ix2 (0 : Fin 1) j)) q := by
  unfold k6_pay2
  simp only [shapeCast_self]
  refine (denseRow _ x3 x4 r q).trans ?_
  refine congrArg (fun z => max (z + x4 (ix2 (0 : Fin 1) q)) 0) (Finset.sum_congr rfl fun j _ => ?_)
  exact congrArg (fun z => z * x3 (ix2 j q)) (denseRow x0 x1 x2 r j)
/-- The seven padding rows are zero. -/
theorem pay3_zero (j : S7x128.Idx) : k6_pay3 (F := Ideal) j = 0 := Ideal.ofBits_zero_f32

/-- The first statistics block: the column sums of the tile's payload in row 0, zeros below. -/
theorem pay4_eq (x0 : Vec Ideal S5000x128 .f32) (x1 : Vec Ideal S128x128 .f32) (x2 : Vec Ideal S1x128 .f32)
    (x3 : Vec Ideal S128x128 .f32) (x4 : Vec Ideal S1x128 .f32) :
    k6_pay4 (F := Ideal) x0 x1 x2 x3 x4 = fun j : S1x8x128.Idx =>
      if (j 1).val = 0 then ∑ r : Fin 5000, k6_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k6_pay4
  exact statsRow (k6_pay2 (F := Ideal) x0 x1 x2 x3 x4) (k6_pay3 (F := Ideal)) pay3_zero u s q

/-- The second statistics block: the column sums of the squared payload in row 0, zeros below. -/
theorem pay7_eq (x0 : Vec Ideal S5000x128 .f32) (x1 : Vec Ideal S128x128 .f32) (x2 : Vec Ideal S1x128 .f32)
    (x3 : Vec Ideal S128x128 .f32) (x4 : Vec Ideal S1x128 .f32) :
    k6_pay1 (F := Ideal) (k6_pay5 (F := Ideal) x0 x1 x2 x3 x4) = fun j : S1x8x128.Idx =>
      if (j 1).val = 0 then ∑ r : Fin 5000, k6_pay2 (F := Ideal) x0 x1 x2 x3 x4 (ix2 r (j 2))
          * k6_pay2 (F := Ideal) x0 x1 x2 x3 x4 (ix2 r (j 2)) else 0 := by
  funext j
  obtain ⟨u, s, q, rfl⟩ : ∃ (u : Fin 1) (s : Fin 8) (q : Fin 128), j = ix3 u s q := ⟨j 0, j 1, j 2, eq_ix3 j⟩
  unfold k6_pay1 k6_pay5
  exact statsRow (mulf (k6_pay2 (F := Ideal) x0 x1 x2 x3 x4) (k6_pay2 (F := Ideal) x0 x1 x2 x3 x4)) (k6_pay3 (F := Ideal))
    pay3_zero u s q

/-! ## The blocks as parts of the arrays -/

variable (V : (c : Dev nD) → (b : Ref sig .tc) → Buf (Elt Ideal) ((c : Thread nD τ).loc b))

/-- The printed index maps over the grid: the row windows sit at block t, the weights at block 0. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 3) = t.val ∧ win6_6.index t (1 : Fin 3) = 0 ∧ win6_6.index t (2 : Fin 3) = 0
    ∧ win6_7.index t (0 : Fin 3) = t.val ∧ win6_7.index t (1 : Fin 3) = 0 ∧ win6_7.index t (2 : Fin 3) = 0 :=
  (by decide +kernel : ∀ t : Fin grid6.N, _)

/-- The region's input arrays as it finds them: node rows, first weights and bias, second weights and bias. -/
abbrev Zin (c : Dev nD) : S100000x128.Idx → EReal := V c (Pipeline.arrRef spec6 0)
abbrev W1in (c : Dev nD) : S128x128.Idx → EReal := V c (Pipeline.arrRef spec6 1)
abbrev B1in (c : Dev nD) : S1x128.Idx → EReal := V c (Pipeline.arrRef spec6 2)
abbrev W2in (c : Dev nD) : S128x128.Idx → EReal := V c (Pipeline.arrRef spec6 3)
abbrev B2in (c : Dev nD) : S1x128.Idx → EReal := V c (Pipeline.arrRef spec6 4)

/-- The row window's block at point t is rows 5000 t … 5000 t + 4999 of the node array. -/
theorem iblk6_0_apply (c : Dev nD) (t : Fin cfg6.N) (x : S5000x128.Idx) (k : S100000x128.Idx)
    (hk0 : (k 0).val = 5000 * t.val + (x 0).val) (hk1 : (k 1).val = (x 1).val) :
    (iblk6 V c 0 t : Vec Ideal S5000x128 .f32) x = Zin V c k := by
  obtain ⟨e0, e1, -⟩ := idx_facts6 t
  unfold iblk6
  rw [View.read_apply]
  show Zin V c _ = Zin V c _
  refine congrArg (Zin V c) (funext fun a => Fin.ext ?_)
  match a with
  | ⟨0, _⟩ => show win6_0.index t (0 : Fin 2) * 5000 + 1 * (x 0).val = (k 0).val; rw [e0, hk0]; omega
  | ⟨1, _⟩ => show win6_0.index t (1 : Fin 2) * 128 + 1 * (x 1).val = (k 1).val; rw [e1, hk1]; omega

/-- The weight and bias windows hold their whole arrays at every point. -/
theorem iblk6_1_eq (c : Dev nD) (t : Fin cfg6.N) : (iblk6 V c 1 t : Vec Ideal S128x128 .f32) = W1in V c := by
  obtain ⟨-, -, e0, e1, -⟩ := idx_facts6 t
  funext x
  unfold iblk6
  rw [View.read_apply]
  show W1in V c _ = W1in V c x
  refine congrArg (W1in V c) (funext fun a => Fin.ext ?_)
  match a with
  | ⟨0, _⟩ => show win6_1.index t (0 : Fin 2) * 128 + 1 * (x 0).val = (x 0).val; rw [e0]; omega
  | ⟨1, _⟩ => show win6_1.index t (1 : Fin 2) * 128 + 1 * (x 1).val = (x 1).val; rw [e1]; omega

theorem iblk6_2_eq (c : Dev nD) (t : Fin cfg6.N) : (iblk6 V c 2 t : Vec Ideal S1x128 .f32) = B1in V c := by
  obtain ⟨-, -, -, -, e0, e1, -⟩ := idx_facts6 t
  funext x
  unfold iblk6
  rw [View.read_apply]
  show B1in V c _ = B1in V c x
  refine congrArg (B1in V c) (funext fun a => Fin.ext ?_)
  match a with
  | ⟨0, _⟩ => show win6_2.index t (0 : Fin 2) * 1 + 1 * (x 0).val = (x 0).val; rw [e0]; omega
  | ⟨1, _⟩ => show win6_2.index t (1 : Fin 2) * 128 + 1 * (x 1).val = (x 1).val; rw [e1]; omega

theorem iblk6_3_eq (c : Dev nD) (t : Fin cfg6.N) : (iblk6 V c 3 t : Vec Ideal S128x128 .f32) = W2in V c := by
  obtain ⟨-, -, -, -, -, -, e0, e1, -⟩ := idx_facts6 t
  funext x
  unfold iblk6
  rw [View.read_apply]
  show W2in V c _ = W2in V c x
  refine congrArg (W2in V c) (funext fun a => Fin.ext ?_)
  match a with
  | ⟨0, _⟩ => show win6_3.index t (0 : Fin 2) * 128 + 1 * (x 0).val = (x 0).val; rw [e0]; omega
  | ⟨1, _⟩ => show win6_3.index t (1 : Fin 2) * 128 + 1 * (x 1).val = (x 1).val; rw [e1]; omega

theorem iblk6_4_eq (c : Dev nD) (t : Fin cfg6.N) : (iblk6 V c 4 t : Vec Ideal S1x128 .f32) = B2in V c := by
  obtain ⟨-, -, -, -, -, -, -, -, e0, e1, -⟩ := idx_facts6 t
  funext x
  unfold iblk6
  rw [View.read_apply]
  show B2in V c _ = B2in V c x
  refine congrArg (B2in V c) (funext fun a => Fin.ext ?_)
  match a with
  | ⟨0, _⟩ => show win6_4.index t (0 : Fin 2) * 1 + 1 * (x 0).val = (x 0).val; rw [e0]; omega
  | ⟨1, _⟩ => show win6_4.index t (1 : Fin 2) * 128 + 1 * (x 1).val = (x 1).val; rw [e1]; omega

/-! ## The output arrays as functions of the input arrays -/

/-- A grid point as a tile number. -/
def tileOf (t : Fin cfg6.N) : Fin 20 := ⟨t.val, Nat.lt_of_lt_of_eq t.isLt N_6⟩

/-- The layer's output array: row i of the node array through the two layers. -/
def lin2Arr (c : Dev nD) : S100000x128.Idx → EReal := fun i =>
  rowOut (fun k => Zin V c (ix2 (i 0) k)) (fun k j => W1in V c (ix2 k j)) (fun j => B1in V c (ix2 (0 : Fin 1) j))
    (fun k j => W2in V c (ix2 k j)) (fun j => B2in V c (ix2 (0 : Fin 1) j)) (i 1)

/-- The per-tile column sums of the layer's output, in row 0 of each tile's eight rows. -/
def sumArr (c : Dev nD) : S20x8x128.Idx → EReal := fun i =>
  if (i 1).val = 0 then ∑ r : Fin 5000, lin2Arr V c (ix2 (Cert.Tiles.row hN20 (i 0) r) (i 2)) else 0

/-- The per-tile column sums of the squared output, in row 0 of each tile's eight rows. -/
def sumsqArr (c : Dev nD) : S20x8x128.Idx → EReal := fun i =>
  if (i 1).val = 0 then ∑ r : Fin 5000, lin2Arr V c (ix2 (Cert.Tiles.row hN20 (i 0) r) (i 2))
      * lin2Arr V c (ix2 (Cert.Tiles.row hN20 (i 0) r) (i 2)) else 0

/-- The tile's payload over the blocks at point t, at (r, q), is the output array at row 5000 t + r. -/
theorem tile_pay (c : Dev nD) (t : Fin cfg6.N) (r : Fin 5000) (q : Fin 128) (i : Fin 100000)
    (hi : i.val = 5000 * t.val + r.val) :
    k6_pay2 (F := Ideal) (iblk6 V c 0 t) (iblk6 V c 1 t) (iblk6 V c 2 t) (iblk6 V c 3 t) (iblk6 V c 4 t) (ix2 r q)
      = lin2Arr V c (ix2 i q) := by
  rw [pay2_apply (iblk6 V c 0 t) (iblk6 V c 1 t) (iblk6 V c 2 t) (iblk6 V c 3 t) (iblk6 V c 4 t) r q]
  rw [iblk6_1_eq V c t, iblk6_2_eq V c t, iblk6_3_eq V c t, iblk6_4_eq V c t]
  have hrow : (fun k : Fin 128 => (iblk6 V c 0 t : Vec Ideal S5000x128 .f32) (ix2 r k)) = fun k => Zin V c (ix2 i k) :=
    funext fun k => iblk6_0_apply V c t (ix2 r k) (ix2 i k) hi rfl
  rw [hrow]
  rfl

/-- The tile's payload over the blocks at point t is block t of the output array. -/
theorem tile_pay_fun (c : Dev nD) (t : Fin cfg6.N) :
    k6_pay2 (F := Ideal) (iblk6 V c 0 t) (iblk6 V c 1 t) (iblk6 V c 2 t) (iblk6 V c 3 t) (iblk6 V c 4 t)
      = fun j : S5000x128.Idx => lin2Arr V c (ix2 (Cert.Tiles.row hN20 (tileOf t) (j 0)) (j 1)) := by
  funext j
  obtain ⟨r, q, rfl⟩ : ∃ (r : Fin 5000) (q : Fin 128), j = ix2 r q := ⟨j 0, j 1, eq_ix2 j⟩
  exact tile_pay V c t r q (Cert.Tiles.row hN20 (tileOf t) r) (by show t.val * 5000 + r.val = 5000 * t.val + r.val; omega)

/-- The first statistics payload over the blocks at point t is block t of the column-sum array. -/
theorem sum_pay_fun (c : Dev nD) (t : Fin cfg6.N) :
    k6_pay4 (F := Ideal) (iblk6 V c 0 t) (iblk6 V c 1 t) (iblk6 V c 2 t) (iblk6 V c 3 t) (iblk6 V c 4 t)
      = fun j : S1x8x128.Idx => sumArr V c (ix3 (tileOf t) (j 1) (j 2)) := by
  rw [pay4_eq (iblk6 V c 0 t) (iblk6 V c 1 t) (iblk6 V c 2 t) (iblk6 V c 3 t) (iblk6 V c 4 t)]
  funext j
  unfold sumArr
  refine if_congr Iff.rfl (Finset.sum_congr rfl fun r _ => ?_) rfl
  exact tile_pay V c t r (j 2) (Cert.Tiles.row hN20 (tileOf t) r) (by show t.val * 5000 + r.val = 5000 * t.val + r.val; omega)

/-- The second statistics payload over the blocks at point t is block t of the squared column-sum array. -/
theorem sumsq_pay_fun (c : Dev nD) (t : Fin cfg6.N) :
    k6_pay1 (F := Ideal) (k6_pay5 (F := Ideal) (iblk6 V c 0 t) (iblk6 V c 1 t) (iblk6 V c 2 t) (iblk6 V c 3 t) (iblk6 V c 4 t))
      = fun j : S1x8x128.Idx => sumsqArr V c (ix3 (tileOf t) (j 1) (j 2)) := by
  rw [pay7_eq (iblk6 V c 0 t) (iblk6 V c 1 t) (iblk6 V c 2 t) (iblk6 V c 3 t) (iblk6 V c 4 t)]
  funext j
  unfold sumsqArr
  refine if_congr Iff.rfl (Finset.sum_congr rfl fun r _ => ?_) rfl
  have h := tile_pay V c t r (j 2) (Cert.Tiles.row hN20 (tileOf t) r) (by show t.val * 5000 + r.val = 5000 * t.val + r.val; omega)
  rw [h]

/-! ## What each point writes back, and the arrays after the region -/

/-- What point t writes back to the output window: block t of the output array. -/
theorem flushed5_eq (c : Dev nD) (t : Fin cfg6.N) :
    (dat6 V c).flushed 5 t = ((cfg6.win 5).blk t).view.read (Elt Ideal) (lin2Arr V c) := by
  show (cfg6.win 5).cut (grid6.coords t) ((dat6 V c).after 5 t) = _
  rw [after6_5]
  unfold out6_5
  rw [View.canon_unit_zero hz2]
  simp only [View.ld_unit_zero (S := S5000x128) hz2, View.ld_unit_zero (S := S128x128) hz2, View.ld_unit_zero (S := S1x128) hz2]
  rw [tile_pay_fun V c t]
  obtain ⟨-, -, -, -, -, -, -, -, -, -, e0, e1, -⟩ := idx_facts6 t
  funext j
  show lin2Arr V c (ix2 (Cert.Tiles.row hN20 (tileOf t) (j 0)) (j 1)) = lin2Arr V c (((cfg6.win 5).blk t).view.emb j)
  refine congrArg (lin2Arr V c) (funext fun a => Fin.ext ?_)
  match a with
  | ⟨0, _⟩ => show t.val * 5000 + (j 0).val = win6_5.index t (0 : Fin 2) * 5000 + 1 * (j 0).val; rw [e0]; omega
  | ⟨1, _⟩ => show (j 1).val = win6_5.index t (1 : Fin 2) * 128 + 1 * (j 1).val; rw [e1]; omega

/-- What point t writes back to the first statistics window: block t of the column-sum array. -/
theorem flushed6_eq (c : Dev nD) (t : Fin cfg6.N) :
    (dat6 V c).flushed 6 t = ((cfg6.win 6).blk t).view.read (Elt Ideal) (sumArr V c) := by
  show (cfg6.win 6).cut (grid6.coords t) ((dat6 V c).after 6 t) = _
  rw [after6_6]
  unfold out6_6
  rw [View.canon_unit_zero hz3]
  simp only [View.ld_unit_zero (S := S5000x128) hz2, View.ld_unit_zero (S := S128x128) hz2, View.ld_unit_zero (S := S1x128) hz2]
  rw [sum_pay_fun V c t]
  obtain ⟨-, -, -, -, -, -, -, -, -, -, -, -, e0, e1, e2, -⟩ := idx_facts6 t
  funext j
  show sumArr V c (ix3 (tileOf t) (j 1) (j 2)) = sumArr V c (((cfg6.win 6).blk t).view.emb j)
  refine congrArg (sumArr V c) (funext fun a => Fin.ext ?_)
  match a with
  | ⟨0, _⟩ => show t.val = win6_6.index t (0 : Fin 3) * 1 + 1 * (j 0).val; have hj : (j 0).val < 1 := (j 0).isLt; rw [e0]; omega
  | ⟨1, _⟩ => show (j 1).val = win6_6.index t (1 : Fin 3) * 8 + 1 * (j 1).val; rw [e1]; omega
  | ⟨2, _⟩ => show (j 2).val = win6_6.index t (2 : Fin 3) * 128 + 1 * (j 2).val; rw [e2]; omega

/-- What point t writes back to the second statistics window: block t of the squared column-sum array. -/
theorem flushed7_eq (c : Dev nD) (t : Fin cfg6.N) :
    (dat6 V c).flushed 7 t = ((cfg6.win 7).blk t).view.read (Elt Ideal) (sumsqArr V c) := by
  show (cfg6.win 7).cut (grid6.coords t) ((dat6 V c).after 7 t) = _
  rw [after6_7]
  unfold out6_7
  rw [View.canon_unit_zero hz3]
  simp only [View.ld_unit_zero (S := S5000x128) hz2, View.ld_unit_zero (S := S128x128) hz2, View.ld_unit_zero (S := S1x128) hz2]
  rw [sumsq_pay_fun V c t]
  obtain ⟨-, -, -, -, -, -, -, -, -, -, -, -, -, -, -, e0, e1, e2⟩ := idx_facts6 t
  funext j
  show sumsqArr V c (ix3 (tileOf t) (j 1) (j 2)) = sumsqArr V c (((cfg6.win 7).blk t).view.emb j)
  refine congrArg (sumsqArr V c) (funext fun a => Fin.ext ?_)
  match a with
  | ⟨0, _⟩ => show t.val = win6_7.index t (0 : Fin 3) * 1 + 1 * (j 0).val; have hj : (j 0).val < 1 := (j 0).isLt; rw [e0]; omega
  | ⟨1, _⟩ => show (j 1).val = win6_7.index t (1 : Fin 3) * 8 + 1 * (j 1).val; rw [e1]; omega
  | ⟨2, _⟩ => show (j 2).val = win6_7.index t (2 : Fin 3) * 128 + 1 * (j 2).val; rw [e2]; omega

/-- An index of the output array is in point t's block iff each coordinate is in the block's range on its axis. -/
theorem mem_blk5 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v203_0).slice (win6_5.rect t)).set ↔ _
  rw [View.set_slice_whole, Rect.mem_set_unit]
  exact Iff.rfl

theorem mem_blk6 (t : Fin cfg6.N) (i : S20x8x128.Idx) :
    i ∈ ((cfg6.win 6).blk t).view.set ↔ ∀ a : Fin 3, win6_6.index t a * S1x8x128.size a ≤ (i a).val ∧ (i a).val < win6_6.index t a * S1x8x128.size a + S1x8x128.size a := by
  show i ∈ ((View.whole main_v203_1).slice (win6_6.rect t)).set ↔ _
  rw [View.set_slice_whole, Rect.mem_set_unit]
  exact Iff.rfl

theorem mem_blk7 (t : Fin cfg6.N) (i : S20x8x128.Idx) :
    i ∈ ((cfg6.win 7).blk t).view.set ↔ ∀ a : Fin 3, win6_7.index t a * S1x8x128.size a ≤ (i a).val ∧ (i a).val < win6_7.index t a * S1x8x128.size a + S1x8x128.size a := by
  show i ∈ ((View.whole main_v203_2).slice (win6_7.rect t)).set ↔ _
  rw [View.set_slice_whole, Rect.mem_set_unit]
  exact Iff.rfl

/-- Row i lies in the block of point i / 5000. -/
theorem cover5 (i : S100000x128.Idx) : ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨-, -, -, -, -, -, -, -, -, -, e0, e1, -⟩ := idx_facts6 t
  have ht : t.val = (i 0).val / 5000 := rfl
  refine ⟨t, flush6_5 t, ?_⟩
  rw [mem_blk5]
  intro a
  match a with
  | ⟨0, _⟩ => show win6_5.index t (0 : Fin 2) * 5000 ≤ (i 0).val ∧ (i 0).val < win6_5.index t (0 : Fin 2) * 5000 + 5000; rw [e0, ht]; omega
  | ⟨1, _⟩ => show win6_5.index t (1 : Fin 2) * 128 ≤ (i 1).val ∧ (i 1).val < win6_5.index t (1 : Fin 2) * 128 + 128; rw [e1]; omega

/-- Tile i 0 of a statistics array is the block of point i 0. -/
theorem cover6 (i : S20x8x128.Idx) : ∃ t : Fin cfg6.N, (cfg6.win 6).flush t = true ∧ i ∈ ((cfg6.win 6).blk t).view.set := by
  have hi0 : (i 0).val < 20 := (i 0).isLt
  have hi1 : (i 1).val < 8 := (i 1).isLt
  have hi2 : (i 2).val < 128 := (i 2).isLt
  have hN : cfg6.N = 20 := N_6
  let t : Fin cfg6.N := ⟨(i 0).val, by rw [hN]; omega⟩
  obtain ⟨-, -, -, -, -, -, -, -, -, -, -, -, e0, e1, e2, -⟩ := idx_facts6 t
  have ht : t.val = (i 0).val := rfl
  refine ⟨t, flush6_6 t, ?_⟩
  rw [mem_blk6]
  intro a
  match a with
  | ⟨0, _⟩ => show win6_6.index t (0 : Fin 3) * 1 ≤ (i 0).val ∧ (i 0).val < win6_6.index t (0 : Fin 3) * 1 + 1; rw [e0, ht]; omega
  | ⟨1, _⟩ => show win6_6.index t (1 : Fin 3) * 8 ≤ (i 1).val ∧ (i 1).val < win6_6.index t (1 : Fin 3) * 8 + 8; rw [e1]; omega
  | ⟨2, _⟩ => show win6_6.index t (2 : Fin 3) * 128 ≤ (i 2).val ∧ (i 2).val < win6_6.index t (2 : Fin 3) * 128 + 128; rw [e2]; omega

theorem cover7 (i : S20x8x128.Idx) : ∃ t : Fin cfg6.N, (cfg6.win 7).flush t = true ∧ i ∈ ((cfg6.win 7).blk t).view.set := by
  have hi0 : (i 0).val < 20 := (i 0).isLt
  have hi1 : (i 1).val < 8 := (i 1).isLt
  have hi2 : (i 2).val < 128 := (i 2).isLt
  have hN : cfg6.N = 20 := N_6
  let t : Fin cfg6.N := ⟨(i 0).val, by rw [hN]; omega⟩
  obtain ⟨-, -, -, -, -, -, -, -, -, -, -, -, -, -, -, e0, e1, e2⟩ := idx_facts6 t
  have ht : t.val = (i 0).val := rfl
  refine ⟨t, flush6_7 t, ?_⟩
  rw [mem_blk7]
  intro a
  match a with
  | ⟨0, _⟩ => show win6_7.index t (0 : Fin 3) * 1 ≤ (i 0).val ∧ (i 0).val < win6_7.index t (0 : Fin 3) * 1 + 1; rw [e0, ht]; omega
  | ⟨1, _⟩ => show win6_7.index t (1 : Fin 3) * 8 ≤ (i 1).val ∧ (i 1).val < win6_7.index t (1 : Fin 3) * 8 + 8; rw [e1]; omega
  | ⟨2, _⟩ => show win6_7.index t (2 : Fin 3) * 128 ≤ (i 2).val ∧ (i 2).val < win6_7.index t (2 : Fin 3) * 128 + 128; rw [e2]; omega

/-- The output array after the region. -/
theorem final5 (c : Dev nD) : (dat6 V c).arrAt 5 cfg6.N = lin2Arr V c :=
  (dat6 V c).arrAt_eq_of_cover 5 (lin2Arr V c) (fun t _ => flushed5_eq V c t) (cover5)

/-- The column-sum array after the region. -/
theorem final6 (c : Dev nD) : (dat6 V c).arrAt 6 cfg6.N = sumArr V c :=
  (dat6 V c).arrAt_eq_of_cover 6 (sumArr V c) (fun t _ => flushed6_eq V c t) (cover6)

/-- The squared column-sum array after the region. -/
theorem final7 (c : Dev nD) : (dat6 V c).arrAt 7 cfg6.N = sumsqArr V c :=
  (dat6 V c).arrAt_eq_of_cover 7 (sumsqArr V c) (fun t _ => flushed7_eq V c t) (cover7)

end Cert.KernelIdeal.RegVal.Mlp6

namespace Cert.KernelIdeal.RegVal

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The region's outputs, entry by entry -/

/-- The region's result in the specification's terms: the two dense layers of the node array it finds in window 0,
    with the weights and bias rows it finds in windows 1 to 4. -/
abbrev mlp6_L (c : Dev nD) : Cert.Spec.Mat 100000 128 :=
  Cert.Spec.lin2F (Cert.Spec.toMat (a := 100000) (b := 128) (V c (Pipeline.arrRef spec6 0)))
    (Cert.Spec.toMat (a := 128) (b := 128) (V c (Pipeline.arrRef spec6 1)))
    (fun k => (V c (Pipeline.arrRef spec6 2) : S1x128.Idx → EReal) (ix2 (0 : Fin 1) k))
    (Cert.Spec.toMat (a := 128) (b := 128) (V c (Pipeline.arrRef spec6 3)))
    (fun k => (V c (Pipeline.arrRef spec6 4) : S1x128.Idx → EReal) (ix2 (0 : Fin 1) k))

/-- The layer's output array, entry by entry: the specification's two dense layers of the node array. -/
theorem mlp6_lin2 (c : Dev nD) (i : Fin 100000) (q : Fin 128) :
    (dat6 V c).arrAt 5 cfg6.N (ix2 i q) = mlp6_L V c i q := by
  rw [Mlp6.final5]
  rfl

/-- Row 0 of tile t of the first statistics array: the column sums of the output over the tile's rows; rows 1 to 7: zero. -/
theorem mlp6_sum (c : Dev nD) (t : Fin 20) (s : Fin 8) (q : Fin 128) :
    (dat6 V c).arrAt 6 cfg6.N (ix3 t s q)
      = if s.val = 0 then ∑ r : Fin 5000, mlp6_L V c (Cert.Tiles.row (by norm_num : 20 * 5000 = 100000) t r) q else 0 := by
  rw [Mlp6.final6]
  rfl

/-- Row 0 of tile t of the second statistics array: the column sums of the squared output; rows 1 to 7: zero. -/
theorem mlp6_sumsq (c : Dev nD) (t : Fin 20) (s : Fin 8) (q : Fin 128) :
    (dat6 V c).arrAt 7 cfg6.N (ix3 t s q)
      = if s.val = 0 then ∑ r : Fin 5000, mlp6_L V c (Cert.Tiles.row (by norm_num : 20 * 5000 = 100000) t r) q
          * mlp6_L V c (Cert.Tiles.row (by norm_num : 20 * 5000 = 100000) t r) q else 0 := by
  rw [Mlp6.final7]
  rfl

end Cert.KernelIdeal.RegVal

end
-- ==== Proof.RegionBn3.lean ====
/-
  The normalisation region number 3, read as one function of the arrays it finds.

  The region walks the 100000 rows of a 100000 x 128 array `L` in 20 blocks of 5000 rows; beside each block it
  holds the whole of two 1 x 128 rows, a scale `s` and a shift `h`.  At every entry of the block it multiplies by
  the scale of the entry's column, adds the shift of that column and takes the maximum with zero, and writes the block
  back at the same rows of the result.  Row `i` lies in block `i / 5000`, so the blocks fill the result, and the
  result is, entry by entry,

      out (i, q) = max (L (i, q) * s (0, q) + h (0, q)) 0 .

  The steps: the body's arithmetic at one entry of a block (`pay_apply`, `point_eq`); where the four windows' blocks
  sit, decided over the 20 points (`idx_facts`), and hence where an entry of a block sits in its array (`rows_emb`,
  `scale_emb`, `shift_emb`, and the loaded values `rows_val`, `scale_val`, `shift_val`); what one point writes back is that block of the function above (`flushed_eq`); every index
  is in the block of its row's quotient by 5000 (`cover`); hence the array (`arr_eq`, `bn3`).
-/
import proofs.«125584_j43164421324859_2_alg».proof.Proof.Gen.KernelIdeal.Frame
import proofs.«125584_j43164421324859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.ValueIdx Idealize.ShloMosaic.TcCoe Idealize.SL.Sem
open Idealize.ShloMosaic.Pipeline (Dat)

namespace Bn3

/-- The zero word of single precision is the extended real 0. -/
theorem zeroLit : (Scalar.ofBits (F := Ideal) .f32 0x00000000#32 : Ideal .f32) = 0 := Ideal.ofBits_zero_f32

/-- The body's arithmetic at entry `(r, q)` of a block: scale of column `q`, shift of column `q`, maximum with 0. -/
theorem pay_apply (x0 : Vec Ideal S5000x128 .f32) (x1 x2 : Vec Ideal S1x128 .f32) (r : Fin 5000) (q : Fin 128) :
    Gen.k3_pay1 (F := Ideal) x0 x1 x2 (ix2 r q)
      = max (x0 (ix2 r q) * x1 (ix2 (0 : Fin 1) q) + x2 (ix2 (0 : Fin 1) q)) 0 := by
  unfold Gen.k3_pay1
  simp only [maximumf_apply, addf_apply, mulf_apply, broadcast_apply, shapeCast_self]
  rw [broadcastTo_1b_ab_apply, broadcastTo_1b_ab_apply, zeroLit]

/-- The result as one function of the array `L`, the scale row `s` and the shift row `h`. -/
abbrev G (L : S100000x128.Idx → EReal) (s h : S1x128.Idx → EReal) : S100000x128.Idx → EReal := fun i =>
  max (L i * s (ix2 (0 : Fin 1) (i 1 : Fin 128)) + h (ix2 (0 : Fin 1) (i 1 : Fin 128))) 0

/-- The body's arithmetic at an entry `j` of a block is `G` at the array index `i` where that entry sits, once the
    three loaded values are the arrays' values there. -/
theorem point_eq (x0 : Vec Ideal S5000x128 .f32) (x1 x2 : Vec Ideal S1x128 .f32)
    (L : S100000x128.Idx → EReal) (s h : S1x128.Idx → EReal) (j : S5000x128.Idx) (i : S100000x128.Idx)
    (h0 : x0 j = L i)
    (h1 : x1 (ix2 (0 : Fin 1) (j 1 : Fin 128)) = s (ix2 (0 : Fin 1) (i 1 : Fin 128)))
    (h2 : x2 (ix2 (0 : Fin 1) (j 1 : Fin 128)) = h (ix2 (0 : Fin 1) (i 1 : Fin 128))) :
    Gen.k3_pay1 (F := Ideal) x0 x1 x2 j = G L s h i := by
  have e : Gen.k3_pay1 (F := Ideal) x0 x1 x2 j
      = max (x0 j * x1 (ix2 (0 : Fin 1) (j 1 : Fin 128)) + x2 (ix2 (0 : Fin 1) (j 1 : Fin 128))) 0 := by
    have hj : j = ix2 (j 0 : Fin 5000) (j 1 : Fin 128) := eq_ix2 j
    rw [hj]
    exact pay_apply x0 x1 x2 (j 0) (j 1)
  rw [e, h0, h1, h2]

theorem hz : (![0, 0] : Fin 2 → Nat) = fun _ => 0 := funext fun a => by fin_cases a <;> rfl

/-- Where the blocks sit, decided over the 20 points: the row windows at block `t` of the rows and block 0 of the
    columns, the two one-row windows at block 0 of both. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An entry of the input block sits at the same array index as that entry of the output block. -/
theorem rows_emb (t : Fin cfg3.N) (j : S5000x128.Idx) :
    ((cfg3.win 0).blk t).view.emb j = ((cfg3.win 3).blk t).view.emb j := by
  obtain ⟨e00, e01, e10, e11, e20, e21, e30, e31⟩ := idx_facts t
  funext a; apply Fin.ext
  match a with
  | ⟨0, _⟩ => show win3_0.index t (0 : Fin 2) * 5000 + 1 * (j 0).val = win3_3.index t (0 : Fin 2) * 5000 + 1 * (j 0).val; omega
  | ⟨1, _⟩ => show win3_0.index t (1 : Fin 2) * 128 + 1 * (j 1).val = win3_3.index t (1 : Fin 2) * 128 + 1 * (j 1).val; omega

/-- Entry `(0, q)` of the scale row's block sits at `(0, q')`, `q'` the column of the output block's entry. -/
theorem scale_emb (t : Fin cfg3.N) (j : S5000x128.Idx) :
    ((cfg3.win 1).blk t).view.emb (ix2 (0 : Fin 1) (j 1 : Fin 128))
      = (ix2 (0 : Fin 1) ((((cfg3.win 3).blk t).view.emb j) 1 : Fin 128) : S1x128.Idx) := by
  obtain ⟨e00, e01, e10, e11, e20, e21, e30, e31⟩ := idx_facts t
  funext a; apply Fin.ext
  match a with
  | ⟨0, _⟩ => show win3_1.index t (0 : Fin 2) * 1 + 1 * 0 = 0; omega
  | ⟨1, _⟩ => show win3_1.index t (1 : Fin 2) * 128 + 1 * (j 1).val = win3_3.index t (1 : Fin 2) * 128 + 1 * (j 1).val; omega

/-- The same for the shift row's block. -/
theorem shift_emb (t : Fin cfg3.N) (j : S5000x128.Idx) :
    ((cfg3.win 2).blk t).view.emb (ix2 (0 : Fin 1) (j 1 : Fin 128))
      = (ix2 (0 : Fin 1) ((((cfg3.win 3).blk t).view.emb j) 1 : Fin 128) : S1x128.Idx) := by
  obtain ⟨e00, e01, e10, e11, e20, e21, e30, e31⟩ := idx_facts t
  funext a; apply Fin.ext
  match a with
  | ⟨0, _⟩ => show win3_2.index t (0 : Fin 2) * 1 + 1 * 0 = 0; omega
  | ⟨1, _⟩ => show win3_2.index t (1 : Fin 2) * 128 + 1 * (j 1).val = win3_3.index t (1 : Fin 2) * 128 + 1 * (j 1).val; omega

variable (V : (c : Dev nD) → (b : Ref sig .tc) → Buf (Elt Ideal) ((c : Thread nD τ).loc b))

/-- The input block's entry `j` is the array's value where the output block's entry `j` sits. -/
theorem rows_val (c : Dev nD) (t : Fin cfg3.N) (j : S5000x128.Idx) :
    (iblk3 V c 0 t : Vec Ideal S5000x128 .f32) j
      = (V c (Pipeline.arrRef spec3 0) : S100000x128.Idx → EReal) (((cfg3.win 3).blk t).view.emb j) := by
  show V c (Pipeline.arrRef spec3 0) (((cfg3.win 0).blk t).view.emb j) = _
  rw [rows_emb t j]

/-- The scale block's entry `(0, q)` is the scale row's value at the column of the output block's entry. -/
theorem scale_val (c : Dev nD) (t : Fin cfg3.N) (j : S5000x128.Idx) :
    (iblk3 V c 1 t : Vec Ideal S1x128 .f32) (ix2 (0 : Fin 1) (j 1 : Fin 128))
      = (V c (Pipeline.arrRef spec3 1) : S1x128.Idx → EReal) (ix2 (0 : Fin 1) ((((cfg3.win 3).blk t).view.emb j) 1 : Fin 128)) := by
  show V c (Pipeline.arrRef spec3 1) (((cfg3.win 1).blk t).view.emb (ix2 (0 : Fin 1) (j 1 : Fin 128))) = _
  rw [scale_emb t j]

/-- The same for the shift block. -/
theorem shift_val (c : Dev nD) (t : Fin cfg3.N) (j : S5000x128.Idx) :
    (iblk3 V c 2 t : Vec Ideal S1x128 .f32) (ix2 (0 : Fin 1) (j 1 : Fin 128))
      = (V c (Pipeline.arrRef spec3 2) : S1x128.Idx → EReal) (ix2 (0 : Fin 1) ((((cfg3.win 3).blk t).view.emb j) 1 : Fin 128)) := by
  show V c (Pipeline.arrRef spec3 2) (((cfg3.win 2).blk t).view.emb (ix2 (0 : Fin 1) (j 1 : Fin 128))) = _
  rw [shift_emb t j]

set_option maxHeartbeats 1000000 in
/-- What point `t` writes back is block `t` of `G` of the arrays the region finds. -/
theorem flushed_eq (c : Dev nD) (t : Fin cfg3.N) :
    (dat3 (F := Ideal) V c).flushed 3 t = ((cfg3.win 3).blk t).view.read (Elt Ideal)
      (G (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S1x128) hz]
  refine funext fun (j : S5000x128.Idx) => ?_
  refine point_eq (iblk3 V c 0 t) (iblk3 V c 1 t) (iblk3 V c 2 t)
    (V c (Pipeline.arrRef spec3 0)) (V c (Pipeline.arrRef spec3 1)) (V c (Pipeline.arrRef spec3 2))
    j (((cfg3.win 3).blk t).view.emb j) (rows_val V c t j) (scale_val V c t j) (shift_val V c t j)

/-- An index of the result is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v120).slice (win3_3.rect t)).set ↔ _
  rw [View.set_slice_whole, Rect.mem_set_unit]
  exact Iff.rfl

/-- Every index is in the block of the quotient of its row by 5000. -/
theorem cover (i : S100000x128.Idx) :
    ∃ t : Fin cfg3.N, (cfg3.win 3).flush t = true ∧ i ∈ ((cfg3.win 3).blk t).view.set := by
  have hN : cfg3.N = 20 := N_3
  have hi0 : (i 0).val < 100000 := (i 0).isLt
  have hi1 : (i 1).val < 128 := (i 1).isLt
  have hlt : (i 0).val / 5000 < cfg3.N := by rw [hN]; omega
  obtain ⟨e00, e01, e10, e11, e20, e21, e30, e31⟩ := idx_facts ⟨(i 0).val / 5000, hlt⟩
  have e30' : win3_3.index ⟨(i 0).val / 5000, hlt⟩ (0 : Fin 2) = (i 0).val / 5000 := e30
  refine ⟨⟨(i 0).val / 5000, hlt⟩, flush3_3 _, ?_⟩
  rw [mem_blk]
  intro a
  match a with
  | ⟨0, _⟩ => show win3_3.index ⟨(i 0).val / 5000, hlt⟩ (0 : Fin 2) * 5000 ≤ (i 0).val ∧ (i 0).val < win3_3.index ⟨(i 0).val / 5000, hlt⟩ (0 : Fin 2) * 5000 + 5000; omega
  | ⟨1, _⟩ => show win3_3.index ⟨(i 0).val / 5000, hlt⟩ (1 : Fin 2) * 128 ≤ (i 1).val ∧ (i 1).val < win3_3.index ⟨(i 0).val / 5000, hlt⟩ (1 : Fin 2) * 128 + 128; omega

/-- The result array after the region is `G` of the arrays the region finds. -/
theorem arr_eq (c : Dev nD) : (dat3 (F := Ideal) V c).arrAt 3 cfg3.N
    = G (V c (Pipeline.arrRef spec3 0)) (V c (Pipeline.arrRef spec3 1)) (V c (Pipeline.arrRef spec3 2)) :=
  (dat3 (F := Ideal) V c).arrAt_eq_of_cover 3 _ (fun t _ => flushed_eq V c t) cover

end Bn3

/-- The result of normalisation region 3, entry by entry: `max (L (i, q) * s (0, q) + h (0, q)) 0`, the arrays
    read by row and column. -/
theorem bn3 (V : (c : Dev nD) → (b : Ref sig .tc) → Buf (Elt Ideal) ((c : Thread nD τ).loc b)) (c : Dev nD)
    (i : Fin 100000) (q : Fin 128) :
    Cert.Spec.toMat (a := 100000) (b := 128) ((Gen.dat3 (F := Ideal) V c).arrAt 3 cfg3.N) i q
      = max (Cert.Spec.toMat (a := 100000) (b := 128) (V c (Pipeline.arrRef spec3 0)) i q
            * Cert.Spec.toMat (a := 1) (b := 128) (V c (Pipeline.arrRef spec3 1)) (0 : Fin 1) q
          + Cert.Spec.toMat (a := 1) (b := 128) (V c (Pipeline.arrRef spec3 2)) (0 : Fin 1) q) 0 :=
  congrFun (Bn3.arr_eq V c) (ix2 i q)

end Cert.KernelIdeal.RegVal

end
-- ==== Proof.RegionBn5.lean ====
/-
  The normalisation region number 5, read as one function of the arrays it finds.

  The region walks the 100000 rows of a 100000 x 128 array `L` in 20 blocks of 5000 rows; beside each block it
  holds the whole of two 1 x 128 rows, a scale `s` and a shift `h`.  At every entry of the block it multiplies by
  the scale of the entry's column, adds the shift of that column and takes the maximum with zero, and writes the block
  back at the same rows of the result.  Row `i` lies in block `i / 5000`, so the blocks fill the result, and the
  result is, entry by entry,

      out (i, q) = max (L (i, q) * s (0, q) + h (0, q)) 0 .

  The steps: the body's arithmetic at one entry of a block (`pay_apply`, `point_eq`); where the four windows' blocks
  sit, decided over the 20 points (`idx_facts`), and hence where an entry of a block sits in its array (`rows_emb`,
  `scale_emb`, `shift_emb`, and the loaded values `rows_val`, `scale_val`, `shift_val`); what one point writes back is that block of the function above (`flushed_eq`); every index
  is in the block of its row's quotient by 5000 (`cover`); hence the array (`arr_eq`, `bn5`).
-/
import proofs.«125584_j43164421324859_2_alg».proof.Proof.Gen.KernelIdeal.Frame
import proofs.«125584_j43164421324859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.ValueIdx Idealize.ShloMosaic.TcCoe Idealize.SL.Sem
open Idealize.ShloMosaic.Pipeline (Dat)

namespace Bn5

/-- The zero word of single precision is the extended real 0. -/
theorem zeroLit : (Scalar.ofBits (F := Ideal) .f32 0x00000000#32 : Ideal .f32) = 0 := Ideal.ofBits_zero_f32

/-- The body's arithmetic at entry `(r, q)` of a block: scale of column `q`, shift of column `q`, maximum with 0. -/
theorem pay_apply (x0 : Vec Ideal S5000x128 .f32) (x1 x2 : Vec Ideal S1x128 .f32) (r : Fin 5000) (q : Fin 128) :
    Gen.k5_pay1 (F := Ideal) x0 x1 x2 (ix2 r q)
      = max (x0 (ix2 r q) * x1 (ix2 (0 : Fin 1) q) + x2 (ix2 (0 : Fin 1) q)) 0 := by
  unfold Gen.k5_pay1
  simp only [maximumf_apply, addf_apply, mulf_apply, broadcast_apply, shapeCast_self]
  rw [broadcastTo_1b_ab_apply, broadcastTo_1b_ab_apply, zeroLit]

/-- The result as one function of the array `L`, the scale row `s` and the shift row `h`. -/
abbrev G (L : S100000x128.Idx → EReal) (s h : S1x128.Idx → EReal) : S100000x128.Idx → EReal := fun i =>
  max (L i * s (ix2 (0 : Fin 1) (i 1 : Fin 128)) + h (ix2 (0 : Fin 1) (i 1 : Fin 128))) 0

/-- The body's arithmetic at an entry `j` of a block is `G` at the array index `i` where that entry sits, once the
    three loaded values are the arrays' values there. -/
theorem point_eq (x0 : Vec Ideal S5000x128 .f32) (x1 x2 : Vec Ideal S1x128 .f32)
    (L : S100000x128.Idx → EReal) (s h : S1x128.Idx → EReal) (j : S5000x128.Idx) (i : S100000x128.Idx)
    (h0 : x0 j = L i)
    (h1 : x1 (ix2 (0 : Fin 1) (j 1 : Fin 128)) = s (ix2 (0 : Fin 1) (i 1 : Fin 128)))
    (h2 : x2 (ix2 (0 : Fin 1) (j 1 : Fin 128)) = h (ix2 (0 : Fin 1) (i 1 : Fin 128))) :
    Gen.k5_pay1 (F := Ideal) x0 x1 x2 j = G L s h i := by
  have e : Gen.k5_pay1 (F := Ideal) x0 x1 x2 j
      = max (x0 j * x1 (ix2 (0 : Fin 1) (j 1 : Fin 128)) + x2 (ix2 (0 : Fin 1) (j 1 : Fin 128))) 0 := by
    have hj : j = ix2 (j 0 : Fin 5000) (j 1 : Fin 128) := eq_ix2 j
    rw [hj]
    exact pay_apply x0 x1 x2 (j 0) (j 1)
  rw [e, h0, h1, h2]

theorem hz : (![0, 0] : Fin 2 → Nat) = fun _ => 0 := funext fun a => by fin_cases a <;> rfl

/-- Where the blocks sit, decided over the 20 points: the row windows at block `t` of the rows and block 0 of the
    columns, the two one-row windows at block 0 of both. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- An entry of the input block sits at the same array index as that entry of the output block. -/
theorem rows_emb (t : Fin cfg5.N) (j : S5000x128.Idx) :
    ((cfg5.win 0).blk t).view.emb j = ((cfg5.win 3).blk t).view.emb j := by
  obtain ⟨e00, e01, e10, e11, e20, e21, e30, e31⟩ := idx_facts t
  funext a; apply Fin.ext
  match a with
  | ⟨0, _⟩ => show win5_0.index t (0 : Fin 2) * 5000 + 1 * (j 0).val = win5_3.index t (0 : Fin 2) * 5000 + 1 * (j 0).val; omega
  | ⟨1, _⟩ => show win5_0.index t (1 : Fin 2) * 128 + 1 * (j 1).val = win5_3.index t (1 : Fin 2) * 128 + 1 * (j 1).val; omega

/-- Entry `(0, q)` of the scale row's block sits at `(0, q')`, `q'` the column of the output block's entry. -/
theorem scale_emb (t : Fin cfg5.N) (j : S5000x128.Idx) :
    ((cfg5.win 1).blk t).view.emb (ix2 (0 : Fin 1) (j 1 : Fin 128))
      = (ix2 (0 : Fin 1) ((((cfg5.win 3).blk t).view.emb j) 1 : Fin 128) : S1x128.Idx) := by
  obtain ⟨e00, e01, e10, e11, e20, e21, e30, e31⟩ := idx_facts t
  funext a; apply Fin.ext
  match a with
  | ⟨0, _⟩ => show win5_1.index t (0 : Fin 2) * 1 + 1 * 0 = 0; omega
  | ⟨1, _⟩ => show win5_1.index t (1 : Fin 2) * 128 + 1 * (j 1).val = win5_3.index t (1 : Fin 2) * 128 + 1 * (j 1).val; omega

/-- The same for the shift row's block. -/
theorem shift_emb (t : Fin cfg5.N) (j : S5000x128.Idx) :
    ((cfg5.win 2).blk t).view.emb (ix2 (0 : Fin 1) (j 1 : Fin 128))
      = (ix2 (0 : Fin 1) ((((cfg5.win 3).blk t).view.emb j) 1 : Fin 128) : S1x128.Idx) := by
  obtain ⟨e00, e01, e10, e11, e20, e21, e30, e31⟩ := idx_facts t
  funext a; apply Fin.ext
  match a with
  | ⟨0, _⟩ => show win5_2.index t (0 : Fin 2) * 1 + 1 * 0 = 0; omega
  | ⟨1, _⟩ => show win5_2.index t (1 : Fin 2) * 128 + 1 * (j 1).val = win5_3.index t (1 : Fin 2) * 128 + 1 * (j 1).val; omega

variable (V : (c : Dev nD) → (b : Ref sig .tc) → Buf (Elt Ideal) ((c : Thread nD τ).loc b))

/-- The input block's entry `j` is the array's value where the output block's entry `j` sits. -/
theorem rows_val (c : Dev nD) (t : Fin cfg5.N) (j : S5000x128.Idx) :
    (iblk5 V c 0 t : Vec Ideal S5000x128 .f32) j
      = (V c (Pipeline.arrRef spec5 0) : S100000x128.Idx → EReal) (((cfg5.win 3).blk t).view.emb j) := by
  show V c (Pipeline.arrRef spec5 0) (((cfg5.win 0).blk t).view.emb j) = _
  rw [rows_emb t j]

/-- The scale block's entry `(0, q)` is the scale row's value at the column of the output block's entry. -/
theorem scale_val (c : Dev nD) (t : Fin cfg5.N) (j : S5000x128.Idx) :
    (iblk5 V c 1 t : Vec Ideal S1x128 .f32) (ix2 (0 : Fin 1) (j 1 : Fin 128))
      = (V c (Pipeline.arrRef spec5 1) : S1x128.Idx → EReal) (ix2 (0 : Fin 1) ((((cfg5.win 3).blk t).view.emb j) 1 : Fin 128)) := by
  show V c (Pipeline.arrRef spec5 1) (((cfg5.win 1).blk t).view.emb (ix2 (0 : Fin 1) (j 1 : Fin 128))) = _
  rw [scale_emb t j]

/-- The same for the shift block. -/
theorem shift_val (c : Dev nD) (t : Fin cfg5.N) (j : S5000x128.Idx) :
    (iblk5 V c 2 t : Vec Ideal S1x128 .f32) (ix2 (0 : Fin 1) (j 1 : Fin 128))
      = (V c (Pipeline.arrRef spec5 2) : S1x128.Idx → EReal) (ix2 (0 : Fin 1) ((((cfg5.win 3).blk t).view.emb j) 1 : Fin 128)) := by
  show V c (Pipeline.arrRef spec5 2) (((cfg5.win 2).blk t).view.emb (ix2 (0 : Fin 1) (j 1 : Fin 128))) = _
  rw [shift_emb t j]

set_option maxHeartbeats 1000000 in
/-- What point `t` writes back is block `t` of `G` of the arrays the region finds. -/
theorem flushed_eq (c : Dev nD) (t : Fin cfg5.N) :
    (dat5 (F := Ideal) V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero hz]
  simp only [View.ld_unit_zero (S := S5000x128) hz, View.ld_unit_zero (S := S1x128) hz]
  refine funext fun (j : S5000x128.Idx) => ?_
  refine point_eq (iblk5 V c 0 t) (iblk5 V c 1 t) (iblk5 V c 2 t)
    (V c (Pipeline.arrRef spec5 0)) (V c (Pipeline.arrRef spec5 1)) (V c (Pipeline.arrRef spec5 2))
    j (((cfg5.win 3).blk t).view.emb j) (rows_val V c t j) (scale_val V c t j) (shift_val V c t j)

/-- An index of the result is in point `t`'s block iff each coordinate is in the block's range on its axis. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v173).slice (win5_3.rect t)).set ↔ _
  rw [View.set_slice_whole, Rect.mem_set_unit]
  exact Iff.rfl

/-- Every index is in the block of the quotient of its row by 5000. -/
theorem cover (i : S100000x128.Idx) :
    ∃ t : Fin cfg5.N, (cfg5.win 3).flush t = true ∧ i ∈ ((cfg5.win 3).blk t).view.set := by
  have hN : cfg5.N = 20 := N_5
  have hi0 : (i 0).val < 100000 := (i 0).isLt
  have hi1 : (i 1).val < 128 := (i 1).isLt
  have hlt : (i 0).val / 5000 < cfg5.N := by rw [hN]; omega
  obtain ⟨e00, e01, e10, e11, e20, e21, e30, e31⟩ := idx_facts ⟨(i 0).val / 5000, hlt⟩
  have e30' : win5_3.index ⟨(i 0).val / 5000, hlt⟩ (0 : Fin 2) = (i 0).val / 5000 := e30
  refine ⟨⟨(i 0).val / 5000, hlt⟩, flush5_3 _, ?_⟩
  rw [mem_blk]
  intro a
  match a with
  | ⟨0, _⟩ => show win5_3.index ⟨(i 0).val / 5000, hlt⟩ (0 : Fin 2) * 5000 ≤ (i 0).val ∧ (i 0).val < win5_3.index ⟨(i 0).val / 5000, hlt⟩ (0 : Fin 2) * 5000 + 5000; omega
  | ⟨1, _⟩ => show win5_3.index ⟨(i 0).val / 5000, hlt⟩ (1 : Fin 2) * 128 ≤ (i 1).val ∧ (i 1).val < win5_3.index ⟨(i 0).val / 5000, hlt⟩ (1 : Fin 2) * 128 + 128; omega

/-- The result array after the region is `G` of the arrays the region finds. -/
theorem arr_eq (c : Dev nD) : (dat5 (F := Ideal) V c).arrAt 3 cfg5.N
    = G (V c (Pipeline.arrRef spec5 0)) (V c (Pipeline.arrRef spec5 1)) (V c (Pipeline.arrRef spec5 2)) :=
  (dat5 (F := Ideal) V c).arrAt_eq_of_cover 3 _ (fun t _ => flushed_eq V c t) cover

end Bn5

/-- The result of normalisation region 5, entry by entry: `max (L (i, q) * s (0, q) + h (0, q)) 0`, the arrays
    read by row and column. -/
theorem bn5 (V : (c : Dev nD) → (b : Ref sig .tc) → Buf (Elt Ideal) ((c : Thread nD τ).loc b)) (c : Dev nD)
    (i : Fin 100000) (q : Fin 128) :
    Cert.Spec.toMat (a := 100000) (b := 128) ((Gen.dat5 (F := Ideal) V c).arrAt 3 cfg5.N) i q
      = max (Cert.Spec.toMat (a := 100000) (b := 128) (V c (Pipeline.arrRef spec5 0)) i q
            * Cert.Spec.toMat (a := 1) (b := 128) (V c (Pipeline.arrRef spec5 1)) (0 : Fin 1) q
          + Cert.Spec.toMat (a := 1) (b := 128) (V c (Pipeline.arrRef spec5 2)) (0 : Fin 1) q) 0 :=
  congrFun (Bn5.arr_eq V c) (ix2 i q)

end Cert.KernelIdeal.RegVal

end
-- ==== Proof.RegionBn7.lean ====
/-
  The normalisation region number 7, read as one function of the arrays it finds.

  The region walks the 100000 rows of a 100000 x 128 array `L` in 20 blocks of 5000 rows; beside each block it
  holds the whole of two 1 x 128 rows, a scale `s` and a shift `h`.  At every entry of the block it multiplies by
  the scale of the entry's column, adds the shift of that column and takes the maximum with zero, and writes the block
  back at the same rows of the result.  Row `i` lies in block `i / 5000`, so the blocks fill the result, and the
  result is, entry by entry,

      out (i, q) = max (L (i, q) * s (0, q) + h (0, q)) 0 .

  The steps: the body's arithmetic at one entry of a block (`pay_apply`, `point_eq`); where the four windows' blocks
  sit, decided over the 20 points (`idx_facts`), and hence where an entry of a block sits in its array (`rows_emb`,
  `scale_emb`, `shift_emb`, and the loaded values `rows_val`, `scale_val`, `shift_val`); what one point writes back is that block of the function above (`flushed_eq`); every index
  is in the block of its row's quotient by 5000 (`cover`); hence the array (`arr_eq`, `bn7`).
-/
import proofs.«125584_j43164421324859_2_alg».proof.Proof.Gen.KernelIdeal.Frame
import proofs.«125584_j43164421324859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.ValueIdx Idealize.ShloMosaic.TcCoe Idealize.SL.Sem
open Idealize.ShloMosaic.Pipeline (Dat)

namespace Bn7

/-- The zero word of single precision is the extended real 0. -/
theorem zeroLit : (Scalar.ofBits (F := Ideal) .f32 0x00000000#32 : Ideal .f32) = 0 := Ideal.ofBits_zero_f32

/-- The body's arithmetic at entry `(r, q)` of a block: scale of column `q`, shift of column `q`, maximum with 0. -/
theorem pay_apply (x0 : Vec Ideal S5000x128 .f32) (x1 x2 : Vec Ideal S1x128 .f32) (r : Fin 5000) (q : Fin 128) :
    Gen.k7_pay1 (F := Ideal) x0 x1 x2 (ix2 r q)
      = max (x0 (ix2 r q) * x1 (ix2 (0 : Fin 1) q) + x2 (ix2 (0 : Fin 1) q)) 0 := by
  unfold Gen.k7_pay1
  simp only [maximumf_apply, addf_apply, mulf_apply, broadcast_apply, shapeCast_self]
  rw [broadcastTo_1b_ab_apply, broadcastTo_1b_ab_apply, zeroLit]

/-- The result as one function of the array `L`, the scale row `s` and the shift row `h`. -/
abbrev G (L : S100000x128.Idx → EReal) (s h : S1x128.Idx → EReal) : S100000x128.Idx → EReal := fun i =>
  max (L i * s (ix2 (0 : Fin 1) (i 1 : Fin 128)) + h (ix2 (0 : Fin 1) (i 1 : Fin 128))) 0

/-- The body's arithmetic at an entry `j` of a block is `G` at the array index `i` where that entry sits, once the
    three loaded values are the arrays' values there. -/
theorem point_eq (x0 : Vec Ideal S5000x128 .f32) (x1 x2 : Vec Ideal S1x128 .f32)
    (L : S100000x128.Idx → EReal) (s h : S1x128.Idx → EReal) (j : S5000x128.Idx) (i : S100000x128.Idx)
    (h0 : x0 j = L i)
    (h1 : x1 (ix2 (0 : Fin 1) (j 1 : Fin 128)) = s (ix2 (0 : Fin 1) (i 1 : Fin 128)))
    (h2 : x2 (ix2 (0 : Fin 1) (j 1 : Fin 128)) = h (ix2 (0 : Fin 1) (i 1 : Fin 128))) :
    Gen.k7_pay1 (F := Ideal) x0 x1 x2 j = G L s h i := by
  have e : Gen.k7_pay1 (F := Ideal) x0 x1 x2 j
      = max (x0 j * x1 (ix2 (0 : Fin 1) (j 1 : Fin 128)) + x2 (ix2 (0 : Fin 1) (j 1 : Fin 128))) 0 := by
    have hj : j = ix2 (j 0 : Fin 5000) (j 1 : Fin 128) := eq_ix2 j
    rw [hj]
    exact pay_apply x0 x1 x2 (j 0) (j 1)
  rw [e, h0, h1, h2]

theorem hz : (![0, 0] : Fin 2 → Nat) = fun _ => 0 := funext fun a => by fin_cases a <;> rfl

/-- Where the blocks sit, decided over the 20 points: the row windows at block `t` of the rows and block 0 of the
    columns, the two one-row windows at block 0 of both. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- An entry of the input block sits at the same array index as that entry of the output block. -/
theorem rows_emb (t : Fin cfg7.N) (j : S5000x128.Idx) :
    ((cfg7.win 0).blk t).view.emb j = ((cfg7.win 3).blk t).view.emb j := by
  obtain ⟨e00, e01, e10, e11, e20, e21, e30, e31⟩ := idx_facts t
  funext a; apply Fin.ext
  match a with
  | ⟨0, _⟩ => show win7_0.index t (0 : Fin 2) * 5000 + 1 * (j 0).val = win7_3.index t (0 : Fin 2) * 5000 + 1 * (j 0).val; omega
  | ⟨1, _⟩ => show win7_0.index t (1 : Fin 2) * 128 + 1 * (j 1).val = win7_3.index t (1 : Fin 2) * 128 + 1 * (j 1).val; omega

/-- Entry `(0, q)` of the scale row's block sits at `(0, q')`, `q'` the column of the output block's entry. -/
theorem scale_emb (t : Fin cfg7.N) (j : S5000x128.Idx) :
    ((cfg7.win 1).blk t).view.emb (ix2 (0 : Fin 1) (j 1 : Fin 128))
      = (ix2 (0 : Fin 1) ((((cfg7.win 3).blk t).view.emb j) 1 : Fin 128) : S1x128.Idx) := by
  obtain ⟨e00, e01, e10, e11, e20, e21, e30, e31⟩ := idx_facts t
  funext a; apply Fin.ext
  match a with
  | ⟨0, _⟩ => show win7_1.index t (0 : Fin 2) * 1 + 1 * 0 = 0; omega
  | ⟨1, _⟩ => show win7_1.index t (1 : Fin 2) * 128 + 1 * (j 1).val = win7_3.index t (1 : Fin 2) * 128 + 1 * (j 1).val; omega

/-- The same for the shift row's block. -/
theorem shift_emb (t : Fin cfg7.N) (j : S5000x128.Idx) :
    ((cfg7.win 2).blk t).view.emb (ix2 (0 : Fin 1) (j 1 : Fin 128))
      = (ix2 (0 : Fin 1) ((((cfg7.win 3).blk t).view.emb j) 1 : Fin 128) : S1x128.Idx) := by
  obtain ⟨e00, e01, e10, e11, e20, e21, e30, e31⟩ := idx_facts t
  funext a; apply Fin.ext
  match a with
  | ⟨0, _⟩ => show win7_2.index t (0 : Fin 2) * 1 + 1 * 0 = 0; omega
  | ⟨1, _⟩ => show win7_2.index t (1 : Fin 2) * 128 + 1 * (j 1).val = win7_3.index t (1 : Fin 2) * 128 + 1 * (j 1).val; omega

variable (V : (c : Dev nD) → (b : Ref sig .tc) → Buf (Elt Ideal) ((c : Thread nD τ).loc b))

/-- The input block's entry `j` is the array's value where the output block's entry `j` sits. -/
theorem rows_val (c : Dev nD) (t : Fin cfg7.N) (j : S5000x128.Idx) :
    (iblk7 V c 0 t : Vec Ideal S5000x128 .f32) j
      = (V c (Pipeline.arrRef spec7 0) : S100000x128.Idx → EReal) (((cfg7.win 3).blk t).view.emb j) := by
  show V c (Pipeline.arrRef spec7 0) (((cfg7.win 0).blk t).view.emb j) = _
  rw [rows_emb t j]

/-- The scale block's entry `(0, q)` is the scale row's value at the column of the output block's entry. -/
theorem scale_val (c : Dev nD) (t : Fin cfg7.N) (j : S5000x128.Idx) :
    (iblk7 V c 1 t : Vec Ideal S1x128 .f32) (ix2 (0 : Fin 1) (j 1 : Fin 128))
      = (V c (Pipeline.arrRef spec7 1) : S1x128.Idx → EReal) (ix2 (0 : Fin 1) ((((cfg7.win 3).blk t).view.emb j) 1 : Fin 128)) := by
  show V c (Pipeline.arrRef spec7 1) (((cfg7.win 1).blk t).view.emb (ix2 (0 : Fin 1) (j 1 : Fin 128))) = _
  rw [scale_emb t j]

/-- The same for the shift block. -/
theorem shift_val (c : Dev nD) (t : Fin cfg7.N) (j : S5000x128.Idx) :
    (iblk7 V c 2 t : Vec Ideal S1x128 .f32) (ix2 (0 : Fin 1) (j 1 : Fin 128))
      = (V c (Pipeline.arrRef spec7 2) : S1x128.Idx → EReal) (ix2 (0 : Fin 1) ((((cfg7.win 3).blk t).view.emb j) 1 : Fin 128)) := by
  show V c (Pipeline.arrRef spec7 2) (((cfg7.win 2).blk t).view.emb (ix2 (0 : Fin 1) (j 1 : Fin 128))) = _
  rw [shift_emb t j]

set_option maxHeartbeats 1000000 in
/-- What point `t` writes back is block `t` of `G` of the arrays the region finds. -/
theorem flushed_eq (c : Dev nD) (t : Fin cfg7.N) :
    (dat7 (F := Ideal) V c).flushed 3 t = ((cfg7.win 3).blk t).view.read (Elt Ideal)
      (G (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7_3
  rw [View.canon_unit_zero hz]
  simp only [View.ld_unit_zero (S := S5000x128) hz, View.ld_unit_zero (S := S1x128) hz]
  refine funext fun (j : S5000x128.Idx) => ?_
  refine point_eq (iblk7 V c 0 t) (iblk7 V c 1 t) (iblk7 V c 2 t)
    (V c (Pipeline.arrRef spec7 0)) (V c (Pipeline.arrRef spec7 1)) (V c (Pipeline.arrRef spec7 2))
    j (((cfg7.win 3).blk t).view.emb j) (rows_val V c t j) (scale_val V c t j) (shift_val V c t j)

/-- An index of the result is in point `t`'s block iff each coordinate is in the block's range on its axis. -/
theorem mem_blk (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v226).slice (win7_3.rect t)).set ↔ _
  rw [View.set_slice_whole, Rect.mem_set_unit]
  exact Iff.rfl

/-- Every index is in the block of the quotient of its row by 5000. -/
theorem cover (i : S100000x128.Idx) :
    ∃ t : Fin cfg7.N, (cfg7.win 3).flush t = true ∧ i ∈ ((cfg7.win 3).blk t).view.set := by
  have hN : cfg7.N = 20 := N_7
  have hi0 : (i 0).val < 100000 := (i 0).isLt
  have hi1 : (i 1).val < 128 := (i 1).isLt
  have hlt : (i 0).val / 5000 < cfg7.N := by rw [hN]; omega
  obtain ⟨e00, e01, e10, e11, e20, e21, e30, e31⟩ := idx_facts ⟨(i 0).val / 5000, hlt⟩
  have e30' : win7_3.index ⟨(i 0).val / 5000, hlt⟩ (0 : Fin 2) = (i 0).val / 5000 := e30
  refine ⟨⟨(i 0).val / 5000, hlt⟩, flush7_3 _, ?_⟩
  rw [mem_blk]
  intro a
  match a with
  | ⟨0, _⟩ => show win7_3.index ⟨(i 0).val / 5000, hlt⟩ (0 : Fin 2) * 5000 ≤ (i 0).val ∧ (i 0).val < win7_3.index ⟨(i 0).val / 5000, hlt⟩ (0 : Fin 2) * 5000 + 5000; omega
  | ⟨1, _⟩ => show win7_3.index ⟨(i 0).val / 5000, hlt⟩ (1 : Fin 2) * 128 ≤ (i 1).val ∧ (i 1).val < win7_3.index ⟨(i 0).val / 5000, hlt⟩ (1 : Fin 2) * 128 + 128; omega

/-- The result array after the region is `G` of the arrays the region finds. -/
theorem arr_eq (c : Dev nD) : (dat7 (F := Ideal) V c).arrAt 3 cfg7.N
    = G (V c (Pipeline.arrRef spec7 0)) (V c (Pipeline.arrRef spec7 1)) (V c (Pipeline.arrRef spec7 2)) :=
  (dat7 (F := Ideal) V c).arrAt_eq_of_cover 3 _ (fun t _ => flushed_eq V c t) cover

end Bn7

/-- The result of normalisation region 7, entry by entry: `max (L (i, q) * s (0, q) + h (0, q)) 0`, the arrays
    read by row and column. -/
theorem bn7 (V : (c : Dev nD) → (b : Ref sig .tc) → Buf (Elt Ideal) ((c : Thread nD τ).loc b)) (c : Dev nD)
    (i : Fin 100000) (q : Fin 128) :
    Cert.Spec.toMat (a := 100000) (b := 128) ((Gen.dat7 (F := Ideal) V c).arrAt 3 cfg7.N) i q
      = max (Cert.Spec.toMat (a := 100000) (b := 128) (V c (Pipeline.arrRef spec7 0)) i q
            * Cert.Spec.toMat (a := 1) (b := 128) (V c (Pipeline.arrRef spec7 1)) (0 : Fin 1) q
          + Cert.Spec.toMat (a := 1) (b := 128) (V c (Pipeline.arrRef spec7 2)) (0 : Fin 1) q) 0 :=
  congrFun (Bn7.arr_eq V c) (ix2 i q)

end Cert.KernelIdeal.RegVal

end
-- ==== Proof.RegionFc8.lean ====
/-
  The three-dense-layer region, read as one function of the arrays it finds.

  The region has one grid point and holds every array whole: a 64 x 128 matrix `p`, weights `w1` (128 x 128),
  `w2` (128 x 64), `w3` (64 x 10) and one-row biases `c1`, `c2`, `c3`.  Its body forms three matrix products, each
  into a zero accumulator, adds the bias row after each and takes the maximum with zero after the first two; the
  changes of number format in between are the identity on extended reals.  A matrix product into a zero accumulator
  is, entry by entry, the sum over the contracted coordinate of the products of the entries, so the result is

      out = dense (relu (dense (relu (dense p w1 c1)) w2 c2)) w3 c3 ,   dense x W b (g, k) = (∑ j, x (g, j) * W (j, k)) + b k .

  The steps: one layer and one rectifier at an entry (`layer_apply`, `relu_apply`); the body's arithmetic at an entry
  (`pay_apply`); every window's one block is its whole array (`idx_facts`, `iblk_w`); what the one point writes back
  is the function above (`flushed_eq`); its block is the whole result (`cover`); hence the array (`arr_eq`, `fc8`).
-/
import proofs.«125584_j43164421324859_2_alg».proof.Proof.Gen.KernelIdeal.Frame
import proofs.«125584_j43164421324859_2_alg».proof.Proof.Spec
import proofs.«125584_j43164421324859_2_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.ValueIdx Idealize.ShloMosaic.TcCoe Idealize.SL.Sem
open Idealize.ShloMosaic.Pipeline (Dat)

namespace Fc8

/-- The zero word of single precision is the extended real 0. -/
theorem zeroLit : (Scalar.ofBits (F := Ideal) .f32 0x00000000#32 : Ideal .f32) = 0 := Ideal.ofBits_zero_f32

/-- One dense layer at an entry: a matrix product into the zero accumulator plus a broadcast bias row is the
    row-times-matrix sum plus the bias entry. -/
theorem layer_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .bf16) (X : Spec.Mat M K) (hx : ∀ g j, x (ix2 g j) = X g j)
    (w : FVec Ideal ⟨2, ![K, N]⟩ .f32) (hw : FTy.bf16.bits < FTy.f32.bits)
    (b : FVec Ideal ⟨2, ![1, N]⟩ .f32) (hb : (⟨2, ![1, N]⟩ : Shape).Broadcasts ⟨2, ![M, N]⟩) (g : Fin M) (k : Fin N) :
    addf (matmul d none x (truncf .bf16 w hw) (constant (F := Ideal) ⟨2, ![M, N]⟩ .f32 0x00000000#32))
        (broadcastTo ⟨2, ![M, N]⟩ b hb) (ix2 g k)
      = Spec.dense X (Spec.toMat w) (fun i => b (ix2 (0 : Fin 1) i)) g k := by
  rw [addf_apply, broadcastTo_1b_ab_apply]
  refine congrArg (· + b (ix2 (0 : Fin 1) k)) ?_
  refine (Cert.LibDot.matmul_zero_plain_apply d hlc hrc hln hrn hlb hrb none x (truncf .bf16 w hw) (ix2 g k)).trans ?_
  exact Finset.sum_congr rfl fun j _ => congrArg (· * w (ix2 j k)) (hx g j)

/-- The rectifier against a broadcast zero word, narrowed, at an entry. -/
theorem relu_apply {M N : ℕ} (y : FVec Ideal ⟨2, ![M, N]⟩ .f32) (Y : Spec.Mat M N) (hy : ∀ g j, y (ix2 g j) = Y g j)
    (h : FTy.bf16.bits < FTy.f32.bits) (g : Fin M) (j : Fin N) :
    (truncf .bf16 (maximumf y (broadcast ⟨2, ![M, N]⟩ (Scalar.ofBits (F := Ideal) .f32 0x00000000#32))) h
        : FVec Ideal ⟨2, ![M, N]⟩ .bf16) (ix2 g j) = Spec.reluM Y g j := by
  rw [truncf_apply, maximumf_apply, broadcast_apply, zeroLit, hy]
  rfl

/-- The body's arithmetic at entry `(g, k)`: the three layers of the blocks it loaded. -/
theorem pay_apply (p : Vec Ideal S64x128 .f32) (w1 : Vec Ideal S128x128 .f32) (c1 : Vec Ideal S1x128 .f32)
    (w2 : Vec Ideal S128x64 .f32) (c2 : Vec Ideal S1x64 .f32) (w3 : Vec Ideal S64x10 .f32) (c3 : Vec Ideal S1x10 .f32)
    (g : Fin 64) (k : Fin 10) :
    Gen.k8_pay1 (F := Ideal) p w1 c1 w2 c2 w3 c3 (ix2 g k)
      = Spec.headF (Spec.toMat p) (Spec.toMat w1) (fun i => c1 (ix2 (0 : Fin 1) i)) (Spec.toMat w2)
          (fun i => c2 (ix2 (0 : Fin 1) i)) (Spec.toMat w3) (fun i => c3 (ix2 (0 : Fin 1) i)) g k := by
  unfold Gen.k8_pay1
  simp only [shapeCast_self]
  refine layer_apply _ rfl rfl rfl rfl rfl rfl _ _ (fun g j => ?_) _ _ _ _ g k
  refine relu_apply _ _ (fun g j => ?_) _ g j
  refine layer_apply _ rfl rfl rfl rfl rfl rfl _ _ (fun g j => ?_) _ _ _ _ g j
  refine relu_apply _ _ (fun g j => ?_) _ g j
  refine layer_apply _ rfl rfl rfl rfl rfl rfl _ _ (fun g j => ?_) _ _ _ _ g j
  rfl

/-- The same at an index given with its two coordinates named, the loaded blocks given as the arrays they equal. -/
theorem pay_at (x0 : Vec Ideal S64x128 .f32) (x1 : Vec Ideal S128x128 .f32) (x2 : Vec Ideal S1x128 .f32)
    (x3 : Vec Ideal S128x64 .f32) (x4 : Vec Ideal S1x64 .f32) (x5 : Vec Ideal S64x10 .f32) (x6 : Vec Ideal S1x10 .f32)
    (a0 : S64x128.Idx → EReal) (a1 : S128x128.Idx → EReal) (a2 : S1x128.Idx → EReal) (a3 : S128x64.Idx → EReal)
    (a4 : S1x64.Idx → EReal) (a5 : S64x10.Idx → EReal) (a6 : S1x10.Idx → EReal)
    (h0 : x0 = a0) (h1 : x1 = a1) (h2 : x2 = a2) (h3 : x3 = a3) (h4 : x4 = a4) (h5 : x5 = a5) (h6 : x6 = a6)
    (y : S64x10.Idx) (g : Fin 64) (k : Fin 10) (hy : y = ix2 g k) :
    Gen.k8_pay1 (F := Ideal) x0 x1 x2 x3 x4 x5 x6 y
      = Spec.headF (Spec.toMat a0) (Spec.toMat a1) (fun i => a2 (ix2 (0 : Fin 1) i)) (Spec.toMat a3)
          (fun i => a4 (ix2 (0 : Fin 1) i)) (Spec.toMat a5) (fun i => a6 (ix2 (0 : Fin 1) i)) g k := by
  subst h0 h1 h2 h3 h4 h5 h6 hy
  exact pay_apply x0 x1 x2 x3 x4 x5 x6 g k

theorem hz : (![0, 0] : Fin 2 → Nat) = fun _ => 0 := funext fun a => by fin_cases a <;> rfl

variable (V : (c : Dev nD) → (b : Ref sig .tc) → Buf (Elt Ideal) ((c : Thread nD τ).loc b))

/-- The result as one function of the seven arrays the region finds. -/
abbrev G (c : Dev nD) : S64x10.Idx → EReal := fun i =>
  Spec.headF (Spec.toMat (V c (Pipeline.arrRef spec8 0) : S64x128.Idx → EReal))
    (Spec.toMat (V c (Pipeline.arrRef spec8 1) : S128x128.Idx → EReal))
    (fun q => (V c (Pipeline.arrRef spec8 2) : S1x128.Idx → EReal) (ix2 (0 : Fin 1) q))
    (Spec.toMat (V c (Pipeline.arrRef spec8 3) : S128x64.Idx → EReal))
    (fun q => (V c (Pipeline.arrRef spec8 4) : S1x64.Idx → EReal) (ix2 (0 : Fin 1) q))
    (Spec.toMat (V c (Pipeline.arrRef spec8 5) : S64x10.Idx → EReal))
    (fun q => (V c (Pipeline.arrRef spec8 6) : S1x10.Idx → EReal) (ix2 (0 : Fin 1) q))
    (i 0 : Fin 64) (i 1 : Fin 10)

/-- Every window's block at the one point is block 0 on both axes. -/
theorem idx_facts : ∀ t : Fin cfg8.N,
    win8_0.index t (0 : Fin 2) = 0
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0
    ∧ win8_7.index t (0 : Fin 2) = 0
    ∧ win8_7.index t (1 : Fin 2) = 0 :=
  (by decide +kernel : ∀ t : Fin grid8.N, _)

/-- Window 0 holds the whole of its array at the one point. -/
theorem iblk_0 (c : Dev nD) (t : Fin cfg8.N) :
    (iblk8 V c 0 t : Vec Ideal S64x128 .f32) = (V c (Pipeline.arrRef spec8 0) : S64x128.Idx → EReal) := by
  obtain ⟨e00, e01, e10, e11, e20, e21, e30, e31, e40, e41, e50, e51, e60, e61, e70, e71⟩ := idx_facts t
  funext x
  show V c (Pipeline.arrRef spec8 0) (((cfg8.win 0).blk t).view.emb x) = V c (Pipeline.arrRef spec8 0) x
  refine congrArg _ ?_
  funext a; apply Fin.ext
  match a with
  | ⟨0, _⟩ => show win8_0.index t (0 : Fin 2) * 64 + 1 * (x 0).val = (x 0).val; omega
  | ⟨1, _⟩ => show win8_0.index t (1 : Fin 2) * 128 + 1 * (x 1).val = (x 1).val; omega

/-- Window 1 holds the whole of its array at the one point. -/
theorem iblk_1 (c : Dev nD) (t : Fin cfg8.N) :
    (iblk8 V c 1 t : Vec Ideal S128x128 .f32) = (V c (Pipeline.arrRef spec8 1) : S128x128.Idx → EReal) := by
  obtain ⟨e00, e01, e10, e11, e20, e21, e30, e31, e40, e41, e50, e51, e60, e61, e70, e71⟩ := idx_facts t
  funext x
  show V c (Pipeline.arrRef spec8 1) (((cfg8.win 1).blk t).view.emb x) = V c (Pipeline.arrRef spec8 1) x
  refine congrArg _ ?_
  funext a; apply Fin.ext
  match a with
  | ⟨0, _⟩ => show win8_1.index t (0 : Fin 2) * 128 + 1 * (x 0).val = (x 0).val; omega
  | ⟨1, _⟩ => show win8_1.index t (1 : Fin 2) * 128 + 1 * (x 1).val = (x 1).val; omega

/-- Window 2 holds the whole of its array at the one point. -/
theorem iblk_2 (c : Dev nD) (t : Fin cfg8.N) :
    (iblk8 V c 2 t : Vec Ideal S1x128 .f32) = (V c (Pipeline.arrRef spec8 2) : S1x128.Idx → EReal) := by
  obtain ⟨e00, e01, e10, e11, e20, e21, e30, e31, e40, e41, e50, e51, e60, e61, e70, e71⟩ := idx_facts t
  funext x
  show V c (Pipeline.arrRef spec8 2) (((cfg8.win 2).blk t).view.emb x) = V c (Pipeline.arrRef spec8 2) x
  refine congrArg _ ?_
  funext a; apply Fin.ext
  match a with
  | ⟨0, _⟩ => show win8_2.index t (0 : Fin 2) * 1 + 1 * (x 0).val = (x 0).val; omega
  | ⟨1, _⟩ => show win8_2.index t (1 : Fin 2) * 128 + 1 * (x 1).val = (x 1).val; omega

/-- Window 3 holds the whole of its array at the one point. -/
theorem iblk_3 (c : Dev nD) (t : Fin cfg8.N) :
    (iblk8 V c 3 t : Vec Ideal S128x64 .f32) = (V c (Pipeline.arrRef spec8 3) : S128x64.Idx → EReal) := by
  obtain ⟨e00, e01, e10, e11, e20, e21, e30, e31, e40, e41, e50, e51, e60, e61, e70, e71⟩ := idx_facts t
  funext x
  show V c (Pipeline.arrRef spec8 3) (((cfg8.win 3).blk t).view.emb x) = V c (Pipeline.arrRef spec8 3) x
  refine congrArg _ ?_
  funext a; apply Fin.ext
  match a with
  | ⟨0, _⟩ => show win8_3.index t (0 : Fin 2) * 128 + 1 * (x 0).val = (x 0).val; omega
  | ⟨1, _⟩ => show win8_3.index t (1 : Fin 2) * 64 + 1 * (x 1).val = (x 1).val; omega

/-- Window 4 holds the whole of its array at the one point. -/
theorem iblk_4 (c : Dev nD) (t : Fin cfg8.N) :
    (iblk8 V c 4 t : Vec Ideal S1x64 .f32) = (V c (Pipeline.arrRef spec8 4) : S1x64.Idx → EReal) := by
  obtain ⟨e00, e01, e10, e11, e20, e21, e30, e31, e40, e41, e50, e51, e60, e61, e70, e71⟩ := idx_facts t
  funext x
  show V c (Pipeline.arrRef spec8 4) (((cfg8.win 4).blk t).view.emb x) = V c (Pipeline.arrRef spec8 4) x
  refine congrArg _ ?_
  funext a; apply Fin.ext
  match a with
  | ⟨0, _⟩ => show win8_4.index t (0 : Fin 2) * 1 + 1 * (x 0).val = (x 0).val; omega
  | ⟨1, _⟩ => show win8_4.index t (1 : Fin 2) * 64 + 1 * (x 1).val = (x 1).val; omega

/-- Window 5 holds the whole of its array at the one point. -/
theorem iblk_5 (c : Dev nD) (t : Fin cfg8.N) :
    (iblk8 V c 5 t : Vec Ideal S64x10 .f32) = (V c (Pipeline.arrRef spec8 5) : S64x10.Idx → EReal) := by
  obtain ⟨e00, e01, e10, e11, e20, e21, e30, e31, e40, e41, e50, e51, e60, e61, e70, e71⟩ := idx_facts t
  funext x
  show V c (Pipeline.arrRef spec8 5) (((cfg8.win 5).blk t).view.emb x) = V c (Pipeline.arrRef spec8 5) x
  refine congrArg _ ?_
  funext a; apply Fin.ext
  match a with
  | ⟨0, _⟩ => show win8_5.index t (0 : Fin 2) * 64 + 1 * (x 0).val = (x 0).val; omega
  | ⟨1, _⟩ => show win8_5.index t (1 : Fin 2) * 10 + 1 * (x 1).val = (x 1).val; omega

/-- Window 6 holds the whole of its array at the one point. -/
theorem iblk_6 (c : Dev nD) (t : Fin cfg8.N) :
    (iblk8 V c 6 t : Vec Ideal S1x10 .f32) = (V c (Pipeline.arrRef spec8 6) : S1x10.Idx → EReal) := by
  obtain ⟨e00, e01, e10, e11, e20, e21, e30, e31, e40, e41, e50, e51, e60, e61, e70, e71⟩ := idx_facts t
  funext x
  show V c (Pipeline.arrRef spec8 6) (((cfg8.win 6).blk t).view.emb x) = V c (Pipeline.arrRef spec8 6) x
  refine congrArg _ ?_
  funext a; apply Fin.ext
  match a with
  | ⟨0, _⟩ => show win8_6.index t (0 : Fin 2) * 1 + 1 * (x 0).val = (x 0).val; omega
  | ⟨1, _⟩ => show win8_6.index t (1 : Fin 2) * 10 + 1 * (x 1).val = (x 1).val; omega

/-- What the one point writes back is (the one block of) `G`. -/
theorem flushed_eq (c : Dev nD) (t : Fin cfg8.N) :
    (dat8 (F := Ideal) V c).flushed 7 t = ((cfg8.win 7).blk t).view.read (Elt Ideal) (G V c) := by
  show (cfg8.win 7).cut (grid8.coords t) ((dat8 (F := Ideal) V c).after 7 t) = _
  rw [after8_7]
  unfold out8_7
  rw [View.canon_unit_zero hz]
  simp only [View.ld_unit_zero (S := S64x128) hz, View.ld_unit_zero (S := S128x128) hz, View.ld_unit_zero (S := S1x128) hz,
    View.ld_unit_zero (S := S128x64) hz, View.ld_unit_zero (S := S1x64) hz, View.ld_unit_zero (S := S64x10) hz,
    View.ld_unit_zero (S := S1x10) hz]
  obtain ⟨e00, e01, e10, e11, e20, e21, e30, e31, e40, e41, e50, e51, e60, e61, e70, e71⟩ := idx_facts t
  refine funext fun (j : S64x10.Idx) => ?_
  refine (pay_at (iblk8 V c 0 t) (iblk8 V c 1 t) (iblk8 V c 2 t) (iblk8 V c 3 t) (iblk8 V c 4 t) (iblk8 V c 5 t) (iblk8 V c 6 t)
    (V c (Pipeline.arrRef spec8 0)) (V c (Pipeline.arrRef spec8 1)) (V c (Pipeline.arrRef spec8 2)) (V c (Pipeline.arrRef spec8 3))
    (V c (Pipeline.arrRef spec8 4)) (V c (Pipeline.arrRef spec8 5)) (V c (Pipeline.arrRef spec8 6))
    (iblk_0 V c t) (iblk_1 V c t) (iblk_2 V c t) (iblk_3 V c t) (iblk_4 V c t) (iblk_5 V c t) (iblk_6 V c t)
    j (j 0) (j 1) (eq_ix2 j)).trans ?_
  have h7 : ((cfg8.win 7).blk t).view.emb j = j := by
    funext a; apply Fin.ext
    match a with
    | ⟨0, _⟩ => show win8_7.index t (0 : Fin 2) * 64 + 1 * (j 0).val = (j 0).val; omega
    | ⟨1, _⟩ => show win8_7.index t (1 : Fin 2) * 10 + 1 * (j 1).val = (j 1).val; omega
  show _ = G V c (((cfg8.win 7).blk t).view.emb j)
  rw [h7]

/-- An index of the result is in point `t`'s block iff each coordinate is in the block's range on its axis. -/
theorem mem_blk (t : Fin cfg8.N) (i : S64x10.Idx) :
    i ∈ ((cfg8.win 7).blk t).view.set ↔ ∀ a : Fin 2, win8_7.index t a * S64x10.size a ≤ (i a).val ∧ (i a).val < win8_7.index t a * S64x10.size a + S64x10.size a := by
  show i ∈ ((View.whole main_v233).slice (win8_7.rect t)).set ↔ _
  rw [View.set_slice_whole, Rect.mem_set_unit]
  exact Iff.rfl

/-- Every index is in the one point's block. -/
theorem cover (i : S64x10.Idx) :
    ∃ t : Fin cfg8.N, (cfg8.win 7).flush t = true ∧ i ∈ ((cfg8.win 7).blk t).view.set := by
  have hN : cfg8.N = 1 := N_8
  have hi0 : (i 0).val < 64 := (i 0).isLt
  have hi1 : (i 1).val < 10 := (i 1).isLt
  let t : Fin cfg8.N := ⟨0, by rw [hN]; omega⟩
  obtain ⟨e00, e01, e10, e11, e20, e21, e30, e31, e40, e41, e50, e51, e60, e61, e70, e71⟩ := idx_facts t
  refine ⟨t, flush8_7 t, ?_⟩
  rw [mem_blk]
  intro a
  match a with
  | ⟨0, _⟩ => show win8_7.index t (0 : Fin 2) * 64 ≤ (i 0).val ∧ (i 0).val < win8_7.index t (0 : Fin 2) * 64 + 64; omega
  | ⟨1, _⟩ => show win8_7.index t (1 : Fin 2) * 10 ≤ (i 1).val ∧ (i 1).val < win8_7.index t (1 : Fin 2) * 10 + 10; omega

/-- The result array after the region is `G` of the arrays the region finds. -/
theorem arr_eq (c : Dev nD) : (dat8 (F := Ideal) V c).arrAt 7 cfg8.N = G V c :=
  (dat8 (F := Ideal) V c).arrAt_eq_of_cover 7 (G V c) (fun t _ => flushed_eq V c t) cover

end Fc8

/-- The result of the three-dense-layer region, entry by entry. -/
theorem fc8 (V : (c : Dev nD) → (b : Ref sig .tc) → Buf (Elt Ideal) ((c : Thread nD τ).loc b)) (c : Dev nD)
    (g : Fin 64) (k : Fin 10) :
    (Gen.dat8 (F := Ideal) V c).arrAt 7 cfg8.N (ix2 g k)
      = Cert.Spec.headF (Cert.Spec.toMat (V c (Pipeline.arrRef spec8 0))) (Cert.Spec.toMat (V c (Pipeline.arrRef spec8 1)))
          (fun i => (V c (Pipeline.arrRef spec8 2)) (ix2 (0 : Fin 1) i)) (Cert.Spec.toMat (V c (Pipeline.arrRef spec8 3)))
          (fun i => (V c (Pipeline.arrRef spec8 4)) (ix2 (0 : Fin 1) i)) (Cert.Spec.toMat (V c (Pipeline.arrRef spec8 5)))
          (fun i => (V c (Pipeline.arrRef spec8 6)) (ix2 (0 : Fin 1) i)) g k :=
  congrFun (Fc8.arr_eq V c) (ix2 g k)

end Cert.KernelIdeal.RegVal

end
-- ==== Proof.TailRead.lean ====
/-
  The end of the reference computation, read entry by entry.

  After the last layer the reference adds the node rows of every graph into a 64 x 128 array of zeros (a row
  scatter-add whose row index is the node's graph id, read signed) and passes the result through three dense layers,
  a rectifier after the first two.  Read at an entry: the scatter-add is the zero it starts from plus the sum of the
  rows whose id is the graph; a matrix product is the sum over the contracted coordinate; a bias spread first to a
  1 x b row and then down the rows reads the bias at the column; the rectifier is the maximum with the spread zero.
  Nothing here needs finiteness.
-/
import proofs.«125584_j43164421324859_2_alg».proof.Proof.RefTerms
import proofs.«125584_j43164421324859_2_alg».proof.Proof.Spec
import proofs.«125584_j43164421324859_2_alg».proof.Proof.LibDot
import proofs.«125584_j43164421324859_2_alg».proof.Proof.LibBcast
import proofs.«125584_j43164421324859_2_alg».proof.Proof.LibScatter
import Idealize.ShloMosaic.PureOps.Ideal.Laws
import Idealize.ShloMosaic.Lib.ValueIdx
import Idealize.ShloMosaic.Lib.Pipeline.Value

noncomputable section

namespace Cert.TailRead

open Idealize.ShloMosaic Idealize.ShloMosaic.ValueIdx Cert.ReferenceIdeal Cert.ReferenceIdeal.RefTerms Cert.Spec
open Cert.ReferenceIdeal.Facts₀

/-- A vector broadcast to a column reads, at (i, u), the vector at i. -/
theorem col_apply {α : Type} {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  have hi : i.val < a := i.isLt
  exact broadcastInDim_apply ![0] h1 v (ix2 i u) (ix1 i) (by
    intro d
    match d with
    | ⟨0, _⟩ =>
      show i.val = if a = 1 then 0 else i.val
      split
      · omega
      · rfl)

/-- The rectifier as the program writes it: the maximum with the spread zero word. -/
theorem relu_read {a b : ℕ} (x : FVec Ideal ⟨2, ![a, b]⟩ .f32)
    (h : (⟨0, ![]⟩ : Shape).BroadcastsInDim ⟨2, ![a, b]⟩ (![] : Fin 0 → Fin 2)) :
    toMat (maximumf x (broadcastInDim ⟨2, ![a, b]⟩ ![] h (constant (F := Ideal) ⟨0, ![]⟩ .f32 0x00000000#32)))
      = reluM (toMat x) := by
  funext g k
  show maximumf x (broadcastInDim ⟨2, ![a, b]⟩ ![] h (constant (F := Ideal) ⟨0, ![]⟩ .f32 0x00000000#32)) (ix2 g k)
    = max (x (ix2 g k)) 0
  rw [maximumf_apply, Cert.LibBcast.scalar_apply, constant_apply, Ideal.ofBits_zero_f32]

/-- A dense layer as the program writes it: the matrix product plus the bias spread to a row and down the rows. -/
theorem dense_read {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : FVec Ideal ⟨2, ![M, K]⟩ .f32) (W : FVec Ideal ⟨2, ![K, N]⟩ .f32) (bias : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    toMat (addf (Host.dotGeneral (F := Ideal) d none p W)
        (broadcastInDim ⟨2, ![M, N]⟩ ![0, 1] h2 (broadcastInDim ⟨2, ![1, N]⟩ ![1] h1 bias)))
      = dense (toMat p) (toMat W) (toVec bias) := by
  funext g k
  show addf (Host.dotGeneral (F := Ideal) d none p W)
        (broadcastInDim ⟨2, ![M, N]⟩ ![0, 1] h2 (broadcastInDim ⟨2, ![1, N]⟩ ![1] h1 bias)) (ix2 g k)
    = (∑ j : Fin K, p (ix2 g j) * W (ix2 j k)) + bias (ix1 k)
  rw [addf_apply, Cert.LibBcast.cols_apply]
  refine congrArg (· + bias (ix1 k)) ?_
  exact Cert.LibDot.dotGeneral_plain_apply d hlc hrc hln hrn hlb hrb none .single p W (ix2 g k)

variable [Cert.ReferenceIdeal.Facts₀]

/-- The pooling: entry (g, q) is the sum of the entries (i, q) of the nodes i whose graph id, read signed, is g. -/
theorem pool_read (h : FVec Ideal Cert.ReferenceIdeal.S100000x128 .f32) (batch : IVec Cert.ReferenceIdeal.S100000 32) :
    toMat (poolT h batch) = poolF (toMat h) (fun i => batch (ix1 i)) := by
  funext g q
  show poolT h batch (ix2 g q)
    = ∑ i : Fin 100000, if (batch (ix1 i)).toInt = (g.val : Int) then h (ix2 i q) else 0
  unfold poolT
  rw [Cert.LibScatter.scatterAdd_rows_apply _ rfl rfl rfl rfl, Cert.LibBcast.scalar_apply, constant_apply,
    Ideal.ofBits_zero_f32, zero_add]
  refine Finset.sum_congr rfl fun i _ => ?_
  rw [col_apply]

/-- The three dense layers, a rectifier after the first two. -/
theorem head_read (p : FVec Ideal Cert.ReferenceIdeal.S64x128 .f32) (fcw1 : FVec Ideal Cert.ReferenceIdeal.S128x128 .f32)
    (fcb1 : FVec Ideal Cert.ReferenceIdeal.S128 .f32) (fcw2 : FVec Ideal Cert.ReferenceIdeal.S128x64 .f32)
    (fcb2 : FVec Ideal Cert.ReferenceIdeal.S64 .f32) (fcw3 : FVec Ideal Cert.ReferenceIdeal.S64x10 .f32)
    (fcb3 : FVec Ideal Cert.ReferenceIdeal.S10 .f32) :
    toMat (headT p fcw1 fcb1 fcw2 fcb2 fcw3 fcb3)
      = headF (toMat p) (toMat fcw1) (toVec fcb1) (toMat fcw2) (toVec fcb2) (toMat fcw3) (toVec fcb3) := by
  unfold headT headF
  rw [dense_read _ rfl rfl rfl rfl rfl rfl, relu_read, dense_read _ rfl rfl rfl rfl rfl rfl, relu_read,
    dense_read _ rfl rfl rfl rfl rfl rfl]

/-- The end of the reference: pooling, then the three dense layers. -/
theorem tail_read (h : FVec Ideal Cert.ReferenceIdeal.S100000x128 .f32) (batch : IVec Cert.ReferenceIdeal.S100000 32)
    (fcw1 : FVec Ideal Cert.ReferenceIdeal.S128x128 .f32) (fcb1 : FVec Ideal Cert.ReferenceIdeal.S128 .f32)
    (fcw2 : FVec Ideal Cert.ReferenceIdeal.S128x64 .f32) (fcb2 : FVec Ideal Cert.ReferenceIdeal.S64 .f32)
    (fcw3 : FVec Ideal Cert.ReferenceIdeal.S64x10 .f32) (fcb3 : FVec Ideal Cert.ReferenceIdeal.S10 .f32) :
    Cert.Spec.toMat (Cert.ReferenceIdeal.RefTerms.tailT h batch fcw1 fcb1 fcw2 fcb2 fcw3 fcb3)
      = Cert.Spec.headF (Cert.Spec.poolF (Cert.Spec.toMat h) (fun i => batch (ValueIdx.ix1 i))) (Cert.Spec.toMat fcw1)
          (Cert.Spec.toVec fcb1) (Cert.Spec.toMat fcw2) (Cert.Spec.toVec fcb2) (Cert.Spec.toMat fcw3)
          (Cert.Spec.toVec fcb3) := by
  unfold tailT
  rw [head_read, pool_read]

end Cert.TailRead

end
-- ==== Proof.Final.lean ====
/-
  The two programs compute the same function.

  Both standardise the node features, apply the same four graph layers and end with the same pooling and three dense
  layers; they differ in two places per layer.  One wraps a negative target id before scattering while the other
  scatters on the raw ids: with every target id non-negative the wrap is the identity.  And one normalises with the
  centred variance while the other uses the sums of the values and of their squares, folded into a scale and a shift:
  on real entries the two are one function, and the entries are real because the inputs are finite and no input
  column is constant (so the standardisation divides by a positive real).  The comparison is carried layer by layer:
  equal real features going in give equal real features coming out.
-/
import proofs.«125584_j43164421324859_2_alg».proof.Defs
import proofs.«125584_j43164421324859_2_alg».proof.Proof.Spec
import proofs.«125584_j43164421324859_2_alg».proof.Proof.Bridge
import proofs.«125584_j43164421324859_2_alg».proof.Proof.Glue
import proofs.«125584_j43164421324859_2_alg».proof.Proof.Chain
import proofs.«125584_j43164421324859_2_alg».proof.Proof.PreFacts
import proofs.«125584_j43164421324859_2_alg».proof.Proof.KerCarryB
import proofs.«125584_j43164421324859_2_alg».proof.Proof.LibLayer
import proofs.«125584_j43164421324859_2_alg».proof.Proof.RefTerms
import proofs.«125584_j43164421324859_2_alg».proof.Proof.RefRead
import proofs.«125584_j43164421324859_2_alg».proof.Proof.Gen.ReferenceIdeal
import proofs.«125584_j43164421324859_2_alg».proof.Proof.Gen.KernelIdeal.Frame
import proofs.«125584_j43164421324859_2_alg».proof.Proof.KerStd
import proofs.«125584_j43164421324859_2_alg».proof.Proof.KerLayer0
import proofs.«125584_j43164421324859_2_alg».proof.Proof.KerLayer1
import proofs.«125584_j43164421324859_2_alg».proof.Proof.KerLayer2
import proofs.«125584_j43164421324859_2_alg».proof.Proof.KerLayer3
import proofs.«125584_j43164421324859_2_alg».proof.Proof.KerTail
import proofs.«125584_j43164421324859_2_alg».proof.Proof.RegionMlp0
import proofs.«125584_j43164421324859_2_alg».proof.Proof.RegionMlp2
import proofs.«125584_j43164421324859_2_alg».proof.Proof.RegionMlp4
import proofs.«125584_j43164421324859_2_alg».proof.Proof.RegionMlp6
import proofs.«125584_j43164421324859_2_alg».proof.Proof.RegionBn1
import proofs.«125584_j43164421324859_2_alg».proof.Proof.RegionBn3
import proofs.«125584_j43164421324859_2_alg».proof.Proof.RegionBn5
import proofs.«125584_j43164421324859_2_alg».proof.Proof.RegionBn7
import proofs.«125584_j43164421324859_2_alg».proof.Proof.RegionFc8
import proofs.«125584_j43164421324859_2_alg».proof.Proof.TailRead
import proofs.«125584_j43164421324859_2_alg».proof.Proof.RefRun

noncomputable section

namespace Cert.Final

open Idealize.ShloMosaic Idealize.ShloMosaic.ValueIdx
open Cert.Spec Cert.Bridge Cert.Glue

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- One layer of the comparison, on arrays: if the two programs enter the layer with the same real features, one
    leaves it in the folded form over its gathered rows and the other in the centred form over its own, then they
    leave it with the same features, real again.  The gathered rows are the same array because the source ids are
    wrapped by the same operations in both programs. -/
theorem layer_step
    (HK TR : (⟨2, ![100000, 128]⟩ : Shape).Idx → EReal) (e : toMat HK = toMat TR) (r : RealM (toMat HK))
    (A1 : IVec (⟨2, ![2, 1600000]⟩ : Shape) 32) (ope : EReal) (hope : ∃ x : ℝ, ope = (x : EReal))
    (W1 : Mat 128 128) (hW1 : RealM W1) (b1 : Fin 128 → EReal) (hb1 : RealV b1)
    (W2 : Mat 128 128) (hW2 : RealM W2) (b2 g bt : Fin 128 → EReal) (hb2 : RealV b2) (hg : RealV g) (hbt : RealV bt)
    (OK OR : (⟨2, ![100000, 128]⟩ : Shape).Idx → EReal)
    (K : toMat OK = layerKerF ope (toMat HK)
          (toMat (a := 1600000) (b := 128) (Cert.KernelIdeal.KerVal.gathered (F := Ideal) HK A1))
          (fun j => A1 (ix2 (1 : Fin 2) j)) W1 b1 W2 b2 g bt)
    (R : toMat OR = layerRefF ope (toMat TR)
          (toMat (a := 1600000) (b := 128)
            (Host.gather Cert.ReferenceIdeal.gather_S100000x128_S1600000x1_S1600000x128_1_0_n_n_0_1_1128 TR
              (Cert.ReferenceIdeal.RefTerms.srcIdxT A1)))
          (fun j => A1 (ix2 (1 : Fin 2) j)) W1 b1 W2 b2 g bt) :
    toMat OK = toMat OR ∧ RealM (toMat OK) := by
  obtain rfl : HK = TR := toMat_inj e
  have hreal : RealF HK := RealF.of_toMat r
  have hu : toMat (a := 1600000) (b := 128) (Cert.KernelIdeal.KerVal.gathered (F := Ideal) HK A1)
      = toMat (a := 1600000) (b := 128)
          (Host.gather Cert.ReferenceIdeal.gather_S100000x128_S1600000x1_S1600000x128_1_0_n_n_0_1_1128 HK
            (Cert.ReferenceIdeal.RefTerms.srcIdxT A1)) := rfl
  have hur : RealM (toMat (a := 1600000) (b := 128) (Cert.KernelIdeal.KerVal.gathered (F := Ideal) HK A1)) :=
    fun _ _ => hreal _
  exact Cert.Chain.step ope hope (toMat HK) (toMat HK) rfl r _ _ hu hur _ W1 hW1 b1 hb1 W2 hW2 b2 g bt hb2 hg hbt
    (toMat OK) (toMat OR) K R

section
open Cert.KernelIdeal Idealize.ShloMosaic.TcCoe Idealize.SL.Sem

variable (m : (ℓ : Loc nD τ sig) → Buf (Elt Ideal) ℓ) (ρ : Dev nD → PrngReg)

/-- Under the precondition the reference's result term of the argument arrays is what the kernel program leaves in
    its result buffer. -/
theorem out_eq (hpre : Cert.Pre_KernelIdeal m) (c : Dev nD) :
    Cert.ReferenceIdeal.HandRun.outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      = Gen.W20 m ρ c (Proc.devRef .tc main_v233) := by
  obtain ⟨hx, hW1, hb1, hW2, hb2, hg, hbt, hep, -, -, -, -, -, -, hdst, hvar⟩ :=
    Cert.PreFacts.decode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (hpre c)
  -- the standardised features
  have K0 := KerVal.std_value m ρ c
  have R0 := Cert.ReferenceIdeal.RefRead.std_read (m ((c : Thread nD τ).loc main_arg0))
  have e0 : toMat (Gen.W3 m ρ c (Proc.devRef .tc main_v10)) = toMat (Cert.ReferenceIdeal.RefTerms.stdT (m ((c : Thread nD τ).loc main_arg0))) := K0.trans R0.symm
  have r0 : RealM (toMat (Gen.W3 m ρ c (Proc.devRef .tc main_v10))) := by rw [K0]; exact Cert.Bridge.std_real _ (RealF.toMat hx) hvar

  -- layer 0
  have K1 := (KerVal.layer0 m ρ c (RegVal.mlp0_lin2 (Gen.V3 m ρ) c) (RegVal.mlp0_sum (Gen.V3 m ρ) c) (RegVal.mlp0_sumsq (Gen.V3 m ρ) c) (RegVal.bn1 (Gen.V5 m ρ) c) hdst)
  have R1 := Cert.ReferenceIdeal.RefRead.layer_read (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))
  have hope0 : ∃ x : ℝ, Cert.Spec.oneLit + ((m ((c : Thread nD τ).loc main_arg9)) : S4.Idx → EReal) (ix1 (0 : Fin 4)) = (x : EReal) :=
    real_add ⟨1, Cert.Bridge.oneLit_eq⟩ (hep _)
  have eps0 : (Cert.ReferenceIdeal.RefTerms.epsT ![0] Cert.ReferenceIdeal.Facts₀.slices_S4_S1_0 (m ((c : Thread nD τ).loc main_arg9))) ix0 = ((m ((c : Thread nD τ).loc main_arg9)) : S4.Idx → EReal) (ix1 (0 : Fin 4)) :=
    Cert.LibLayer.scalar_piece_apply 0 (by norm_num) (m ((c : Thread nD τ).loc main_arg9)) _ _
  rw [eps0] at R1
  obtain ⟨e1, r1⟩ := layer_step (Gen.W3 m ρ c (Proc.devRef .tc main_v10)) (Cert.ReferenceIdeal.RefTerms.stdT (m ((c : Thread nD τ).loc main_arg0))) e0 r0 (m ((c : Thread nD τ).loc main_arg1)) _ hope0
    _ (RealF.toMat (RealF.shapeCast (RealF.slice hW1 _ _ _) _ _)) _ (RealF.toVec (RealF.shapeCast (RealF.slice hb1 _ _ _) _ _))
    _ (RealF.toMat (RealF.shapeCast (RealF.slice hW2 _ _ _) _ _)) _ _ _ (RealF.toVec (RealF.shapeCast (RealF.slice hb2 _ _ _) _ _))
    (RealF.toVec (RealF.shapeCast (RealF.slice hg _ _ _) _ _)) (RealF.toVec (RealF.shapeCast (RealF.slice hbt _ _ _) _ _))
    (Gen.W6 m ρ c (Proc.devRef .tc main_v67)) (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) K1 R1

  -- layer 1
  have K2 := (KerVal.layer1 m ρ c (RegVal.mlp2_lin2 (Gen.V7 m ρ) c) (RegVal.mlp2_sum (Gen.V7 m ρ) c) (RegVal.mlp2_sumsq (Gen.V7 m ρ) c) (RegVal.bn3 (Gen.V9 m ρ) c) hdst)
  have R2 := Cert.ReferenceIdeal.RefRead.layer_read (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))
  have hope1 : ∃ x : ℝ, Cert.Spec.oneLit + ((m ((c : Thread nD τ).loc main_arg9)) : S4.Idx → EReal) (ix1 (1 : Fin 4)) = (x : EReal) :=
    real_add ⟨1, Cert.Bridge.oneLit_eq⟩ (hep _)
  have eps1 : (Cert.ReferenceIdeal.RefTerms.epsT ![1] Cert.ReferenceIdeal.Facts₀.slices_S4_S1_1 (m ((c : Thread nD τ).loc main_arg9))) ix0 = ((m ((c : Thread nD τ).loc main_arg9)) : S4.Idx → EReal) (ix1 (1 : Fin 4)) :=
    Cert.LibLayer.scalar_piece_apply 1 (by norm_num) (m ((c : Thread nD τ).loc main_arg9)) _ _
  rw [eps1] at R2
  obtain ⟨e2, r2⟩ := layer_step (Gen.W6 m ρ c (Proc.devRef .tc main_v67)) (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) e1 r1 (m ((c : Thread nD τ).loc main_arg1)) _ hope1
    _ (RealF.toMat (RealF.shapeCast (RealF.slice hW1 _ _ _) _ _)) _ (RealF.toVec (RealF.shapeCast (RealF.slice hb1 _ _ _) _ _))
    _ (RealF.toMat (RealF.shapeCast (RealF.slice hW2 _ _ _) _ _)) _ _ _ (RealF.toVec (RealF.shapeCast (RealF.slice hb2 _ _ _) _ _))
    (RealF.toVec (RealF.shapeCast (RealF.slice hg _ _ _) _ _)) (RealF.toVec (RealF.shapeCast (RealF.slice hbt _ _ _) _ _))
    (Gen.W10 m ρ c (Proc.devRef .tc main_v120)) (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) K2 R2

  -- layer 2
  have K3 := (KerVal.layer2 m ρ c (RegVal.mlp4_lin2 (Gen.V11 m ρ) c) (RegVal.mlp4_sum (Gen.V11 m ρ) c) (RegVal.mlp4_sumsq (Gen.V11 m ρ) c) (RegVal.bn5 (Gen.V13 m ρ) c) hdst)
  have R3 := Cert.ReferenceIdeal.RefRead.layer_read (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) (m ((c : Thread nD τ).loc main_arg1)) (Cert.ReferenceIdeal.RefTerms.epsT ![2] Cert.ReferenceIdeal.Facts₀.slices_S4_S1_2 (m ((c : Thread nD τ).loc main_arg9))) (Cert.ReferenceIdeal.RefTerms.w1T ![2, 0, 0] Cert.ReferenceIdeal.Facts₀.slices_S4x128x128_S1x128x128_2_0_0 (m ((c : Thread nD τ).loc main_arg3))) (Cert.ReferenceIdeal.RefTerms.b1T ![2, 0] Cert.ReferenceIdeal.Facts₀.slices_S4x128_S1x128_2_0 (m ((c : Thread nD τ).loc main_arg4))) (Cert.ReferenceIdeal.RefTerms.w2T ![2, 0, 0] Cert.ReferenceIdeal.Facts₀.slices_S4x128x128_S1x128x128_2_0_0 (m ((c : Thread nD τ).loc main_arg5))) (Cert.ReferenceIdeal.RefTerms.b2T ![2, 0] Cert.ReferenceIdeal.Facts₀.slices_S4x128_S1x128_2_0 (m ((c : Thread nD τ).loc main_arg6))) (Cert.ReferenceIdeal.RefTerms.gT ![2, 0] Cert.ReferenceIdeal.Facts₀.slices_S4x128_S1x128_2_0 (m ((c : Thread nD τ).loc main_arg7))) (Cert.ReferenceIdeal.RefTerms.btT ![2, 0] Cert.ReferenceIdeal.Facts₀.slices_S4x128_S1x128_2_0 (m ((c : Thread nD τ).loc main_arg8)))
  have hope2 : ∃ x : ℝ, Cert.Spec.oneLit + ((m ((c : Thread nD τ).loc main_arg9)) : S4.Idx → EReal) (ix1 (2 : Fin 4)) = (x : EReal) :=
    real_add ⟨1, Cert.Bridge.oneLit_eq⟩ (hep _)
  have eps2 : (Cert.ReferenceIdeal.RefTerms.epsT ![2] Cert.ReferenceIdeal.Facts₀.slices_S4_S1_2 (m ((c : Thread nD τ).loc main_arg9))) ix0 = ((m ((c : Thread nD τ).loc main_arg9)) : S4.Idx → EReal) (ix1 (2 : Fin 4)) :=
    Cert.LibLayer.scalar_piece_apply 2 (by norm_num) (m ((c : Thread nD τ).loc main_arg9)) _ _
  rw [eps2] at R3
  obtain ⟨e3, r3⟩ := layer_step (Gen.W10 m ρ c (Proc.devRef .tc main_v120)) (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) e2 r2 (m ((c : Thread nD τ).loc main_arg1)) _ hope2
    _ (RealF.toMat (RealF.shapeCast (RealF.slice hW1 _ _ _) _ _)) _ (RealF.toVec (RealF.shapeCast (RealF.slice hb1 _ _ _) _ _))
    _ (RealF.toMat (RealF.shapeCast (RealF.slice hW2 _ _ _) _ _)) _ _ _ (RealF.toVec (RealF.shapeCast (RealF.slice hb2 _ _ _) _ _))
    (RealF.toVec (RealF.shapeCast (RealF.slice hg _ _ _) _ _)) (RealF.toVec (RealF.shapeCast (RealF.slice hbt _ _ _) _ _))
    (Gen.W14 m ρ c (Proc.devRef .tc main_v173)) (Cert.ReferenceIdeal.RefTerms.layerT (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) (m ((c : Thread nD τ).loc main_arg1)) (Cert.ReferenceIdeal.RefTerms.epsT ![2] Cert.ReferenceIdeal.Facts₀.slices_S4_S1_2 (m ((c : Thread nD τ).loc main_arg9))) (Cert.ReferenceIdeal.RefTerms.w1T ![2, 0, 0] Cert.ReferenceIdeal.Facts₀.slices_S4x128x128_S1x128x128_2_0_0 (m ((c : Thread nD τ).loc main_arg3))) (Cert.ReferenceIdeal.RefTerms.b1T ![2, 0] Cert.ReferenceIdeal.Facts₀.slices_S4x128_S1x128_2_0 (m ((c : Thread nD τ).loc main_arg4))) (Cert.ReferenceIdeal.RefTerms.w2T ![2, 0, 0] Cert.ReferenceIdeal.Facts₀.slices_S4x128x128_S1x128x128_2_0_0 (m ((c : Thread nD τ).loc main_arg5))) (Cert.ReferenceIdeal.RefTerms.b2T ![2, 0] Cert.ReferenceIdeal.Facts₀.slices_S4x128_S1x128_2_0 (m ((c : Thread nD τ).loc main_arg6))) (Cert.ReferenceIdeal.RefTerms.gT ![2, 0] Cert.ReferenceIdeal.Facts₀.slices_S4x128_S1x128_2_0 (m ((c : Thread nD τ).loc main_arg7))) (Cert.ReferenceIdeal.RefTerms.btT ![2, 0] Cert.ReferenceIdeal.Facts₀.slices_S4x128_S1x128_2_0 (m ((c : Thread nD τ).loc main_arg8)))) K3 R3

  -- layer 3
  have K4 := (KerVal.layer3 m ρ c (RegVal.mlp6_lin2 (Gen.V15 m ρ) c) (RegVal.mlp6_sum (Gen.V15 m ρ) c) (RegVal.mlp6_sumsq (Gen.V15 m ρ) c) (RegVal.bn7 (Gen.V17 m ρ) c) hdst)
  have R4 := Cert.ReferenceIdeal.RefRead.layer_read (Cert.ReferenceIdeal.RefTerms.layerT (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) (m ((c : Thread nD τ).loc main_arg1)) (Cert.ReferenceIdeal.RefTerms.epsT ![2] Cert.ReferenceIdeal.Facts₀.slices_S4_S1_2 (m ((c : Thread nD τ).loc main_arg9))) (Cert.ReferenceIdeal.RefTerms.w1T ![2, 0, 0] Cert.ReferenceIdeal.Facts₀.slices_S4x128x128_S1x128x128_2_0_0 (m ((c : Thread nD τ).loc main_arg3))) (Cert.ReferenceIdeal.RefTerms.b1T ![2, 0] Cert.ReferenceIdeal.Facts₀.slices_S4x128_S1x128_2_0 (m ((c : Thread nD τ).loc main_arg4))) (Cert.ReferenceIdeal.RefTerms.w2T ![2, 0, 0] Cert.ReferenceIdeal.Facts₀.slices_S4x128x128_S1x128x128_2_0_0 (m ((c : Thread nD τ).loc main_arg5))) (Cert.ReferenceIdeal.RefTerms.b2T ![2, 0] Cert.ReferenceIdeal.Facts₀.slices_S4x128_S1x128_2_0 (m ((c : Thread nD τ).loc main_arg6))) (Cert.ReferenceIdeal.RefTerms.gT ![2, 0] Cert.ReferenceIdeal.Facts₀.slices_S4x128_S1x128_2_0 (m ((c : Thread nD τ).loc main_arg7))) (Cert.ReferenceIdeal.RefTerms.btT ![2, 0] Cert.ReferenceIdeal.Facts₀.slices_S4x128_S1x128_2_0 (m ((c : Thread nD τ).loc main_arg8)))) (m ((c : Thread nD τ).loc main_arg1)) (Cert.ReferenceIdeal.RefTerms.epsT ![3] Cert.ReferenceIdeal.Facts₀.slices_S4_S1_3 (m ((c : Thread nD τ).loc main_arg9))) (Cert.ReferenceIdeal.RefTerms.w1T ![3, 0, 0] Cert.ReferenceIdeal.Facts₀.slices_S4x128x128_S1x128x128_3_0_0 (m ((c : Thread nD τ).loc main_arg3))) (Cert.ReferenceIdeal.RefTerms.b1T ![3, 0] Cert.ReferenceIdeal.Facts₀.slices_S4x128_S1x128_3_0 (m ((c : Thread nD τ).loc main_arg4))) (Cert.ReferenceIdeal.RefTerms.w2T ![3, 0, 0] Cert.ReferenceIdeal.Facts₀.slices_S4x128x128_S1x128x128_3_0_0 (m ((c : Thread nD τ).loc main_arg5))) (Cert.ReferenceIdeal.RefTerms.b2T ![3, 0] Cert.ReferenceIdeal.Facts₀.slices_S4x128_S1x128_3_0 (m ((c : Thread nD τ).loc main_arg6))) (Cert.ReferenceIdeal.RefTerms.gT ![3, 0] Cert.ReferenceIdeal.Facts₀.slices_S4x128_S1x128_3_0 (m ((c : Thread nD τ).loc main_arg7))) (Cert.ReferenceIdeal.RefTerms.btT ![3, 0] Cert.ReferenceIdeal.Facts₀.slices_S4x128_S1x128_3_0 (m ((c : Thread nD τ).loc main_arg8)))
  have hope3 : ∃ x : ℝ, Cert.Spec.oneLit + ((m ((c : Thread nD τ).loc main_arg9)) : S4.Idx → EReal) (ix1 (3 : Fin 4)) = (x : EReal) :=
    real_add ⟨1, Cert.Bridge.oneLit_eq⟩ (hep _)
  have eps3 : (Cert.ReferenceIdeal.RefTerms.epsT ![3] Cert.ReferenceIdeal.Facts₀.slices_S4_S1_3 (m ((c : Thread nD τ).loc main_arg9))) ix0 = ((m ((c : Thread nD τ).loc main_arg9)) : S4.Idx → EReal) (ix1 (3 : Fin 4)) :=
    Cert.LibLayer.scalar_piece_apply 3 (by norm_num) (m ((c : Thread nD τ).loc main_arg9)) _ _
  rw [eps3] at R4
  obtain ⟨e4, r4⟩ := layer_step (Gen.W14 m ρ c (Proc.devRef .tc main_v173)) (Cert.ReferenceIdeal.RefTerms.layerT (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) (m ((c : Thread nD τ).loc main_arg1)) (Cert.ReferenceIdeal.RefTerms.epsT ![2] Cert.ReferenceIdeal.Facts₀.slices_S4_S1_2 (m ((c : Thread nD τ).loc main_arg9))) (Cert.ReferenceIdeal.RefTerms.w1T ![2, 0, 0] Cert.ReferenceIdeal.Facts₀.slices_S4x128x128_S1x128x128_2_0_0 (m ((c : Thread nD τ).loc main_arg3))) (Cert.ReferenceIdeal.RefTerms.b1T ![2, 0] Cert.ReferenceIdeal.Facts₀.slices_S4x128_S1x128_2_0 (m ((c : Thread nD τ).loc main_arg4))) (Cert.ReferenceIdeal.RefTerms.w2T ![2, 0, 0] Cert.ReferenceIdeal.Facts₀.slices_S4x128x128_S1x128x128_2_0_0 (m ((c : Thread nD τ).loc main_arg5))) (Cert.ReferenceIdeal.RefTerms.b2T ![2, 0] Cert.ReferenceIdeal.Facts₀.slices_S4x128_S1x128_2_0 (m ((c : Thread nD τ).loc main_arg6))) (Cert.ReferenceIdeal.RefTerms.gT ![2, 0] Cert.ReferenceIdeal.Facts₀.slices_S4x128_S1x128_2_0 (m ((c : Thread nD τ).loc main_arg7))) (Cert.ReferenceIdeal.RefTerms.btT ![2, 0] Cert.ReferenceIdeal.Facts₀.slices_S4x128_S1x128_2_0 (m ((c : Thread nD τ).loc main_arg8)))) e3 r3 (m ((c : Thread nD τ).loc main_arg1)) _ hope3
    _ (RealF.toMat (RealF.shapeCast (RealF.slice hW1 _ _ _) _ _)) _ (RealF.toVec (RealF.shapeCast (RealF.slice hb1 _ _ _) _ _))
    _ (RealF.toMat (RealF.shapeCast (RealF.slice hW2 _ _ _) _ _)) _ _ _ (RealF.toVec (RealF.shapeCast (RealF.slice hb2 _ _ _) _ _))
    (RealF.toVec (RealF.shapeCast (RealF.slice hg _ _ _) _ _)) (RealF.toVec (RealF.shapeCast (RealF.slice hbt _ _ _) _ _))
    (Gen.W18 m ρ c (Proc.devRef .tc main_v226)) (Cert.ReferenceIdeal.RefTerms.layerT (Cert.ReferenceIdeal.RefTerms.layerT (Cert.ReferenceIdeal.RefTerms.layerT (Cert.ReferenceIdeal.RefTerms.layerT (Cert.ReferenceIdeal.RefTerms.stdT (m ((c : Thread nD τ).loc main_arg0))) (m ((c : Thread nD τ).loc main_arg1)) (Cert.ReferenceIdeal.RefTerms.epsT ![0] Cert.ReferenceIdeal.Facts₀.slices_S4_S1_0 (m ((c : Thread nD τ).loc main_arg9))) (Cert.ReferenceIdeal.RefTerms.w1T ![0, 0, 0] Cert.ReferenceIdeal.Facts₀.slices_S4x128x128_S1x128x128_0_0_0 (m ((c : Thread nD τ).loc main_arg3))) (Cert.ReferenceIdeal.RefTerms.b1T ![0, 0] Cert.ReferenceIdeal.Facts₀.slices_S4x128_S1x128_0_0 (m ((c : Thread nD τ).loc main_arg4))) (Cert.ReferenceIdeal.RefTerms.w2T ![0, 0, 0] Cert.ReferenceIdeal.Facts₀.slices_S4x128x128_S1x128x128_0_0_0 (m ((c : Thread nD τ).loc main_arg5))) (Cert.ReferenceIdeal.RefTerms.b2T ![0, 0] Cert.ReferenceIdeal.Facts₀.slices_S4x128_S1x128_0_0 (m ((c : Thread nD τ).loc main_arg6))) (Cert.ReferenceIdeal.RefTerms.gT ![0, 0] Cert.ReferenceIdeal.Facts₀.slices_S4x128_S1x128_0_0 (m ((c : Thread nD τ).loc main_arg7))) (Cert.ReferenceIdeal.RefTerms.btT ![0, 0] Cert.ReferenceIdeal.Facts₀.slices_S4x128_S1x128_0_0 (m ((c : Thread nD τ).loc main_arg8)))) (m ((c : Thread nD τ).loc main_arg1)) (Cert.ReferenceIdeal.RefTerms.epsT ![1] Cert.ReferenceIdeal.Facts₀.slices_S4_S1_1 (m ((c : Thread nD τ).loc main_arg9))) (Cert.ReferenceIdeal.RefTerms.w1T ![1, 0, 0] Cert.ReferenceIdeal.Facts₀.slices_S4x128x128_S1x128x128_1_0_0 (m ((c : Thread nD τ).loc main_arg3))) (Cert.ReferenceIdeal.RefTerms.b1T ![1, 0] Cert.ReferenceIdeal.Facts₀.slices_S4x128_S1x128_1_0 (m ((c : Thread nD τ).loc main_arg4))) (Cert.ReferenceIdeal.RefTerms.w2T ![1, 0, 0] Cert.ReferenceIdeal.Facts₀.slices_S4x128x128_S1x128x128_1_0_0 (m ((c : Thread nD τ).loc main_arg5))) (Cert.ReferenceIdeal.RefTerms.b2T ![1, 0] Cert.ReferenceIdeal.Facts₀.slices_S4x128_S1x128_1_0 (m ((c : Thread nD τ).loc main_arg6))) (Cert.ReferenceIdeal.RefTerms.gT ![1, 0] Cert.ReferenceIdeal.Facts₀.slices_S4x128_S1x128_1_0 (m ((c : Thread nD τ).loc main_arg7))) (Cert.ReferenceIdeal.RefTerms.btT ![1, 0] Cert.ReferenceIdeal.Facts₀.slices_S4x128_S1x128_1_0 (m ((c : Thread nD τ).loc main_arg8)))) (m ((c : Thread nD τ).loc main_arg1)) (Cert.ReferenceIdeal.RefTerms.epsT ![2] Cert.ReferenceIdeal.Facts₀.slices_S4_S1_2 (m ((c : Thread nD τ).loc main_arg9))) (Cert.ReferenceIdeal.RefTerms.w1T ![2, 0, 0] Cert.ReferenceIdeal.Facts₀.slices_S4x128x128_S1x128x128_2_0_0 (m ((c : Thread nD τ).loc main_arg3))) (Cert.ReferenceIdeal.RefTerms.b1T ![2, 0] Cert.ReferenceIdeal.Facts₀.slices_S4x128_S1x128_2_0 (m ((c : Thread nD τ).loc main_arg4))) (Cert.ReferenceIdeal.RefTerms.w2T ![2, 0, 0] Cert.ReferenceIdeal.Facts₀.slices_S4x128x128_S1x128x128_2_0_0 (m ((c : Thread nD τ).loc main_arg5))) (Cert.ReferenceIdeal.RefTerms.b2T ![2, 0] Cert.ReferenceIdeal.Facts₀.slices_S4x128_S1x128_2_0 (m ((c : Thread nD τ).loc main_arg6))) (Cert.ReferenceIdeal.RefTerms.gT ![2, 0] Cert.ReferenceIdeal.Facts₀.slices_S4x128_S1x128_2_0 (m ((c : Thread nD τ).loc main_arg7))) (Cert.ReferenceIdeal.RefTerms.btT ![2, 0] Cert.ReferenceIdeal.Facts₀.slices_S4x128_S1x128_2_0 (m ((c : Thread nD τ).loc main_arg8)))) (m ((c : Thread nD τ).loc main_arg1)) (Cert.ReferenceIdeal.RefTerms.epsT ![3] Cert.ReferenceIdeal.Facts₀.slices_S4_S1_3 (m ((c : Thread nD τ).loc main_arg9))) (Cert.ReferenceIdeal.RefTerms.w1T ![3, 0, 0] Cert.ReferenceIdeal.Facts₀.slices_S4x128x128_S1x128x128_3_0_0 (m ((c : Thread nD τ).loc main_arg3))) (Cert.ReferenceIdeal.RefTerms.b1T ![3, 0] Cert.ReferenceIdeal.Facts₀.slices_S4x128_S1x128_3_0 (m ((c : Thread nD τ).loc main_arg4))) (Cert.ReferenceIdeal.RefTerms.w2T ![3, 0, 0] Cert.ReferenceIdeal.Facts₀.slices_S4x128x128_S1x128x128_3_0_0 (m ((c : Thread nD τ).loc main_arg5))) (Cert.ReferenceIdeal.RefTerms.b2T ![3, 0] Cert.ReferenceIdeal.Facts₀.slices_S4x128_S1x128_3_0 (m ((c : Thread nD τ).loc main_arg6))) (Cert.ReferenceIdeal.RefTerms.gT ![3, 0] Cert.ReferenceIdeal.Facts₀.slices_S4x128_S1x128_3_0 (m ((c : Thread nD τ).loc main_arg7))) (Cert.ReferenceIdeal.RefTerms.btT ![3, 0] Cert.ReferenceIdeal.Facts₀.slices_S4x128_S1x128_3_0 (m ((c : Thread nD τ).loc main_arg8)))) K4 R4
  -- pooling and the three dense layers
  refine (toMat_inj (a := 64) (b := 10) ?_)
  rw [KerTail.tail_value m ρ RegVal.fc8 c, e4]
  exact Cert.TailRead.tail_read _ _ _ _ _ _ _ _

end

end Cert.Final

end
-- ==== Proof.lean ====
/-
  A four-layer graph-isomorphism network on 100000 nodes and 1600000 edges — standardised features, four layers of
  neighbour aggregation, two dense layers and batch normalisation each, a sum per graph and three dense layers — as a
  program of nine accelerator kernels among host operations, against the same network written with array operations
  only.  Claimed and proved here: each of the three programs (the kernel program as written, the kernel program read
  over the extended reals, the array program read over the extended reals) terminates without a fault and leaves its
  sixteen argument arrays unchanged; reading the kernel program over the extended reals rewrites nothing, so it is
  its own idealization; and, whenever the float arguments are finite, no target node id is negative and no input
  feature column is constant, the two programs read over the extended reals end with the same result, entry by
  entry.  The two differ in how a negative target id is treated (wrapped around by one, dropped by the other) and in
  how the variance is taken (mean of squares minus squared mean, clamped at zero, against the mean squared
  deviation); under the stated conditions neither difference is visible.
-/
import proofs.«125584_j43164421324859_2_alg».proof.Defs
import proofs.«125584_j43164421324859_2_alg».proof.Proof.Gen.Kernel
import proofs.«125584_j43164421324859_2_alg».proof.Proof.Gen.Kernel.Frame
import proofs.«125584_j43164421324859_2_alg».proof.Proof.Gen.KernelIdeal
import proofs.«125584_j43164421324859_2_alg».proof.Proof.Gen.KernelIdeal.Frame
import proofs.«125584_j43164421324859_2_alg».proof.Proof.Gen.ReferenceIdeal
import proofs.«125584_j43164421324859_2_alg».proof.Proof.Gen.Pre_finite_inputs
import proofs.«125584_j43164421324859_2_alg».proof.Proof.KerRun
import proofs.«125584_j43164421324859_2_alg».proof.Proof.RefRun
import proofs.«125584_j43164421324859_2_alg».proof.Proof.Final
import Idealize.ShloMosaic.Adequacy
import Idealize.ShloMosaic.Init

noncomputable section

namespace Cert.Proof

open Idealize.ShloMosaic Idealize.SL.Sem

/-- The kernel program as written runs to the end and keeps its arguments. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the array program: its run, with the result forgotten. -/
theorem frame_reference_ideal : Cert.frame_ReferenceIdeal := fun m ρ _ => Cert.ReferenceIdeal.HandRun.run_args m ρ

/-- Reading the kernel program over the extended reals rewrote no operation. -/
theorem preserves : Cert.preserves_Kernel_KernelIdeal := trivial

/-- From memories that agree on the arguments the two programs end with the same result: the kernel program's result
    buffer holds what its last boundary holds for it, the array program's its result term of the arguments, and under
    the precondition these are one array. -/
theorem algebraic : Cert.algebraic_KernelIdeal_ReferenceIdeal := by
  intro m ρ m' ρ' hpre hagree
  refine ⟨fun c => Cert.KernelIdeal.Gen.W20 m ρ c (Proc.devRef .tc Cert.KernelIdeal.main_v233),
    Cert.KernelIdeal.KerRun.run_value m ρ, ?_⟩
  refine (θ_run Cert.ReferenceIdeal.defs _ _).mono (fun _ h c => ⟨(h c).1.trans ?_, (h c).2⟩)
    (Cert.ReferenceIdeal.HandRun.run m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact Cert.Final.out_eq m ρ hpre c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
